-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v224) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S3x128 .f32) (main_arg6 : FVec F S3x128 .f32) (main_arg7 : FVec F S3x128 .f32) (main_arg8 : FVec F S128x64 .f32) (main_arg9 : FVec F S64 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S3x128x128 .f32) (main_arg3 : FVec F S3x128 .f32) (main_arg4 : FVec F S3x128x128 .f32) (main_arg5 : FVec F S3x128 .f32) (main_arg6 : FVec F S3x128 .f32) (main_arg7 : FVec F S3x128 .f32) (main_arg8 : FVec F S128x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S1x128x128 : Shape := ⟨3, ![1, 128, 128]⟩
abbrev S128x128 : Shape := ⟨2, ![128, 128]⟩
abbrev S5000x128 : Shape := ⟨2, ![5000, 128]⟩
abbrev S5000x1 : Shape := ⟨2, ![5000, 1]⟩
abbrev S600000x128 : Shape := ⟨2, ![600000, 128]⟩
abbrev S1x128 : Shape := ⟨2, ![1, 128]⟩
abbrev S128 : Shape := ⟨1, ![128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 176
  | .vmem => 105
  | .smem => 0
  | _ => 0

abbrev hbmTy0_0 (i : Nat) : BufTy := match i % 128 with
  | 0 => ⟨S50000x128, .f32⟩
  | 1 => ⟨S2x600000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S3x128, .f32⟩
  | 8 => ⟨S128x64, .f32⟩
  | 9 => ⟨S64, .f32⟩
  | 10 => ⟨S1x600000, .i32⟩
  | 11 => ⟨S600000, .i32⟩
  | 12 => ⟨S1x600000, .i32⟩
  | 13 => ⟨S600000, .i32⟩
  | 14 => ⟨S_, .f32⟩
  | 15 => ⟨S600000, .f32⟩
  | 16 => ⟨S_, .f32⟩
  | 17 => ⟨S50000, .f32⟩
  | 18 => ⟨S600000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S50000x1, .f32⟩
  | 25 => ⟨S_, .f32⟩
  | 26 => ⟨S50000x128, .f32⟩
  | 27 => ⟨S1x128x128, .f32⟩
  | 28 => ⟨S128x128, .f32⟩
  | 29 => ⟨S50000x128, .bf16⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000x128, .bf16⟩
  | 39 => ⟨S600000x128, .f32⟩
  | 40 => ⟨S_, .f32⟩
  | 41 => ⟨S50000x128, .f32⟩
  | 42 => ⟨S600000x1, .i32⟩
  | 43 => ⟨S50000x128, .f32⟩
  | 44 => ⟨S1x128, .f32⟩
  | 45 => ⟨S128, .f32⟩
  | 46 => ⟨S1x128, .f32⟩
  | 47 => ⟨S1x128, .f32⟩
  | 48 => ⟨S128, .f32⟩
  | 49 => ⟨S1x128, .f32⟩
  | 50 => ⟨S1x128x128, .f32⟩
  | 51 => ⟨S128x128, .f32⟩
  | 52 => ⟨S1x128x128, .f32⟩
  | 53 => ⟨S128x128, .f32⟩
  | 54 => ⟨S50000x128, .f32⟩
  | 55 => ⟨S1x128, .f32⟩
  | 56 => ⟨S1x128, .f32⟩
  | 57 => ⟨S_, .f32⟩
  | 58 => ⟨S1x128, .f32⟩
  | 59 => ⟨S1x128, .f32⟩
  | 60 => ⟨S_, .f32⟩
  | 61 => ⟨S1x128, .f32⟩
  | 62 => ⟨S1x128, .f32⟩
  | 63 => ⟨S1x128, .f32⟩
  | 64 => ⟨S1x128, .f32⟩
  | 65 => ⟨S_, .f32⟩
  | 66 => ⟨S1x128, .f32⟩
  | 67 => ⟨S1x128, .f32⟩
  | 68 => ⟨S1x128, .f32⟩
  | 69 => ⟨S128, .f32⟩
  | 70 => ⟨S1x128, .f32⟩
  | 71 => ⟨S1x128, .f32⟩
  | 72 => ⟨S128, .f32⟩
  | 73 => ⟨S1x128, .f32⟩
  | 74 => ⟨S50000x128, .f32⟩
  | 75 => ⟨S50000x128, .f32⟩
  | 76 => ⟨S1x128x128, .f32⟩
  | 77 => ⟨S128x128, .f32⟩
  | 78 => ⟨S50000x128, .bf16⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000x128, .bf16⟩
  | 88 => ⟨S600000x128, .f32⟩
  | 89 => ⟨S_, .f32⟩
  | 90 => ⟨S50000x128, .f32⟩
  | 91 => ⟨S600000x1, .i32⟩
  | 92 => ⟨S50000x128, .f32⟩
  | 93 => ⟨S1x128, .f32⟩
  | 94 => ⟨S128, .f32⟩
  | 95 => ⟨S1x128, .f32⟩
  | 96 => ⟨S1x128, .f32⟩
  | 97 => ⟨S128, .f32⟩
  | 98 => ⟨S1x128, .f32⟩
  | 99 => ⟨S1x128x128, .f32⟩
  | 100 => ⟨S128x128, .f32⟩
  | 101 => ⟨S1x128x128, .f32⟩
  | 102 => ⟨S128x128, .f32⟩
  | 103 => ⟨S50000x128, .f32⟩
  | 104 => ⟨S1x128, .f32⟩
  | 105 => ⟨S1x128, .f32⟩
  | 106 => ⟨S_, .f32⟩
  | 107 => ⟨S1x128, .f32⟩
  | 108 => ⟨S1x128, .f32⟩
  | 109 => ⟨S_, .f32⟩
  | 110 => ⟨S1x128, .f32⟩
  | 111 => ⟨S1x128, .f32⟩
  | 112 => ⟨S1x128, .f32⟩
  | 113 => ⟨S1x128, .f32⟩
  | 114 => ⟨S_, .f32⟩
  | 115 => ⟨S1x128, .f32⟩
  | 116 => ⟨S1x128, .f32⟩
  | 117 => ⟨S1x128, .f32⟩
  | 118 => ⟨S128, .f32⟩
  | 119 => ⟨S1x128, .f32⟩
  | 120 => ⟨S1x128, .f32⟩
  | 121 => ⟨S128, .f32⟩
  | 122 => ⟨S1x128, .f32⟩
  | 123 => ⟨S50000x128, .f32⟩
  | 124 => ⟨S50000x128, .f32⟩
  | 125 => ⟨S1x128x128, .f32⟩
  | 126 => ⟨S128x128, .f32⟩
  | 127 => ⟨S50000x128, .bf16⟩
  | _ => ⟨S50000x128, .f32⟩

abbrev hbmTy0_1 (i : Nat) : BufTy := match i % 128 with
  | 0 => ⟨S_, .i32⟩
  | 1 => ⟨S600000, .i32⟩
  | 2 => ⟨S600000, .i1⟩
  | 3 => ⟨S_, .i32⟩
  | 4 => ⟨S600000, .i32⟩
  | 5 => ⟨S600000, .i32⟩
  | 6 => ⟨S600000, .i32⟩
  | 7 => ⟨S600000x1, .i32⟩
  | 8 => ⟨S600000x128, .bf16⟩
  | 9 => ⟨S600000x128, .f32⟩
  | 10 => ⟨S_, .f32⟩
  | 11 => ⟨S50000x128, .f32⟩
  | 12 => ⟨S600000x1, .i32⟩
  | 13 => ⟨S50000x128, .f32⟩
  | 14 => ⟨S1x128, .f32⟩
  | 15 => ⟨S128, .f32⟩
  | 16 => ⟨S1x128, .f32⟩
  | 17 => ⟨S1x128, .f32⟩
  | 18 => ⟨S128, .f32⟩
  | 19 => ⟨S1x128, .f32⟩
  | 20 => ⟨S1x128x128, .f32⟩
  | 21 => ⟨S128x128, .f32⟩
  | 22 => ⟨S1x128x128, .f32⟩
  | 23 => ⟨S128x128, .f32⟩
  | 24 => ⟨S50000x128, .f32⟩
  | 25 => ⟨S1x128, .f32⟩
  | 26 => ⟨S1x128, .f32⟩
  | 27 => ⟨S_, .f32⟩
  | 28 => ⟨S1x128, .f32⟩
  | 29 => ⟨S1x128, .f32⟩
  | 30 => ⟨S_, .f32⟩
  | 31 => ⟨S1x128, .f32⟩
  | 32 => ⟨S1x128, .f32⟩
  | 33 => ⟨S1x128, .f32⟩
  | 34 => ⟨S1x128, .f32⟩
  | 35 => ⟨S_, .f32⟩
  | 36 => ⟨S1x128, .f32⟩
  | 37 => ⟨S1x128, .f32⟩
  | 38 => ⟨S1x128, .f32⟩
  | 39 => ⟨S128, .f32⟩
  | 40 => ⟨S1x128, .f32⟩
  | 41 => ⟨S1x128, .f32⟩
  | 42 => ⟨S128, .f32⟩
  | 43 => ⟨S1x128, .f32⟩
  | 44 => ⟨S50000x128, .f32⟩
  | 45 => ⟨S50000x128, .f32⟩
  | 46 => ⟨S1x64, .f32⟩
  | 47 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S128x128, .f32⟩
  | .local _ .vmem, ⟨36, _⟩ => ⟨S5000x1, .f32⟩
  | .local _ .vmem, ⟨37, _⟩ => ⟨S5000x1, .f32⟩
  | .local _ .vmem, ⟨38, _⟩ => ⟨S5000x128, .bf16⟩
  | .local _ .vmem, ⟨39, _⟩ => ⟨S5000x128, .bf16⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S128x128, .f32⟩
  | .local _ .vmem, ⟨44, _⟩ => ⟨S5000x128, .f32⟩
  | .local _ .vmem, ⟨45, _⟩ => ⟨S5000x128, .f32⟩
  | .local _ .vmem, ⟨46, _⟩ => ⟨S5000x1, .f32⟩
  | .local _ .vmem, ⟨47, _⟩ => ⟨S5000x1, .f32⟩
  | .local _ .vmem, ⟨48, _⟩ => ⟨S1x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S1x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S1x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S128x128, .f32⟩
  | .local _ .vmem, ⟨69, _⟩ => ⟨S5000x1, .f32⟩
  | .local _ .vmem, ⟨70, _⟩ => ⟨S5000x1, .f32⟩
  | .local _ .vmem, ⟨71, _⟩ => ⟨S5000x128, .bf16⟩
  | .local _ .vmem, ⟨72, _⟩ => ⟨S5000x128, .bf16⟩
  | .local _ .vmem, ⟨73, _⟩ => ⟨S5000x128, .f32⟩
  | .local _ .vmem, ⟨74, _⟩ => ⟨S5000x128, .f32⟩
  | .local _ .vmem, ⟨75, _⟩ => ⟨S128x128, .f32⟩
  | .local _ .vmem, ⟨76, _⟩ => ⟨S128x128, .f32⟩
  | .local _ .vmem, ⟨77, _⟩ => ⟨S5000x128, .f32⟩
  | .local _ .vmem, ⟨78, _⟩ => ⟨S5000x128, .f32⟩
  | .local _ .vmem, ⟨79, _⟩ => ⟨S5000x1, .f32⟩
  | .local _ .vmem, ⟨80, _⟩ => ⟨S5000x1, .f32⟩
  | .local _ .vmem, ⟨81, _⟩ => ⟨S1x128, .f32⟩
  | .local _ .vmem, ⟨82, _⟩ => ⟨S1x128, .f32⟩
  | .local _ .vmem, ⟨83, _⟩ => ⟨S5000x128, .f32⟩
  | .local _ .vmem, ⟨84, _⟩ => ⟨S5000x128, .f32⟩
  | .local _ .vmem, ⟨85, _⟩ => ⟨S1x128, .f32⟩
  | .local _ .vmem, ⟨86, _⟩ => ⟨S1x128, .f32⟩
  | .local _ .vmem, ⟨87, _⟩ => ⟨S5000x128, .f32⟩
  | .local _ .vmem, ⟨88, _⟩ => ⟨S5000x128, .f32⟩
  | .local _ .vmem, ⟨89, _⟩ => ⟨S1x128, .f32⟩
  | .local _ .vmem, ⟨90, _⟩ => ⟨S1x128, .f32⟩
  | .local _ .vmem, ⟨91, _⟩ => ⟨S1x128, .f32⟩
  | .local _ .vmem, ⟨92, _⟩ => ⟨S1x128, .f32⟩
  | .local _ .vmem, ⟨93, _⟩ => ⟨S5000x128, .f32⟩
  | .local _ .vmem, ⟨94, _⟩ => ⟨S5000x128, .f32⟩
  | .local _ .vmem, ⟨95, _⟩ => ⟨S5000x128, .f32⟩
  | .local _ .vmem, ⟨96, _⟩ => ⟨S5000x128, .f32⟩
  | .local _ .vmem, ⟨97, _⟩ => ⟨S5000x128, .f32⟩
  | .local _ .vmem, ⟨98, _⟩ => ⟨S5000x128, .f32⟩
  | .local _ .vmem, ⟨99, _⟩ => ⟨S5000x128, .f32⟩
  | .local _ .vmem, ⟨100, _⟩ => ⟨S5000x128, .f32⟩
  | .local _ .vmem, ⟨101, _⟩ => ⟨S128x64, .f32⟩
  | .local _ .vmem, ⟨102, _⟩ => ⟨S1x64, .f32⟩
  | .local _ .vmem, ⟨103, _⟩ => ⟨S5000x64, .f32⟩
  | .local _ .vmem, ⟨104, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | _, _ => false

abbrev semScoped : Fin 0 → Bool
  | ⟨_, h⟩ => absurd h (Nat.not_lt_zero _)

abbrev dmaSemScoped : Fin 105 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | _ => false

abbrev sig : RefSig :=
  ofTc nBuf bufTy 0 105 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37_0 : Ref sig .tc := ⟨.hbm, 54, rfl⟩
abbrev main_v37_1 : Ref sig .tc := ⟨.hbm, 55, rfl⟩
abbrev main_v37_2 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52_0 : Ref sig .tc := ⟨.hbm, 74, rfl⟩
abbrev main_v52_1 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_8 : Ref sig .tc := ⟨.hbm, 79, rfl⟩
abbrev main_v56 : Ref sig .tc := ⟨.hbm, 80, rfl⟩
abbrev main_v57 : Ref sig .tc := ⟨.hbm, 81, rfl⟩
abbrev main_c_9 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_10 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77_0 : Ref sig .tc := ⟨.hbm, 103, rfl⟩
abbrev main_v77_1 : Ref sig .tc := ⟨.hbm, 104, rfl⟩
abbrev main_v77_2 : Ref sig .tc := ⟨.hbm, 105, rfl⟩
abbrev main_cst_11 : Ref sig .tc := ⟨.hbm, 106, rfl⟩
abbrev main_v78 : Ref sig .tc := ⟨.hbm, 107, rfl⟩
abbrev main_v79 : Ref sig .tc := ⟨.hbm, 108, rfl⟩
abbrev main_cst_12 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_13 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92_0 : Ref sig .tc := ⟨.hbm, 123, rfl⟩
abbrev main_v92_1 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_c_14 : Ref sig .tc := ⟨.hbm, 128, rfl⟩
abbrev main_v96 : Ref sig .tc := ⟨.hbm, 129, rfl⟩
abbrev main_v97 : Ref sig .tc := ⟨.hbm, 130, rfl⟩
abbrev main_c_15 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_16 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117_0 : Ref sig .tc := ⟨.hbm, 152, rfl⟩
abbrev main_v117_1 : Ref sig .tc := ⟨.hbm, 153, rfl⟩
abbrev main_v117_2 : Ref sig .tc := ⟨.hbm, 154, rfl⟩
abbrev main_cst_17 : Ref sig .tc := ⟨.hbm, 155, rfl⟩
abbrev main_v118 : Ref sig .tc := ⟨.hbm, 156, rfl⟩
abbrev main_v119 : Ref sig .tc := ⟨.hbm, 157, rfl⟩
abbrev main_cst_18 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_19 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132_0 : Ref sig .tc := ⟨.hbm, 172, rfl⟩
abbrev main_v132_1 : Ref sig .tc := ⟨.hbm, 173, rfl⟩
abbrev main_v133 : Ref sig .tc := ⟨.hbm, 174, rfl⟩
abbrev main_v134 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg9_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc2_stg6_0 : Ref sig .tc := ⟨.vmem, 29, rfl⟩
abbrev cc2_stg6_1 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg3_1 : Ref sig .tc := ⟨.vmem, 45, rfl⟩
abbrev cc4_stg4_0 : Ref sig .tc := ⟨.vmem, 46, rfl⟩
abbrev cc4_stg4_1 : Ref sig .tc := ⟨.vmem, 47, rfl⟩
abbrev cc4_stg5_0 : Ref sig .tc := ⟨.vmem, 48, rfl⟩
abbrev cc4_stg6_0 : Ref sig .tc := ⟨.vmem, 49, rfl⟩
abbrev cc4_stg7_0 : Ref sig .tc := ⟨.vmem, 50, rfl⟩
abbrev cc4_stg7_1 : Ref sig .tc := ⟨.vmem, 51, rfl⟩
abbrev cc4_stg8_0 : Ref sig .tc := ⟨.vmem, 52, rfl⟩
abbrev cc4_stg9_0 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg4_0 : Ref sig .tc := ⟨.vmem, 59, rfl⟩
abbrev cc5_stg5_0 : Ref sig .tc := ⟨.vmem, 60, rfl⟩
abbrev cc5_stg5_1 : Ref sig .tc := ⟨.vmem, 61, rfl⟩
abbrev cc5_stg6_0 : Ref sig .tc := ⟨.vmem, 62, rfl⟩
abbrev cc5_stg6_1 : Ref sig .tc := ⟨.vmem, 63, rfl⟩
abbrev cc5_stg7_0 : Ref sig .tc := ⟨.vmem, 64, rfl⟩
abbrev cc5_stg7_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg2_0 : Ref sig .tc := ⟨.vmem, 69, rfl⟩
abbrev cc6_stg2_1 : Ref sig .tc := ⟨.vmem, 70, rfl⟩
abbrev cc6_stg3_0 : Ref sig .tc := ⟨.vmem, 71, rfl⟩
abbrev cc6_stg3_1 : Ref sig .tc := ⟨.vmem, 72, rfl⟩
abbrev cc7_stg0_0 : Ref sig .tc := ⟨.vmem, 73, rfl⟩
abbrev cc7_stg0_1 : Ref sig .tc := ⟨.vmem, 74, rfl⟩
abbrev cc7_stg1_0 : Ref sig .tc := ⟨.vmem, 75, rfl⟩
abbrev cc7_stg2_0 : Ref sig .tc := ⟨.vmem, 76, rfl⟩
abbrev cc7_stg3_0 : Ref sig .tc := ⟨.vmem, 77, rfl⟩
abbrev cc7_stg3_1 : Ref sig .tc := ⟨.vmem, 78, rfl⟩
abbrev cc7_stg4_0 : Ref sig .tc := ⟨.vmem, 79, rfl⟩
abbrev cc7_stg4_1 : Ref sig .tc := ⟨.vmem, 80, rfl⟩
abbrev cc7_stg5_0 : Ref sig .tc := ⟨.vmem, 81, rfl⟩
abbrev cc7_stg6_0 : Ref sig .tc := ⟨.vmem, 82, rfl⟩
abbrev cc7_stg7_0 : Ref sig .tc := ⟨.vmem, 83, rfl⟩
abbrev cc7_stg7_1 : Ref sig .tc := ⟨.vmem, 84, rfl⟩
abbrev cc7_stg8_0 : Ref sig .tc := ⟨.vmem, 85, rfl⟩
abbrev cc7_stg9_0 : Ref sig .tc := ⟨.vmem, 86, rfl⟩
abbrev cc8_stg0_0 : Ref sig .tc := ⟨.vmem, 87, rfl⟩
abbrev cc8_stg0_1 : Ref sig .tc := ⟨.vmem, 88, rfl⟩
abbrev cc8_stg1_0 : Ref sig .tc := ⟨.vmem, 89, rfl⟩
abbrev cc8_stg2_0 : Ref sig .tc := ⟨.vmem, 90, rfl⟩
abbrev cc8_stg3_0 : Ref sig .tc := ⟨.vmem, 91, rfl⟩
abbrev cc8_stg4_0 : Ref sig .tc := ⟨.vmem, 92, rfl⟩
abbrev cc8_stg5_0 : Ref sig .tc := ⟨.vmem, 93, rfl⟩
abbrev cc8_stg5_1 : Ref sig .tc := ⟨.vmem, 94, rfl⟩
abbrev cc8_stg6_0 : Ref sig .tc := ⟨.vmem, 95, rfl⟩
abbrev cc8_stg6_1 : Ref sig .tc := ⟨.vmem, 96, rfl⟩
abbrev cc8_stg7_0 : Ref sig .tc := ⟨.vmem, 97, rfl⟩
abbrev cc8_stg7_1 : Ref sig .tc := ⟨.vmem, 98, rfl⟩
abbrev cc9_stg0_0 : Ref sig .tc := ⟨.vmem, 99, rfl⟩
abbrev cc9_stg0_1 : Ref sig .tc := ⟨.vmem, 100, rfl⟩
abbrev cc9_stg1_0 : Ref sig .tc := ⟨.vmem, 101, rfl⟩
abbrev cc9_stg2_0 : Ref sig .tc := ⟨.vmem, 102, rfl⟩
abbrev cc9_stg3_0 : Ref sig .tc := ⟨.vmem, 103, rfl⟩
abbrev cc9_stg3_1 : Ref sig .tc := ⟨.vmem, 104, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev cc1_sem7_1 : DmaSem sig := 18
abbrev cc1_sem8_0 : DmaSem sig := 19
abbrev cc1_sem9_0 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28
abbrev cc2_sem6_0 : DmaSem sig := 29
abbrev cc2_sem6_1 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem2_1 : DmaSem sig := 37
abbrev cc3_sem3_0 : DmaSem sig := 38
abbrev cc3_sem3_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem3_1 : DmaSem sig := 45
abbrev cc4_sem4_0 : DmaSem sig := 46
abbrev cc4_sem4_1 : DmaSem sig := 47
abbrev cc4_sem5_0 : DmaSem sig := 48
abbrev cc4_sem6_0 : DmaSem sig := 49
abbrev cc4_sem7_0 : DmaSem sig := 50
abbrev cc4_sem7_1 : DmaSem sig := 51
abbrev cc4_sem8_0 : DmaSem sig := 52
abbrev cc4_sem9_0 : DmaSem sig := 53
abbrev cc5_sem0_0 : DmaSem sig := 54
abbrev cc5_sem0_1 : DmaSem sig := 55
abbrev cc5_sem1_0 : DmaSem sig := 56
abbrev cc5_sem2_0 : DmaSem sig := 57
abbrev cc5_sem3_0 : DmaSem sig := 58
abbrev cc5_sem4_0 : DmaSem sig := 59
abbrev cc5_sem5_0 : DmaSem sig := 60
abbrev cc5_sem5_1 : DmaSem sig := 61
abbrev cc5_sem6_0 : DmaSem sig := 62
abbrev cc5_sem6_1 : DmaSem sig := 63
abbrev cc5_sem7_0 : DmaSem sig := 64
abbrev cc5_sem7_1 : DmaSem sig := 65
abbrev cc6_sem0_0 : DmaSem sig := 66
abbrev cc6_sem0_1 : DmaSem sig := 67
abbrev cc6_sem1_0 : DmaSem sig := 68
abbrev cc6_sem2_0 : DmaSem sig := 69
abbrev cc6_sem2_1 : DmaSem sig := 70
abbrev cc6_sem3_0 : DmaSem sig := 71
abbrev cc6_sem3_1 : DmaSem sig := 72
abbrev cc7_sem0_0 : DmaSem sig := 73
abbrev cc7_sem0_1 : DmaSem sig := 74
abbrev cc7_sem1_0 : DmaSem sig := 75
abbrev cc7_sem2_0 : DmaSem sig := 76
abbrev cc7_sem3_0 : DmaSem sig := 77
abbrev cc7_sem3_1 : DmaSem sig := 78
abbrev cc7_sem4_0 : DmaSem sig := 79
abbrev cc7_sem4_1 : DmaSem sig := 80
abbrev cc7_sem5_0 : DmaSem sig := 81
abbrev cc7_sem6_0 : DmaSem sig := 82
abbrev cc7_sem7_0 : DmaSem sig := 83
abbrev cc7_sem7_1 : DmaSem sig := 84
abbrev cc7_sem8_0 : DmaSem sig := 85
abbrev cc7_sem9_0 : DmaSem sig := 86
abbrev cc8_sem0_0 : DmaSem sig := 87
abbrev cc8_sem0_1 : DmaSem sig := 88
abbrev cc8_sem1_0 : DmaSem sig := 89
abbrev cc8_sem2_0 : DmaSem sig := 90
abbrev cc8_sem3_0 : DmaSem sig := 91
abbrev cc8_sem4_0 : DmaSem sig := 92
abbrev cc8_sem5_0 : DmaSem sig := 93
abbrev cc8_sem5_1 : DmaSem sig := 94
abbrev cc8_sem6_0 : DmaSem sig := 95
abbrev cc8_sem6_1 : DmaSem sig := 96
abbrev cc8_sem7_0 : DmaSem sig := 97
abbrev cc8_sem7_1 : DmaSem sig := 98
abbrev cc9_sem0_0 : DmaSem sig := 99
abbrev cc9_sem0_1 : DmaSem sig := 100
abbrev cc9_sem1_0 : DmaSem sig := 101
abbrev cc9_sem2_0 : DmaSem sig := 102
abbrev cc9_sem3_0 : DmaSem sig := 103
abbrev cc9_sem3_1 : DmaSem sig := 104

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x128 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S5000x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 1 → Memref sig .tc .vmem S1x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x128 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S5000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S5000x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S50000x1.size a
  hwx1_4 : ∀ i : grid1.Coords, EltTy.bits .f32 = 32 ∨ (Rect.block (s := S50000x1) S5000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .bf16 = 32 ∨ (Rect.block (s := S50000x128) S5000x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x1.size a ≤ S50000x1.size a
  hwx4_4 : ∀ i : grid4.Coords, EltTy.bits .f32 = 32 ∨ (Rect.block (s := S50000x1) S5000x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S50000x128.size a
  hwx4_7 : ∀ i : grid4.Coords, EltTy.bits .f32 = 32 ∨ (Rect.block (s := S50000x128) S5000x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S50000x128.size a
  hwx5_7 : ∀ i : grid5.Coords, EltTy.bits .f32 = 32 ∨ (Rect.block (s := S50000x128) S5000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S50000x1.size a
  hwx6_2 : ∀ i : grid6.Coords, EltTy.bits .f32 = 32 ∨ (Rect.block (s := S50000x1) S5000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .bf16 = 32 ∨ (Rect.block (s := S50000x128) S5000x128.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x1.size a ≤ S50000x1.size a
  hwx7_4 : ∀ i : grid7.Coords, EltTy.bits .f32 = 32 ∨ (Rect.block (s := S50000x1) S5000x1.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x128.size a ≤ S50000x128.size a
  hwx7_7 : ∀ i : grid7.Coords, EltTy.bits .f32 = 32 ∨ (Rect.block (s := S50000x128) S5000x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x128.size a ≤ S1x128.size a
  hwx7_8 : ∀ i : grid7.Coords, EltTy.bits .f32 = 32 ∨ (Rect.block (s := S1x128) S1x128.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x128.size a ≤ S1x128.size a
  hwx7_9 : ∀ i : grid7.Coords, EltTy.bits .f32 = 32 ∨ (Rect.block (s := S1x128) S1x128.size (cc7_transform_9 i) (hinb7_9 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x128.size a ≤ S50000x128.size a
  hwx8_6 : ∀ i : grid8.Coords, EltTy.bits .f32 = 32 ∨ (Rect.block (s := S50000x128) S5000x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S5000x128.size a ≤ S50000x128.size a
  hwx8_7 : ∀ i : grid8.Coords, EltTy.bits .f32 = 32 ∨ (Rect.block (s := S50000x128) S5000x128.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x64.size a ≤ S128x64.size a
  hwx9_1 : ∀ i : grid9.Coords, EltTy.bits .f32 = 32 ∨ (Rect.block (s := S128x64) S128x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x64.size a ≤ S50000x64.size a
  hwx9_3 : ∀ i : grid9.Coords, EltTy.bits .f32 = 32 ∨ (Rect.block (s := S50000x64) S5000x64.size (cc9_transform_3 i) (hinb9_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v37_1) S1x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v37_2) S1x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v37_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12) S5000x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v52_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v52_1) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v52_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v55) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v52_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S5000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v11) S5000x1.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v69) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v72) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v77_0) S5000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v77_1) S1x128.size cc4_transform_8 reads4_8 true true 1 stage4_8 sem4_8
    hrank4 hreads4_8 hinb4_8 nbuf4_8 (Memref.isWhole_whole _) hwx4_8 hstage4_8

abbrev win4_9 : Pipeline.Window sig grid4 :=
  Pipeline.Window.ofSpec (Memref.whole main_v77_2) S1x128.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v77_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v88) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v91) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v52_1) S5000x128.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v92_0) S5000x128.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v92_1) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v92_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v94) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v11) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v95) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v92_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v114) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v116) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v106) S5000x128.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v11) S5000x1.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v109) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v112) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v117_0) S5000x128.size cc7_transform_7 reads7_7 true false 2 stage7_7 sem7_7
    hrank7 hreads7_7 hinb7_7 nbuf7_7 (Memref.isWhole_whole _) hwx7_7 hstage7_7

abbrev win7_8 : Pipeline.Window sig grid7 :=
  Pipeline.Window.ofSpec (Memref.whole main_v117_1) S1x128.size cc7_transform_8 reads7_8 true true 1 stage7_8 sem7_8
    hrank7 hreads7_8 hinb7_8 nbuf7_8 (Memref.isWhole_whole _) hwx7_8 hstage7_8

abbrev win7_9 : Pipeline.Window sig grid7 :=
  Pipeline.Window.ofSpec (Memref.whole main_v117_2) S1x128.size cc7_transform_9 reads7_9 true true 1 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev win8_0 : Pipeline.Window sig grid8 :=
  Pipeline.Window.ofSpec (Memref.whole main_v117_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v119) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v125) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v128) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v131) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v92_1) S5000x128.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_v132_0) S5000x128.size cc8_transform_6 reads8_6 true false 2 stage8_6 sem8_6
    hrank8 hreads8_6 hinb8_6 nbuf8_6 (Memref.isWhole_whole _) hwx8_6 hstage8_6

abbrev win8_7 : Pipeline.Window sig grid8 :=
  Pipeline.Window.ofSpec (Memref.whole main_v132_1) S5000x128.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v132_1) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg8) S128x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v133) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v134) S5000x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S1x128x128 : Shape := ⟨3, ![1, 128, 128]⟩
abbrev S128x128 : Shape := ⟨2, ![128, 128]⟩
abbrev S600000x128 : Shape := ⟨2, ![600000, 128]⟩
abbrev S1x128 : Shape := ⟨2, ![1, 128]⟩
abbrev S128 : Shape := ⟨1, ![128]⟩
abbrev S50000x64 : Shape := ⟨2, ![50000, 64]⟩
abbrev S1x64 : Shape := ⟨2, ![1, 64]⟩

abbrev nBuf : Space → Nat
  | .hbm => 273
  | .vmem => 0
  | .smem => 0
  | _ => 0

abbrev hbmTy0_0 (i : Nat) : BufTy := match i % 128 with
  | 0 => ⟨S50000x128, .f32⟩
  | 1 => ⟨S2x600000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S3x128, .f32⟩
  | 8 => ⟨S128x64, .f32⟩
  | 9 => ⟨S64, .f32⟩
  | 10 => ⟨S1x600000, .i32⟩
  | 11 => ⟨S600000, .i32⟩
  | 12 => ⟨S1x600000, .i32⟩
  | 13 => ⟨S600000, .i32⟩
  | 14 => ⟨S_, .f32⟩
  | 15 => ⟨S600000, .f32⟩
  | 16 => ⟨S_, .f32⟩
  | 17 => ⟨S50000, .f32⟩
  | 18 => ⟨S600000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000, .f32⟩
  | 42 => ⟨S600000, .f32⟩
  | 43 => ⟨S50000, .f32⟩
  | 44 => ⟨S50000x1, .f32⟩
  | 45 => ⟨S_, .f32⟩
  | 46 => ⟨S50000x128, .f32⟩
  | 47 => ⟨S1x128x128, .f32⟩
  | 48 => ⟨S128x128, .f32⟩
  | 49 => ⟨S50000x128, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x128, .f32⟩
  | 59 => ⟨S600000x1, .f32⟩
  | 60 => ⟨S600000x128, .f32⟩
  | 61 => ⟨S600000x128, .f32⟩
  | 62 => ⟨S_, .f32⟩
  | 63 => ⟨S50000x128, .f32⟩
  | 64 => ⟨S600000x1, .i32⟩
  | 65 => ⟨S50000x128, .f32⟩
  | 66 => ⟨S50000x128, .f32⟩
  | 67 => ⟨S50000x128, .f32⟩
  | 68 => ⟨S50000x128, .f32⟩
  | 69 => ⟨S1x128, .f32⟩
  | 70 => ⟨S128, .f32⟩
  | 71 => ⟨S1x128, .f32⟩
  | 72 => ⟨S50000x128, .f32⟩
  | 73 => ⟨S50000x128, .f32⟩
  | 74 => ⟨S1x128x128, .f32⟩
  | 75 => ⟨S128x128, .f32⟩
  | 76 => ⟨S50000x128, .f32⟩
  | 77 => ⟨S50000x128, .f32⟩
  | 78 => ⟨S1x128, .f32⟩
  | 79 => ⟨S128, .f32⟩
  | 80 => ⟨S1x128, .f32⟩
  | 81 => ⟨S50000x128, .f32⟩
  | 82 => ⟨S50000x128, .f32⟩
  | 83 => ⟨S_, .f32⟩
  | 84 => ⟨S128, .f32⟩
  | 85 => ⟨S_, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S50000x128, .f32⟩
  | 92 => ⟨S_, .f32⟩
  | 93 => ⟨S128, .f32⟩
  | 94 => ⟨S_, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S_, .f32⟩
  | 101 => ⟨S128, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S1x128, .f32⟩
  | 108 => ⟨S128, .f32⟩
  | 109 => ⟨S1x128, .f32⟩
  | 110 => ⟨S50000x128, .f32⟩
  | 111 => ⟨S50000x128, .f32⟩
  | 112 => ⟨S1x128, .f32⟩
  | 113 => ⟨S128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x128, .f32⟩
  | 121 => ⟨S1x128x128, .f32⟩
  | 122 => ⟨S128x128, .f32⟩
  | 123 => ⟨S50000x128, .f32⟩
  | 124 => ⟨S_, .i32⟩
  | 125 => ⟨S600000, .i32⟩
  | 126 => ⟨S600000, .i1⟩
  | 127 => ⟨S_, .i32⟩
  | _ => ⟨S50000x128, .f32⟩

abbrev hbmTy0_1 (i : Nat) : BufTy := match i % 128 with
  | 0 => ⟨S600000, .i32⟩
  | 1 => ⟨S600000, .i32⟩
  | 2 => ⟨S600000, .i32⟩
  | 3 => ⟨S600000x1, .i32⟩
  | 4 => ⟨S600000x128, .f32⟩
  | 5 => ⟨S600000x1, .f32⟩
  | 6 => ⟨S600000x128, .f32⟩
  | 7 => ⟨S600000x128, .f32⟩
  | 8 => ⟨S_, .f32⟩
  | 9 => ⟨S50000x128, .f32⟩
  | 10 => ⟨S600000x1, .i32⟩
  | 11 => ⟨S50000x128, .f32⟩
  | 12 => ⟨S50000x128, .f32⟩
  | 13 => ⟨S50000x128, .f32⟩
  | 14 => ⟨S50000x128, .f32⟩
  | 15 => ⟨S1x128, .f32⟩
  | 16 => ⟨S128, .f32⟩
  | 17 => ⟨S1x128, .f32⟩
  | 18 => ⟨S50000x128, .f32⟩
  | 19 => ⟨S50000x128, .f32⟩
  | 20 => ⟨S1x128x128, .f32⟩
  | 21 => ⟨S128x128, .f32⟩
  | 22 => ⟨S50000x128, .f32⟩
  | 23 => ⟨S50000x128, .f32⟩
  | 24 => ⟨S1x128, .f32⟩
  | 25 => ⟨S128, .f32⟩
  | 26 => ⟨S1x128, .f32⟩
  | 27 => ⟨S50000x128, .f32⟩
  | 28 => ⟨S50000x128, .f32⟩
  | 29 => ⟨S_, .f32⟩
  | 30 => ⟨S128, .f32⟩
  | 31 => ⟨S_, .f32⟩
  | 32 => ⟨S128, .f32⟩
  | 33 => ⟨S128, .f32⟩
  | 34 => ⟨S1x128, .f32⟩
  | 35 => ⟨S50000x128, .f32⟩
  | 36 => ⟨S50000x128, .f32⟩
  | 37 => ⟨S50000x128, .f32⟩
  | 38 => ⟨S_, .f32⟩
  | 39 => ⟨S128, .f32⟩
  | 40 => ⟨S_, .f32⟩
  | 41 => ⟨S128, .f32⟩
  | 42 => ⟨S128, .f32⟩
  | 43 => ⟨S1x128, .f32⟩
  | 44 => ⟨S50000x128, .f32⟩
  | 45 => ⟨S50000x128, .f32⟩
  | 46 => ⟨S_, .f32⟩
  | 47 => ⟨S128, .f32⟩
  | 48 => ⟨S128, .f32⟩
  | 49 => ⟨S128, .f32⟩
  | 50 => ⟨S1x128, .f32⟩
  | 51 => ⟨S50000x128, .f32⟩
  | 52 => ⟨S50000x128, .f32⟩
  | 53 => ⟨S1x128, .f32⟩
  | 54 => ⟨S128, .f32⟩
  | 55 => ⟨S1x128, .f32⟩
  | 56 => ⟨S50000x128, .f32⟩
  | 57 => ⟨S50000x128, .f32⟩
  | 58 => ⟨S1x128, .f32⟩
  | 59 => ⟨S128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S50000x128, .f32⟩
  | 67 => ⟨S1x128x128, .f32⟩
  | 68 => ⟨S128x128, .f32⟩
  | 69 => ⟨S50000x128, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S600000x128, .f32⟩
  | 79 => ⟨S600000x1, .f32⟩
  | 80 => ⟨S600000x128, .f32⟩
  | 81 => ⟨S600000x128, .f32⟩
  | 82 => ⟨S_, .f32⟩
  | 83 => ⟨S50000x128, .f32⟩
  | 84 => ⟨S600000x1, .i32⟩
  | 85 => ⟨S50000x128, .f32⟩
  | 86 => ⟨S50000x128, .f32⟩
  | 87 => ⟨S50000x128, .f32⟩
  | 88 => ⟨S50000x128, .f32⟩
  | 89 => ⟨S1x128, .f32⟩
  | 90 => ⟨S128, .f32⟩
  | 91 => ⟨S1x128, .f32⟩
  | 92 => ⟨S50000x128, .f32⟩
  | 93 => ⟨S50000x128, .f32⟩
  | 94 => ⟨S1x128x128, .f32⟩
  | 95 => ⟨S128x128, .f32⟩
  | 96 => ⟨S50000x128, .f32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S_, .f32⟩
  | 104 => ⟨S128, .f32⟩
  | 105 => ⟨S_, .f32⟩
  | 106 => ⟨S128, .f32⟩
  | 107 => ⟨S128, .f32⟩
  | 108 => ⟨S1x128, .f32⟩
  | 109 => ⟨S50000x128, .f32⟩
  | 110 => ⟨S50000x128, .f32⟩
  | 111 => ⟨S50000x128, .f32⟩
  | 112 => ⟨S_, .f32⟩
  | 113 => ⟨S128, .f32⟩
  | 114 => ⟨S_, .f32⟩
  | 115 => ⟨S128, .f32⟩
  | 116 => ⟨S128, .f32⟩
  | 117 => ⟨S1x128, .f32⟩
  | 118 => ⟨S50000x128, .f32⟩
  | 119 => ⟨S50000x128, .f32⟩
  | 120 => ⟨S_, .f32⟩
  | 121 => ⟨S128, .f32⟩
  | 122 => ⟨S128, .f32⟩
  | 123 => ⟨S128, .f32⟩
  | 124 => ⟨S1x128, .f32⟩
  | 125 => ⟨S50000x128, .f32⟩
  | 126 => ⟨S50000x128, .f32⟩
  | 127 => ⟨S1x128, .f32⟩
  | _ => ⟨S50000x128, .f32⟩

abbrev hbmTy0_2 (i : Nat) : BufTy := match i % 128 with
  | 0 => ⟨S128, .f32⟩
  | 1 => ⟨S1x128, .f32⟩
  | 2 => ⟨S50000x128, .f32⟩
  | 3 => ⟨S50000x128, .f32⟩
  | 4 => ⟨S1x128, .f32⟩
  | 5 => ⟨S128, .f32⟩
  | 6 => ⟨S1x128, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S50000x128, .f32⟩
  | 13 => ⟨S50000x64, .f32⟩
  | 14 => ⟨S1x64, .f32⟩
  | 15 => ⟨S50000x64, .f32⟩
  | 16 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_9 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_11 : Ref sig .tc := ⟨.hbm, 92, rfl⟩
abbrev main_v69 : Ref sig .tc := ⟨.hbm, 93, rfl⟩
abbrev main_cst_12 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_13 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_call0_cst : Ref sig .tc := ⟨.hbm, 117, rfl⟩
abbrev main_call0_v0 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_c_14 : Ref sig .tc := ⟨.hbm, 124, rfl⟩
abbrev main_v96 : Ref sig .tc := ⟨.hbm, 125, rfl⟩
abbrev main_v97 : Ref sig .tc := ⟨.hbm, 126, rfl⟩
abbrev main_c_15 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_16 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_17 : Ref sig .tc := ⟨.hbm, 157, rfl⟩
abbrev main_v126 : Ref sig .tc := ⟨.hbm, 158, rfl⟩
abbrev main_cst_18 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_19 : Ref sig .tc := ⟨.hbm, 166, rfl⟩
abbrev main_v133 : Ref sig .tc := ⟨.hbm, 167, rfl⟩
abbrev main_cst_20 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_21 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_call1_cst : Ref sig .tc := ⟨.hbm, 191, rfl⟩
abbrev main_call1_v0 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_c_22 : Ref sig .tc := ⟨.hbm, 198, rfl⟩
abbrev main_v160 : Ref sig .tc := ⟨.hbm, 199, rfl⟩
abbrev main_v161 : Ref sig .tc := ⟨.hbm, 200, rfl⟩
abbrev main_c_23 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_cst_24 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_cst_25 : Ref sig .tc := ⟨.hbm, 231, rfl⟩
abbrev main_v190 : Ref sig .tc := ⟨.hbm, 232, rfl⟩
abbrev main_cst_26 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_cst_27 : Ref sig .tc := ⟨.hbm, 240, rfl⟩
abbrev main_v197 : Ref sig .tc := ⟨.hbm, 241, rfl⟩
abbrev main_cst_28 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_cst_29 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_call2_cst : Ref sig .tc := ⟨.hbm, 265, rfl⟩
abbrev main_call2_v0 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  bcast_S600000x1_S600000x128_0_1 : S600000x1.BroadcastsInDim S600000x128 (![0, 1] : Fin 2 → Fin S600000x128.rank)
  bcast_S50000x1_S50000x128_0_1 : S50000x1.BroadcastsInDim S50000x128 (![0, 1] : Fin 2 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x64_S50000x64_1_0_0_1_n_n_wf : DotDims.WF S50000x128 S128x64 S50000x64 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelFinalRun.lean ====
/-
  The idealized kernel program's run with its result named: every weakly fair execution of the whole program — ten
  tiled regions among stretches of plain array operations — terminates without a fault, the arguments end as launched,
  and the result buffer ends at what the fold of the program's segments over the launch memory leaves there
  (`W20`: each stretch of array operations applied to the contents before it, each region's arrays at what its
  write-backs leave).
-/
import proofs.«134443_j73787538145745_2_alg».proof.Proof.Gen.KernelIdeal.Frame

set_option maxRecDepth 16384

noncomputable section

namespace Cert.KernelIdeal.FinalRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the final contents. -/
theorem run_final : θ_run defs (onTc (τ := τ) (main (F := F))) ⟨m, fun _ => 0, ρ⟩ (fun r => ∀ c : Dev nD,
      r.2.mem ((c.tc : Thread nD τ).loc main_v134) = W20 m ρ c (Proc.devRef .tc main_v134)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v134 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c)⟩)

end Cert.KernelIdeal.FinalRun

end
-- ==== Proof.LayerSpec.lean ====
/-
  One layer of the graph network, written twice over abstract finite index types (nodes `ι`, features `κ`, edges `ε`)
  on the extended reals: once the way the tiled kernels compute it and once the way the plain array program does.

  A layer takes node features `h` and a running sum `xl`.  With `hg = h · Wg`, `hl = h · Wl` and `dinv n = deg(n)^(-1/2)`:

  * message passing.  An edge `e` carries the row of its (clamped) source node `srcc e` to the node it lands on
    (`lands e n`; an edge whose target is out of range lands nowhere).  The array program weights each carried row by
    `dinv (srcc e) · dinv (dstc e)` edge by edge; the kernels scale every row by `dinv` of its own node BEFORE it is
    carried and scale the sum by `dinv n` AFTER, which is the same by distributivity once every number is finite,
    because an edge that lands on `n` has `dstc e = n`.
  * batch statistics over the nodes, per feature.  The array program takes the mean and then the mean of squared
    deviations; the kernels take the sum and the sum of squares in one pass and use `max (E[x²] − mean², 0)`, which is
    the same number because `E[x²] − mean² = E[(x − mean)²] ≥ 0` over the reals.
  * normalise, scale, shift, clip below at zero, and add to the running sum: identical on both sides.
-/
import Idealize.ShloMosaic.PureOps.Ideal
import Mathlib.Data.EReal.Basic
import Mathlib.Algebra.BigOperators.Group.Finset.Basic
import Mathlib.Data.Fintype.BigOperators

noncomputable section

open Idealize.ShloMosaic

namespace Cert.LayerSpec

variable {ι κ κ' ε : Type} [Fintype ι] [Fintype κ] [Fintype ε]

/-- Row `n` of `h` against column `d` of `W`: the plain sum of products. -/
def mm (h : ι → κ → EReal) (W : κ → κ' → EReal) (n : ι) (d : κ') : EReal := ∑ k, h n k * W k d

/-- What every layer shares: the graph (`dinv`, each edge's clamped end points, where an edge's message lands), the
    variance guard `eps` and the node count `cnt` as the programs spell them. -/
structure Graph (ι ε : Type) where
  dinv : ι → EReal
  srcc : ε → ι
  dstc : ε → ι
  lands : ε → ι → Prop
  eps : EReal
  cnt : EReal

/-- One layer's parameters. -/
structure Weights (κ : Type) where
  Wg : κ → κ → EReal
  Wl : κ → κ → EReal
  bg : κ → EReal
  bl : κ → EReal
  gam : κ → EReal
  bet : κ → EReal

variable (G : Graph ι ε) [∀ e n, Decidable (G.lands e n)] (P : Weights κ)

/-! ## The kernels' form -/

/-- The features the kernels send along the edges: `h · Wg`, every row scaled by its own node's `dinv`. -/
def scaledK (h : ι → κ → EReal) (n : ι) (d : κ) : EReal := mm h P.Wg n d * G.dinv n

/-- The messages summed at node `n`: zero plus the scaled source row of every edge that lands on `n`. -/
def aggK (h : ι → κ → EReal) (n : ι) (d : κ) : EReal :=
  0 + ∑ e ∈ Finset.univ.filter (fun e => G.lands e n), scaledK G P h (G.srcc e) d

/-- The layer before normalisation, kernels' form. -/
def preK (h : ι → κ → EReal) (n : ι) (d : κ) : EReal :=
  (((G.dinv n * aggK G P h n d + (G.dinv n * G.dinv n) * mm h P.Wg n d) + P.bg d) + mm h P.Wl n d) + P.bl d

/-- Mean per feature from the one-pass sum. -/
def meanK (h : ι → κ → EReal) (d : κ) : EReal := Ideal.div (∑ n, preK G P h n d) G.cnt

/-- Variance per feature from the one-pass sum of squares, clipped below at zero. -/
def varK (h : ι → κ → EReal) (d : κ) : EReal :=
  max (Ideal.div (∑ n, preK G P h n d * preK G P h n d) G.cnt - meanK G P h d * meanK G P h d) 0

/-- The layer's new features, kernels' form. -/
def newK (h : ι → κ → EReal) (n : ι) (d : κ) : EReal :=
  max ((((preK G P h n d - meanK G P h d) * Ideal.rsqrt (varK G P h d + G.eps)) * P.gam d) + P.bet d) 0

/-! ## The array program's form -/

/-- The weighted message of edge `e`. -/
def msgR (h : ι → κ → EReal) (e : ε) (d : κ) : EReal :=
  mm h P.Wg (G.srcc e) d * (G.dinv (G.srcc e) * G.dinv (G.dstc e))

/-- The messages summed at node `n`. -/
def aggR (h : ι → κ → EReal) (n : ι) (d : κ) : EReal :=
  0 + ∑ e ∈ Finset.univ.filter (fun e => G.lands e n), msgR G P h e d

/-- The layer before normalisation, array program's form. -/
def preR (h : ι → κ → EReal) (n : ι) (d : κ) : EReal :=
  (((aggR G P h n d + mm h P.Wg n d * (G.dinv n * G.dinv n)) + P.bg d) + mm h P.Wl n d) + P.bl d

/-- Mean per feature. -/
def meanR (h : ι → κ → EReal) (d : κ) : EReal := Ideal.div (0 + ∑ n, preR G P h n d) G.cnt

/-- Mean squared deviation per feature. -/
def varR (h : ι → κ → EReal) (d : κ) : EReal :=
  Ideal.div (0 + ∑ n, (preR G P h n d - meanR G P h d) * (preR G P h n d - meanR G P h d)) G.cnt

/-- The layer's new features, array program's form. -/
def newR (h : ι → κ → EReal) (n : ι) (d : κ) : EReal :=
  max ((((preR G P h n d - meanR G P h d) * Ideal.rsqrt (varR G P h d + G.eps)) * P.gam d) + P.bet d) 0

/-! ## Finiteness -/

/-- Every entry is a real number. -/
def IsReal2 {α β : Type} (f : α → β → EReal) : Prop := ∀ a b, ∃ r : ℝ, f a b = (r : EReal)
/-- Every entry is a real number. -/
def IsReal1 {α : Type} (f : α → EReal) : Prop := ∀ a, ∃ r : ℝ, f a = (r : EReal)

/-- The shared data are finite, the guard is positive, the count is the number of nodes, and an edge lands only on its
    own (clamped) target. -/
structure Graph.Ok (G : Graph ι ε) : Prop where
  dinv_real : IsReal1 G.dinv
  eps_pos : ∃ r : ℝ, 0 < r ∧ G.eps = (r : EReal)
  cnt_eq : G.cnt = ((Fintype.card ι : ℝ) : EReal)
  cnt_pos : 0 < Fintype.card ι
  lands_dst : ∀ e n, G.lands e n → G.dstc e = n

/-- One layer's parameters are finite. -/
structure Weights.Ok (P : Weights κ) : Prop where
  Wg : IsReal2 P.Wg
  Wl : IsReal2 P.Wl
  bg : IsReal1 P.bg
  bl : IsReal1 P.bl
  gam : IsReal1 P.gam
  bet : IsReal1 P.bet

end Cert.LayerSpec

end
-- ==== Proof.LayerLaw.lean ====
/-
  The two forms of one layer (the kernels' and the array program's, as written in the layer's specification) give the
  same numbers when every input is a real number, and the result is again made of real numbers.

  The method is to lift to the reals.  On real numbers the extended reals' sum, product, difference and maximum are
  the reals' own, so every quantity of a layer is the image of a real expression, and the two real expressions are
  equal by the laws of a commutative ring:

  * message passing: the factor of the target node is the same for every edge that lands on that node (such an edge's
    clamped target IS the node), so it comes out of the edge sum by distributivity;
  * batch statistics: with c the number of nodes, S = Σ x, Q = Σ x² and m = S / c,
    Σ (x − m)² = Q − 2 m S + c m², hence (Σ (x − m)²) / c = Q / c − m²; the left side is a mean of squares, so it is
    not negative and the maximum with zero leaves it unchanged;
  * the variance is not negative and the guard is positive, so the reciprocal square root is taken of a positive real
    and is a real number.
-/
import proofs.«134443_j73787538145745_2_alg».proof.Proof.LayerSpec

noncomputable section

open Idealize.ShloMosaic

namespace Cert.LayerSpec

/-! ## Real numbers inside the extended reals -/

/-- An extended real that is a real number. -/
def IsReal0 (x : EReal) : Prop := ∃ r : ℝ, x = (r : EReal)

theorem IsReal0.zero : IsReal0 (0 : EReal) := ⟨0, EReal.coe_zero.symm⟩

theorem IsReal0.add {x y : EReal} (hx : IsReal0 x) (hy : IsReal0 y) : IsReal0 (x + y) := by
  obtain ⟨a, rfl⟩ := hx
  obtain ⟨b, rfl⟩ := hy
  exact ⟨a + b, (EReal.coe_add a b).symm⟩

theorem IsReal0.mul {x y : EReal} (hx : IsReal0 x) (hy : IsReal0 y) : IsReal0 (x * y) := by
  obtain ⟨a, rfl⟩ := hx
  obtain ⟨b, rfl⟩ := hy
  exact ⟨a * b, (EReal.coe_mul a b).symm⟩

theorem IsReal0.sub {x y : EReal} (hx : IsReal0 x) (hy : IsReal0 y) : IsReal0 (x - y) := by
  obtain ⟨a, rfl⟩ := hx
  obtain ⟨b, rfl⟩ := hy
  exact ⟨a - b, (EReal.coe_sub a b).symm⟩

/-- The maximum of two reals, taken in the extended reals, is their maximum in the reals. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem IsReal0.max {x y : EReal} (hx : IsReal0 x) (hy : IsReal0 y) : IsReal0 (max x y) := by
  obtain ⟨a, rfl⟩ := hx
  obtain ⟨b, rfl⟩ := hy
  exact ⟨Max.max a b, coe_max a b⟩

/-- A finite sum of reals, taken in the extended reals, is their sum in the reals. -/
theorem coe_sum {α : Type} (s : Finset α) (f : α → ℝ) :
    ∑ i ∈ s, ((f i : ℝ) : EReal) = ((∑ i ∈ s, f i : ℝ) : EReal) := by
  classical
  refine Finset.induction_on s ?_ ?_
  · rw [Finset.sum_empty, Finset.sum_empty, EReal.coe_zero]
  · intro a s ha ih
    rw [Finset.sum_insert ha, Finset.sum_insert ha, ih, EReal.coe_add]

theorem IsReal0.sum {α : Type} (s : Finset α) (f : α → EReal) (hf : ∀ i ∈ s, IsReal0 (f i)) :
    IsReal0 (∑ i ∈ s, f i) :=
  Finset.sum_induction f IsReal0 (fun _ _ hx hy => hx.add hy) IsReal0.zero hf

/-- Distributivity over a finite sum of real numbers: a real factor common to every term comes out of the sum. -/
theorem real_mul_sum {α : Type} (s : Finset α) (r : ℝ) (f g : α → EReal)
    (hf : ∀ i, IsReal0 (f i)) (hg : ∀ i ∈ s, g i = f i * (r : EReal)) :
    (r : EReal) * ∑ i ∈ s, f i = ∑ i ∈ s, g i := by
  choose x hx using hf
  have h1 : ∑ i ∈ s, f i = ((∑ i ∈ s, x i : ℝ) : EReal) := by
    rw [← coe_sum]
    exact Finset.sum_congr rfl (fun i _ => hx i)
  have h2 : ∑ i ∈ s, g i = ((∑ i ∈ s, r * x i : ℝ) : EReal) := by
    rw [← coe_sum]
    refine Finset.sum_congr rfl (fun i hi => ?_)
    rw [hg i hi, hx i, ← EReal.coe_mul, mul_comm]
  rw [h1, h2, ← EReal.coe_mul, Finset.mul_sum]

/-- The reciprocal square root of a positive real is a real number. -/
theorem rsqrt_pos_real {r : ℝ} (hr : 0 < r) : IsReal0 (Ideal.rsqrt (r : EReal)) := by
  refine ⟨(Real.sqrt r)⁻¹, ?_⟩
  rw [Ideal.rsqrt_coe, if_neg (not_lt.mpr hr.le), if_neg hr.ne']

variable {ι κ κ' ε : Type} [Fintype ι] [Fintype κ] [Fintype ε]

/-! ## Arrays of real numbers -/

/-- The entrywise sum of two arrays of real numbers is an array of real numbers. -/
theorem add_real {α β : Type} {f g : α → β → EReal} (hf : IsReal2 f) (hg : IsReal2 g) :
    IsReal2 (fun a b => f a b + g a b) :=
  fun a b => IsReal0.add (hf a b) (hg a b)

/-- A matrix product of arrays of real numbers is an array of real numbers: each entry is a finite sum of products. -/
theorem mm_real {h : ι → κ → EReal} {W : κ → κ' → EReal} (hh : IsReal2 h) (hW : IsReal2 W) :
    IsReal2 (mm h W) :=
  fun n d => IsReal0.sum _ _ (fun k _ => IsReal0.mul (hh n k) (hW k d))

variable (G : Graph ι ε) [∀ e n, Decidable (G.lands e n)] (P : Weights κ)

/-! ## Message passing -/

/-- Scaling the summed messages of node `n` by `dinv n` afterwards is weighting every message by `dinv` of its target:
    an edge that lands on `n` has clamped target `n`, so the factor is common to the whole sum and distributivity
    applies, all terms being real numbers. -/
theorem agg_eq (hG : G.Ok) (hP : P.Ok) {h : ι → κ → EReal} (hh : IsReal2 h) (n : ι) (d : κ) :
    G.dinv n * aggK G P h n d = aggR G P h n d := by
  have hmg := mm_real hh hP.Wg
  obtain ⟨r, hr⟩ := hG.dinv_real n
  unfold aggK aggR
  rw [zero_add, zero_add, hr]
  refine real_mul_sum _ r _ _ (fun e => IsReal0.mul (hmg _ _) (hG.dinv_real _)) (fun e he => ?_)
  have hl : G.lands e n := (Finset.mem_filter.mp he).2
  show msgR G P h e d = scaledK G P h (G.srcc e) d * (r : EReal)
  rw [← hr, ← hG.lands_dst e n hl]
  unfold msgR scaledK
  exact (mul_assoc _ _ _).symm

/-- Before normalisation the two forms of the layer agree. -/
theorem pre_eq (hG : G.Ok) (hP : P.Ok) {h : ι → κ → EReal} (hh : IsReal2 h) : preK G P h = preR G P h := by
  funext n d
  unfold preK preR
  rw [agg_eq G P hG hP hh n d, mul_comm (G.dinv n * G.dinv n) (mm h P.Wg n d)]

/-- Before normalisation the layer is an array of real numbers. -/
theorem preR_real (hG : G.Ok) (hP : P.Ok) {h : ι → κ → EReal} (hh : IsReal2 h) : IsReal2 (preR G P h) := by
  intro n d
  have hmg := mm_real hh hP.Wg
  have hml := mm_real hh hP.Wl
  have hagg : IsReal0 (aggR G P h n d) := by
    unfold aggR
    refine IsReal0.add IsReal0.zero (IsReal0.sum _ _ (fun e _ => ?_))
    unfold msgR
    exact IsReal0.mul (hmg _ _) (IsReal0.mul (hG.dinv_real _) (hG.dinv_real _))
  unfold preR
  exact IsReal0.add (IsReal0.add (IsReal0.add (IsReal0.add hagg
    (IsReal0.mul (hmg n d) (IsReal0.mul (hG.dinv_real n) (hG.dinv_real n)))) (hP.bg d)) (hml n d)) (hP.bl d)

/-! ## Batch statistics -/

/-- Over the reals, with `c` the number of terms and `m` their mean: the mean of the squares less the squared mean
    is the mean of the squared deviations, because `Σ (x − m)² = Σ x² − 2 m Σ x + c m²` and `Σ x = m c`. -/
theorem real_var_identity (x : ι → ℝ) (c m : ℝ) (hc : c ≠ 0) (hcard : (Fintype.card ι : ℝ) = c)
    (hm : m = (∑ n, x n) * (1 / c)) :
    (∑ n, x n * x n) * (1 / c) - m * m = (∑ n, (x n - m) * (x n - m)) * (1 / c) := by
  have hS : (∑ n, x n) = m * c := by
    rw [hm]
    field_simp
  have hexp : ∑ n, (x n - m) * (x n - m) = (∑ n, x n * x n) - 2 * m * (∑ n, x n) + c * (m * m) := by
    have hpt : ∀ n, (x n - m) * (x n - m) = x n * x n - 2 * m * x n + m * m := fun n => by ring
    simp only [hpt]
    rw [Finset.sum_add_distrib, Finset.sum_sub_distrib, ← Finset.mul_sum, Finset.sum_const, Finset.card_univ,
      nsmul_eq_mul, hcard]
  rw [hexp, hS]
  field_simp
  ring

/-- A squared deviation of reals, taken in the extended reals, is the reals' own. -/
theorem coe_dev_sq (a m : ℝ) :
    ((a : EReal) - (m : EReal)) * ((a : EReal) - (m : EReal)) = (((a - m) * (a - m) : ℝ) : EReal) := by
  rw [EReal.coe_mul, EReal.coe_sub]

/-- The statistics of a column of real numbers `x` over a non-empty node set: the mean is a real `m`; the clipped
    one-pass variance and the mean squared deviation are one and the same real `v`, and `v` is not negative. -/
theorem stats_law (x : ι → ℝ) (hpos : 0 < Fintype.card ι) :
    ∃ m v : ℝ, 0 ≤ v ∧
      Ideal.div (∑ n, (x n : EReal)) ((Fintype.card ι : ℝ) : EReal) = (m : EReal) ∧
      max (Ideal.div (∑ n, (x n : EReal) * (x n : EReal)) ((Fintype.card ι : ℝ) : EReal)
            - (m : EReal) * (m : EReal)) 0 = (v : EReal) ∧
      Ideal.div (∑ n, ((x n : EReal) - (m : EReal)) * ((x n : EReal) - (m : EReal)))
            ((Fintype.card ι : ℝ) : EReal) = (v : EReal) := by
  have hcpos : (0 : ℝ) < (Fintype.card ι : ℝ) := by exact_mod_cast hpos
  have hc : (Fintype.card ι : ℝ) ≠ 0 := hcpos.ne'
  have hinv : (0 : ℝ) ≤ 1 / (Fintype.card ι : ℝ) := by positivity
  refine ⟨(∑ n, x n) * (1 / (Fintype.card ι : ℝ)),
    (∑ n, (x n - (∑ n, x n) * (1 / (Fintype.card ι : ℝ))) * (x n - (∑ n, x n) * (1 / (Fintype.card ι : ℝ))))
      * (1 / (Fintype.card ι : ℝ)), ?_, ?_, ?_, ?_⟩
  · exact mul_nonneg (Finset.sum_nonneg (fun n _ => mul_self_nonneg _)) hinv
  · rw [Ideal.div_coe hc, coe_sum, ← EReal.coe_mul]
  · have hsq : ∀ n, (x n : EReal) * (x n : EReal) = ((x n * x n : ℝ) : EReal) := fun n => (EReal.coe_mul _ _).symm
    simp only [hsq]
    rw [Ideal.div_coe hc, coe_sum, ← EReal.coe_mul, ← EReal.coe_mul, ← EReal.coe_sub, ← EReal.coe_zero, coe_max,
      real_var_identity x _ _ hc rfl rfl]
    rw [max_eq_left (mul_nonneg (Finset.sum_nonneg (fun n _ => mul_self_nonneg _)) hinv)]
  · have hdev : ∀ n, ((x n : EReal) - (((∑ n, x n) * (1 / (Fintype.card ι : ℝ)) : ℝ) : EReal))
          * ((x n : EReal) - (((∑ n, x n) * (1 / (Fintype.card ι : ℝ)) : ℝ) : EReal))
        = (((x n - (∑ n, x n) * (1 / (Fintype.card ι : ℝ))) * (x n - (∑ n, x n) * (1 / (Fintype.card ι : ℝ))) : ℝ) : EReal) :=
      fun n => coe_dev_sq _ _
    simp only [hdev]
    rw [Ideal.div_coe hc, coe_sum, ← EReal.coe_mul]

/-! ## The layer's statistics and its new features -/

/-- The two means agree: the same sum (zero added to it changes nothing) over the same count. -/
theorem mean_eq (hG : G.Ok) (hP : P.Ok) {h : ι → κ → EReal} (hh : IsReal2 h) : meanK G P h = meanR G P h := by
  funext d
  unfold meanK meanR
  rw [pre_eq G P hG hP hh, zero_add]

/-- Per feature: the mean is a real `m`, and both forms of the variance are one real `v` that is not negative. -/
theorem stats_layer (hG : G.Ok) (hP : P.Ok) {h : ι → κ → EReal} (hh : IsReal2 h) (d : κ) :
    ∃ m v : ℝ, 0 ≤ v ∧ meanR G P h d = (m : EReal) ∧ varK G P h d = (v : EReal) ∧ varR G P h d = (v : EReal) := by
  have hx := fun n => preR_real G P hG hP hh n d
  choose x hx using hx
  obtain ⟨m, v, hv, hm, hK, hR⟩ := stats_law x hG.cnt_pos
  have hmean : meanR G P h d = (m : EReal) := by
    unfold meanR
    simp only [hx, hG.cnt_eq, zero_add]
    exact hm
  refine ⟨m, v, hv, hmean, ?_, ?_⟩
  · unfold varK
    rw [mean_eq G P hG hP hh, hmean, pre_eq G P hG hP hh]
    simp only [hx, hG.cnt_eq]
    exact hK
  · unfold varR
    rw [hmean]
    simp only [hx, hG.cnt_eq, zero_add]
    exact hR

/-- The two variances agree. -/
theorem var_eq (hG : G.Ok) (hP : P.Ok) {h : ι → κ → EReal} (hh : IsReal2 h) : varK G P h = varR G P h := by
  funext d
  obtain ⟨_, _, _, _, hK, hR⟩ := stats_layer G P hG hP hh d
  rw [hK, hR]

/-- The layer's new features agree: the same expression in equal parts. -/
theorem new_eq (hG : G.Ok) (hP : P.Ok) {h : ι → κ → EReal} (hh : IsReal2 h) : newK G P h = newR G P h := by
  funext n d
  unfold newK newR
  rw [pre_eq G P hG hP hh, mean_eq G P hG hP hh, var_eq G P hG hP hh]

/-- The layer's new features are real numbers: the variance is not negative and the guard is positive, so the
    reciprocal square root is that of a positive real; sums, products, differences and maxima of reals are reals. -/
theorem newR_real (hG : G.Ok) (hP : P.Ok) {h : ι → κ → EReal} (hh : IsReal2 h) : IsReal2 (newR G P h) := by
  intro n d
  obtain ⟨m, v, hv, hm, _, hR⟩ := stats_layer G P hG hP hh d
  obtain ⟨e, he, hGe⟩ := hG.eps_pos
  have hrs : IsReal0 (Ideal.rsqrt (varR G P h d + G.eps)) := by
    rw [hR, hGe, ← EReal.coe_add]
    exact rsqrt_pos_real (add_pos_of_nonneg_of_pos hv he)
  unfold newR
  exact IsReal0.max (IsReal0.add (IsReal0.mul (IsReal0.mul
    (IsReal0.sub (preR_real G P hG hP hh n d) ⟨m, hm⟩) hrs) (hP.gam d)) (hP.bet d)) IsReal0.zero

end Cert.LayerSpec

end
-- ==== Proof.LibEdgeIdx.lean ====
/-
  Gathers and an accumulating scatter through ONE column of integer start indices `idx : [E, 1]`, read at an index.

  * `Host.gather` of rows: result row `e` of `x[idx]` for `x : [N, D]` is row `clamp (idx[e, 0])` of `x`, the start index
    read as a signed integer and clamped into `[0, N − 1]`; for a flat `x : [N]` the same with no feature axis.
  * the accumulating scatter of rows `upd : [E, D]` into `[N, D]`: update element `(e, k)` lands on `(n, k)` exactly when
    the start index `idx[e, 0]`, read signed and NOT clamped, is `n`; an update whose start index is outside
    `[0, N)` lands nowhere.  So the sum of the update elements that land on `(n, k)` is the sum over the edges `e` whose
    start index is `n` of `upd (e, k)`.
-/
import Idealize.ShloMosaic.Lib.ValueIdx
import Idealize.ShloMosaic.PureOps.Ideal

noncomputable section

namespace Cert.LibEdgeIdx

open Idealize.ShloMosaic Idealize.ShloMosaic.ValueIdx

variable {α : Type}

/-- The start-index position `[e, 0]` of edge `e`. -/
abbrev edgeAt {E : Nat} (e : Fin E) : (⟨2, ![E, 1]⟩ : Shape).Idx := ix2 e ⟨0, Nat.one_pos⟩

/-- A start index read signed and clamped into `[0, N − 1]`. -/
def clampIdx {w : Nat} (N : Nat) (hN : 0 < N) (b : BitVec w) : Fin N := ⟨min b.toInt.toNat (N - 1), by omega⟩

/-! ## Rows gathered through a column of start indices -/

/-- The dimension numbers of `x[idx]` for `x : [N, D]`, `idx : [E, 1]`: the row axis collapsed and indexed, the feature
    axis carried whole. -/
abbrev rowGatherDims (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Row `e`, feature `k` of the gathered array is feature `k` of the row the clamped start index names. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGatherDims N E D wf) x idx (ix2 e k) = x (ix2 (clampIdx N hN (idx (edgeAt e))) k) := by
  unfold Host.gather
  congr 1
  funext a
  match a with
  | ⟨0, _⟩ =>
    refine Fin.ext ?_
    show (rowGatherDims N E D wf).start (ix2 e k) idx 0 + (rowGatherDims N E D wf).batchCoord (ix2 e k) 0
      + (rowGatherDims N E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx (ix2 e k) ⟨List.idxOf (0 : Fin 2) (rowGatherDims N E D wf).startIndexMap,
        List.idxOf_lt_length_iff.2 (List.mem_singleton.mpr rfl)⟩ = edgeAt e := by
      funext b; refine Fin.ext ?_
      match b with
      | ⟨0, _⟩ => rfl
      | ⟨1, _⟩ => rfl
    rw [hsi]
    rfl
  | ⟨1, _⟩ =>
    refine Fin.ext ?_
    show (rowGatherDims N E D wf).start (ix2 e k) idx 1 + (rowGatherDims N E D wf).batchCoord (ix2 e k) 1
      + (rowGatherDims N E D wf).offCoord (ix2 e k) 1 = k.val
    rw [GatherDims.batchCoord_eq_zero _ _ _ List.not_mem_nil]
    unfold GatherDims.start
    rw [dif_neg (show (1 : Fin 2) ∉ ([0] : List (Fin 2)) by decide)]
    unfold GatherDims.offCoord
    rw [dif_pos ((GatherDims.mem_sKept (rowGatherDims N E D wf) 1).mpr ⟨(show (1 : Fin 2) ∉ ([0] : List (Fin 2)) by decide), List.not_mem_nil⟩)]
    have hs : (rowGatherDims N E D wf).sKept = [1] := by
      first
      | rfl
      | decide
      | (simp [GatherDims.sKept, Shape.kept]; done)
    have hi : List.idxOf (1 : Fin 2) (rowGatherDims N E D wf).sKept = 0 := by rw [hs]; simp
    simp only [hi, List.getElem_cons_zero, Nat.zero_add]
    rfl

/-! ## A flat array gathered through a column of start indices -/

/-- The dimension numbers of `x[idx]` for a flat `x : [N]`, `idx : [E, 1]`. -/
abbrev flatGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered array is the entry the clamped start index names. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGatherDims N E wf) x idx (ix1 e) = x (ix1 (clampIdx N hN (idx (edgeAt e)))) := by
  unfold Host.gather
  congr 1
  funext a
  obtain rfl : a = 0 := Subsingleton.elim _ _
  refine Fin.ext ?_
  show (flatGatherDims N E wf).start (ix1 e) idx 0 + (flatGatherDims N E wf).batchCoord (ix1 e) 0
    + (flatGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N E wf).startIndexMap from List.mem_singleton.mpr rfl)]
  have hsi : (flatGatherDims N E wf).siIdx (ix1 e) ⟨List.idxOf (0 : Fin 1) (flatGatherDims N E wf).startIndexMap,
      List.idxOf_lt_length_iff.2 (List.mem_singleton.mpr rfl)⟩ = edgeAt e := by
    funext b; refine Fin.ext ?_
    match b with
    | ⟨0, _⟩ => rfl
    | ⟨1, _⟩ => rfl
  rw [hsi]
  rfl

/-! ## Rows scattered through a column of start indices -/

/-- The dimension numbers of `zeros[N, D].at[idx].add(upd)` for `idx : [E, 1]`, `upd : [E, D]`. -/
abbrev rowScatterDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Edge `e`'s message lands on node `n`: its start index, read signed, is `n`. -/
def landsOn {E N w : Nat} (idx : IVec ⟨2, ![E, 1]⟩ w) (e : Fin E) (n : Fin N) : Prop := (idx (edgeAt e)).toInt = (n.val : Int)

instance {E N w : Nat} (idx : IVec ⟨2, ![E, 1]⟩ w) (e : Fin E) (n : Fin N) : Decidable (landsOn idx e n) := by
  unfold landsOn; infer_instance

/-- The start of update `(e, k)`'s window on the row axis is edge `e`'s start index, read signed. -/
theorem rowScatter_start0 {N E D w : Nat} (wf : ScatterDims.WF ⟨2, ![N, D]⟩ ⟨2, ![E, 1]⟩ ⟨2, ![E, D]⟩ [1] [0] [0] 1)
    (idx : IVec ⟨2, ![E, 1]⟩ w) (e : Fin E) (k : Fin D) :
    (rowScatterDims N E D wf).start (ix2 e k) idx 0 = (idx (edgeAt e)).toInt := by
  unfold ScatterDims.start
  rw [dif_pos (show (0 : Fin 2) ∈ (rowScatterDims N E D wf).scatterDimsToOperandDims from List.mem_singleton.mpr rfl)]
  have hsi : (rowScatterDims N E D wf).siIdx (ix2 e k) ⟨List.idxOf (0 : Fin 2) (rowScatterDims N E D wf).scatterDimsToOperandDims,
      List.idxOf_lt_length_iff.2 (List.mem_singleton.mpr rfl)⟩ = edgeAt e := by
    funext b; refine Fin.ext ?_
    match b with
    | ⟨0, _⟩ => rfl
    | ⟨1, _⟩ => rfl
  rw [hsi]

/-- On the feature axis the window starts at zero. -/
theorem rowScatter_start1 {N E D w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) :
    (rowScatterDims N E D wf).start j idx 1 = 0 := by
  unfold ScatterDims.start
  rw [dif_neg (show (1 : Fin 2) ∉ ([0] : List (Fin 2)) by decide)]

/-- The window coordinate is zero on the row axis and the update's feature on the feature axis. -/
theorem rowScatter_window0 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 0 = 0 := by
  unfold ScatterDims.window
  rw [dif_neg (show (0 : Fin 2) ∉ (rowScatterDims N E D wf).sKept by simp [ScatterDims.sKept, Shape.kept, List.mem_filter, List.mem_finRange])]
theorem rowScatter_window1 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 1 = (j 1).val := by
  unfold ScatterDims.window
  rw [dif_pos (show (1 : Fin 2) ∈ (rowScatterDims N E D wf).sKept by simp [ScatterDims.sKept, Shape.kept, List.mem_filter, List.mem_finRange])]
  rfl

/-- Update `(e, k)` lands on `(n, k')` exactly when edge `e` lands on node `n` and the features agree. -/
theorem rowScatter_resultIdx_iff {N E D w : Nat} (wf : ScatterDims.WF ⟨2, ![N, D]⟩ ⟨2, ![E, 1]⟩ ⟨2, ![E, D]⟩ [1] [0] [0] 1)
    (idx : IVec ⟨2, ![E, 1]⟩ w) (e : Fin E) (k : Fin D) (n : Fin N) (k' : Fin D) :
    (rowScatterDims N E D wf).resultIdx? (ix2 e k) idx = some (ix2 n k') ↔ landsOn idx e n ∧ k = k' := by
  unfold ScatterDims.resultIdx? landsOn
  have h0 := rowScatter_start0 wf idx e k
  have h1 := rowScatter_start1 wf idx (ix2 e k)
  have w0 := rowScatter_window0 wf (ix2 e k)
  have w1 := rowScatter_window1 wf (ix2 e k)
  constructor
  · intro h
    split at h
    · rename_i hall
      have hs := Option.some.inj h
      have e0 := congrArg (fun f => (f 0).val) hs
      have e1 := congrArg (fun f => (f 1).val) hs
      simp only [h0, h1, w0, w1] at e0 e1
      have hr0 := hall 0
      simp only [h0, w0] at hr0
      refine ⟨?_, Fin.ext ?_⟩
      · have : ((idx (edgeAt e)).toInt + ((0 : Nat) : Int)).toNat = n.val := e0
        omega
      · have : ((0 : Int) + (((ix2 e k : (⟨2, ![E, D]⟩ : Shape).Idx) 1).val : Int)).toNat = k'.val := e1
        have hk : ((ix2 e k : (⟨2, ![E, D]⟩ : Shape).Idx) 1).val = k.val := rfl
        omega
    · exact absurd h (by simp)
  · rintro ⟨hl, rfl⟩
    have hall : ∀ a : Fin 2, 0 ≤ (rowScatterDims N E D wf).start (ix2 e k) idx a + (rowScatterDims N E D wf).window (ix2 e k) a ∧
        (rowScatterDims N E D wf).start (ix2 e k) idx a + (rowScatterDims N E D wf).window (ix2 e k) a < (⟨2, ![N, D]⟩ : Shape).size a := by
      intro a
      match a with
      | ⟨0, _⟩ =>
        show 0 ≤ (rowScatterDims N E D wf).start (ix2 e k) idx 0 + (rowScatterDims N E D wf).window (ix2 e k) 0 ∧
          (rowScatterDims N E D wf).start (ix2 e k) idx 0 + (rowScatterDims N E D wf).window (ix2 e k) 0 < (N : Int)
        rw [h0, w0, hl]; have := n.isLt; omega
      | ⟨1, _⟩ =>
        show 0 ≤ (rowScatterDims N E D wf).start (ix2 e k) idx 1 + (rowScatterDims N E D wf).window (ix2 e k) 1 ∧
          (rowScatterDims N E D wf).start (ix2 e k) idx 1 + (rowScatterDims N E D wf).window (ix2 e k) 1 < (D : Int)
        rw [h1, w1]; have := k.isLt
        have hk : ((ix2 e k : (⟨2, ![E, D]⟩ : Shape).Idx) 1).val = k.val := rfl
        omega
    rw [dif_pos hall]
    congr 1
    funext a
    match a with
    | ⟨0, _⟩ =>
      refine Fin.ext ?_
      show ((rowScatterDims N E D wf).start (ix2 e k) idx 0 + (rowScatterDims N E D wf).window (ix2 e k) 0).toNat = n.val
      rw [h0, w0, hl]; omega
    | ⟨1, _⟩ =>
      refine Fin.ext ?_
      show ((rowScatterDims N E D wf).start (ix2 e k) idx 1 + (rowScatterDims N E D wf).window (ix2 e k) 1).toNat = k.val
      rw [h1, w1]
      have hk : ((ix2 e k : (⟨2, ![E, D]⟩ : Shape).Idx) 1).val = k.val := rfl
      omega

/-- The update elements that land on `(n, k)`, summed: the edges that land on `n`, each giving its feature `k`. -/
theorem rowScatter_sum {M : Type} [AddCommMonoid M] {N E D w : Nat}
    (wf : ScatterDims.WF ⟨2, ![N, D]⟩ ⟨2, ![E, 1]⟩ ⟨2, ![E, D]⟩ [1] [0] [0] 1)
    (idx : IVec ⟨2, ![E, 1]⟩ w) (upd : (⟨2, ![E, D]⟩ : Shape).Idx → M) (n : Fin N) (k : Fin D) :
    ∑ j ∈ Finset.univ.filter (fun j => (rowScatterDims N E D wf).resultIdx? j idx = some (ix2 n k)), upd j
      = ∑ e ∈ Finset.univ.filter (fun e => landsOn idx e n), upd (ix2 e k) := by
  rw [Finset.sum_filter, sum_idx2, Finset.sum_filter]
  refine Finset.sum_congr rfl fun e _ => ?_
  by_cases hl : landsOn idx e n
  · rw [if_pos hl]
    rw [Finset.sum_eq_single k]
    · rw [if_pos ((rowScatter_resultIdx_iff wf idx e k n k).mpr ⟨hl, rfl⟩)]
    · intro k' _ hne
      rw [if_neg (fun h => hne ((rowScatter_resultIdx_iff wf idx e k' n k).mp h).2)]
    · intro h; exact absurd (Finset.mem_univ k) h
  · rw [if_neg hl]
    refine Finset.sum_eq_zero fun k' _ => ?_
    rw [if_neg (fun h => hl ((rowScatter_resultIdx_iff wf idx e k' n k).mp h).1)]

end Cert.LibEdgeIdx

end
-- ==== Proof.NetSpec.lean ====
/-
  The whole network, written twice on the extended reals over its literal sizes (50000 nodes, 600000 edges, 128
  features, 64 outputs, 3 layers): once with every layer in the kernels' form and once with every layer in the array
  program's form.

  * The graph.  Edge `e` has a source word and a target word.  As end points both are wrapped once when negative and
    clamped into the node range; the message of `e` lands on node `n` exactly when the raw target word, read signed,
    is `n` (an out-of-range target lands nowhere).  `dinv n = (in-degree of n + 1)^(−1/2)`.  The variance guard is
    the single-precision number nearest `10^(−5)` and the count is 50000.
  * The network.  `h₁ = layer₀(x)`, `h₂ = layer₁(h₁)`, `h₃ = layer₂(h₂)`; the running sum `0 + h₁ + h₂ + h₃` is projected by
    `Wp` and shifted by `bp`.

  When every float argument is a real number the two forms agree.  The graph meets the layer law's conditions: a
  degree is a finite sum of ones, so `dinv` is the reciprocal square root of a positive real; the two float words are
  evaluated once; a target word that reads as a node number is neither wrapped nor clamped.  Then the layer law is
  applied three times, each layer's output being made of real numbers again, so the next layer's input is.
-/
import proofs.«134443_j73787538145745_2_alg».proof.Proof.LayerSpec
import proofs.«134443_j73787538145745_2_alg».proof.Proof.LayerLaw
import proofs.«134443_j73787538145745_2_alg».proof.Proof.LibEdgeIdx

noncomputable section

namespace Cert.NetSpec

open Idealize.ShloMosaic Idealize.ShloMosaic.ValueIdx Cert.LayerSpec

/-! ## The arguments -/

/-- The network's arguments: node features, the edge list (row 0 the sources, row 1 the targets), three layers of
    weights, biases, scales and shifts, and the output projection. -/
structure Args where
  x : (⟨2, ![50000, 128]⟩ : Shape).Idx → EReal
  ei : (⟨2, ![2, 600000]⟩ : Shape).Idx → BitVec 32
  Wg : (⟨3, ![3, 128, 128]⟩ : Shape).Idx → EReal
  Wl : (⟨3, ![3, 128, 128]⟩ : Shape).Idx → EReal
  bg : (⟨2, ![3, 128]⟩ : Shape).Idx → EReal
  bl : (⟨2, ![3, 128]⟩ : Shape).Idx → EReal
  gamma : (⟨2, ![3, 128]⟩ : Shape).Idx → EReal
  beta : (⟨2, ![3, 128]⟩ : Shape).Idx → EReal
  Wp : (⟨2, ![128, 64]⟩ : Shape).Idx → EReal
  bp : (⟨1, ![64]⟩ : Shape).Idx → EReal

/-- Every float argument is made of real numbers. -/
structure Args.Real (A : Args) : Prop where
  x : ∀ i, ∃ r : ℝ, A.x i = (r : EReal)
  Wg : ∀ i, ∃ r : ℝ, A.Wg i = (r : EReal)
  Wl : ∀ i, ∃ r : ℝ, A.Wl i = (r : EReal)
  bg : ∀ i, ∃ r : ℝ, A.bg i = (r : EReal)
  bl : ∀ i, ∃ r : ℝ, A.bl i = (r : EReal)
  gamma : ∀ i, ∃ r : ℝ, A.gamma i = (r : EReal)
  beta : ∀ i, ∃ r : ℝ, A.beta i = (r : EReal)
  Wp : ∀ i, ∃ r : ℝ, A.Wp i = (r : EReal)
  bp : ∀ i, ∃ r : ℝ, A.bp i = (r : EReal)

/-! ## The graph -/

/-- The source word of edge `e`. -/
def srcRaw (A : Args) (e : Fin 600000) : BitVec 32 := A.ei (ix2 (0 : Fin 2) e)
/-- The target word of edge `e`. -/
def dstRaw (A : Args) (e : Fin 600000) : BitVec 32 := A.ei (ix2 (1 : Fin 2) e)

/-- A negative index counts from the end: it wraps once by the number of nodes. -/
def wrapIdx (b : BitVec 32) : BitVec 32 := if b.toInt < 0 then b + 50000#32 else b

/-- An index that is not negative is left alone. -/
theorem wrapIdx_of_nonneg {b : BitVec 32} (h : 0 ≤ b.toInt) : wrapIdx b = b := if_neg (not_lt.mpr h)

/-- The graph every layer shares.  An edge's end points are its words wrapped once and clamped into the node range; its
    message lands on node `n` exactly when its RAW target word, read signed, is `n`; `dinv n` is the reciprocal square root
    of the in-degree of `n` plus one; the guard and the count are the two float words the programs spell. -/
def Gr (A : Args) : Graph (Fin 50000) (Fin 600000) where
  dinv n := Ideal.rsqrt ((0 + ∑ e ∈ Finset.univ.filter (fun e => (dstRaw A e).toInt = (n.val : Int)), (1 : EReal)) + 1)
  srcc e := Cert.LibEdgeIdx.clampIdx 50000 (by decide) (wrapIdx (srcRaw A e))
  dstc e := Cert.LibEdgeIdx.clampIdx 50000 (by decide) (wrapIdx (dstRaw A e))
  lands e n := (dstRaw A e).toInt = (n.val : Int)
  eps := Ideal.ofBits .f32 0x3727C5AC#32
  cnt := Ideal.ofBits .f32 0x47435000#32

instance landsDec (A : Args) (e : Fin 600000) (n : Fin 50000) : Decidable ((Gr A).lands e n) :=
  inferInstanceAs (Decidable ((dstRaw A e).toInt = (n.val : Int)))

/-- Layer `l`'s parameters. -/
def Wt (A : Args) (l : Fin 3) : Weights (Fin 128) where
  Wg k d := A.Wg (ix3 l k d)
  Wl k d := A.Wl (ix3 l k d)
  bg d := A.bg (ix2 l d)
  bl d := A.bl (ix2 l d)
  gam d := A.gamma (ix2 l d)
  bet d := A.beta (ix2 l d)

/-- The input features as a node-by-feature array. -/
def h0 (A : Args) (n : Fin 50000) (d : Fin 128) : EReal := A.x (ix2 n d)

/-! ## The network, kernels' form: three layers, a running sum of their outputs, a projection -/

def hK1 (A : Args) : Fin 50000 → Fin 128 → EReal := newK (Gr A) (Wt A 0) (h0 A)
def xK1 (A : Args) (n : Fin 50000) (d : Fin 128) : EReal := 0 + hK1 A n d
def hK2 (A : Args) : Fin 50000 → Fin 128 → EReal := newK (Gr A) (Wt A 1) (hK1 A)
def xK2 (A : Args) (n : Fin 50000) (d : Fin 128) : EReal := xK1 A n d + hK2 A n d
def hK3 (A : Args) : Fin 50000 → Fin 128 → EReal := newK (Gr A) (Wt A 2) (hK2 A)
def xK3 (A : Args) (n : Fin 50000) (d : Fin 128) : EReal := xK2 A n d + hK3 A n d
def outK (A : Args) (n : Fin 50000) (o : Fin 64) : EReal :=
  mm (xK3 A) (fun k o => A.Wp (ix2 k o)) n o + A.bp (ix1 o)

/-! ## The network, array program's form -/

def hR1 (A : Args) : Fin 50000 → Fin 128 → EReal := newR (Gr A) (Wt A 0) (h0 A)
def xR1 (A : Args) (n : Fin 50000) (d : Fin 128) : EReal := 0 + hR1 A n d
def hR2 (A : Args) : Fin 50000 → Fin 128 → EReal := newR (Gr A) (Wt A 1) (hR1 A)
def xR2 (A : Args) (n : Fin 50000) (d : Fin 128) : EReal := xR1 A n d + hR2 A n d
def hR3 (A : Args) : Fin 50000 → Fin 128 → EReal := newR (Gr A) (Wt A 2) (hR2 A)
def xR3 (A : Args) (n : Fin 50000) (d : Fin 128) : EReal := xR2 A n d + hR3 A n d
def outR (A : Args) (n : Fin 50000) (o : Fin 64) : EReal :=
  mm (xR3 A) (fun k o => A.Wp (ix2 k o)) n o + A.bp (ix1 o)

/-! ## The two float words -/

/-- The count word is the single-precision 50000: sign 0, exponent field 142, fraction field 4411392, that is
    `(2^23 + 4411392) · 2^(142 − 127 − 23) = 12800000 / 256`. -/
theorem cnt_val : Ideal.ofBits .f32 0x47435000#32 = ((50000 : ℝ) : EReal) := by
  simp [Ideal.ofBits, Ideal.ieee, -EReal.coe_mul]; norm_num

/-- The guard word is the single-precision number nearest `10^(−5)`: sign 0, exponent field 110, fraction field 2606508,
    that is `(2^23 + 2606508) · 2^(110 − 127 − 23) = 10995116 · 2^(−40)`. -/
theorem eps_val : Ideal.ofBits .f32 0x3727C5AC#32 = (((10995116 : ℝ) * (2 : ℝ) ^ (-40 : ℤ) : ℝ) : EReal) := by
  simp [Ideal.ofBits, Ideal.ieee, -EReal.coe_mul]

/-- The zero word denotes 0. -/
theorem zero_val : Ideal.ofBits .f32 0x00000000#32 = 0 := by
  simp [Ideal.ofBits, Ideal.ieee]

/-- The word of the single-precision 1 denotes 1: sign 0, exponent field 127, fraction field 0. -/
theorem one_val : Ideal.ofBits .f32 0x3F800000#32 = 1 := by
  simp [Ideal.ofBits, Ideal.ieee, -EReal.coe_mul]; norm_num

/-! ## The graph is well formed -/

/-- A finite sum of ones is a real number that is not negative. -/
theorem sum_ones_real {α : Type} (s : Finset α) : ∃ c : ℝ, 0 ≤ c ∧ ∑ _e ∈ s, (1 : EReal) = (c : EReal) :=
  ⟨∑ _e ∈ s, (1 : ℝ), Finset.sum_nonneg (fun _ _ => zero_le_one), by rw [← coe_sum]; simp only [EReal.coe_one]⟩

/-- `dinv n` is a real number: the in-degree is a real that is not negative, one more is positive, and the
    reciprocal square root of a positive real is a real. -/
theorem dinv_real (A : Args) : IsReal1 (Gr A).dinv := by
  intro n
  obtain ⟨c, hc, hs⟩ :=
    sum_ones_real (Finset.univ.filter (fun e : Fin 600000 => (dstRaw A e).toInt = (n.val : Int)))
  simp only [Gr]
  rw [zero_add, hs, ← EReal.coe_one, ← EReal.coe_add]
  exact rsqrt_pos_real (by linarith)

/-- An edge lands only on its own clamped target: a raw target word that reads as a node number is not negative, so
    it is not wrapped, and it is below the node count, so the clamp leaves it alone. -/
theorem lands_dst (A : Args) (e : Fin 600000) (n : Fin 50000) (hl : (Gr A).lands e n) : (Gr A).dstc e = n := by
  simp only [Gr] at hl ⊢
  have h0 : 0 ≤ (dstRaw A e).toInt := by rw [hl]; exact Int.natCast_nonneg _
  rw [wrapIdx_of_nonneg h0]
  refine Fin.ext ?_
  simp only [Cert.LibEdgeIdx.clampIdx]
  rw [hl]
  have := n.isLt
  omega

/-- The graph's shared data are finite, the guard is positive, the count is the number of nodes, and an edge lands only
    on its own clamped target. -/
theorem Gr_ok (A : Args) : (Gr A).Ok where
  dinv_real := dinv_real A
  eps_pos := by
    refine ⟨(10995116 : ℝ) * (2 : ℝ) ^ (-40 : ℤ), by positivity, ?_⟩
    simp only [Gr]
    exact eps_val
  cnt_eq := by
    simp only [Gr]
    rw [cnt_val, Fintype.card_fin]
    norm_num
  cnt_pos := by rw [Fintype.card_fin]; exact Nat.succ_pos _
  lands_dst := lands_dst A

/-- Every layer's parameters are real numbers when the arguments are. -/
theorem Wt_ok (A : Args) (hA : A.Real) (l : Fin 3) : (Wt A l).Ok where
  Wg := fun _ _ => hA.Wg _
  Wl := fun _ _ => hA.Wl _
  bg := fun _ => hA.bg _
  bl := fun _ => hA.bl _
  gam := fun _ => hA.gamma _
  bet := fun _ => hA.beta _

/-- The input features are real numbers when the arguments are. -/
theorem h0_real (A : Args) (hA : A.Real) : IsReal2 (h0 A) := fun _ _ => hA.x _

/-! ## The two forms of the network agree, layer by layer -/

theorem hK1_eq (A : Args) (hA : A.Real) : hK1 A = hR1 A :=
  new_eq (Gr A) (Wt A 0) (Gr_ok A) (Wt_ok A hA 0) (h0_real A hA)

theorem hR1_real (A : Args) (hA : A.Real) : IsReal2 (hR1 A) :=
  newR_real (Gr A) (Wt A 0) (Gr_ok A) (Wt_ok A hA 0) (h0_real A hA)

theorem xK1_eq (A : Args) (hA : A.Real) : xK1 A = xR1 A := by
  funext n d
  unfold xK1 xR1
  rw [hK1_eq A hA]

theorem hK2_eq (A : Args) (hA : A.Real) : hK2 A = hR2 A := by
  unfold hK2 hR2
  rw [hK1_eq A hA]
  exact new_eq (Gr A) (Wt A 1) (Gr_ok A) (Wt_ok A hA 1) (hR1_real A hA)

theorem hR2_real (A : Args) (hA : A.Real) : IsReal2 (hR2 A) :=
  newR_real (Gr A) (Wt A 1) (Gr_ok A) (Wt_ok A hA 1) (hR1_real A hA)

theorem xK2_eq (A : Args) (hA : A.Real) : xK2 A = xR2 A := by
  funext n d
  unfold xK2 xR2
  rw [xK1_eq A hA, hK2_eq A hA]

theorem hK3_eq (A : Args) (hA : A.Real) : hK3 A = hR3 A := by
  unfold hK3 hR3
  rw [hK2_eq A hA]
  exact new_eq (Gr A) (Wt A 2) (Gr_ok A) (Wt_ok A hA 2) (hR2_real A hA)

theorem hR3_real (A : Args) (hA : A.Real) : IsReal2 (hR3 A) :=
  newR_real (Gr A) (Wt A 2) (Gr_ok A) (Wt_ok A hA 2) (hR2_real A hA)

theorem xK3_eq (A : Args) (hA : A.Real) : xK3 A = xR3 A := by
  funext n d
  unfold xK3 xR3
  rw [xK2_eq A hA, hK3_eq A hA]

/-- The two forms of the whole network agree: the same projection of equal running sums. -/
theorem out_eq (A : Args) (hA : A.Real) : outK A = outR A := by
  funext n o
  unfold outK outR
  rw [xK3_eq A hA]

end Cert.NetSpec

end
-- ==== Proof.LibFlatScatter.lean ====
/-
  An accumulating scatter of a FLAT array of updates through one column of integer start indices `idx : [E, 1]`, read
  at an index: `zeros[N].at[idx].add(upd)` for `upd : [E]`.

  Update element `e` lands on element `n` exactly when the start index `idx[e, 0]`, read signed and NOT clamped, is `n`;
  an update whose start index is outside `[0, N)` lands nowhere.  So the sum of the update elements that land on `n` is
  the sum over the edges `e` whose start index is `n` of `upd e`.  (With every update equal to one this counts the edges
  that land on `n`: the in-degree.)
-/
import Idealize.ShloMosaic.Lib.ValueIdx
import Idealize.ShloMosaic.PureOps.Ideal
import proofs.«134443_j73787538145745_2_alg».proof.Proof.LibEdgeIdx

noncomputable section

namespace Cert.LibFlatScatter

open Idealize.ShloMosaic Idealize.ShloMosaic.ValueIdx Cert.LibEdgeIdx

/-- The dimension numbers of `zeros[N].at[idx].add(upd)` for `idx : [E, 1]`, `upd : [E]`: no window axis, the one operand
    axis inserted and indexed. -/
abbrev flatScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The start of update `e`'s window is edge `e`'s start index, read signed. -/
theorem flatScatter_start0 {N E w : Nat} (wf : ScatterDims.WF ⟨1, ![N]⟩ ⟨2, ![E, 1]⟩ ⟨1, ![E]⟩ [] [0] [0] 1)
    (idx : IVec ⟨2, ![E, 1]⟩ w) (e : Fin E) :
    (flatScatterDims N E wf).start (ix1 e) idx 0 = (idx (edgeAt e)).toInt := by
  unfold ScatterDims.start
  rw [dif_pos (show (0 : Fin 1) ∈ (flatScatterDims N E wf).scatterDimsToOperandDims from List.mem_singleton.mpr rfl)]
  have hsi : (flatScatterDims N E wf).siIdx (ix1 e) ⟨List.idxOf (0 : Fin 1) (flatScatterDims N E wf).scatterDimsToOperandDims,
      List.idxOf_lt_length_iff.2 (List.mem_singleton.mpr rfl)⟩ = edgeAt e := by
    funext b; refine Fin.ext ?_
    match b with
    | ⟨0, _⟩ => rfl
    | ⟨1, _⟩ => rfl
  rw [hsi]

/-- There is no window: the window coordinate on the one operand axis is zero. -/
theorem flatScatter_window0 {N E : Nat} (wf : ScatterDims.WF ⟨1, ![N]⟩ ⟨2, ![E, 1]⟩ ⟨1, ![E]⟩ [] [0] [0] 1)
    (j : (⟨1, ![E]⟩ : Shape).Idx) : (flatScatterDims N E wf).window j 0 = 0 := by
  unfold ScatterDims.window
  rw [dif_neg (show (0 : Fin 1) ∉ (flatScatterDims N E wf).sKept by simp [ScatterDims.sKept, Shape.kept, List.mem_filter, List.mem_finRange])]

/-- Update `e` lands on element `n` exactly when edge `e` lands on node `n`. -/
theorem flatScatter_resultIdx_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (flatScatterDims N E wf).resultIdx? (ix1 e) idx = some (ix1 n) ↔ landsOn idx e n := by
  unfold ScatterDims.resultIdx? landsOn
  have h0 := flatScatter_start0 wf idx e
  have w0 := flatScatter_window0 wf (ix1 e)
  constructor
  · intro h
    split at h
    · rename_i hall
      have hs := Option.some.inj h
      have e0 := congrArg (fun f => (f 0).val) hs
      simp only [h0, w0] at e0
      have hr0 := hall 0
      simp only [h0, w0] at hr0
      have : ((idx (edgeAt e)).toInt + ((0 : Nat) : Int)).toNat = n.val := e0
      omega
    · exact absurd h (by simp)
  · intro hl
    have hall : ∀ a : Fin 1, 0 ≤ (flatScatterDims N E wf).start (ix1 e) idx a + (flatScatterDims N E wf).window (ix1 e) a ∧
        (flatScatterDims N E wf).start (ix1 e) idx a + (flatScatterDims N E wf).window (ix1 e) a < (⟨1, ![N]⟩ : Shape).size a := by
      intro a
      obtain rfl : a = 0 := Subsingleton.elim _ _
      show 0 ≤ (flatScatterDims N E wf).start (ix1 e) idx 0 + (flatScatterDims N E wf).window (ix1 e) 0 ∧
        (flatScatterDims N E wf).start (ix1 e) idx 0 + (flatScatterDims N E wf).window (ix1 e) 0 < (N : Int)
      rw [h0, w0, hl]; have := n.isLt; omega
    rw [dif_pos hall]
    congr 1
    funext a
    obtain rfl : a = 0 := Subsingleton.elim _ _
    refine Fin.ext ?_
    show ((flatScatterDims N E wf).start (ix1 e) idx 0 + (flatScatterDims N E wf).window (ix1 e) 0).toNat = n.val
    rw [h0, w0, hl]; omega

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The update elements that land on element `n`, summed: the edges that land on node `n`, each giving its update. -/
theorem flatScatter_sum {M : Type} [AddCommMonoid M] {N E w : Nat}
    (wf : ScatterDims.WF ⟨1, ![N]⟩ ⟨2, ![E, 1]⟩ ⟨1, ![E]⟩ [] [0] [0] 1)
    (idx : IVec ⟨2, ![E, 1]⟩ w) (upd : (⟨1, ![E]⟩ : Shape).Idx → M) (n : Fin N) :
    ∑ j ∈ Finset.univ.filter (fun j => (flatScatterDims N E wf).resultIdx? j idx = some (ix1 n)), upd j
      = ∑ e ∈ Finset.univ.filter (fun e => landsOn idx e n), upd (ix1 e) := by
  rw [Finset.sum_filter, sum_idx1, Finset.sum_filter]
  refine Finset.sum_congr rfl fun e _ => ?_
  by_cases hl : landsOn idx e n
  · rw [if_pos hl, if_pos ((flatScatter_resultIdx_iff wf idx e n).mpr hl)]
  · rw [if_neg hl, if_neg (fun h => hl ((flatScatter_resultIdx_iff wf idx e n).mp h))]

end Cert.LibFlatScatter

end
-- ==== Proof.HostGraph.lean ====
/-
  The part of the host computation that both programs share, read at an index at the ideal instance and stated over
  the library's operations and generic dimension records, given the three columns of start indices `[600000, 1]` the
  gathers and scatters read: the wrapped sources, the wrapped targets, and the raw targets.

  * one word of a wrapped column: compare with zero (signed), add the node count, select;
  * the degree count: ones scattered through the raw target column into zeros give at node `n` the number of edges
    that land on `n`; one more and the reciprocal square root is `dinv n`;
  * a gather through a wrapped column reads at the edge's clamped end point;
  * rows scattered and added through the raw target column into zeros give at `(n, k)` the sum of feature `k` over the
    edges that land on `n`.
-/
import proofs.«134443_j73787538145745_2_alg».proof.Proof.NetSpec
import proofs.«134443_j73787538145745_2_alg».proof.Proof.LibEdgeIdx
import proofs.«134443_j73787538145745_2_alg».proof.Proof.LibFlatScatter

noncomputable section

namespace Cert.HostGraph

open Idealize.ShloMosaic Idealize.ShloMosaic.ValueIdx Cert.LayerSpec Cert.NetSpec Cert.LibEdgeIdx Cert.LibFlatScatter

variable {α : Type}

/-! ## One word of an index column -/

/-- The programs' wrap, word by word: compare with zero signed, add the node count, select — a negative index wraps
    once and any other is left alone. -/
theorem wrap_select (b : BitVec 32) :
    Scalar.select (IntOp.cmpi .slt b 0#32) (IntOp.addi b 50000#32) b = wrapIdx b := by
  unfold Scalar.select IntOp.cmpi IntOp.addi wrapIdx
  by_cases h : b.toInt < 0
  · have hs : b.slt 0#32 = true := by simp [BitVec.slt, h]
    simp [hs, h]
  · have hs : b.slt 0#32 = false := by simp [BitVec.slt, h]
    simp [hs, h]

/-! ## The accumulating scatter at the ideal instance -/

/-- At the ideal instance an accumulating scatter's element is the operand's plus the exact sum of the updates that
    land on it. -/
theorem scatterAdd_apply {s si su : Shape} (d : ScatterDims s si su) {w : Nat} (x : s.Idx → EReal) (idx : IVec si w)
    (upd : su.Idx → EReal) (i : s.Idx) :
    Host.scatterAdd (F := Ideal) (φ := FTy.f32) d x idx upd i
      = x i + ∑ j ∈ Finset.univ.filter (fun j => d.resultIdx? j idx = some i), upd j := rfl

/-! ## The shared host chain, given the three index columns

A column is the `[600000, 1]` array of start indices a gather or scatter reads: the wrapped sources, the wrapped
targets, or the raw targets. -/

/-- The degree count: ones scattered through the RAW target column into zeros give, at node `n`, zero plus one for
    every edge that lands on `n`; one more and the reciprocal square root is `dinv n`. -/
theorem dinv_apply (A : Args) (wf : ScatterDims.WF ⟨1, ![50000]⟩ ⟨2, ![600000, 1]⟩ ⟨1, ![600000]⟩ [] [0] [0] 1)
    (zeros : (⟨1, ![50000]⟩ : Shape).Idx → EReal) (col : IVec ⟨2, ![600000, 1]⟩ 32)
    (ones : (⟨1, ![600000]⟩ : Shape).Idx → EReal)
    (hz : ∀ i, zeros i = 0) (ho : ∀ j, ones j = 1) (hc : ∀ e, col (edgeAt e) = dstRaw A e) (n : Fin 50000) :
    Ideal.rsqrt (Host.scatterAdd (F := Ideal) (φ := FTy.f32) (flatScatterDims 50000 600000 wf) zeros col ones (ix1 n) + 1)
      = (Gr A).dinv n := by
  rw [scatterAdd_apply, hz, flatScatter_sum wf col ones n]
  have hs : ∑ e ∈ Finset.univ.filter (fun e => landsOn col e n), ones (ix1 e)
      = ∑ e ∈ Finset.univ.filter (fun e : Fin 600000 => (dstRaw A e).toInt = (n.val : Int)), (1 : EReal) :=
    Finset.sum_congr (Finset.filter_congr (fun e _ => by unfold landsOn; rw [hc e])) (fun e _ => ho _)
  rw [hs]
  simp only [Gr]

/-- A flat array gathered through the wrapped source column: entry `e` is the entry at edge `e`'s clamped source. -/
theorem gather_flat_src (A : Args) (wf : GatherDims.WF ⟨1, ![50000]⟩ ⟨2, ![600000, 1]⟩ ⟨1, ![600000]⟩ [] [0] [] [0] [] 1 ![1])
    (v : (⟨1, ![50000]⟩ : Shape).Idx → α) (col : IVec ⟨2, ![600000, 1]⟩ 32)
    (hc : ∀ e, col (edgeAt e) = wrapIdx (srcRaw A e)) (e : Fin 600000) :
    Host.gather (flatGatherDims 50000 600000 wf) v col (ix1 e) = v (ix1 ((Gr A).srcc e)) := by
  rw [gather_flat_apply (by decide) wf v col e, hc e]
  simp only [Gr]

/-- A flat array gathered through the wrapped target column: entry `e` is the entry at edge `e`'s clamped target. -/
theorem gather_flat_dst (A : Args) (wf : GatherDims.WF ⟨1, ![50000]⟩ ⟨2, ![600000, 1]⟩ ⟨1, ![600000]⟩ [] [0] [] [0] [] 1 ![1])
    (v : (⟨1, ![50000]⟩ : Shape).Idx → α) (col : IVec ⟨2, ![600000, 1]⟩ 32)
    (hc : ∀ e, col (edgeAt e) = wrapIdx (dstRaw A e)) (e : Fin 600000) :
    Host.gather (flatGatherDims 50000 600000 wf) v col (ix1 e) = v (ix1 ((Gr A).dstc e)) := by
  rw [gather_flat_apply (by decide) wf v col e, hc e]
  simp only [Gr]

/-- Rows gathered through the wrapped source column: row `e` is the row of edge `e`'s clamped source. -/
theorem gather_rows_src (A : Args)
    (wf : GatherDims.WF ⟨2, ![50000, 128]⟩ ⟨2, ![600000, 1]⟩ ⟨2, ![600000, 128]⟩ [1] [0] [] [0] [] 1 ![1, 128])
    (v : (⟨2, ![50000, 128]⟩ : Shape).Idx → α) (col : IVec ⟨2, ![600000, 1]⟩ 32)
    (hc : ∀ e, col (edgeAt e) = wrapIdx (srcRaw A e)) (e : Fin 600000) (k : Fin 128) :
    Host.gather (rowGatherDims 50000 600000 128 wf) v col (ix2 e k) = v (ix2 ((Gr A).srcc e) k) := by
  rw [gather_rows_apply (by decide) wf v col e k, hc e]
  simp only [Gr]

/-- Rows scattered and added through the RAW target column into zeros: element `(n, k)` is zero plus feature `k` of
    every edge that lands on node `n`. -/
theorem scatter_rows_raw (A : Args)
    (wf : ScatterDims.WF ⟨2, ![50000, 128]⟩ ⟨2, ![600000, 1]⟩ ⟨2, ![600000, 128]⟩ [1] [0] [0] 1)
    (zeros : (⟨2, ![50000, 128]⟩ : Shape).Idx → EReal) (col : IVec ⟨2, ![600000, 1]⟩ 32)
    (upd : (⟨2, ![600000, 128]⟩ : Shape).Idx → EReal)
    (hz : ∀ i, zeros i = 0) (hc : ∀ e, col (edgeAt e) = dstRaw A e) (n : Fin 50000) (k : Fin 128) :
    Host.scatterAdd (F := Ideal) (φ := FTy.f32) (rowScatterDims 50000 600000 128 wf) zeros col upd (ix2 n k)
      = 0 + ∑ e ∈ Finset.univ.filter (fun e => (Gr A).lands e n), upd (ix2 e k) := by
  rw [scatterAdd_apply, hz, rowScatter_sum wf col upd n k]
  refine congrArg (fun t => (0 : EReal) + t) ?_
  refine Finset.sum_congr (Finset.filter_congr (fun e _ => ?_)) (fun _ _ => rfl)
  unfold landsOn
  rw [hc e]
  simp only [Gr]

end Cert.HostGraph

end
-- ==== Proof.HostWeights.lean ====
/-
  Layout operations of the host computation read at an index, stated over the library's operations with the shape
  relations as arguments: a layer's slice of a stacked parameter array, the casts between a vector and a one-row matrix,
  and the broadcasts of a scalar, a vector, a row and a column.

  Each is one line of index arithmetic: a slice reads its operand at the offset plus the index; a cast reads the
  operand at the index with the same row-major position; a broadcast reads the operand at the coordinates the
  dimension map names, zero on the operand's unit axes.
-/
import Idealize.ShloMosaic.Lib.Pipeline.Value
import Idealize.ShloMosaic.Lib.ValueIdx
import proofs.«134443_j73787538145745_2_alg».proof.Proof.NetSpec

noncomputable section

namespace Cert.HostWeights

open Idealize.ShloMosaic Idealize.ShloMosaic.ValueIdx

variable {α : Type}

/-! ## A layer's slice of a stacked parameter array -/

/-- Layer `l`'s matrix: the slice `[l : l+1, :, :]` of a `[3, 128, 128]` stack, cast to `[128, 128]`, at `(k, d)` is the
    stack at `(l, k, d)`.  The offset is given as a natural number `o` with `l = o`, so that a literal offset matches. -/
theorem slice3_apply (W : (⟨3, ![3, 128, 128]⟩ : Shape).Idx → α) (o : Nat) (l : Fin 3) (hl : l.val = o)
    (hs : (⟨3, ![3, 128, 128]⟩ : Shape).Slices ![o, 0, 0] ⟨3, ![1, 128, 128]⟩)
    (hc : (⟨3, ![1, 128, 128]⟩ : Shape).ShapeCasts ⟨2, ![128, 128]⟩) (k d : Fin 128) :
    shapeCast ⟨2, ![128, 128]⟩ (extractStridedSlice ⟨3, ![1, 128, 128]⟩ ![o, 0, 0] W hs) hc (ix2 k d)
      = W (ix3 l k d) := by
  rw [shapeCast_apply _ hc (ix2 k d) (ix3 (0 : Fin 1) k d)
    (by rewrite [Shape.rowMajor_val_three, Shape.rowMajor_val_two]
        show (0 * 128 + k.val) * 128 + d.val = k.val * 128 + d.val; omega)]
  exact extractStridedSlice_apply _ W hs (ix3 0 k d) (ix3 l k d) (fun a => match a with
    | ⟨0, _⟩ => by show l.val = o + 0; omega
    | ⟨1, _⟩ => by show k.val = 0 + k.val; omega
    | ⟨2, _⟩ => by show d.val = 0 + d.val; omega)

/-- Layer `l`'s vector: the slice `[l : l+1, :]` of a `[3, 128]` stack, cast to `[128]`, at `d` is the stack at `(l, d)`. -/
theorem slice2_apply (b : (⟨2, ![3, 128]⟩ : Shape).Idx → α) (o : Nat) (l : Fin 3) (hl : l.val = o)
    (hs : (⟨2, ![3, 128]⟩ : Shape).Slices ![o, 0] ⟨2, ![1, 128]⟩)
    (hc : (⟨2, ![1, 128]⟩ : Shape).ShapeCasts ⟨1, ![128]⟩) (d : Fin 128) :
    shapeCast ⟨1, ![128]⟩ (extractStridedSlice ⟨2, ![1, 128]⟩ ![o, 0] b hs) hc (ix1 d) = b (ix2 l d) := by
  rw [shapeCast_apply _ hc (ix1 d) (ix2 (0 : Fin 1) d)
    (by rewrite [Shape.rowMajor_val_two, Shape.rowMajor_val_one]
        show 0 * 128 + d.val = d.val; omega)]
  exact extractStridedSlice_apply _ b hs (ix2 0 d) (ix2 l d) (fun a => match a with
    | ⟨0, _⟩ => by show l.val = o + 0; omega
    | ⟨1, _⟩ => by show d.val = 0 + d.val; omega)

/-! ## A vector as a one-row matrix -/

/-- A vector cast to a one-row matrix, at `(0, d)`, is the vector at `d`. -/
theorem row_cast_apply {n : Nat} (v : (⟨1, ![n]⟩ : Shape).Idx → α)
    (hc : (⟨1, ![n]⟩ : Shape).ShapeCasts ⟨2, ![1, n]⟩) (d : Fin n) :
    shapeCast ⟨2, ![1, n]⟩ v hc (ix2 (0 : Fin 1) d) = v (ix1 d) :=
  shapeCast_apply v hc (ix2 (0 : Fin 1) d) (ix1 d)
    (by rewrite [Shape.rowMajor_val_one, Shape.rowMajor_val_two]
        show d.val = 0 * n + d.val; omega)

/-- Layer `l`'s vector as a one-row matrix: slice, cast to a vector, cast back to a row. -/
theorem slice2_row_apply (b : (⟨2, ![3, 128]⟩ : Shape).Idx → α) (o : Nat) (l : Fin 3) (hl : l.val = o)
    (hs : (⟨2, ![3, 128]⟩ : Shape).Slices ![o, 0] ⟨2, ![1, 128]⟩)
    (hc : (⟨2, ![1, 128]⟩ : Shape).ShapeCasts ⟨1, ![128]⟩)
    (hc' : (⟨1, ![128]⟩ : Shape).ShapeCasts ⟨2, ![1, 128]⟩) (d : Fin 128) :
    shapeCast ⟨2, ![1, 128]⟩ (shapeCast ⟨1, ![128]⟩ (extractStridedSlice ⟨2, ![1, 128]⟩ ![o, 0] b hs) hc) hc'
      (ix2 (0 : Fin 1) d) = b (ix2 l d) := by
  rw [row_cast_apply, slice2_apply b o l hl hs hc d]

/-! ## Broadcasts -/

/-- A scalar broadcast to any shape is the scalar everywhere. -/
theorem bcast_scalar_apply {t : Shape} (v : (⟨0, ![]⟩ : Shape).Idx → α)
    (h : (⟨0, ![]⟩ : Shape).BroadcastsInDim t ![]) (i : t.Idx) :
    broadcastInDim t ![] h v i = v ix0 :=
  broadcastInDim_apply _ h v i ix0 (fun a => a.elim0)

/-- A vector broadcast along the columns of a one-row matrix: at `(0, d)` the vector at `d`. -/
theorem bcast_row_apply {n : Nat} (v : (⟨1, ![n]⟩ : Shape).Idx → α)
    (h : (⟨1, ![n]⟩ : Shape).BroadcastsInDim ⟨2, ![1, n]⟩ ![1]) (d : Fin n) :
    broadcastInDim ⟨2, ![1, n]⟩ ![1] h v (ix2 (0 : Fin 1) d) = v (ix1 d) :=
  broadcastInDim_apply _ h v (ix2 (0 : Fin 1) d) (ix1 d) (fun a => match a with
    | ⟨0, _⟩ => by
      have := d.isLt
      show d.val = if n = 1 then 0 else d.val
      split <;> omega)

/-- A vector broadcast along the rows of a one-column matrix: at `(a, 0)` the vector at `a`. -/
theorem bcast_col_apply {m : Nat} (v : (⟨1, ![m]⟩ : Shape).Idx → α)
    (h : (⟨1, ![m]⟩ : Shape).BroadcastsInDim ⟨2, ![m, 1]⟩ ![0]) (a : Fin m) :
    broadcastInDim ⟨2, ![m, 1]⟩ ![0] h v (ix2 a (0 : Fin 1)) = v (ix1 a) :=
  broadcastInDim_apply _ h v (ix2 a (0 : Fin 1)) (ix1 a) (fun b => match b with
    | ⟨0, _⟩ => by
      have := a.isLt
      show a.val = if m = 1 then 0 else a.val
      split <;> omega)

/-- A one-row matrix broadcast down the rows: at `(a, d)` the row at `(0, d)`. -/
theorem bcast_rows_apply {m n : Nat} (r : (⟨2, ![1, n]⟩ : Shape).Idx → α)
    (h : (⟨2, ![1, n]⟩ : Shape).BroadcastsInDim ⟨2, ![m, n]⟩ ![0, 1]) (a : Fin m) (d : Fin n) :
    broadcastInDim ⟨2, ![m, n]⟩ ![0, 1] h r (ix2 a d) = r (ix2 (0 : Fin 1) d) :=
  broadcastInDim_apply _ h r (ix2 a d) (ix2 (0 : Fin 1) d) (fun b => match b with
    | ⟨0, _⟩ => by
      show 0 = if (1 : Nat) = 1 then 0 else a.val
      rw [if_pos rfl]
    | ⟨1, _⟩ => by
      have := d.isLt
      show d.val = if n = 1 then 0 else d.val
      split <;> omega)

/-- A one-column matrix broadcast along the columns: at `(a, d)` the column at `(a, 0)`. -/
theorem bcast_cols_apply {m n : Nat} (c : (⟨2, ![m, 1]⟩ : Shape).Idx → α)
    (h : (⟨2, ![m, 1]⟩ : Shape).BroadcastsInDim ⟨2, ![m, n]⟩ ![0, 1]) (a : Fin m) (d : Fin n) :
    broadcastInDim ⟨2, ![m, n]⟩ ![0, 1] h c (ix2 a d) = c (ix2 a (0 : Fin 1)) :=
  broadcastInDim_apply _ h c (ix2 a d) (ix2 a (0 : Fin 1)) (fun b => match b with
    | ⟨0, _⟩ => by
      have := a.isLt
      show a.val = if m = 1 then 0 else a.val
      split <;> omega
    | ⟨1, _⟩ => by
      show 0 = if (1 : Nat) = 1 then 0 else d.val
      rw [if_pos rfl])

end Cert.HostWeights

end
-- ==== Proof.KernelCols.lean ====
/-
  What the kernel program's first stretch of array operations leaves, read at an index, in terms of the network's
  arguments: the two rows of the edge list as flat vectors, the `dinv` column (the reciprocal square root of each node's
  in-degree plus one, from an accumulating scatter of ones through the raw target words), the zero array the running sum
  starts from, and layer 1's `Wg` as a slice of the stacked weights.
-/
import proofs.«134443_j73787538145745_2_alg».proof.Proof.Gen.KernelIdeal.Frame
import proofs.«134443_j73787538145745_2_alg».proof.Proof.HostGraph
import proofs.«134443_j73787538145745_2_alg».proof.Proof.HostWeights
import Idealize.ShloMosaic.Lib.StableHlo.Run
import Idealize.ShloMosaic.Lib.Pipeline.Value

set_option maxRecDepth 16384

noncomputable section

namespace Cert.KernelIdeal.Net

open Cert.KernelIdeal Cert.KernelIdeal.Gen
open Idealize.ShloMosaic Idealize.ShloMosaic.TcCoe Idealize.ShloMosaic.ValueIdx Idealize.ShloMosaic.StableHlo
open Idealize.SL Idealize.SL.Sem
open Cert.NetSpec Cert.LayerSpec Cert.LibEdgeIdx

variable (m : (ℓ : Loc nD τ sig) → Buf (Elt Ideal) ℓ) (ρ : Dev nD → PrngReg)

/-- The kernel program's ten argument arrays, as the network's arguments. -/
def KArgs (c : Dev nD) : Args where
  x := m ((c.tc : Thread nD τ).loc main_arg0)
  ei := m ((c.tc : Thread nD τ).loc main_arg1)
  Wg := m ((c.tc : Thread nD τ).loc main_arg2)
  bg := m ((c.tc : Thread nD τ).loc main_arg3)
  Wl := m ((c.tc : Thread nD τ).loc main_arg4)
  bl := m ((c.tc : Thread nD τ).loc main_arg5)
  gamma := m ((c.tc : Thread nD τ).loc main_arg6)
  beta := m ((c.tc : Thread nD τ).loc main_arg7)
  Wp := m ((c.tc : Thread nD τ).loc main_arg8)
  bp := m ((c.tc : Thread nD τ).loc main_arg9)

/-- The array program's reciprocal square root, at an index. -/
theorem hostRsqrt_apply {s : Shape} (v : s.Idx → EReal) (i : s.Idx) :
    (Host.rsqrt (F := Ideal) (φ := FTy.f32) (s := s) v) i = Ideal.rsqrt (v i) := rfl

/-- Row `l` of the edge list: the slice `[l : l+1, :]` cast to a flat vector, at `e`, is the edge list at `(l, e)`. -/
theorem edgeRow_apply {α : Type} (ei : (⟨2, ![2, 600000]⟩ : Shape).Idx → α) (o : Nat) (l : Fin 2) (hl : l.val = o)
    (hs : (⟨2, ![2, 600000]⟩ : Shape).Slices ![o, 0] ⟨2, ![1, 600000]⟩)
    (hc : (⟨2, ![1, 600000]⟩ : Shape).ShapeCasts ⟨1, ![600000]⟩) (e : Fin 600000) :
    shapeCast ⟨1, ![600000]⟩ (extractStridedSlice ⟨2, ![1, 600000]⟩ ![o, 0] ei hs) hc (ix1 e) = ei (ix2 l e) := by
  rw [shapeCast_apply _ hc (ix1 e) (ix2 (0 : Fin 1) e)
    (by rewrite [Shape.rowMajor_val_two, Shape.rowMajor_val_one]
        show 0 * 600000 + e.val = e.val; omega)]
  exact extractStridedSlice_apply _ ei hs (ix2 0 e) (ix2 l e) (fun a => match a with
    | ⟨0, _⟩ => by show l.val = o + 0; omega
    | ⟨1, _⟩ => by show e.val = 0 + e.val; omega)

/-- The source words as a flat vector. -/
theorem src_vec (c : Dev nD) (e : Fin 600000) :
    (W1 m ρ c (Proc.devRef .tc main_v1) : S600000.Idx → BitVec 32) (ix1 e) = srcRaw (KArgs m c) e := by
  show StableHlo.after hostOps0 (W0 m ρ c) (Proc.devRef .tc main_v1) (ix1 e) = _
  after_results
  exact edgeRow_apply (m ((c.tc : Thread nD τ).loc main_arg1)) 0 0 rfl _ _ e

/-- The target words as a flat vector. -/
theorem dst_vec (c : Dev nD) (e : Fin 600000) :
    (W1 m ρ c (Proc.devRef .tc main_v3) : S600000.Idx → BitVec 32) (ix1 e) = dstRaw (KArgs m c) e := by
  show StableHlo.after hostOps0 (W0 m ρ c) (Proc.devRef .tc main_v3) (ix1 e) = _
  after_results
  exact edgeRow_apply (m ((c.tc : Thread nD τ).loc main_arg1)) 1 1 rfl _ _ e

/-- The zero array the running sum starts from. -/
theorem zeros_arr (c : Dev nD) (i : S50000x128.Idx) :
    (W1 m ρ c (Proc.devRef .tc main_v12) : S50000x128.Idx → EReal) i = (0 : EReal) := by
  show StableHlo.after hostOps0 (W0 m ρ c) (Proc.devRef .tc main_v12) i = _
  after_results
  rw [HostWeights.bcast_scalar_apply]
  exact zero_val

/-- Layer 1's `Wg`, as region 0 reads it. -/
theorem wg0_first (c : Dev nD) (k d : Fin 128) :
    (W1 m ρ c (Proc.devRef .tc main_v14) : S128x128.Idx → EReal) (ix2 k d) = (KArgs m c).Wg (ix3 (0 : Fin 3) k d) := by
  show StableHlo.after hostOps0 (W0 m ρ c) (Proc.devRef .tc main_v14) (ix2 k d) = _
  after_results
  exact HostWeights.slice3_apply (m ((c.tc : Thread nD τ).loc main_arg2)) 0 0 rfl _ _ k d

/-- The `dinv` column. -/
theorem dinv_col (c : Dev nD) (n : Fin 50000) :
    (W1 m ρ c (Proc.devRef .tc main_v11) : S50000x1.Idx → EReal) (ix2 n (0 : Fin 1)) = (Gr (KArgs m c)).dinv n := by
  show StableHlo.after hostOps0 (W0 m ρ c) (Proc.devRef .tc main_v11) (ix2 n (0 : Fin 1)) = _
  after_results
  rw [HostWeights.bcast_col_apply]
  rw [hostRsqrt_apply, addf_apply]
  have ho' : (broadcastInDim S50000 ![] Facts₀.bcast_S_S50000 (constant (F := Ideal) S_ .f32 0x3F800000#32)) (ix1 n) = (1 : EReal) := by
    rw [HostWeights.bcast_scalar_apply]; exact one_val
  rw [ho']
  refine Cert.HostGraph.dinv_apply (KArgs m c) Facts₀.scatter_S50000_S600000x1_S600000_n_0_0_1_wf _ _ _ ?zz ?oo ?cc n
  case zz => intro i; rw [HostWeights.bcast_scalar_apply]; exact zero_val
  case oo => intro j; rw [HostWeights.bcast_scalar_apply]; exact one_val
  case cc =>
    intro e
    exact (HostWeights.bcast_col_apply _ _ e).trans (edgeRow_apply (m ((c.tc : Thread nD τ).loc main_arg1)) 1 1 rfl _ _ e)

end Cert.KernelIdeal.Net

end
-- ==== Proof.KernelWalk.lean ====
/- The kernel program's buffer contents at its segment boundaries form a fold: a stretch of array operations applied to
   the contents before it, a region's arrays at what its write-backs leave.  A buffer that one segment writes and a later
   one reads is carried unchanged through every segment in between: a stretch that does not write it leaves it, and a
   region leaves every buffer it does not own, and every INPUT window's array, as entered. -/
import proofs.«134443_j73787538145745_2_alg».proof.Proof.Gen.KernelIdeal.Frame

set_option maxRecDepth 16384

noncomputable section

namespace Cert.KernelIdeal.Walk

open Cert.KernelIdeal Cert.KernelIdeal.Gen
open Idealize.ShloMosaic Idealize.ShloMosaic.TcCoe Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- Argument main_arg0 is still as launched at boundary 1. -/
theorem arg0_W1 (c : Dev nD) : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Argument main_arg0 is still as launched at boundary 3. -/
theorem arg0_W3 (c : Dev nD) : W3 m ρ c (Proc.devRef .tc main_arg0) = W0 m ρ c (Proc.devRef .tc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Argument main_arg2 is still as launched at boundary 2. -/
theorem arg2_W2 (c : Dev nD) : W2 m ρ c (Proc.devRef .tc main_arg2) = W0 m ρ c (Proc.devRef .tc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Argument main_arg2 is still as launched at boundary 6. -/
theorem arg2_W6 (c : Dev nD) : W6 m ρ c (Proc.devRef .tc main_arg2) = W0 m ρ c (Proc.devRef .tc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Argument main_arg2 is still as launched at boundary 8. -/
theorem arg2_W8 (c : Dev nD) : W8 m ρ c (Proc.devRef .tc main_arg2) = W0 m ρ c (Proc.devRef .tc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Argument main_arg2 is still as launched at boundary 12. -/
theorem arg2_W12 (c : Dev nD) : W12 m ρ c (Proc.devRef .tc main_arg2) = W0 m ρ c (Proc.devRef .tc main_arg2) :=
  calc W12 m ρ c (Proc.devRef .tc main_arg2)
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Argument main_arg2 is still as launched at boundary 14. -/
theorem arg2_W14 (c : Dev nD) : W14 m ρ c (Proc.devRef .tc main_arg2) = W0 m ρ c (Proc.devRef .tc main_arg2) :=
  calc W14 m ρ c (Proc.devRef .tc main_arg2)
    _ = W13 m ρ c (Proc.devRef .tc main_arg2) := W14_of_ne m ρ c main_arg2 (by decide)
    _ = W12 m ρ c (Proc.devRef .tc main_arg2) := StableHlo.after_of_forall_not_mem (b := Proc.devRef .tc main_arg2) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Argument main_arg3 is still as launched at boundary 2. -/
theorem arg3_W2 (c : Dev nD) : W2 m ρ c (Proc.devRef .tc main_arg3) = W0 m ρ c (Proc.devRef .tc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Argument main_arg3 is still as launched at boundary 8. -/
theorem arg3_W8 (c : Dev nD) : W8 m ρ c (Proc.devRef .tc main_arg3) = W0 m ρ c (Proc.devRef .tc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Argument main_arg3 is still as launched at boundary 14. -/
theorem arg3_W14 (c : Dev nD) : W14 m ρ c (Proc.devRef .tc main_arg3) = W0 m ρ c (Proc.devRef .tc main_arg3) :=
  calc W14 m ρ c (Proc.devRef .tc main_arg3)
    _ = W13 m ρ c (Proc.devRef .tc main_arg3) := W14_of_ne m ρ c main_arg3 (by decide)
    _ = W12 m ρ c (Proc.devRef .tc main_arg3) := StableHlo.after_of_forall_not_mem (b := Proc.devRef .tc main_arg3) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg3) := W12_of_ne m ρ c main_arg3 (by decide)
    _ = W10 m ρ c (Proc.devRef .tc main_arg3) := StableHlo.after_of_forall_not_mem (b := Proc.devRef .tc main_arg3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg3) := W10_of_ne m ρ c main_arg3 (by decide)
    _ = W8 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Argument main_arg4 is still as launched at boundary 2. -/
theorem arg4_W2 (c : Dev nD) : W2 m ρ c (Proc.devRef .tc main_arg4) = W0 m ρ c (Proc.devRef .tc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Argument main_arg4 is still as launched at boundary 8. -/
theorem arg4_W8 (c : Dev nD) : W8 m ρ c (Proc.devRef .tc main_arg4) = W0 m ρ c (Proc.devRef .tc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Argument main_arg4 is still as launched at boundary 14. -/
theorem arg4_W14 (c : Dev nD) : W14 m ρ c (Proc.devRef .tc main_arg4) = W0 m ρ c (Proc.devRef .tc main_arg4) :=
  calc W14 m ρ c (Proc.devRef .tc main_arg4)
    _ = W13 m ρ c (Proc.devRef .tc main_arg4) := W14_of_ne m ρ c main_arg4 (by decide)
    _ = W12 m ρ c (Proc.devRef .tc main_arg4) := StableHlo.after_of_forall_not_mem (b := Proc.devRef .tc main_arg4) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg4) := W12_of_ne m ρ c main_arg4 (by decide)
    _ = W10 m ρ c (Proc.devRef .tc main_arg4) := StableHlo.after_of_forall_not_mem (b := Proc.devRef .tc main_arg4) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg4) := W10_of_ne m ρ c main_arg4 (by decide)
    _ = W8 m ρ c (Proc.devRef .tc main_arg4) := StableHlo.after_of_forall_not_mem (b := Proc.devRef .tc main_arg4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg4) := W8_of_ne m ρ c main_arg4 (by decide)
    _ = W6 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Argument main_arg5 is still as launched at boundary 2. -/
theorem arg5_W2 (c : Dev nD) : W2 m ρ c (Proc.devRef .tc main_arg5) = W0 m ρ c (Proc.devRef .tc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Argument main_arg5 is still as launched at boundary 8. -/
theorem arg5_W8 (c : Dev nD) : W8 m ρ c (Proc.devRef .tc main_arg5) = W0 m ρ c (Proc.devRef .tc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Argument main_arg5 is still as launched at boundary 14. -/
theorem arg5_W14 (c : Dev nD) : W14 m ρ c (Proc.devRef .tc main_arg5) = W0 m ρ c (Proc.devRef .tc main_arg5) :=
  calc W14 m ρ c (Proc.devRef .tc main_arg5)
    _ = W13 m ρ c (Proc.devRef .tc main_arg5) := W14_of_ne m ρ c main_arg5 (by decide)
    _ = W12 m ρ c (Proc.devRef .tc main_arg5) := StableHlo.after_of_forall_not_mem (b := Proc.devRef .tc main_arg5) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg5) := W12_of_ne m ρ c main_arg5 (by decide)
    _ = W10 m ρ c (Proc.devRef .tc main_arg5) := StableHlo.after_of_forall_not_mem (b := Proc.devRef .tc main_arg5) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg5) := W10_of_ne m ρ c main_arg5 (by decide)
    _ = W8 m ρ c (Proc.devRef .tc main_arg5) := StableHlo.after_of_forall_not_mem (b := Proc.devRef .tc main_arg5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Argument main_arg6 is still as launched at boundary 4. -/
theorem arg6_W4 (c : Dev nD) : W4 m ρ c (Proc.devRef .tc main_arg6) = W0 m ρ c (Proc.devRef .tc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Argument main_arg6 is still as launched at boundary 10. -/
theorem arg6_W10 (c : Dev nD) : W10 m ρ c (Proc.devRef .tc main_arg6) = W0 m ρ c (Proc.devRef .tc main_arg6) :=
  calc W10 m ρ c (Proc.devRef .tc main_arg6)
    _ = W9 m ρ c (Proc.devRef .tc main_arg6) := W10_of_ne m ρ c main_arg6 (by decide)
    _ = W8 m ρ c (Proc.devRef .tc main_arg6) := StableHlo.after_of_forall_not_mem (b := Proc.devRef .tc main_arg6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Argument main_arg6 is still as launched at boundary 16. -/
theorem arg6_W16 (c : Dev nD) : W16 m ρ c (Proc.devRef .tc main_arg6) = W0 m ρ c (Proc.devRef .tc main_arg6) :=
  calc W16 m ρ c (Proc.devRef .tc main_arg6)
    _ = W15 m ρ c (Proc.devRef .tc main_arg6) := W16_of_ne m ρ c main_arg6 (by decide)
    _ = W14 m ρ c (Proc.devRef .tc main_arg6) := StableHlo.after_of_forall_not_mem (b := Proc.devRef .tc main_arg6) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg6) := W14_of_ne m ρ c main_arg6 (by decide)
    _ = W12 m ρ c (Proc.devRef .tc main_arg6) := StableHlo.after_of_forall_not_mem (b := Proc.devRef .tc main_arg6) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg6) := W12_of_ne m ρ c main_arg6 (by decide)
    _ = W10 m ρ c (Proc.devRef .tc main_arg6) := StableHlo.after_of_forall_not_mem (b := Proc.devRef .tc main_arg6) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg6) := W10_of_ne m ρ c main_arg6 (by decide)
    _ = W8 m ρ c (Proc.devRef .tc main_arg6) := StableHlo.after_of_forall_not_mem (b := Proc.devRef .tc main_arg6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Argument main_arg7 is still as launched at boundary 4. -/
theorem arg7_W4 (c : Dev nD) : W4 m ρ c (Proc.devRef .tc main_arg7) = W0 m ρ c (Proc.devRef .tc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Argument main_arg7 is still as launched at boundary 10. -/
theorem arg7_W10 (c : Dev nD) : W10 m ρ c (Proc.devRef .tc main_arg7) = W0 m ρ c (Proc.devRef .tc main_arg7) :=
  calc W10 m ρ c (Proc.devRef .tc main_arg7)
    _ = W9 m ρ c (Proc.devRef .tc main_arg7) := W10_of_ne m ρ c main_arg7 (by decide)
    _ = W8 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Argument main_arg7 is still as launched at boundary 16. -/
theorem arg7_W16 (c : Dev nD) : W16 m ρ c (Proc.devRef .tc main_arg7) = W0 m ρ c (Proc.devRef .tc main_arg7) :=
  calc W16 m ρ c (Proc.devRef .tc main_arg7)
    _ = W15 m ρ c (Proc.devRef .tc main_arg7) := W16_of_ne m ρ c main_arg7 (by decide)
    _ = W14 m ρ c (Proc.devRef .tc main_arg7) := StableHlo.after_of_forall_not_mem (b := Proc.devRef .tc main_arg7) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg7) := W14_of_ne m ρ c main_arg7 (by decide)
    _ = W12 m ρ c (Proc.devRef .tc main_arg7) := StableHlo.after_of_forall_not_mem (b := Proc.devRef .tc main_arg7) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg7) := W12_of_ne m ρ c main_arg7 (by decide)
    _ = W10 m ρ c (Proc.devRef .tc main_arg7) := StableHlo.after_of_forall_not_mem (b := Proc.devRef .tc main_arg7) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg7) := W10_of_ne m ρ c main_arg7 (by decide)
    _ = W8 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Argument main_arg8 is still as launched at boundary 19. -/
theorem arg8_W19 (c : Dev nD) : W19 m ρ c (Proc.devRef .tc main_arg8) = W0 m ρ c (Proc.devRef .tc main_arg8) :=
  calc W19 m ρ c (Proc.devRef .tc main_arg8)
    _ = W18 m ρ c (Proc.devRef .tc main_arg8) := StableHlo.after_of_forall_not_mem (b := Proc.devRef .tc main_arg8) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_arg8) := W18_of_ne m ρ c main_arg8 (by decide)
    _ = W16 m ρ c (Proc.devRef .tc main_arg8) := StableHlo.after_of_forall_not_mem (b := Proc.devRef .tc main_arg8) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg8) := W16_of_ne m ρ c main_arg8 (by decide)
    _ = W14 m ρ c (Proc.devRef .tc main_arg8) := StableHlo.after_of_forall_not_mem (b := Proc.devRef .tc main_arg8) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg8) := W14_of_ne m ρ c main_arg8 (by decide)
    _ = W12 m ρ c (Proc.devRef .tc main_arg8) := StableHlo.after_of_forall_not_mem (b := Proc.devRef .tc main_arg8) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Argument main_arg9 is still as launched at boundary 18. -/
theorem arg9_W18 (c : Dev nD) : W18 m ρ c (Proc.devRef .tc main_arg9) = W0 m ρ c (Proc.devRef .tc main_arg9) :=
  calc W18 m ρ c (Proc.devRef .tc main_arg9)
    _ = W17 m ρ c (Proc.devRef .tc main_arg9) := W18_of_ne m ρ c main_arg9 (by decide)
    _ = W16 m ρ c (Proc.devRef .tc main_arg9) := StableHlo.after_of_forall_not_mem (b := Proc.devRef .tc main_arg9) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg9) := W16_of_ne m ρ c main_arg9 (by decide)
    _ = W14 m ρ c (Proc.devRef .tc main_arg9) := StableHlo.after_of_forall_not_mem (b := Proc.devRef .tc main_arg9) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg9) := W14_of_ne m ρ c main_arg9 (by decide)
    _ = W12 m ρ c (Proc.devRef .tc main_arg9) := StableHlo.after_of_forall_not_mem (b := Proc.devRef .tc main_arg9) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer main_v1, written by the first stretch, is unchanged at boundary 2. -/
theorem v1_W2 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

/-- Buffer main_v1, written by the first stretch, is unchanged at boundary 8. -/
theorem v1_W8 (c : Dev nD) : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

/-- Buffer main_v1, written by the first stretch, is unchanged at boundary 14. -/
theorem v1_W14 (c : Dev nD) : W14 m ρ c (Proc.devRef .tc main_v1) = W1 m ρ c (Proc.devRef .tc main_v1) :=
  calc W14 m ρ c (Proc.devRef .tc main_v1)
    _ = W13 m ρ c (Proc.devRef .tc main_v1) := W14_of_ne m ρ c main_v1 (by decide)
    _ = W12 m ρ c (Proc.devRef .tc main_v1) := StableHlo.after_of_forall_not_mem (b := Proc.devRef .tc main_v1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v1) := W12_of_ne m ρ c main_v1 (by decide)
    _ = W10 m ρ c (Proc.devRef .tc main_v1) := StableHlo.after_of_forall_not_mem (b := Proc.devRef .tc main_v1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v1) := W10_of_ne m ρ c main_v1 (by decide)
    _ = W8 m ρ c (Proc.devRef .tc main_v1) := StableHlo.after_of_forall_not_mem (b := Proc.devRef .tc main_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v1) := W8_of_ne m ρ c main_v1 (by decide)
    _ = W6 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

/-- Buffer main_v3, written by the first stretch, is unchanged at boundary 2. -/
theorem v3_W2 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

/-- Buffer main_v3, written by the first stretch, is unchanged at boundary 8. -/
theorem v3_W8 (c : Dev nD) : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- Buffer main_v3, written by the first stretch, is unchanged at boundary 14. -/
theorem v3_W14 (c : Dev nD) : W14 m ρ c (Proc.devRef .tc main_v3) = W1 m ρ c (Proc.devRef .tc main_v3) :=
  calc W14 m ρ c (Proc.devRef .tc main_v3)
    _ = W13 m ρ c (Proc.devRef .tc main_v3) := W14_of_ne m ρ c main_v3 (by decide)
    _ = W12 m ρ c (Proc.devRef .tc main_v3) := StableHlo.after_of_forall_not_mem (b := Proc.devRef .tc main_v3) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v3) := W12_of_ne m ρ c main_v3 (by decide)
    _ = W10 m ρ c (Proc.devRef .tc main_v3) := StableHlo.after_of_forall_not_mem (b := Proc.devRef .tc main_v3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v3) := W10_of_ne m ρ c main_v3 (by decide)
    _ = W8 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- The dinv column is unchanged at boundary 3. -/
theorem v11_W3 (c : Dev nD) : W3 m ρ c (Proc.devRef .tc main_v11) = W1 m ρ c (Proc.devRef .tc main_v11) :=
  calc W3 m ρ c (Proc.devRef .tc main_v11)
    _ = W2 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v11) := (W2_arr m ρ c 2).trans (((dat0 (V1 m ρ) c).arrAt_in 2 rfl _).trans (A_eq0 (V1 m ρ) c 2))

/-- The dinv column is unchanged at boundary 7. -/
theorem v11_W7 (c : Dev nD) : W7 m ρ c (Proc.devRef .tc main_v11) = W1 m ρ c (Proc.devRef .tc main_v11) :=
  calc W7 m ρ c (Proc.devRef .tc main_v11)
    _ = W6 m ρ c (Proc.devRef .tc main_v11) := StableHlo.after_of_forall_not_mem (b := Proc.devRef .tc main_v11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v11) := W6_of_ne m ρ c main_v11 (by decide)
    _ = W4 m ρ c (Proc.devRef .tc main_v11) := StableHlo.after_of_forall_not_mem (b := Proc.devRef .tc main_v11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v11) := (W4_arr m ρ c 4).trans (((dat1 (V3 m ρ) c).arrAt_in 4 rfl _).trans (A_eq1 (V3 m ρ) c 4))
    _ = W2 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v11) := (W2_arr m ρ c 2).trans (((dat0 (V1 m ρ) c).arrAt_in 2 rfl _).trans (A_eq0 (V1 m ρ) c 2))

/-- The dinv column is unchanged at boundary 9. -/
theorem v11_W9 (c : Dev nD) : W9 m ρ c (Proc.devRef .tc main_v11) = W1 m ρ c (Proc.devRef .tc main_v11) :=
  calc W9 m ρ c (Proc.devRef .tc main_v11)
    _ = W8 m ρ c (Proc.devRef .tc main_v11) := StableHlo.after_of_forall_not_mem (b := Proc.devRef .tc main_v11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v11) := (W8_arr m ρ c 2).trans (((dat3 (V7 m ρ) c).arrAt_in 2 rfl _).trans (A_eq3 (V7 m ρ) c 2))
    _ = W6 m ρ c (Proc.devRef .tc main_v11) := StableHlo.after_of_forall_not_mem (b := Proc.devRef .tc main_v11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v11) := W6_of_ne m ρ c main_v11 (by decide)
    _ = W4 m ρ c (Proc.devRef .tc main_v11) := StableHlo.after_of_forall_not_mem (b := Proc.devRef .tc main_v11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v11) := (W4_arr m ρ c 4).trans (((dat1 (V3 m ρ) c).arrAt_in 4 rfl _).trans (A_eq1 (V3 m ρ) c 4))
    _ = W2 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v11) := (W2_arr m ρ c 2).trans (((dat0 (V1 m ρ) c).arrAt_in 2 rfl _).trans (A_eq0 (V1 m ρ) c 2))

/-- The dinv column is unchanged at boundary 13. -/
theorem v11_W13 (c : Dev nD) : W13 m ρ c (Proc.devRef .tc main_v11) = W1 m ρ c (Proc.devRef .tc main_v11) :=
  calc W13 m ρ c (Proc.devRef .tc main_v11)
    _ = W12 m ρ c (Proc.devRef .tc main_v11) := StableHlo.after_of_forall_not_mem (b := Proc.devRef .tc main_v11) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v11) := W12_of_ne m ρ c main_v11 (by decide)
    _ = W10 m ρ c (Proc.devRef .tc main_v11) := StableHlo.after_of_forall_not_mem (b := Proc.devRef .tc main_v11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v11) := (W10_arr m ρ c 4).trans (((dat4 (V9 m ρ) c).arrAt_in 4 rfl _).trans (A_eq4 (V9 m ρ) c 4))
    _ = W8 m ρ c (Proc.devRef .tc main_v11) := StableHlo.after_of_forall_not_mem (b := Proc.devRef .tc main_v11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v11) := (W8_arr m ρ c 2).trans (((dat3 (V7 m ρ) c).arrAt_in 2 rfl _).trans (A_eq3 (V7 m ρ) c 2))
    _ = W6 m ρ c (Proc.devRef .tc main_v11) := StableHlo.after_of_forall_not_mem (b := Proc.devRef .tc main_v11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v11) := W6_of_ne m ρ c main_v11 (by decide)
    _ = W4 m ρ c (Proc.devRef .tc main_v11) := StableHlo.after_of_forall_not_mem (b := Proc.devRef .tc main_v11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v11) := (W4_arr m ρ c 4).trans (((dat1 (V3 m ρ) c).arrAt_in 4 rfl _).trans (A_eq1 (V3 m ρ) c 4))
    _ = W2 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v11) := (W2_arr m ρ c 2).trans (((dat0 (V1 m ρ) c).arrAt_in 2 rfl _).trans (A_eq0 (V1 m ρ) c 2))

/-- The dinv column is unchanged at boundary 15. -/
theorem v11_W15 (c : Dev nD) : W15 m ρ c (Proc.devRef .tc main_v11) = W1 m ρ c (Proc.devRef .tc main_v11) :=
  calc W15 m ρ c (Proc.devRef .tc main_v11)
    _ = W14 m ρ c (Proc.devRef .tc main_v11) := StableHlo.after_of_forall_not_mem (b := Proc.devRef .tc main_v11) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v11) := (W14_arr m ρ c 2).trans (((dat6 (V13 m ρ) c).arrAt_in 2 rfl _).trans (A_eq6 (V13 m ρ) c 2))
    _ = W12 m ρ c (Proc.devRef .tc main_v11) := StableHlo.after_of_forall_not_mem (b := Proc.devRef .tc main_v11) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v11) := W12_of_ne m ρ c main_v11 (by decide)
    _ = W10 m ρ c (Proc.devRef .tc main_v11) := StableHlo.after_of_forall_not_mem (b := Proc.devRef .tc main_v11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v11) := (W10_arr m ρ c 4).trans (((dat4 (V9 m ρ) c).arrAt_in 4 rfl _).trans (A_eq4 (V9 m ρ) c 4))
    _ = W8 m ρ c (Proc.devRef .tc main_v11) := StableHlo.after_of_forall_not_mem (b := Proc.devRef .tc main_v11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v11) := (W8_arr m ρ c 2).trans (((dat3 (V7 m ρ) c).arrAt_in 2 rfl _).trans (A_eq3 (V7 m ρ) c 2))
    _ = W6 m ρ c (Proc.devRef .tc main_v11) := StableHlo.after_of_forall_not_mem (b := Proc.devRef .tc main_v11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v11) := W6_of_ne m ρ c main_v11 (by decide)
    _ = W4 m ρ c (Proc.devRef .tc main_v11) := StableHlo.after_of_forall_not_mem (b := Proc.devRef .tc main_v11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v11) := (W4_arr m ρ c 4).trans (((dat1 (V3 m ρ) c).arrAt_in 4 rfl _).trans (A_eq1 (V3 m ρ) c 4))
    _ = W2 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v11) := (W2_arr m ρ c 2).trans (((dat0 (V1 m ρ) c).arrAt_in 2 rfl _).trans (A_eq0 (V1 m ρ) c 2))

/-- The zero array the running sum starts from is unchanged at region 2's entry. -/
theorem v12_W5 (c : Dev nD) : W5 m ρ c (Proc.devRef .tc main_v12) = W1 m ρ c (Proc.devRef .tc main_v12) :=
  calc W5 m ρ c (Proc.devRef .tc main_v12)
    _ = W4 m ρ c (Proc.devRef .tc main_v12) := StableHlo.after_of_forall_not_mem (b := Proc.devRef .tc main_v12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v12) := W4_of_ne m ρ c main_v12 (by decide)
    _ = W2 m ρ c (Proc.devRef .tc main_v12) := StableHlo.after_of_forall_not_mem (b := Proc.devRef .tc main_v12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v12) := W2_of_ne m ρ c main_v12 (by decide)

/-- Buffer main_v37_0, written back by a region, is unchanged at boundary 5. -/
theorem v37_0_W5 (c : Dev nD) : W5 m ρ c (Proc.devRef .tc main_v37_0) = W4 m ρ c (Proc.devRef .tc main_v37_0) :=
  calc W5 m ρ c (Proc.devRef .tc main_v37_0)
    _ = W4 m ρ c (Proc.devRef .tc main_v37_0) := StableHlo.after_of_forall_not_mem (b := Proc.devRef .tc main_v37_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer main_v52_0, written back by a region, is unchanged at boundary 7. -/
theorem v52_0_W7 (c : Dev nD) : W7 m ρ c (Proc.devRef .tc main_v52_0) = W6 m ρ c (Proc.devRef .tc main_v52_0) :=
  calc W7 m ρ c (Proc.devRef .tc main_v52_0)
    _ = W6 m ρ c (Proc.devRef .tc main_v52_0) := StableHlo.after_of_forall_not_mem (b := Proc.devRef .tc main_v52_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer main_v52_0, written back by a region, is unchanged at boundary 9. -/
theorem v52_0_W9 (c : Dev nD) : W9 m ρ c (Proc.devRef .tc main_v52_0) = W6 m ρ c (Proc.devRef .tc main_v52_0) :=
  calc W9 m ρ c (Proc.devRef .tc main_v52_0)
    _ = W8 m ρ c (Proc.devRef .tc main_v52_0) := StableHlo.after_of_forall_not_mem (b := Proc.devRef .tc main_v52_0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v52_0) := (W8_arr m ρ c 0).trans (((dat3 (V7 m ρ) c).arrAt_in 0 rfl _).trans (A_eq3 (V7 m ρ) c 0))
    _ = W6 m ρ c (Proc.devRef .tc main_v52_0) := StableHlo.after_of_forall_not_mem (b := Proc.devRef .tc main_v52_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer main_v52_1, written back by a region, is unchanged at boundary 11. -/
theorem v52_1_W11 (c : Dev nD) : W11 m ρ c (Proc.devRef .tc main_v52_1) = W6 m ρ c (Proc.devRef .tc main_v52_1) :=
  calc W11 m ρ c (Proc.devRef .tc main_v52_1)
    _ = W10 m ρ c (Proc.devRef .tc main_v52_1) := StableHlo.after_of_forall_not_mem (b := Proc.devRef .tc main_v52_1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v52_1) := W10_of_ne m ρ c main_v52_1 (by decide)
    _ = W8 m ρ c (Proc.devRef .tc main_v52_1) := StableHlo.after_of_forall_not_mem (b := Proc.devRef .tc main_v52_1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v52_1) := W8_of_ne m ρ c main_v52_1 (by decide)
    _ = W6 m ρ c (Proc.devRef .tc main_v52_1) := StableHlo.after_of_forall_not_mem (b := Proc.devRef .tc main_v52_1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer main_v77_0, written back by a region, is unchanged at boundary 11. -/
theorem v77_0_W11 (c : Dev nD) : W11 m ρ c (Proc.devRef .tc main_v77_0) = W10 m ρ c (Proc.devRef .tc main_v77_0) :=
  calc W11 m ρ c (Proc.devRef .tc main_v77_0)
    _ = W10 m ρ c (Proc.devRef .tc main_v77_0) := StableHlo.after_of_forall_not_mem (b := Proc.devRef .tc main_v77_0) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer main_v92_0, written back by a region, is unchanged at boundary 13. -/
theorem v92_0_W13 (c : Dev nD) : W13 m ρ c (Proc.devRef .tc main_v92_0) = W12 m ρ c (Proc.devRef .tc main_v92_0) :=
  calc W13 m ρ c (Proc.devRef .tc main_v92_0)
    _ = W12 m ρ c (Proc.devRef .tc main_v92_0) := StableHlo.after_of_forall_not_mem (b := Proc.devRef .tc main_v92_0) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer main_v92_0, written back by a region, is unchanged at boundary 15. -/
theorem v92_0_W15 (c : Dev nD) : W15 m ρ c (Proc.devRef .tc main_v92_0) = W12 m ρ c (Proc.devRef .tc main_v92_0) :=
  calc W15 m ρ c (Proc.devRef .tc main_v92_0)
    _ = W14 m ρ c (Proc.devRef .tc main_v92_0) := StableHlo.after_of_forall_not_mem (b := Proc.devRef .tc main_v92_0) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v92_0) := (W14_arr m ρ c 0).trans (((dat6 (V13 m ρ) c).arrAt_in 0 rfl _).trans (A_eq6 (V13 m ρ) c 0))
    _ = W12 m ρ c (Proc.devRef .tc main_v92_0) := StableHlo.after_of_forall_not_mem (b := Proc.devRef .tc main_v92_0) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer main_v92_1, written back by a region, is unchanged at boundary 17. -/
theorem v92_1_W17 (c : Dev nD) : W17 m ρ c (Proc.devRef .tc main_v92_1) = W12 m ρ c (Proc.devRef .tc main_v92_1) :=
  calc W17 m ρ c (Proc.devRef .tc main_v92_1)
    _ = W16 m ρ c (Proc.devRef .tc main_v92_1) := StableHlo.after_of_forall_not_mem (b := Proc.devRef .tc main_v92_1) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v92_1) := W16_of_ne m ρ c main_v92_1 (by decide)
    _ = W14 m ρ c (Proc.devRef .tc main_v92_1) := StableHlo.after_of_forall_not_mem (b := Proc.devRef .tc main_v92_1) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v92_1) := W14_of_ne m ρ c main_v92_1 (by decide)
    _ = W12 m ρ c (Proc.devRef .tc main_v92_1) := StableHlo.after_of_forall_not_mem (b := Proc.devRef .tc main_v92_1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer main_v117_0, written back by a region, is unchanged at boundary 17. -/
theorem v117_0_W17 (c : Dev nD) : W17 m ρ c (Proc.devRef .tc main_v117_0) = W16 m ρ c (Proc.devRef .tc main_v117_0) :=
  calc W17 m ρ c (Proc.devRef .tc main_v117_0)
    _ = W16 m ρ c (Proc.devRef .tc main_v117_0) := StableHlo.after_of_forall_not_mem (b := Proc.devRef .tc main_v117_0) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Buffer main_v132_1, written back by a region, is unchanged at boundary 19. -/
theorem v132_1_W19 (c : Dev nD) : W19 m ρ c (Proc.devRef .tc main_v132_1) = W18 m ρ c (Proc.devRef .tc main_v132_1) :=
  calc W19 m ρ c (Proc.devRef .tc main_v132_1)
    _ = W18 m ρ c (Proc.devRef .tc main_v132_1) := StableHlo.after_of_forall_not_mem (b := Proc.devRef .tc main_v132_1) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Walk

end
-- ==== Proof.BlockOps.lean ====
/-
  The tiled kernels' vector operations read at an index, at the ideal instance, over the program's own shape records:
  a block product `[5000, K] · [K, N]` into a zero accumulator is the plain sum of products along `K`; a column
  `[5000, 1]` or a row `[1, N]` broadcast to `[5000, N]` reads its one entry on the unit axis; the sum of a block's rows
  `[5000, 128] → [128]` is the sum over the 5000 rows; a `[128]` vector cast to a `[1, 128]` row reads the same entries.
-/
import proofs.«134443_j73787538145745_2_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.BlockOps

open Cert.KernelIdeal
open Idealize.ShloMosaic Idealize.ShloMosaic.ValueIdx

/-! ## The block products -/

/-- Entry `(p, q)` of a `[5000, 128]` block times a `[128, 128]` matrix, accumulated into zero. -/
theorem matmul128_apply {φ₁ φ₂ : FTy} (a : FVec Ideal S5000x128 φ₁) (b : FVec Ideal S128x128 φ₂) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  show FloatOps.matmul dot_S5000x128_S128x128_S5000x128_1_0_0_1_n_n none a b (constant (F := Ideal) S5000x128 .f32 0x00000000#32) (ix2 p q) = _
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k := funext fun c => Fin.ext (by
    match c with
    | ⟨0, _⟩ =>
      show (dot_S5000x128_S128x128_S5000x128_1_0_0_1_n_n.lhsIdx (ix2 p q) _ 0).val = p.val
      unfold DotDims.lhsIdx
      rw [dif_neg (show ¬(0 : Fin S5000x128.rank) ∈ dot_S5000x128_S128x128_S5000x128_1_0_0_1_n_n.lhsBatch by decide),
        dif_pos (show (0 : Fin S5000x128.rank) ∈ dot_S5000x128_S128x128_S5000x128_1_0_0_1_n_n.lhsNonContracting by decide)]
      rfl
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q)
      ((contrEquiv1 dot_S5000x128_S128x128_S5000x128_1_0_0_1_n_n 128 rfl rfl).symm k) = ix2 k q := funext fun c => Fin.ext (by
    match c with
    | ⟨0, _⟩ => exact (dot_S5000x128_S128x128_S5000x128_1_0_0_1_n_n.rhsIdx_val_of_single rfl (ix2 p q) _).trans hk
    | ⟨1, _⟩ =>
      show (dot_S5000x128_S128x128_S5000x128_1_0_0_1_n_n.rhsIdx (ix2 p q) _ 1).val = q.val
      unfold DotDims.rhsIdx
      rw [dif_neg (show ¬(1 : Fin S128x128.rank) ∈ dot_S5000x128_S128x128_S5000x128_1_0_0_1_n_n.rhsBatch by decide),
        dif_pos (show (1 : Fin S128x128.rank) ∈ dot_S5000x128_S128x128_S5000x128_1_0_0_1_n_n.rhsNonContracting by decide)]
      rfl)
  rw [el, er]

/-- Entry `(p, q)` of a `[5000, 128]` block times the `[128, 64]` projection, accumulated into zero. -/
theorem matmul64_apply {φ₁ φ₂ : FTy} (a : FVec Ideal S5000x128 φ₁) (b : FVec Ideal S128x64 φ₂) (p : Fin 5000) (q : Fin 64) :
    matmul dot_S5000x128_S128x64_S5000x64_1_0_0_1_n_n none a b (constant (F := Ideal) S5000x64 .f32 0x00000000#32) (ix2 p q)
      = ∑ k : Fin 128, a (ix2 p k) * b (ix2 k q) := by
  show FloatOps.matmul dot_S5000x128_S128x64_S5000x64_1_0_0_1_n_n none a b (constant (F := Ideal) S5000x64 .f32 0x00000000#32) (ix2 p q) = _
  rw [Ideal.matmul_constant_zero_apply,
    ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q)
      ((contrEquiv1 dot_S5000x128_S128x64_S5000x64_1_0_0_1_n_n 128 rfl rfl).symm k) = ix2 p k := funext fun c => Fin.ext (by
    match c with
    | ⟨0, _⟩ =>
      show (dot_S5000x128_S128x64_S5000x64_1_0_0_1_n_n.lhsIdx (ix2 p q) _ 0).val = p.val
      unfold DotDims.lhsIdx
      rw [dif_neg (show ¬(0 : Fin S5000x128.rank) ∈ dot_S5000x128_S128x64_S5000x64_1_0_0_1_n_n.lhsBatch by decide),
        dif_pos (show (0 : Fin S5000x128.rank) ∈ dot_S5000x128_S128x64_S5000x64_1_0_0_1_n_n.lhsNonContracting by decide)]
      rfl
    | ⟨1, _⟩ => exact (dot_S5000x128_S128x64_S5000x64_1_0_0_1_n_n.lhsIdx_val_of_single rfl (ix2 p q) _).trans hk)
  have er : dot_S5000x128_S128x64_S5000x64_1_0_0_1_n_n.rhsIdx (ix2 p q)
      ((contrEquiv1 dot_S5000x128_S128x64_S5000x64_1_0_0_1_n_n 128 rfl rfl).symm k) = ix2 k q := funext fun c => Fin.ext (by
    match c with
    | ⟨0, _⟩ => exact (dot_S5000x128_S128x64_S5000x64_1_0_0_1_n_n.rhsIdx_val_of_single rfl (ix2 p q) _).trans hk
    | ⟨1, _⟩ =>
      show (dot_S5000x128_S128x64_S5000x64_1_0_0_1_n_n.rhsIdx (ix2 p q) _ 1).val = q.val
      unfold DotDims.rhsIdx
      rw [dif_neg (show ¬(1 : Fin S128x64.rank) ∈ dot_S5000x128_S128x64_S5000x64_1_0_0_1_n_n.rhsBatch by decide),
        dif_pos (show (1 : Fin S128x64.rank) ∈ dot_S5000x128_S128x64_S5000x64_1_0_0_1_n_n.rhsNonContracting by decide)]
      rfl)
  rw [el, er]

/-! ## Broadcasts -/

/-- A column broadcast along the features reads the row's one entry. -/
theorem bcastCol_apply {α : Type} (v : S5000x1.Idx → α) (p : Fin 5000) (q : Fin 128) :
    broadcastTo S5000x128 v Facts₀.broadcasts_S5000x1_S5000x128 (ix2 p q) = v (ix2 p (0 : Fin 1)) :=
  broadcastTo_apply v Facts₀.broadcasts_S5000x1_S5000x128 (ix2 p q) (ix2 p (0 : Fin 1)) (fun a => by
    match a with
    | ⟨0, _⟩ => rfl
    | ⟨1, _⟩ => rfl)

/-- A row broadcast along the nodes reads the feature's one entry. -/
theorem bcastRow_apply {α : Type} (v : S1x128.Idx → α) (p : Fin 5000) (q : Fin 128) :
    broadcastTo S5000x128 v Facts₀.broadcasts_S1x128_S5000x128 (ix2 p q) = v (ix2 (0 : Fin 1) q) :=
  broadcastTo_apply v Facts₀.broadcasts_S1x128_S5000x128 (ix2 p q) (ix2 (0 : Fin 1) q) (fun a => by
    match a with
    | ⟨0, _⟩ => rfl
    | ⟨1, _⟩ => rfl)

/-- The same for the 64-wide output row. -/
theorem bcastRow64_apply {α : Type} (v : S1x64.Idx → α) (p : Fin 5000) (q : Fin 64) :
    broadcastTo S5000x64 v Facts₀.broadcasts_S1x64_S5000x64 (ix2 p q) = v (ix2 (0 : Fin 1) q) :=
  broadcastTo_apply v Facts₀.broadcasts_S1x64_S5000x64 (ix2 p q) (ix2 (0 : Fin 1) q) (fun a => by
    match a with
    | ⟨0, _⟩ => rfl
    | ⟨1, _⟩ => rfl)

/-! ## The sum of a block's rows -/

/-- The sum over the 5000 rows of a block, feature `q`. -/
theorem rowSum_apply (v : FVec Ideal S5000x128 .f32) (hφ : FKind.Formats .f32)
    (hacc : (0x00000000#32 : BitVec 32) = FKind.add.neutral .f32 hφ) (q : Fin 128) :
    multiReduction .add [0] S128 v 0x00000000#32 Facts₀.reduces_S5000x128_S128 hφ hacc (ix1 q) = ∑ p : Fin 5000, v (ix2 p q) := by
  refine (Ideal.multiReduction_add_single v 0x00000000#32 Facts₀.reduces_S5000x128_S128 hφ hacc (ix1 q)).trans ?_
  refine Finset.sum_congr rfl fun p _ => congrArg v (funext fun c => Fin.ext ?_)
  match c with
  | ⟨0, _⟩ => rfl
  | ⟨1, _⟩ => rfl

/-- A `[128]` vector cast to a `[1, 128]` row. -/
theorem castRow_apply {α : Type} (v : S128.Idx → α) (q : Fin 128) :
    shapeCast S1x128 v Facts₀.shapeCasts_S128_S1x128 (ix2 (0 : Fin 1) q) = v (ix1 q) :=
  shapeCast_apply v Facts₀.shapeCasts_S128_S1x128 (ix2 (0 : Fin 1) q) (ix1 q) (by
    rw [Shape.rowMajor_val_one, Shape.rowMajor_val_two]
    show q.val = (0 : Fin 1).val * 128 + q.val
    simp)

end Cert.KernelIdeal.BlockOps

end
-- ==== Proof.ScaledRows0.lean ====
/-
  The first tiled region of a layer (region 0): each grid point takes a block of 5000 node rows, multiplies it by the
  layer's `Wg`, and scales every row by that node's `dinv`.  The blocks tile the node axis, so after the region the
  output array holds, at node `n` and feature `d`, `(∑ k, h[n, k] · Wg[k, d]) · dinv[n]` of the arrays the region was
  entered with (the narrowing to a 16-bit format on the way out is the identity on the extended reals).
-/
import proofs.«134443_j73787538145745_2_alg».proof.Proof.Gen.KernelIdeal.Frame
import proofs.«134443_j73787538145745_2_alg».proof.Proof.BlockOps
import Idealize.ShloMosaic.Lib.Pipeline.Value

set_option maxRecDepth 16384

noncomputable section

namespace Cert.KernelIdeal.ScaledRows0

open Cert.KernelIdeal Cert.KernelIdeal.Gen Cert.KernelIdeal.BlockOps
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The region's result as one function of its three input arrays: rows of `x` against `W`, row `n` scaled by `dv n`. -/
def scaledRows (x : S50000x128.Idx → EReal) (W : S128x128.Idx → EReal) (dv : S50000x1.Idx → EReal) : S50000x128.Idx → EReal :=
  fun i => (∑ k : Fin 128, x (ix2 (i 0) k) * W (ix2 k (i 1))) * dv (ix2 (i 0) (0 : Fin 1))

/-- The body's stored value at row `p`, feature `q` of a block, from the three loaded blocks. -/
theorem pay_apply (x0 : Vec Ideal S5000x128 .f32) (x1 : Vec Ideal S128x128 .f32) (x2 : Vec Ideal S5000x1 .f32)
    (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  rw [truncf_apply, mulf_apply, matmul128_apply, bcastCol_apply, shapeCast_self, shapeCast_self]
  rfl

/-- The same at a general index of the block. -/
theorem pay_at (x0 : Vec Ideal S5000x128 .f32) (x1 : Vec Ideal S128x128 .f32) (x2 : Vec Ideal S5000x1 .f32) (j : S5000x128.Idx) :
    k0_pay1 (F := Ideal) x0 x1 x2 j = (∑ k : Fin 128, x0 (ix2 (j 0) k) * x1 (ix2 k (j 1))) * x2 (ix2 (j 0) (0 : Fin 1)) := by
  exact (congrArg (k0_pay1 (F := Ideal) x0 x1 x2) (eq_ix2 j)).trans (pay_apply x0 x1 x2 (j 0) (j 1))

/-- The printed index maps over the ten grid points: the row-block windows move with the point, the weight window
    stays at block (0, 0). -/
theorem idx_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p`, feature `k` of input window 0's block at point `t` is row `t · 5000 + p` of its array. -/
theorem blk0_apply (c : Dev nD) (t : Fin cfg0.N) (p : Fin 5000) (k : Fin 128) (hp : t.val * 5000 + p.val < 50000) :
    iblk0 V c 0 t (ix2 p k) = V c (Pipeline.arrRef spec0 0) (ix2 ⟨t.val * 5000 + p.val, hp⟩ k) := by
  obtain ⟨e0, e1, e2, e3, e4, e5, e6, e7⟩ := idx_facts t
  show V c (Pipeline.arrRef spec0 0) (((cfg0.win 0).blk t).view.emb (ix2 p k)) = _
  refine congrArg (V c (Pipeline.arrRef spec0 0)) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The weight window's block is the whole matrix. -/
theorem blk1_apply (c : Dev nD) (t : Fin cfg0.N) (k : Fin 128) (q : Fin 128) :
    iblk0 V c 1 t (ix2 k q) = V c (Pipeline.arrRef spec0 1) (ix2 k q) := by
  obtain ⟨e0, e1, e2, e3, e4, e5, e6, e7⟩ := idx_facts t
  show V c (Pipeline.arrRef spec0 1) (((cfg0.win 1).blk t).view.emb (ix2 k q)) = _
  refine congrArg (V c (Pipeline.arrRef spec0 1)) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Row `p` of the `dinv` window's block at point `t` is entry `t · 5000 + p` of its column. -/
theorem blk2_apply (c : Dev nD) (t : Fin cfg0.N) (p : Fin 5000) (hp : t.val * 5000 + p.val < 50000) :
    iblk0 V c 2 t (ix2 p (0 : Fin 1)) = V c (Pipeline.arrRef spec0 2) (ix2 ⟨t.val * 5000 + p.val, hp⟩ (0 : Fin 1)) := by
  obtain ⟨e0, e1, e2, e3, e4, e5, e6, e7⟩ := idx_facts t
  show V c (Pipeline.arrRef spec0 2) (((cfg0.win 2).blk t).view.emb (ix2 p (0 : Fin 1))) = _
  refine congrArg (V c (Pipeline.arrRef spec0 2)) (funext fun a => Fin.ext ?_)
  match a with
  | ⟨0, _⟩ => show win0_2.index t (0 : Fin 2) * 5000 + 1 * p.val = t.val * 5000 + p.val; omega
  | ⟨1, _⟩ => show win0_2.index t (1 : Fin 2) * 1 + 1 * (0 : Fin 1).val = (0 : Fin 1).val; omega

/-- WHAT POINT `t` WRITES BACK is block `t` of `scaledRows` of the arrays the region was entered with. -/
theorem flushed_eq (c : Dev nD) (t : Fin cfg0.N) :
    (dat0 V c).flushed 3 t = ((cfg0.win 3).blk t).view.read (Elt Ideal)
      (scaledRows (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e0, e1, e2, e3, e4, e5, e6, e7⟩ := idx_facts t
  have ht : t.val < 10 := t.isLt
  funext j
  have hj0 : (j 0).val < 5000 := (j 0).isLt
  have hj1 : (j 1).val < 128 := (j 1).isLt
  have hrow : t.val * 5000 + (j 0).val < 50000 := by omega
  show k0_pay1 (F := Ideal) (iblk0 V c 0 t) (iblk0 V c 1 t) (iblk0 V c 2 t) j
    = scaledRows (V c (Pipeline.arrRef spec0 0)) (V c (Pipeline.arrRef spec0 1)) (V c (Pipeline.arrRef spec0 2))
        (((cfg0.win 3).blk t).view.emb j)
  have hemb : ((cfg0.win 3).blk t).view.emb j = ix2 (⟨t.val * 5000 + (j 0).val, hrow⟩ : Fin 50000) (⟨(j 1).val, hj1⟩ : Fin 128) := by
    funext a; apply Fin.ext
    match a with
    | ⟨0, _⟩ => show win0_3.index t (0 : Fin 2) * 5000 + 1 * (j 0).val = t.val * 5000 + (j 0).val; omega
    | ⟨1, _⟩ => show win0_3.index t (1 : Fin 2) * 128 + 1 * (j 1).val = (j 1).val; omega
  rw [hemb]
  refine (pay_at _ _ _ j).trans ?_
  unfold scaledRows
  refine congrArg₂ (· * ·) (Finset.sum_congr rfl fun k _ => congrArg₂ (· * ·) ?_ ?_) ?_
  · exact blk0_apply V c t (j 0) k hrow
  · exact blk1_apply V c t k (j 1)
  · exact blk2_apply V c t (j 0) hrow

/-- An index of the output array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole (Pipeline.arrRef spec0 3)).slice (win0_3.rect t)).set ↔ _
  rw [View.set_slice_whole, Rect.mem_set_unit]
  exact Iff.rfl

/-- Every node row is in the block of the point `row / 5000`. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  refine ⟨⟨(i 0).val / 5000, by show (i 0).val / 5000 < 10; omega⟩, flush0_3 _, ?_⟩
  rw [mem_blk]
  obtain ⟨e0, e1, -⟩ := idx_facts ⟨(i 0).val / 5000, by show (i 0).val / 5000 < 10; omega⟩
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e1]; omega

/-- THE OUTPUT ARRAY after the region. -/
theorem final (c : Dev nD) : (dat0 V c).arrAt 3 cfg0.N
    = scaledRows (V c (Pipeline.arrRef spec0 0)) (V c (Pipeline.arrRef spec0 1)) (V c (Pipeline.arrRef spec0 2)) :=
  (dat0 V c).arrAt_eq_of_cover 3 _ (fun t _ => flushed_eq V c t) cover

end Cert.KernelIdeal.ScaledRows0

end
-- ==== Proof.Combine1.lean ====
/-
  The second tiled region of a layer (region 1): each grid point takes a block of 5000 nodes and forms their
  pre-activations `(((dinv·agg + (dinv·dinv)·(h·Wg)) + bg) + h·Wl) + bl`, writes the block back, and adds the block's
  column sums and the column sums of its squares into two rows that stay in place across the grid: zeroed at the first
  point, written back after the last.  So after the region the first output holds every node's pre-activation, and the
  two rows hold, feature by feature, the sum over all 50000 nodes of the pre-activations and of their squares (on the
  extended reals the ten blockwise partial sums re-associate into one sum with no finiteness needed).
-/
import proofs.«134443_j73787538145745_2_alg».proof.Proof.Gen.KernelIdeal.Frame
import proofs.«134443_j73787538145745_2_alg».proof.Proof.BlockOps
import Idealize.ShloMosaic.Lib.Pipeline.Value
import Idealize.ShloMosaic.Lib.Tactic

set_option maxRecDepth 16384

noncomputable section

namespace Cert.KernelIdeal.Combine1

open Cert.KernelIdeal Cert.KernelIdeal.Gen Cert.KernelIdeal.BlockOps
open Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

/-! ## What each case of the body leaves in each output buffer

The body's one conditional (taken at the first grid point only) zeroes the two running rows.  In either case the block
of pre-activations is the one store of `k1_pay5`; the running sum row is the store of `k1_pay1` over what the row held
(the zero row just stored, in the first case; what the point before left, in the other), and likewise `k1_pay2` for the
running sum of squares.  The payload takes its blocks in the order (h, Wl, Wg, dinv, agg, bg, bl). -/

/-- First point: the block of pre-activations. -/
theorem out_A_7 (c : Dev nD) (i : grid1.Coords) (a1 : Memref sig .tc .vmem S5000x128 .f32) (h1 : a1.IsWhole) (a2 : Memref sig .tc .vmem S128x128 .f32) (h2 : a2.IsWhole) (a3 : Memref sig .tc .vmem S128x128 .f32) (h3 : a3.IsWhole) (a4 : Memref sig .tc .vmem S5000x128 .f32) (h4 : a4.IsWhole) (a5 : Memref sig .tc .vmem S5000x1 .f32) (h5 : a5.IsWhole) (a6 : Memref sig .tc .vmem S1x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond1_0 i) (x0 : Vec Ideal S5000x128 .f32) (x1 : Vec Ideal S128x128 .f32) (x2 : Vec Ideal S128x128 .f32) (x3 : Vec Ideal S5000x128 .f32) (x4 : Vec Ideal S5000x1 .f32) (x5 : Vec Ideal S1x128 .f32) (x6 : Vec Ideal S1x128 .f32) :
    out1_A_7 (F := Ideal) c i a1 h1 a2 h2 a3 h3 a4 h4 a5 h5 a6 h6 a7 h7 a8 h8 a9 h9 a10 h10 hc x0 x1 x2 x3 x4 x5 x6 = k1_pay5 x0 x1 x2 x4 x3 x5 x6 := by
  unfold out1_A_7
  rw [View.read_writes_eq_canon _ _ _ (cover1_A_7 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_unit_zero (S := S5000x128) hz]
  simp only [View.readAt_eq_ld, h1.read_unread, h2.read_unread, h3.read_unread, h4.read_unread, h5.read_unread, h6.read_unread, h7.read_unread, View.ld_unit_zero (S := S5000x128) hz, View.ld_unit_zero (S := S128x128) hz, View.ld_unit_zero (S := S5000x1) hz, View.ld_unit_zero (S := S1x128) hz]

/-- First point: the sum row is the zero row plus the block's column sums. -/
theorem out_A_8 (c : Dev nD) (i : grid1.Coords) (a1 : Memref sig .tc .vmem S5000x128 .f32) (h1 : a1.IsWhole) (a2 : Memref sig .tc .vmem S128x128 .f32) (h2 : a2.IsWhole) (a3 : Memref sig .tc .vmem S128x128 .f32) (h3 : a3.IsWhole) (a4 : Memref sig .tc .vmem S5000x128 .f32) (h4 : a4.IsWhole) (a5 : Memref sig .tc .vmem S5000x1 .f32) (h5 : a5.IsWhole) (a6 : Memref sig .tc .vmem S1x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond1_0 i) (x0 : Vec Ideal S5000x128 .f32) (x1 : Vec Ideal S128x128 .f32) (x2 : Vec Ideal S128x128 .f32) (x3 : Vec Ideal S5000x128 .f32) (x4 : Vec Ideal S5000x1 .f32) (x5 : Vec Ideal S1x128 .f32) (x6 : Vec Ideal S1x128 .f32) :
    out1_A_8 (F := Ideal) c i a1 h1 a2 h2 a3 h3 a4 h4 a5 h5 a6 h6 a7 h7 a8 h8 a9 h9 a10 h10 hc x0 x1 x2 x3 x4 x5 x6 = k1_pay1 (k1_pay5 x0 x1 x2 x4 x3 x5 x6) (k1_pay6 (k1_pay3 (F := Ideal))) := by
  unfold out1_A_8
  rw [View.read_writes_eq_canon _ _ _ (cover1_A_8 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, View.ld_unit_zero (S := S5000x128) hz, View.ld_unit_zero (S := S128x128) hz, View.ld_unit_zero (S := S5000x1) hz, View.ld_unit_zero (S := S1x128) hz]

/-- First point: the sum-of-squares row is the zero row plus the column sums of the block's squares. -/
theorem out_A_9 (c : Dev nD) (i : grid1.Coords) (a1 : Memref sig .tc .vmem S5000x128 .f32) (h1 : a1.IsWhole) (a2 : Memref sig .tc .vmem S128x128 .f32) (h2 : a2.IsWhole) (a3 : Memref sig .tc .vmem S128x128 .f32) (h3 : a3.IsWhole) (a4 : Memref sig .tc .vmem S5000x128 .f32) (h4 : a4.IsWhole) (a5 : Memref sig .tc .vmem S5000x1 .f32) (h5 : a5.IsWhole) (a6 : Memref sig .tc .vmem S1x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond1_0 i) (x0 : Vec Ideal S5000x128 .f32) (x1 : Vec Ideal S128x128 .f32) (x2 : Vec Ideal S128x128 .f32) (x3 : Vec Ideal S5000x128 .f32) (x4 : Vec Ideal S5000x1 .f32) (x5 : Vec Ideal S1x128 .f32) (x6 : Vec Ideal S1x128 .f32) :
    out1_A_9 (F := Ideal) c i a1 h1 a2 h2 a3 h3 a4 h4 a5 h5 a6 h6 a7 h7 a8 h8 a9 h9 a10 h10 hc x0 x1 x2 x3 x4 x5 x6 = k1_pay2 (k1_pay5 x0 x1 x2 x4 x3 x5 x6) (k1_pay4 (F := Ideal)) := by
  unfold out1_A_9
  rw [View.read_writes_eq_canon _ _ _ (cover1_A_9 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, View.ld_unit_zero (S := S5000x128) hz, View.ld_unit_zero (S := S128x128) hz, View.ld_unit_zero (S := S5000x1) hz, View.ld_unit_zero (S := S1x128) hz]

/-- A later point: the block of pre-activations. -/
theorem out_B_7 (c : Dev nD) (i : grid1.Coords) (a1 : Memref sig .tc .vmem S5000x128 .f32) (h1 : a1.IsWhole) (a2 : Memref sig .tc .vmem S128x128 .f32) (h2 : a2.IsWhole) (a3 : Memref sig .tc .vmem S128x128 .f32) (h3 : a3.IsWhole) (a4 : Memref sig .tc .vmem S5000x128 .f32) (h4 : a4.IsWhole) (a5 : Memref sig .tc .vmem S5000x1 .f32) (h5 : a5.IsWhole) (a6 : Memref sig .tc .vmem S1x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond1_0 i) (x0 : Vec Ideal S5000x128 .f32) (x1 : Vec Ideal S128x128 .f32) (x2 : Vec Ideal S128x128 .f32) (x3 : Vec Ideal S5000x128 .f32) (x4 : Vec Ideal S5000x1 .f32) (x5 : Vec Ideal S1x128 .f32) (x6 : Vec Ideal S1x128 .f32) (xo8 : Vec Ideal S1x128 .f32) (xo9 : Vec Ideal S1x128 .f32) :
    out1_B_7 (F := Ideal) c i a1 h1 a2 h2 a3 h3 a4 h4 a5 h5 a6 h6 a7 h7 a8 h8 a9 h9 a10 h10 hc x0 x1 x2 x3 x4 x5 x6 xo8 xo9 = k1_pay5 x0 x1 x2 x4 x3 x5 x6 := by
  unfold out1_B_7
  rw [View.read_writes_eq_canon _ _ _ (cover1_B_7 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero (S := S5000x128) hz]
  simp only [View.readAt_eq_ld, h1.read_unread, h2.read_unread, h3.read_unread, h4.read_unread, h5.read_unread, h6.read_unread, h7.read_unread, View.ld_unit_zero (S := S5000x128) hz, View.ld_unit_zero (S := S128x128) hz, View.ld_unit_zero (S := S5000x1) hz, View.ld_unit_zero (S := S1x128) hz]

/-- A later point: the sum row is what it held plus the block's column sums. -/
theorem out_B_8 (c : Dev nD) (i : grid1.Coords) (a1 : Memref sig .tc .vmem S5000x128 .f32) (h1 : a1.IsWhole) (a2 : Memref sig .tc .vmem S128x128 .f32) (h2 : a2.IsWhole) (a3 : Memref sig .tc .vmem S128x128 .f32) (h3 : a3.IsWhole) (a4 : Memref sig .tc .vmem S5000x128 .f32) (h4 : a4.IsWhole) (a5 : Memref sig .tc .vmem S5000x1 .f32) (h5 : a5.IsWhole) (a6 : Memref sig .tc .vmem S1x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond1_0 i) (x0 : Vec Ideal S5000x128 .f32) (x1 : Vec Ideal S128x128 .f32) (x2 : Vec Ideal S128x128 .f32) (x3 : Vec Ideal S5000x128 .f32) (x4 : Vec Ideal S5000x1 .f32) (x5 : Vec Ideal S1x128 .f32) (x6 : Vec Ideal S1x128 .f32) (xo8 : Vec Ideal S1x128 .f32) (xo9 : Vec Ideal S1x128 .f32) :
    out1_B_8 (F := Ideal) c i a1 h1 a2 h2 a3 h3 a4 h4 a5 h5 a6 h6 a7 h7 a8 h8 a9 h9 a10 h10 hc x0 x1 x2 x3 x4 x5 x6 xo8 xo9 = k1_pay1 (k1_pay5 x0 x1 x2 x4 x3 x5 x6) (k1_pay6 xo8) := by
  unfold out1_B_8
  rw [View.read_writes_eq_canon _ _ _ (cover1_B_8 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero (S := S1x128) hz]
  simp only [View.readAt_eq_ld, h1.read_unread, h2.read_unread, h3.read_unread, h4.read_unread, h5.read_unread, h6.read_unread, h7.read_unread, h9.read_unread, View.ld_unit_zero (S := S5000x128) hz, View.ld_unit_zero (S := S128x128) hz, View.ld_unit_zero (S := S5000x1) hz, View.ld_unit_zero (S := S1x128) hz]

/-- A later point: the sum-of-squares row is what it held plus the column sums of the block's squares. -/
theorem out_B_9 (c : Dev nD) (i : grid1.Coords) (a1 : Memref sig .tc .vmem S5000x128 .f32) (h1 : a1.IsWhole) (a2 : Memref sig .tc .vmem S128x128 .f32) (h2 : a2.IsWhole) (a3 : Memref sig .tc .vmem S128x128 .f32) (h3 : a3.IsWhole) (a4 : Memref sig .tc .vmem S5000x128 .f32) (h4 : a4.IsWhole) (a5 : Memref sig .tc .vmem S5000x1 .f32) (h5 : a5.IsWhole) (a6 : Memref sig .tc .vmem S1x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond1_0 i) (x0 : Vec Ideal S5000x128 .f32) (x1 : Vec Ideal S128x128 .f32) (x2 : Vec Ideal S128x128 .f32) (x3 : Vec Ideal S5000x128 .f32) (x4 : Vec Ideal S5000x1 .f32) (x5 : Vec Ideal S1x128 .f32) (x6 : Vec Ideal S1x128 .f32) (xo8 : Vec Ideal S1x128 .f32) (xo9 : Vec Ideal S1x128 .f32) :
    out1_B_9 (F := Ideal) c i a1 h1 a2 h2 a3 h3 a4 h4 a5 h5 a6 h6 a7 h7 a8 h8 a9 h9 a10 h10 hc x0 x1 x2 x3 x4 x5 x6 xo8 xo9 = k1_pay2 (k1_pay5 x0 x1 x2 x4 x3 x5 x6) xo9 := by
  unfold out1_B_9
  rw [View.read_writes_eq_canon _ _ _ (cover1_B_9 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero (S := S1x128) hz]
  simp only [View.readAt_eq_ld, h1.read_unread, h2.read_unread, h3.read_unread, h4.read_unread, h5.read_unread, h6.read_unread, h7.read_unread, h10.read_unread, View.ld_unit_zero (S := S5000x128) hz, View.ld_unit_zero (S := S128x128) hz, View.ld_unit_zero (S := S5000x1) hz, View.ld_unit_zero (S := S1x128) hz]

/-! ## The stored values, entry by entry -/

/-- Row `p`, feature `q` of the block of pre-activations, from the seven loaded blocks:
    `(((dinv·agg + (dinv·dinv)·(h·Wg)) + bg) + h·Wl) + bl`. -/
theorem pay5_apply (x0 : Vec Ideal S5000x128 .f32) (x1 : Vec Ideal S128x128 .f32) (x2 : Vec Ideal S128x128 .f32)
    (x4 : Vec Ideal S5000x1 .f32) (x3 : Vec Ideal S5000x128 .f32) (x5 : Vec Ideal S1x128 .f32) (x6 : Vec Ideal S1x128 .f32)
    (p : Fin 5000) (q : Fin 128) :
    k1_pay5 (F := Ideal) x0 x1 x2 x4 x3 x5 x6 (ix2 p q)
      = (((x4 (ix2 p (0 : Fin 1)) * x3 (ix2 p q)
            + (x4 (ix2 p (0 : Fin 1)) * x4 (ix2 p (0 : Fin 1))) * (∑ k : Fin 128, x0 (ix2 p k) * x2 (ix2 k q)))
          + x5 (ix2 (0 : Fin 1) q))
        + (∑ k : Fin 128, x0 (ix2 p k) * x1 (ix2 k q)))
      + x6 (ix2 (0 : Fin 1) q) := by
  unfold k1_pay5
  simp only [shapeCast_self]
  rw [addf_apply, addf_apply, addf_apply, addf_apply, mulf_apply, mulf_apply, bcastCol_apply, bcastCol_apply,
    bcastRow_apply, bcastRow_apply, matmul128_apply, matmul128_apply, mulf_apply]
  rfl

/-- Feature `q` of the new sum row: the old entry plus the sum of the block's 5000 rows. -/
theorem pay1_apply (v31 : FVec Ideal S5000x128 .f32) (v34 : FVec Ideal S1x128 .f32) (q : Fin 128) :
    k1_pay1 (F := Ideal) v31 v34 (ix2 (0 : Fin 1) q) = v34 (ix2 (0 : Fin 1) q) + ∑ p : Fin 5000, v31 (ix2 p q) := by
  unfold k1_pay1
  dsimp only
  refine (addf_apply _ _ _).trans (congrArg (v34 (ix2 (0 : Fin 1) q) + ·) ?_)
  refine (castRow_apply _ q).trans ?_
  exact rowSum_apply v31 _ _ q

/-- Feature `q` of the new sum-of-squares row: the old entry plus the sum of the squares of the block's 5000 rows. -/
theorem pay2_apply (v31 : FVec Ideal S5000x128 .f32) (v39 : Vec Ideal S1x128 .f32) (q : Fin 128) :
    k1_pay2 (F := Ideal) v31 v39 (ix2 (0 : Fin 1) q)
      = v39 (ix2 (0 : Fin 1) q) + ∑ p : Fin 5000, v31 (ix2 p q) * v31 (ix2 p q) := by
  unfold k1_pay2
  dsimp only
  refine (addf_apply _ _ _).trans (congrArg₂ (· + ·) (congrFun (shapeCast_self v39 _) _) ?_)
  refine (castRow_apply _ q).trans ?_
  exact rowSum_apply (mulf v31 v31) _ _ q

/-- The two rows the first point stores before accumulating are zero, -/
theorem pay3_apply (j : S1x128.Idx) : k1_pay3 (F := Ideal) j = 0 := Ideal.ofBits_zero_f32
theorem pay4_apply (j : S1x128.Idx) : k1_pay4 (F := Ideal) j = 0 := Ideal.ofBits_zero_f32

/-- and the running row is read as it is. -/
theorem pay6_eq (v33 : Vec Ideal S1x128 .f32) : k1_pay6 (F := Ideal) v33 = v33 := shapeCast_self v33 _

variable (V : (c : Dev nD) → (b : Ref sig .tc) → Buf (Elt Ideal) ((c : Thread nD τ).loc b))

/-! ## The region's result as one function of its input arrays -/

/-- The pre-activation of node `n`, feature `d`, from the node features `h`, the two weight matrices, the aggregated
    neighbour features `agg`, the degree scalings `dv` and the two bias rows:
    `(((dv n · agg n d + (dv n · dv n) · ∑ₖ h n k · Wg k d) + bg d) + ∑ₖ h n k · Wl k d) + bl d`. -/
def preArr (h : S50000x128.Idx → EReal) (Wl Wg : S128x128.Idx → EReal) (agg : S50000x128.Idx → EReal)
    (dv : S50000x1.Idx → EReal) (bg bl : S1x128.Idx → EReal) : S50000x128.Idx → EReal :=
  fun i => (((dv (ix2 (i 0) (0 : Fin 1)) * agg i
        + (dv (ix2 (i 0) (0 : Fin 1)) * dv (ix2 (i 0) (0 : Fin 1))) * (∑ k : Fin 128, h (ix2 (i 0) k) * Wg (ix2 k (i 1))))
      + bg (ix2 (0 : Fin 1) (i 1)))
    + (∑ k : Fin 128, h (ix2 (i 0) k) * Wl (ix2 k (i 1))))
  + bl (ix2 (0 : Fin 1) (i 1))

theorem preArr_apply (h : S50000x128.Idx → EReal) (Wl Wg : S128x128.Idx → EReal) (agg : S50000x128.Idx → EReal)
    (dv : S50000x1.Idx → EReal) (bg bl : S1x128.Idx → EReal) (n : Fin 50000) (q : Fin 128) :
    preArr h Wl Wg agg dv bg bl (ix2 n q)
      = (((dv (ix2 n (0 : Fin 1)) * agg (ix2 n q)
            + (dv (ix2 n (0 : Fin 1)) * dv (ix2 n (0 : Fin 1))) * (∑ k : Fin 128, h (ix2 n k) * Wg (ix2 k q)))
          + bg (ix2 (0 : Fin 1) q))
        + (∑ k : Fin 128, h (ix2 n k) * Wl (ix2 k q)))
      + bl (ix2 (0 : Fin 1) q) := rfl

/-- The region's pre-activations, of the arrays the region was entered with. -/
abbrev pre (c : Dev nD) : S50000x128.Idx → EReal := preArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))

/-! ## The windows' blocks read off their arrays -/

/-- The printed index maps over the ten grid points: the four row-block windows move with the point, the weights, the
    bias rows and the two running rows stay at block (0, 0). -/
theorem idx_facts : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0) :=
  (by decide +kernel : ∀ t : Fin grid1.N, _)

/-- Row `p`, feature `k` of the node-feature block at point `t` is row `t · 5000 + p` of its array. -/
theorem blk0_apply (c : Dev nD) (t : Fin cfg1.N) (p : Fin 5000) (k : Fin 128) (hp : t.val * 5000 + p.val < 50000) :
    iblk1 V c 0 t (ix2 p k) = V c (Pipeline.arrRef spec1 0) (ix2 ⟨t.val * 5000 + p.val, hp⟩ k) := by
  obtain ⟨⟨e0, e1⟩, -⟩ := idx_facts t
  show V c (Pipeline.arrRef spec1 0) (((cfg1.win 0).blk t).view.emb (ix2 p k)) = _
  refine congrArg (V c (Pipeline.arrRef spec1 0)) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- The first weight window's block is the whole matrix. -/
theorem blk1_apply (c : Dev nD) (t : Fin cfg1.N) (k : Fin 128) (q : Fin 128) :
    iblk1 V c 1 t (ix2 k q) = V c (Pipeline.arrRef spec1 1) (ix2 k q) := by
  obtain ⟨-, ⟨e0, e1⟩, -⟩ := idx_facts t
  show V c (Pipeline.arrRef spec1 1) (((cfg1.win 1).blk t).view.emb (ix2 k q)) = _
  refine congrArg (V c (Pipeline.arrRef spec1 1)) (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- The second weight window's block is the whole matrix. -/
theorem blk2_apply (c : Dev nD) (t : Fin cfg1.N) (k : Fin 128) (q : Fin 128) :
    iblk1 V c 2 t (ix2 k q) = V c (Pipeline.arrRef spec1 2) (ix2 k q) := by
  obtain ⟨-, -, ⟨e0, e1⟩, -⟩ := idx_facts t
  show V c (Pipeline.arrRef spec1 2) (((cfg1.win 2).blk t).view.emb (ix2 k q)) = _
  refine congrArg (V c (Pipeline.arrRef spec1 2)) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- Row `p`, feature `q` of the aggregate block at point `t` is row `t · 5000 + p` of its array. -/
theorem blk3_apply (c : Dev nD) (t : Fin cfg1.N) (p : Fin 5000) (q : Fin 128) (hp : t.val * 5000 + p.val < 50000) :
    iblk1 V c 3 t (ix2 p q) = V c (Pipeline.arrRef spec1 3) (ix2 ⟨t.val * 5000 + p.val, hp⟩ q) := by
  obtain ⟨-, -, -, ⟨e0, e1⟩, -⟩ := idx_facts t
  show V c (Pipeline.arrRef spec1 3) (((cfg1.win 3).blk t).view.emb (ix2 p q)) = _
  refine congrArg (V c (Pipeline.arrRef spec1 3)) (funext fun a => Fin.ext ?_)
  match a with
  | ⟨0, _⟩ => show win1_3.index t (0 : Fin 2) * 5000 + 1 * p.val = t.val * 5000 + p.val; omega
  | ⟨1, _⟩ => show win1_3.index t (1 : Fin 2) * 128 + 1 * q.val = q.val; omega

/-- Row `p` of the scaling block at point `t` is entry `t · 5000 + p` of its column. -/
theorem blk4_apply (c : Dev nD) (t : Fin cfg1.N) (p : Fin 5000) (hp : t.val * 5000 + p.val < 50000) :
    iblk1 V c 4 t (ix2 p (0 : Fin 1)) = V c (Pipeline.arrRef spec1 4) (ix2 ⟨t.val * 5000 + p.val, hp⟩ (0 : Fin 1)) := by
  obtain ⟨-, -, -, -, ⟨e0, e1⟩, -⟩ := idx_facts t
  show V c (Pipeline.arrRef spec1 4) (((cfg1.win 4).blk t).view.emb (ix2 p (0 : Fin 1))) = _
  refine congrArg (V c (Pipeline.arrRef spec1 4)) (funext fun a => Fin.ext ?_)
  match a with
  | ⟨0, _⟩ => show win1_4.index t (0 : Fin 2) * 5000 + 1 * p.val = t.val * 5000 + p.val; omega
  | ⟨1, _⟩ => show win1_4.index t (1 : Fin 2) * 1 + 1 * (0 : Fin 1).val = (0 : Fin 1).val; omega

/-- The first bias window's block is the whole row. -/
theorem blk5_apply (c : Dev nD) (t : Fin cfg1.N) (q : Fin 128) :
    iblk1 V c 5 t (ix2 (0 : Fin 1) q) = V c (Pipeline.arrRef spec1 5) (ix2 (0 : Fin 1) q) := by
  obtain ⟨-, -, -, -, -, ⟨e0, e1⟩, -⟩ := idx_facts t
  show V c (Pipeline.arrRef spec1 5) (((cfg1.win 5).blk t).view.emb (ix2 (0 : Fin 1) q)) = _
  refine congrArg (V c (Pipeline.arrRef spec1 5)) (funext fun a => Fin.ext ?_)
  match a with
  | ⟨0, _⟩ => show win1_5.index t (0 : Fin 2) * 1 + 1 * (0 : Fin 1).val = (0 : Fin 1).val; omega
  | ⟨1, _⟩ => show win1_5.index t (1 : Fin 2) * 128 + 1 * q.val = q.val; omega

/-- The second bias window's block is the whole row. -/
theorem blk6_apply (c : Dev nD) (t : Fin cfg1.N) (q : Fin 128) :
    iblk1 V c 6 t (ix2 (0 : Fin 1) q) = V c (Pipeline.arrRef spec1 6) (ix2 (0 : Fin 1) q) := by
  obtain ⟨-, -, -, -, -, -, ⟨e0, e1⟩, -⟩ := idx_facts t
  show V c (Pipeline.arrRef spec1 6) (((cfg1.win 6).blk t).view.emb (ix2 (0 : Fin 1) q)) = _
  refine congrArg (V c (Pipeline.arrRef spec1 6)) (funext fun a => Fin.ext ?_)
  match a with
  | ⟨0, _⟩ => show win1_6.index t (0 : Fin 2) * 1 + 1 * (0 : Fin 1).val = (0 : Fin 1).val; omega
  | ⟨1, _⟩ => show win1_6.index t (1 : Fin 2) * 128 + 1 * q.val = q.val; omega

/-! ## The block of pre-activations at a grid point -/

/-- What every point stores in the first output's buffer: the payload of the seven window blocks. -/
def preBlk (c : Dev nD) (t : Fin cfg1.N) : Vec Ideal S5000x128 .f32 :=
  k1_pay5 (F := Ideal) (iblk1 V c 0 t) (iblk1 V c 1 t) (iblk1 V c 2 t) (iblk1 V c 4 t) (iblk1 V c 3 t) (iblk1 V c 5 t) (iblk1 V c 6 t)

/-- Row `p`, feature `q` of that block is the pre-activation of node `t · 5000 + p`. -/
theorem preBlk_apply (c : Dev nD) (t : Fin cfg1.N) (p : Fin 5000) (q : Fin 128) (hp : t.val * 5000 + p.val < 50000) :
    preBlk V c t (ix2 p q) = pre V c (ix2 ⟨t.val * 5000 + p.val, hp⟩ q) := by
  unfold preBlk
  refine (pay5_apply _ _ _ _ _ _ _ p q).trans ?_
  refine Eq.trans ?_ (preArr_apply _ _ _ _ _ _ _ ⟨t.val * 5000 + p.val, hp⟩ q).symm
  refine congrArg₂ (· + ·) (congrArg₂ (· + ·) (congrArg₂ (· + ·) (congrArg₂ (· + ·) (congrArg₂ (· * ·) ?_ ?_)
    (congrArg₂ (· * ·) (congrArg₂ (· * ·) ?_ ?_) (Finset.sum_congr rfl fun k _ => congrArg₂ (· * ·) ?_ ?_))) ?_)
    (Finset.sum_congr rfl fun k _ => congrArg₂ (· * ·) ?_ ?_)) ?_
  · exact blk4_apply V c t p hp
  · exact blk3_apply V c t p q hp
  · exact blk4_apply V c t p hp
  · exact blk4_apply V c t p hp
  · exact blk0_apply V c t p k hp
  · exact blk2_apply V c t k q
  · exact blk5_apply V c t q
  · exact blk0_apply V c t p k hp
  · exact blk1_apply V c t k q
  · exact blk6_apply V c t q

/-! ## What the three buffers hold after each point -/

/-- At the first point: the block, and the zero rows plus the block's column sums. -/
theorem at_A (c : Dev nD) (t : Fin cfg1.N) (h0 : t.val % 10 = 0) :
    outsAt1 V c t.val t.isLt
      = (preBlk V c t, k1_pay1 (F := Ideal) (preBlk V c t) (k1_pay6 (k1_pay3 (F := Ideal))),
          k1_pay2 (F := Ideal) (preBlk V c t) (k1_pay4 (F := Ideal))) :=
  (outsAt1_A V c t h0).trans (congrArg₂ Prod.mk
    (out_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t))
    (congrArg₂ Prod.mk
      (out_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t))
      (out_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t))))

/-- At a later point: the block, and the rows the point before left plus the block's column sums. -/
theorem at_B (c : Dev nD) (t : Fin cfg1.N) (h0 : ¬t.val % 10 = 0) :
    outsAt1 V c t.val t.isLt
      = (preBlk V c t, k1_pay1 (F := Ideal) (preBlk V c t) (k1_pay6 (outsAt1 V c (t.val - 1) (Nat.lt_of_le_of_lt (Nat.sub_le _ _) t.isLt)).2.1),
          k1_pay2 (F := Ideal) (preBlk V c t) (outsAt1 V c (t.val - 1) (Nat.lt_of_le_of_lt (Nat.sub_le _ _) t.isLt)).2.2) :=
  (outsAt1_B V c t h0).trans (congrArg₂ Prod.mk
    (out_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2)
    (congrArg₂ Prod.mk
      (out_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2)
      (out_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2)))

/-- Every point leaves its block of pre-activations in the first output's buffer. -/
theorem out7_eq (c : Dev nD) (t : Fin cfg1.N) : (outsAt1 V c t.val t.isLt).1 = preBlk V c t := by
  by_cases h0 : t.val % 10 = 0
  · exact congrArg Prod.fst (at_A V c t h0)
  · exact congrArg Prod.fst (at_B V c t h0)

/-! ## The running rows are partial sums over the nodes -/

/-- Node `r`'s entry at feature `q` of a node-indexed array, zero past the last node: the summand of the partial sums. -/
def term (φ : S50000x128.Idx → EReal) (q : Fin 128) (r : ℕ) : EReal :=
  if h : r < 50000 then φ (ix2 ⟨r, h⟩ q) else 0

/-- The column sum of a block whose rows are the nodes `t · 5000, …, t · 5000 + 4999` is the sum of those 5000 terms. -/
theorem blkSum (φ : S50000x128.Idx → EReal) (q : Fin 128) (t : ℕ) (ht : t < 10) (X : Fin 5000 → EReal)
    (hX : ∀ (p : Fin 5000) (hp : t * 5000 + p.val < 50000), X p = φ (ix2 ⟨t * 5000 + p.val, hp⟩ q)) :
    ∑ p : Fin 5000, X p = ∑ r ∈ Finset.range 5000, term φ q (t * 5000 + r) := by
  rw [Finset.sum_range]
  refine Finset.sum_congr rfl fun p _ => ?_
  have hp : t * 5000 + p.val < 50000 := by have := p.isLt; omega
  rw [hX p hp]
  unfold term
  rw [dif_pos hp]

/-- Adding block `t`'s column sum to the sum over the nodes below `t · 5000` gives the sum over the nodes below
    `(t + 1) · 5000`. -/
theorem sum_extend (φ : S50000x128.Idx → EReal) (q : Fin 128) (t : ℕ) (ht : t < 10) (X : Fin 5000 → EReal)
    (hX : ∀ (p : Fin 5000) (hp : t * 5000 + p.val < 50000), X p = φ (ix2 ⟨t * 5000 + p.val, hp⟩ q)) :
    ∑ r ∈ Finset.range (t * 5000), term φ q r + ∑ p : Fin 5000, X p = ∑ r ∈ Finset.range ((t + 1) * 5000), term φ q r := by
  rw [show (t + 1) * 5000 = t * 5000 + 5000 by omega, Finset.sum_range_add, blkSum φ q t ht X hX]

/-- The sum over the nodes below `10 · 5000` is the sum over all nodes. -/
theorem total (φ : S50000x128.Idx → EReal) (q : Fin 128) (n : ℕ) (h9 : n = 9) :
    ∑ r ∈ Finset.range ((n + 1) * 5000), term φ q r = ∑ m : Fin 50000, φ (ix2 m q) := by
  subst h9
  rw [show (9 + 1) * 5000 = 50000 by norm_num, Finset.sum_range]
  refine Finset.sum_congr rfl fun m _ => ?_
  unfold term
  rw [dif_pos m.isLt]

/-- THE INVARIANT.  After point `n` the sum row holds, at feature `q`, the sum of the pre-activations of the nodes
    below `(n + 1) · 5000`, and the sum-of-squares row the sum of their squares: zero plus the first block's column sums
    at the first point, the row the point before left plus this block's column sums after. -/
theorem acc_eq (c : Dev nD) : ∀ (n : ℕ) (hn : n < cfg1.N),
    (∀ q : Fin 128, (outsAt1 V c n hn).2.1 (ix2 (0 : Fin 1) q)
        = ∑ r ∈ Finset.range ((n + 1) * 5000), term (pre V c) q r)
    ∧ (∀ q : Fin 128, (outsAt1 V c n hn).2.2 (ix2 (0 : Fin 1) q)
        = ∑ r ∈ Finset.range ((n + 1) * 5000), term (fun i => pre V c i * pre V c i) q r)
  | 0, hn => by
    have e := at_A V c ⟨0, hn⟩ rfl
    have hN : (0 : ℕ) < 10 := by omega
    refine ⟨fun q => ?_, fun q => ?_⟩
    · refine (congrFun (congrArg (fun x => x.2.1) e) (ix2 (0 : Fin 1) q)).trans ?_
      refine (pay1_apply _ _ q).trans ?_
      refine Eq.trans (congrArg (fun z => z + ∑ p : Fin 5000, preBlk V c ⟨0, hn⟩ (ix2 p q))
        (?_ : _ = ∑ r ∈ Finset.range (0 * 5000), term (pre V c) q r))
        (sum_extend (pre V c) q 0 hN (fun p => preBlk V c ⟨0, hn⟩ (ix2 p q)) (fun p hp => preBlk_apply V c ⟨0, hn⟩ p q hp))
      rw [pay6_eq, pay3_apply, Nat.zero_mul, Finset.range_zero, Finset.sum_empty]
    · refine (congrFun (congrArg (fun x => x.2.2) e) (ix2 (0 : Fin 1) q)).trans ?_
      refine (pay2_apply _ _ q).trans ?_
      refine Eq.trans (congrArg (fun z => z + ∑ p : Fin 5000, preBlk V c ⟨0, hn⟩ (ix2 p q) * preBlk V c ⟨0, hn⟩ (ix2 p q))
        (?_ : _ = ∑ r ∈ Finset.range (0 * 5000), term (fun i => pre V c i * pre V c i) q r))
        (sum_extend (fun i => pre V c i * pre V c i) q 0 hN (fun p => preBlk V c ⟨0, hn⟩ (ix2 p q) * preBlk V c ⟨0, hn⟩ (ix2 p q))
          (fun p hp => congrArg₂ (· * ·) (preBlk_apply V c ⟨0, hn⟩ p q hp) (preBlk_apply V c ⟨0, hn⟩ p q hp)))
      rw [pay4_apply, Nat.zero_mul, Finset.range_zero, Finset.sum_empty]
  | n + 1, hn => by
    have hN10 : cfg1.N = 10 := N_1
    have hN : n + 1 < 10 := by omega
    have hB : ¬(⟨n + 1, hn⟩ : Fin cfg1.N).val % 10 = 0 := by dsimp only; omega
    have e := at_B V c ⟨n + 1, hn⟩ hB
    obtain ⟨ih8, ih9⟩ := acc_eq c n (Nat.lt_of_succ_lt hn)
    refine ⟨fun q => ?_, fun q => ?_⟩
    · refine (congrFun (congrArg (fun x => x.2.1) e) (ix2 (0 : Fin 1) q)).trans ?_
      refine (pay1_apply _ _ q).trans ?_
      refine Eq.trans (congrArg (fun z => z + ∑ p : Fin 5000, preBlk V c ⟨n + 1, hn⟩ (ix2 p q))
        (?_ : _ = ∑ r ∈ Finset.range ((n + 1) * 5000), term (pre V c) q r))
        (sum_extend (pre V c) q (n + 1) hN (fun p => preBlk V c ⟨n + 1, hn⟩ (ix2 p q)) (fun p hp => preBlk_apply V c ⟨n + 1, hn⟩ p q hp))
      rw [pay6_eq]
      exact ih8 q
    · refine (congrFun (congrArg (fun x => x.2.2) e) (ix2 (0 : Fin 1) q)).trans ?_
      refine (pay2_apply _ _ q).trans ?_
      refine Eq.trans (congrArg (fun z => z + ∑ p : Fin 5000, preBlk V c ⟨n + 1, hn⟩ (ix2 p q) * preBlk V c ⟨n + 1, hn⟩ (ix2 p q))
        (?_ : _ = ∑ r ∈ Finset.range ((n + 1) * 5000), term (fun i => pre V c i * pre V c i) q r))
        (sum_extend (fun i => pre V c i * pre V c i) q (n + 1) hN (fun p => preBlk V c ⟨n + 1, hn⟩ (ix2 p q) * preBlk V c ⟨n + 1, hn⟩ (ix2 p q))
          (fun p hp => congrArg₂ (· * ·) (preBlk_apply V c ⟨n + 1, hn⟩ p q hp) (preBlk_apply V c ⟨n + 1, hn⟩ p q hp)))
      exact ih9 q

/-! ## From the blocks to the arrays -/

/-- WHAT POINT `t` WRITES BACK to the first output is block `t` of the pre-activations. -/
theorem flushed7_eq (c : Dev nD) (t : Fin cfg1.N) :
    (dat1 V c).flushed 7 t = ((cfg1.win 7).blk t).view.read (Elt Ideal) (pre V c) := by
  show (cfg1.win 7).cut (grid1.coords t) ((dat1 V c).after 7 t) = _
  rw [after1_7, out7_eq V c t]
  obtain ⟨-, -, -, -, -, -, -, ⟨e0, e1⟩, -⟩ := idx_facts t
  have ht : t.val < 10 := t.isLt
  funext j
  have hj0 : (j 0).val < 5000 := (j 0).isLt
  have hj1 : (j 1).val < 128 := (j 1).isLt
  have hrow : t.val * 5000 + (j 0).val < 50000 := by omega
  show preBlk V c t j = pre V c (((cfg1.win 7).blk t).view.emb j)
  have hemb : ((cfg1.win 7).blk t).view.emb j = ix2 (⟨t.val * 5000 + (j 0).val, hrow⟩ : Fin 50000) (j 1) := by
    funext a; apply Fin.ext
    match a with
    | ⟨0, _⟩ => show win1_7.index t (0 : Fin 2) * 5000 + 1 * (j 0).val = t.val * 5000 + (j 0).val; omega
    | ⟨1, _⟩ => show win1_7.index t (1 : Fin 2) * 128 + 1 * (j 1).val = (j 1).val; omega
  rw [hemb]
  exact (congrArg (preBlk V c t) (eq_ix2 j)).trans (preBlk_apply V c t (j 0) (j 1) hrow)

/-- An index of the first output is in point `t`'s block iff each coordinate is in the block's range on its axis. -/
theorem mem_blk7 (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole (Pipeline.arrRef spec1 7)).slice (win1_7.rect t)).set ↔ _
  rw [View.set_slice_whole, Rect.mem_set_unit]
  exact Iff.rfl

/-- Every node row is in the block of the point `row / 5000`. -/
theorem cover7 (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  refine ⟨⟨(i 0).val / 5000, by show (i 0).val / 5000 < 10; omega⟩, flush1_7 _, ?_⟩
  rw [mem_blk7]
  obtain ⟨-, -, -, -, -, -, -, ⟨e0, e1⟩, -⟩ := idx_facts ⟨(i 0).val / 5000, by show (i 0).val / 5000 < 10; omega⟩
  intro a
  match a with
  | ⟨0, _⟩ =>
    show win1_7.index _ (0 : Fin 2) * 5000 ≤ (i 0).val ∧ (i 0).val < win1_7.index _ (0 : Fin 2) * 5000 + 5000
    rw [e0]; show (i 0).val / 5000 * 5000 ≤ (i 0).val ∧ (i 0).val < (i 0).val / 5000 * 5000 + 5000; omega
  | ⟨1, _⟩ =>
    show win1_7.index _ (1 : Fin 2) * 128 ≤ (i 1).val ∧ (i 1).val < win1_7.index _ (1 : Fin 2) * 128 + 128
    rw [e1]; omega

/-- THE FIRST OUTPUT ARRAY after the region: every node's pre-activation. -/
theorem final7 (c : Dev nD) : (dat1 V c).arrAt 7 cfg1.N = (preArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) :=
  (dat1 V c).arrAt_eq_of_cover 7 _ (fun t _ => flushed7_eq V c t) cover7

/-- The last of the ten grid points: the only one that writes the two running rows back. -/
abbrev tLast1 : Fin cfg1.N := ⟨9, by show 9 < 10; omega⟩

/-- Feature by feature, the sum of a node-indexed array over all 50000 nodes. -/
def colSums (φ : S50000x128.Idx → EReal) : S1x128.Idx → EReal := fun i => ∑ n : Fin 50000, φ (ix2 n (i 1))

/-- WHAT THE LAST POINT WRITES BACK to the sum row: feature by feature, the sum over all nodes of the pre-activations.
    Only the last point writes this row back; by then the row holds the sum over the nodes below `10 · 5000`. -/
theorem flushed8_eq (c : Dev nD) (t : Fin cfg1.N) (hf : (cfg1.win 8).flush t = true) :
    (dat1 V c).flushed 8 t = ((cfg1.win 8).blk t).view.read (Elt Ideal) (colSums (pre V c)) := by
  have ht : t.val < 10 := t.isLt
  have h9 : t.val = 9 := by have := (flush1_8 t).mp hf; omega
  have hX : ∀ q : Fin 128, (outsAt1 V c t.val t.isLt).2.1 (ix2 (0 : Fin 1) q) = colSums (pre V c) (ix2 (0 : Fin 1) q) :=
    fun q => ((acc_eq V c t.val t.isLt).1 q).trans (total (pre V c) q t.val h9)
  show (cfg1.win 8).cut (grid1.coords t) ((dat1 V c).after 8 t) = _
  rw [after1_8]
  generalize (outsAt1 V c t.val t.isLt).2.1 = X at hX
  have hXG : X = colSums (pre V c) := funext fun i => by
    have hi0 : (i 0).val < 1 := (i 0).isLt
    have hi : i = ix2 (0 : Fin 1) (i 1) := by
      funext a
      match a with
      | ⟨0, _⟩ => exact Fin.ext (by show (i 0).val = 0; omega)
      | ⟨1, _⟩ => rfl
    exact (congrArg X hi).trans ((hX (i 1)).trans (congrArg (colSums (pre V c)) hi).symm)
  subst hXG
  obtain rfl : t = tLast1 := Fin.ext h9
  obtain ⟨-, -, -, -, -, -, -, -, ⟨e80, e81⟩, ⟨e90, e91⟩⟩ := idx_facts tLast1
  have hz' : (fun a => win1_8.index tLast1 a * (Pipeline.arrRef spec1 8).ty.shape.size a) = fun _ => 0 :=
    funext fun a => by
      match a with
      | ⟨0, _⟩ => show win1_8.index tLast1 (0 : Fin 2) * 1 = 0; rw [e80]
      | ⟨1, _⟩ => show win1_8.index tLast1 (1 : Fin 2) * 128 = 0; rw [e81]
  exact (Memref.read_access_unit_zero (Elt Ideal) (Pipeline.arrRef spec1 8) hz'
    (fun a => le_of_eq (by have h := congrFun hz' a; dsimp only at h; rw [h, Nat.zero_add])) (colSums (pre V c))).symm

/-- An index of the sum row is in point `t`'s block iff each coordinate is in the block's range on its axis. -/
theorem mem_blk8 (t : Fin cfg1.N) (i : S1x128.Idx) :
    i ∈ ((cfg1.win 8).blk t).view.set ↔ ∀ a : Fin 2, win1_8.index t a * S1x128.size a ≤ (i a).val
      ∧ (i a).val < win1_8.index t a * S1x128.size a + S1x128.size a := by
  show i ∈ ((View.whole (Pipeline.arrRef spec1 8)).slice (win1_8.rect t)).set ↔ _
  rw [View.set_slice_whole, Rect.mem_set_unit]
  exact Iff.rfl

/-- The row is one block, and the last point writes it back. -/
theorem cover8 (i : S1x128.Idx) : ∃ t : Fin cfg1.N, (cfg1.win 8).flush t = true ∧ i ∈ ((cfg1.win 8).blk t).view.set := by
  have hi0 : (i 0).val < 1 := (i 0).isLt
  have hi1 : (i 1).val < 128 := (i 1).isLt
  refine ⟨tLast1, (flush1_8 _).mpr rfl, ?_⟩
  rw [mem_blk8]
  obtain ⟨-, -, -, -, -, -, -, -, ⟨e80, e81⟩, ⟨e90, e91⟩⟩ := idx_facts tLast1
  intro a
  match a with
  | ⟨0, _⟩ =>
    show win1_8.index _ (0 : Fin 2) * 1 ≤ (i 0).val ∧ (i 0).val < win1_8.index _ (0 : Fin 2) * 1 + 1
    rw [e80]; omega
  | ⟨1, _⟩ =>
    show win1_8.index _ (1 : Fin 2) * 128 ≤ (i 1).val ∧ (i 1).val < win1_8.index _ (1 : Fin 2) * 128 + 128
    rw [e81]; omega

/-- THE SECOND OUTPUT ARRAY after the region: feature by feature, the sum of the pre-activations over all 50000 nodes. -/
theorem final8 (c : Dev nD) : (dat1 V c).arrAt 8 cfg1.N
    = (fun i => ∑ n : Fin 50000, (preArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) (ix2 n (i 1)) : S1x128.Idx → EReal) :=
  (dat1 V c).arrAt_eq_of_cover 8 (colSums (pre V c)) (fun t hf => flushed8_eq V c t hf) cover8

/-- WHAT THE LAST POINT WRITES BACK to the sum-of-squares row: feature by feature, the sum over all nodes of the squares of the pre-activations.
    Only the last point writes this row back; by then the row holds the sum over the nodes below `10 · 5000`. -/
theorem flushed9_eq (c : Dev nD) (t : Fin cfg1.N) (hf : (cfg1.win 9).flush t = true) :
    (dat1 V c).flushed 9 t = ((cfg1.win 9).blk t).view.read (Elt Ideal) (colSums (fun i => pre V c i * pre V c i)) := by
  have ht : t.val < 10 := t.isLt
  have h9 : t.val = 9 := by have := (flush1_9 t).mp hf; omega
  have hX : ∀ q : Fin 128, (outsAt1 V c t.val t.isLt).2.2 (ix2 (0 : Fin 1) q) = colSums (fun i => pre V c i * pre V c i) (ix2 (0 : Fin 1) q) :=
    fun q => ((acc_eq V c t.val t.isLt).2 q).trans (total (fun i => pre V c i * pre V c i) q t.val h9)
  show (cfg1.win 9).cut (grid1.coords t) ((dat1 V c).after 9 t) = _
  rw [after1_9]
  generalize (outsAt1 V c t.val t.isLt).2.2 = X at hX
  have hXG : X = colSums (fun i => pre V c i * pre V c i) := funext fun i => by
    have hi0 : (i 0).val < 1 := (i 0).isLt
    have hi : i = ix2 (0 : Fin 1) (i 1) := by
      funext a
      match a with
      | ⟨0, _⟩ => exact Fin.ext (by show (i 0).val = 0; omega)
      | ⟨1, _⟩ => rfl
    exact (congrArg X hi).trans ((hX (i 1)).trans (congrArg (colSums (fun i => pre V c i * pre V c i)) hi).symm)
  subst hXG
  obtain rfl : t = tLast1 := Fin.ext h9
  obtain ⟨-, -, -, -, -, -, -, -, ⟨e80, e81⟩, ⟨e90, e91⟩⟩ := idx_facts tLast1
  have hz' : (fun a => win1_9.index tLast1 a * (Pipeline.arrRef spec1 9).ty.shape.size a) = fun _ => 0 :=
    funext fun a => by
      match a with
      | ⟨0, _⟩ => show win1_9.index tLast1 (0 : Fin 2) * 1 = 0; rw [e90]
      | ⟨1, _⟩ => show win1_9.index tLast1 (1 : Fin 2) * 128 = 0; rw [e91]
  exact (Memref.read_access_unit_zero (Elt Ideal) (Pipeline.arrRef spec1 9) hz'
    (fun a => le_of_eq (by have h := congrFun hz' a; dsimp only at h; rw [h, Nat.zero_add])) (colSums (fun i => pre V c i * pre V c i))).symm

/-- An index of the sum-of-squares row is in point `t`'s block iff each coordinate is in the block's range on its axis. -/
theorem mem_blk9 (t : Fin cfg1.N) (i : S1x128.Idx) :
    i ∈ ((cfg1.win 9).blk t).view.set ↔ ∀ a : Fin 2, win1_9.index t a * S1x128.size a ≤ (i a).val
      ∧ (i a).val < win1_9.index t a * S1x128.size a + S1x128.size a := by
  show i ∈ ((View.whole (Pipeline.arrRef spec1 9)).slice (win1_9.rect t)).set ↔ _
  rw [View.set_slice_whole, Rect.mem_set_unit]
  exact Iff.rfl

/-- The row is one block, and the last point writes it back. -/
theorem cover9 (i : S1x128.Idx) : ∃ t : Fin cfg1.N, (cfg1.win 9).flush t = true ∧ i ∈ ((cfg1.win 9).blk t).view.set := by
  have hi0 : (i 0).val < 1 := (i 0).isLt
  have hi1 : (i 1).val < 128 := (i 1).isLt
  refine ⟨tLast1, (flush1_9 _).mpr rfl, ?_⟩
  rw [mem_blk9]
  obtain ⟨-, -, -, -, -, -, -, -, ⟨e80, e81⟩, ⟨e90, e91⟩⟩ := idx_facts tLast1
  intro a
  match a with
  | ⟨0, _⟩ =>
    show win1_9.index _ (0 : Fin 2) * 1 ≤ (i 0).val ∧ (i 0).val < win1_9.index _ (0 : Fin 2) * 1 + 1
    rw [e90]; omega
  | ⟨1, _⟩ =>
    show win1_9.index _ (1 : Fin 2) * 128 ≤ (i 1).val ∧ (i 1).val < win1_9.index _ (1 : Fin 2) * 128 + 128
    rw [e91]; omega

/-- THE THIRD OUTPUT ARRAY after the region: feature by feature, the sum of the squared pre-activations over all 50000 nodes. -/
theorem final9 (c : Dev nD) : (dat1 V c).arrAt 9 cfg1.N
    = (fun i => ∑ n : Fin 50000, (preArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) (ix2 n (i 1)) * (preArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) (ix2 n (i 1)) : S1x128.Idx → EReal) :=
  (dat1 V c).arrAt_eq_of_cover 9 (colSums (fun i => pre V c i * pre V c i)) (fun t hf => flushed9_eq V c t hf) cover9

end Cert.KernelIdeal.Combine1

end
-- ==== Proof.NormStep2.lean ====
/-
  The normalisation region of a layer (region 2): each grid point takes a block of 5000 node rows of the pre-activation
  `hpre` and, feature by feature, subtracts the feature's mean, scales by the reciprocal square root of the feature's
  variance plus a small constant, multiplies by `gamma`, adds `beta` and clamps below at zero.  That is the first output;
  the second is the block of the running node features plus the first.  The mean, variance, `gamma` and `beta` rows are
  the same at every point and the blocks tile the node axis, so after the region the two output arrays are these
  entrywise functions of the arrays the region was entered with.
-/
import proofs.«134443_j73787538145745_2_alg».proof.Proof.Gen.KernelIdeal.Frame
import proofs.«134443_j73787538145745_2_alg».proof.Proof.BlockOps
import Idealize.ShloMosaic.Lib.Pipeline.Value

set_option maxRecDepth 16384

noncomputable section

namespace Cert.KernelIdeal.NormStep2

open Cert.KernelIdeal Cert.KernelIdeal.Gen Cert.KernelIdeal.BlockOps
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One entry's normalisation: `max ((((h − m) · rsqrt (v + ε)) · g) + b) 0`, `ε` the 32-bit constant of the body. -/
def normAt (h m v g b : EReal) : EReal :=
  max ((((h - m) * Ideal.rsqrt (v + (Ideal.ofBits .f32 0x3727C5AC#32 : EReal))) * g) + b) 0

/-- The region's first result as one function of its five input arrays: entry `(n, d)` of `hp` normalised with feature
    `d`'s mean, variance, `gamma` and `beta`. -/
def normArr (hp : S50000x128.Idx → EReal) (mean var gam bet : S1x128.Idx → EReal) : S50000x128.Idx → EReal :=
  fun i => max ((((hp i - mean (ix2 0 (i 1))) * Ideal.rsqrt (var (ix2 0 (i 1)) + (Ideal.ofBits .f32 0x3727C5AC#32 : EReal)))
    * gam (ix2 0 (i 1))) + bet (ix2 0 (i 1))) 0

/-- The region's second result: the running node features plus the first result, entry by entry. -/
def resArr (xin hp : S50000x128.Idx → EReal) (mean var gam bet : S1x128.Idx → EReal) : S50000x128.Idx → EReal :=
  fun i => xin i + normArr hp mean var gam bet i

theorem normArr_apply (hp : S50000x128.Idx → EReal) (mean var gam bet : S1x128.Idx → EReal) (i : S50000x128.Idx) :
    normArr hp mean var gam bet i
      = normAt (hp i) (mean (ix2 0 (i 1))) (var (ix2 0 (i 1))) (gam (ix2 0 (i 1))) (bet (ix2 0 (i 1))) := rfl

/-- The entrywise reciprocal square root of a vector, at an index. -/
theorem rsqrtVec_apply {s : Shape} {φ : FTy} (a : FVec Ideal s φ) (i : s.Idx) : rsqrt a i = Ideal.rsqrt (a i) := rfl

/-- The first stored value at row `p`, feature `q` of a block, from the loaded variance row, pre-activation block, mean row,
    `gamma` row and `beta` row (the order in which the body reads them). -/
theorem pay1_apply (v0 : Vec Ideal S1x128 .f32) (v5 : Vec Ideal S5000x128 .f32) (v7 v13 v17 : Vec Ideal S1x128 .f32)
    (p : Fin 5000) (q : Fin 128) :
    k2_pay1 (F := Ideal) v0 v5 v7 v13 v17 (ix2 p q)
      = normAt (v5 (ix2 p q)) (v7 (ix2 (0 : Fin 1) q)) (v0 (ix2 (0 : Fin 1) q)) (v13 (ix2 (0 : Fin 1) q)) (v17 (ix2 (0 : Fin 1) q)) := by
  unfold k2_pay1
  rw [maximumf_apply, broadcast_apply, addf_apply, mulf_apply, mulf_apply, subf_apply,
    bcastRow_apply, bcastRow_apply, bcastRow_apply, bcastRow_apply]
  simp only [shapeCast_self]
  unfold normAt
  refine congrArg₂ max ?_ Ideal.ofBits_zero_f32
  rfl

/-- The second stored value: the running features' entry plus the first stored value. -/
theorem pay2_apply (v0 : Vec Ideal S1x128 .f32) (v5 : Vec Ideal S5000x128 .f32) (v7 v13 v17 : Vec Ideal S1x128 .f32)
    (v24 : Vec Ideal S5000x128 .f32) (p : Fin 5000) (q : Fin 128) :
    k2_pay2 (F := Ideal) v0 v5 v7 v13 v17 v24 (ix2 p q) = v24 (ix2 p q) + k2_pay1 (F := Ideal) v0 v5 v7 v13 v17 (ix2 p q) := by
  unfold k2_pay2
  rw [addf_apply, shapeCast_self]

/-- The printed index maps of the four row-block windows over the ten grid points: they move with the point. -/
theorem idx_blk : ∀ t : Fin cfg2.N, win2_0.index t (0 : Fin 2) = t.val ∧ win2_0.index t (1 : Fin 2) = 0
    ∧ win2_5.index t (0 : Fin 2) = t.val ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-- The printed index maps of the four one-row windows over the ten grid points: they stay at block (0, 0). -/
theorem idx_row : ∀ t : Fin cfg2.N, win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Row `p`, feature `q` of the pre-activation window's block at point `t` is row `t · 5000 + p` of its array. -/
theorem blkH_apply (c : Dev nD) (t : Fin cfg2.N) (p : Fin 5000) (q : Fin 128) (hp : t.val * 5000 + p.val < 50000) :
    iblk2 V c 0 t (ix2 p q) = V c (Pipeline.arrRef spec2 0) (ix2 ⟨t.val * 5000 + p.val, hp⟩ q) := by
  obtain ⟨e0, e1, e2, e3, e4, e5, e6, e7⟩ := idx_blk t
  show V c (Pipeline.arrRef spec2 0) (((cfg2.win 0).blk t).view.emb (ix2 p q)) = _
  refine congrArg (V c (Pipeline.arrRef spec2 0)) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * q.val = q.val; omega

/-- Row `p`, feature `q` of the running-features window's block at point `t` is row `t · 5000 + p` of its array. -/
theorem blkX_apply (c : Dev nD) (t : Fin cfg2.N) (p : Fin 5000) (q : Fin 128) (hp : t.val * 5000 + p.val < 50000) :
    iblk2 V c 5 t (ix2 p q) = V c (Pipeline.arrRef spec2 5) (ix2 ⟨t.val * 5000 + p.val, hp⟩ q) := by
  obtain ⟨e0, e1, e2, e3, e4, e5, e6, e7⟩ := idx_blk t
  show V c (Pipeline.arrRef spec2 5) (((cfg2.win 5).blk t).view.emb (ix2 p q)) = _
  refine congrArg (V c (Pipeline.arrRef spec2 5)) (funext fun a => Fin.ext ?_)
  match a with
  | ⟨0, _⟩ => show win2_5.index t (0 : Fin 2) * 5000 + 1 * p.val = t.val * 5000 + p.val; omega
  | ⟨1, _⟩ => show win2_5.index t (1 : Fin 2) * 128 + 1 * q.val = q.val; omega

/-- The mean window's block is the whole mean row. -/
theorem rowMean_apply (c : Dev nD) (t : Fin cfg2.N) (q : Fin 128) :
    iblk2 V c 1 t (ix2 (0 : Fin 1) q) = V c (Pipeline.arrRef spec2 1) (ix2 (0 : Fin 1) q) := by
  obtain ⟨e0, e1, e2, e3, e4, e5, e6, e7⟩ := idx_row t
  show V c (Pipeline.arrRef spec2 1) (((cfg2.win 1).blk t).view.emb (ix2 (0 : Fin 1) q)) = _
  refine congrArg (V c (Pipeline.arrRef spec2 1)) (funext fun a => Fin.ext ?_)
  match a with
  | ⟨0, _⟩ => show win2_1.index t (0 : Fin 2) * 1 + 1 * (0 : Fin 1).val = (0 : Fin 1).val; omega
  | ⟨1, _⟩ => show win2_1.index t (1 : Fin 2) * 128 + 1 * q.val = q.val; omega

/-- The variance window's block is the whole variance row. -/
theorem rowVar_apply (c : Dev nD) (t : Fin cfg2.N) (q : Fin 128) :
    iblk2 V c 2 t (ix2 (0 : Fin 1) q) = V c (Pipeline.arrRef spec2 2) (ix2 (0 : Fin 1) q) := by
  obtain ⟨e0, e1, e2, e3, e4, e5, e6, e7⟩ := idx_row t
  show V c (Pipeline.arrRef spec2 2) (((cfg2.win 2).blk t).view.emb (ix2 (0 : Fin 1) q)) = _
  refine congrArg (V c (Pipeline.arrRef spec2 2)) (funext fun a => Fin.ext ?_)
  match a with
  | ⟨0, _⟩ => show win2_2.index t (0 : Fin 2) * 1 + 1 * (0 : Fin 1).val = (0 : Fin 1).val; omega
  | ⟨1, _⟩ => show win2_2.index t (1 : Fin 2) * 128 + 1 * q.val = q.val; omega

/-- The gamma window's block is the whole gamma row. -/
theorem rowGam_apply (c : Dev nD) (t : Fin cfg2.N) (q : Fin 128) :
    iblk2 V c 3 t (ix2 (0 : Fin 1) q) = V c (Pipeline.arrRef spec2 3) (ix2 (0 : Fin 1) q) := by
  obtain ⟨e0, e1, e2, e3, e4, e5, e6, e7⟩ := idx_row t
  show V c (Pipeline.arrRef spec2 3) (((cfg2.win 3).blk t).view.emb (ix2 (0 : Fin 1) q)) = _
  refine congrArg (V c (Pipeline.arrRef spec2 3)) (funext fun a => Fin.ext ?_)
  match a with
  | ⟨0, _⟩ => show win2_3.index t (0 : Fin 2) * 1 + 1 * (0 : Fin 1).val = (0 : Fin 1).val; omega
  | ⟨1, _⟩ => show win2_3.index t (1 : Fin 2) * 128 + 1 * q.val = q.val; omega

/-- The beta window's block is the whole beta row. -/
theorem rowBet_apply (c : Dev nD) (t : Fin cfg2.N) (q : Fin 128) :
    iblk2 V c 4 t (ix2 (0 : Fin 1) q) = V c (Pipeline.arrRef spec2 4) (ix2 (0 : Fin 1) q) := by
  obtain ⟨e0, e1, e2, e3, e4, e5, e6, e7⟩ := idx_row t
  show V c (Pipeline.arrRef spec2 4) (((cfg2.win 4).blk t).view.emb (ix2 (0 : Fin 1) q)) = _
  refine congrArg (V c (Pipeline.arrRef spec2 4)) (funext fun a => Fin.ext ?_)
  match a with
  | ⟨0, _⟩ => show win2_4.index t (0 : Fin 2) * 1 + 1 * (0 : Fin 1).val = (0 : Fin 1).val; omega
  | ⟨1, _⟩ => show win2_4.index t (1 : Fin 2) * 128 + 1 * q.val = q.val; omega

/-- The first stored value at point `t`, block row `p`, feature `q` is `normArr` of the entry arrays at node row
    `t · 5000 + p`. -/
theorem norm_blk (c : Dev nD) (t : Fin cfg2.N) (p : Fin 5000) (q : Fin 128) (hrow : t.val * 5000 + p.val < 50000) :
    k2_pay1 (F := Ideal) (iblk2 V c 2 t) (iblk2 V c 0 t) (iblk2 V c 1 t) (iblk2 V c 3 t) (iblk2 V c 4 t) (ix2 p q)
      = normArr (V c (Pipeline.arrRef spec2 0)) (V c (Pipeline.arrRef spec2 1)) (V c (Pipeline.arrRef spec2 2))
        (V c (Pipeline.arrRef spec2 3)) (V c (Pipeline.arrRef spec2 4)) (ix2 (⟨t.val * 5000 + p.val, hrow⟩ : Fin 50000) q) := by
  refine (pay1_apply _ _ _ _ _ p q).trans ?_
  rw [normArr_apply]
  refine congr (congr (congr (congr (congrArg normAt ?_) ?_) ?_) ?_) ?_
  · exact blkH_apply V c t p q hrow
  · exact rowMean_apply V c t q
  · exact rowVar_apply V c t q
  · exact rowGam_apply V c t q
  · exact rowBet_apply V c t q

set_option maxHeartbeats 1000000 in
/-- WHAT POINT `t` WRITES BACK to output 6 is block `t` of `normArr` of the arrays the region was entered with. -/
theorem flushed6_eq (c : Dev nD) (t : Fin cfg2.N) :
    (dat2 V c).flushed 6 t = ((cfg2.win 6).blk t).view.read (Elt Ideal)
      (normArr (V c (Pipeline.arrRef spec2 0)) (V c (Pipeline.arrRef spec2 1)) (V c (Pipeline.arrRef spec2 2))
        (V c (Pipeline.arrRef spec2 3)) (V c (Pipeline.arrRef spec2 4))) := by
  show (cfg2.win 6).cut (grid2.coords t) ((dat2 V c).after 6 t) = _
  rw [after2_6]
  unfold out2_6
  rw [View.canon_unit_zero hz]
  simp only [View.ld_unit_zero (S := S5000x128) hz, View.ld_unit_zero (S := S1x128) hz]
  obtain ⟨e0, e1, e2, e3, e4, e5, e6, e7⟩ := idx_blk t
  have ht : t.val < 10 := t.isLt
  funext j
  obtain ⟨p, q, rfl⟩ : ∃ (p : Fin 5000) (q : Fin 128), j = ix2 p q := ⟨j 0, j 1, eq_ix2 j⟩
  have hp : p.val < 5000 := p.isLt
  have hrow : t.val * 5000 + p.val < 50000 := by omega
  show k2_pay1 (F := Ideal) (iblk2 V c 2 t) (iblk2 V c 0 t) (iblk2 V c 1 t) (iblk2 V c 3 t) (iblk2 V c 4 t) (ix2 p q)
    = normArr (V c (Pipeline.arrRef spec2 0)) (V c (Pipeline.arrRef spec2 1)) (V c (Pipeline.arrRef spec2 2))
        (V c (Pipeline.arrRef spec2 3)) (V c (Pipeline.arrRef spec2 4)) (((cfg2.win 6).blk t).view.emb (ix2 p q))
  have hemb : ((cfg2.win 6).blk t).view.emb (ix2 p q) = ix2 (⟨t.val * 5000 + p.val, hrow⟩ : Fin 50000) q := by
    funext a; apply Fin.ext
    match a with
    | ⟨0, _⟩ => show win2_6.index t (0 : Fin 2) * 5000 + 1 * p.val = t.val * 5000 + p.val; omega
    | ⟨1, _⟩ => show win2_6.index t (1 : Fin 2) * 128 + 1 * q.val = q.val; omega
  rw [hemb]
  exact norm_blk V c t p q hrow

set_option maxHeartbeats 1000000 in
/-- WHAT POINT `t` WRITES BACK to output 7 is block `t` of the running features plus `normArr`. -/
theorem flushed7_eq (c : Dev nD) (t : Fin cfg2.N) :
    (dat2 V c).flushed 7 t = ((cfg2.win 7).blk t).view.read (Elt Ideal)
      (resArr (V c (Pipeline.arrRef spec2 5)) (V c (Pipeline.arrRef spec2 0)) (V c (Pipeline.arrRef spec2 1)) (V c (Pipeline.arrRef spec2 2))
        (V c (Pipeline.arrRef spec2 3)) (V c (Pipeline.arrRef spec2 4))) := by
  show (cfg2.win 7).cut (grid2.coords t) ((dat2 V c).after 7 t) = _
  rw [after2_7]
  unfold out2_7
  rw [View.canon_unit_zero hz]
  simp only [View.ld_unit_zero (S := S5000x128) hz, View.ld_unit_zero (S := S1x128) hz]
  obtain ⟨e0, e1, e2, e3, e4, e5, e6, e7⟩ := idx_blk t
  have ht : t.val < 10 := t.isLt
  funext j
  obtain ⟨p, q, rfl⟩ : ∃ (p : Fin 5000) (q : Fin 128), j = ix2 p q := ⟨j 0, j 1, eq_ix2 j⟩
  have hp : p.val < 5000 := p.isLt
  have hrow : t.val * 5000 + p.val < 50000 := by omega
  show k2_pay2 (F := Ideal) (iblk2 V c 2 t) (iblk2 V c 0 t) (iblk2 V c 1 t) (iblk2 V c 3 t) (iblk2 V c 4 t) (iblk2 V c 5 t) (ix2 p q)
    = resArr (V c (Pipeline.arrRef spec2 5)) (V c (Pipeline.arrRef spec2 0)) (V c (Pipeline.arrRef spec2 1)) (V c (Pipeline.arrRef spec2 2))
        (V c (Pipeline.arrRef spec2 3)) (V c (Pipeline.arrRef spec2 4)) (((cfg2.win 7).blk t).view.emb (ix2 p q))
  have hemb : ((cfg2.win 7).blk t).view.emb (ix2 p q) = ix2 (⟨t.val * 5000 + p.val, hrow⟩ : Fin 50000) q := by
    funext a; apply Fin.ext
    match a with
    | ⟨0, _⟩ => show win2_7.index t (0 : Fin 2) * 5000 + 1 * p.val = t.val * 5000 + p.val; omega
    | ⟨1, _⟩ => show win2_7.index t (1 : Fin 2) * 128 + 1 * q.val = q.val; omega
  rw [hemb]
  refine (pay2_apply _ _ _ _ _ _ p q).trans ?_
  unfold resArr
  exact congrArg₂ (· + ·) (blkX_apply V c t p q hrow) (norm_blk V c t p q hrow)

/-- An index of output 6's array is in point `t`'s block iff each coordinate is in the block's range on its axis. -/
theorem mem_blk6 (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole (Pipeline.arrRef spec2 6)).slice (win2_6.rect t)).set ↔ _
  rw [View.set_slice_whole, Rect.mem_set_unit]
  exact Iff.rfl

/-- Every node row of output 6 is in the block of the point `row / 5000`. -/
theorem cover6 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  refine ⟨⟨(i 0).val / 5000, by show (i 0).val / 5000 < 10; omega⟩, flush2_6 _, ?_⟩
  rw [mem_blk6]
  obtain ⟨e0, e1, e2, e3, e4, e5, e6, e7⟩ := idx_blk ⟨(i 0).val / 5000, by show (i 0).val / 5000 < 10; omega⟩
  intro a
  match a with
  | ⟨0, _⟩ =>
    show win2_6.index _ (0 : Fin 2) * 5000 ≤ (i 0).val ∧ (i 0).val < win2_6.index _ (0 : Fin 2) * 5000 + 5000
    rw [e4]; show (i 0).val / 5000 * 5000 ≤ (i 0).val ∧ (i 0).val < (i 0).val / 5000 * 5000 + 5000; omega
  | ⟨1, _⟩ =>
    show win2_6.index _ (1 : Fin 2) * 128 ≤ (i 1).val ∧ (i 1).val < win2_6.index _ (1 : Fin 2) * 128 + 128
    rw [e5]; omega

/-- An index of output 7's array is in point `t`'s block iff each coordinate is in the block's range on its axis. -/
theorem mem_blk7 (t : Fin cfg2.N) (i : S50000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole (Pipeline.arrRef spec2 7)).slice (win2_7.rect t)).set ↔ _
  rw [View.set_slice_whole, Rect.mem_set_unit]
  exact Iff.rfl

/-- Every node row of output 7 is in the block of the point `row / 5000`. -/
theorem cover7 (i : S50000x128.Idx) : ∃ t : Fin cfg2.N, (cfg2.win 7).flush t = true ∧ i ∈ ((cfg2.win 7).blk t).view.set := by
  have hi0 : (i 0).val < 50000 := (i 0).isLt
  have hi1 : (i 1).val < 128 := (i 1).isLt
  refine ⟨⟨(i 0).val / 5000, by show (i 0).val / 5000 < 10; omega⟩, flush2_7 _, ?_⟩
  rw [mem_blk7]
  obtain ⟨e0, e1, e2, e3, e4, e5, e6, e7⟩ := idx_blk ⟨(i 0).val / 5000, by show (i 0).val / 5000 < 10; omega⟩
  intro a
  match a with
  | ⟨0, _⟩ =>
    show win2_7.index _ (0 : Fin 2) * 5000 ≤ (i 0).val ∧ (i 0).val < win2_7.index _ (0 : Fin 2) * 5000 + 5000
    rw [e6]; show (i 0).val / 5000 * 5000 ≤ (i 0).val ∧ (i 0).val < (i 0).val / 5000 * 5000 + 5000; omega
  | ⟨1, _⟩ =>
    show win2_7.index _ (1 : Fin 2) * 128 ≤ (i 1).val ∧ (i 1).val < win2_7.index _ (1 : Fin 2) * 128 + 128
    rw [e7]; omega

/-- THE FIRST OUTPUT ARRAY after the region. -/
theorem final6 (c : Dev nD) : (dat2 V c).arrAt 6 cfg2.N
    = normArr (V c (Pipeline.arrRef spec2 0)) (V c (Pipeline.arrRef spec2 1)) (V c (Pipeline.arrRef spec2 2))
        (V c (Pipeline.arrRef spec2 3)) (V c (Pipeline.arrRef spec2 4)) :=
  (dat2 V c).arrAt_eq_of_cover 6 _ (fun t _ => flushed6_eq V c t) cover6

/-- THE SECOND OUTPUT ARRAY after the region. -/
theorem final7 (c : Dev nD) : (dat2 V c).arrAt 7 cfg2.N
    = resArr (V c (Pipeline.arrRef spec2 5)) (V c (Pipeline.arrRef spec2 0)) (V c (Pipeline.arrRef spec2 1)) (V c (Pipeline.arrRef spec2 2))
        (V c (Pipeline.arrRef spec2 3)) (V c (Pipeline.arrRef spec2 4)) :=
  (dat2 V c).arrAt_eq_of_cover 7 _ (fun t _ => flushed7_eq V c t) cover7

end Cert.KernelIdeal.NormStep2

end
-- ==== Proof.LayerBridge.lean ====
/-
  From arrays to the layer's specification.  Each statement takes the arrays a program holds as VARIABLES, with one
  hypothesis per stage saying how the stage reads at an index from the stages before it, and concludes that the last
  stage is the layer of the specification (kernels' form or array program's form) at that index.  The proofs only
  unfold the specification and rewrite with the hypotheses, under the sums by congruence of finite sums; nothing is
  computed.
-/
import proofs.«134443_j73787538145745_2_alg».proof.Proof.NetSpec
import proofs.«134443_j73787538145745_2_alg».proof.Proof.HostGraph
import proofs.«134443_j73787538145745_2_alg».proof.Proof.LibEdgeIdx

noncomputable section

namespace Cert.LayerBridge

open Idealize.ShloMosaic Idealize.ShloMosaic.ValueIdx Cert.LayerSpec Cert.NetSpec

/-! ## The kernels' form of one layer -/

section K

variable (A : Args) (l : Fin 3) (hin : Fin 50000 → Fin 128 → EReal)
  (harr hgs agg pre hnew : (⟨2, ![50000, 128]⟩ : Shape).Idx → EReal)
  (gath : (⟨2, ![600000, 128]⟩ : Shape).Idx → EReal)
  (Wg Wl : (⟨2, ![128, 128]⟩ : Shape).Idx → EReal)
  (dvc : (⟨2, ![50000, 1]⟩ : Shape).Idx → EReal)
  (bg bl gam bet s q mean var : (⟨2, ![1, 128]⟩ : Shape).Idx → EReal)

/-- The matrix product of the input with a layer's weight matrix, from the arrays. -/
theorem mm_of (W : (⟨2, ![128, 128]⟩ : Shape).Idx → EReal) (Wspec : Fin 128 → Fin 128 → EReal)
    (hh : ∀ n d, harr (ix2 n d) = hin n d) (hW : ∀ k d, W (ix2 k d) = Wspec k d) (n : Fin 50000) (d : Fin 128) :
    ∑ k : Fin 128, harr (ix2 n k) * W (ix2 k d) = mm hin Wspec n d := by
  unfold mm
  exact Finset.sum_congr rfl (fun k _ => by rw [hh, hW])

/-- Before normalisation: the kernels' arrays give the kernels' form of the specification. -/
theorem preK_of
    (hh : ∀ n d, harr (ix2 n d) = hin n d)
    (hWg : ∀ k d, Wg (ix2 k d) = A.Wg (ix3 l k d)) (hWl : ∀ k d, Wl (ix2 k d) = A.Wl (ix3 l k d))
    (hbg : ∀ d, bg (ix2 (0 : Fin 1) d) = A.bg (ix2 l d)) (hbl : ∀ d, bl (ix2 (0 : Fin 1) d) = A.bl (ix2 l d))
    (hdv : ∀ n, dvc (ix2 n (0 : Fin 1)) = (Gr A).dinv n)
    (h1 : ∀ n d, hgs (ix2 n d) = (∑ k : Fin 128, harr (ix2 n k) * Wg (ix2 k d)) * dvc (ix2 n (0 : Fin 1)))
    (h2 : ∀ e k, gath (ix2 e k) = hgs (ix2 ((Gr A).srcc e) k))
    (h3 : ∀ n k, agg (ix2 n k) = 0 + ∑ e ∈ Finset.univ.filter (fun e => (Gr A).lands e n), gath (ix2 e k))
    (h4 : ∀ n d, pre (ix2 n d) = (((dvc (ix2 n (0 : Fin 1)) * agg (ix2 n d)
        + (dvc (ix2 n (0 : Fin 1)) * dvc (ix2 n (0 : Fin 1))) * (∑ k : Fin 128, harr (ix2 n k) * Wg (ix2 k d)))
        + bg (ix2 (0 : Fin 1) d)) + (∑ k : Fin 128, harr (ix2 n k) * Wl (ix2 k d))) + bl (ix2 (0 : Fin 1) d)) :
    ∀ n d, pre (ix2 n d) = preK (Gr A) (Wt A l) hin n d := by
  have mmg : ∀ n d, ∑ k : Fin 128, harr (ix2 n k) * Wg (ix2 k d) = mm hin (Wt A l).Wg n d :=
    fun n d => mm_of hin harr Wg (Wt A l).Wg hh (fun k d => (hWg k d).trans rfl) n d
  have mml : ∀ n d, ∑ k : Fin 128, harr (ix2 n k) * Wl (ix2 k d) = mm hin (Wt A l).Wl n d :=
    fun n d => mm_of hin harr Wl (Wt A l).Wl hh (fun k d => (hWl k d).trans rfl) n d
  have aggE : ∀ n d, agg (ix2 n d) = aggK (Gr A) (Wt A l) hin n d := fun n d => by
    rw [h3]
    unfold aggK
    refine congrArg (fun t => (0 : EReal) + t) (Finset.sum_congr rfl (fun e _ => ?_))
    rw [h2, h1, hdv, mmg]
    rfl
  have wbg : ∀ d, (Wt A l).bg d = A.bg (ix2 l d) := fun _ => rfl
  have wbl : ∀ d, (Wt A l).bl d = A.bl (ix2 l d) := fun _ => rfl
  intro n d
  rw [h4, hdv, aggE, mmg, mml, hbg, hbl]
  unfold preK
  rw [wbg, wbl]

/-- The layer's new features: the kernels' arrays give the kernels' form of the specification. -/
theorem layerK
    (hh : ∀ n d, harr (ix2 n d) = hin n d)
    (hWg : ∀ k d, Wg (ix2 k d) = A.Wg (ix3 l k d)) (hWl : ∀ k d, Wl (ix2 k d) = A.Wl (ix3 l k d))
    (hbg : ∀ d, bg (ix2 (0 : Fin 1) d) = A.bg (ix2 l d)) (hbl : ∀ d, bl (ix2 (0 : Fin 1) d) = A.bl (ix2 l d))
    (hgam : ∀ d, gam (ix2 (0 : Fin 1) d) = A.gamma (ix2 l d)) (hbet : ∀ d, bet (ix2 (0 : Fin 1) d) = A.beta (ix2 l d))
    (hdv : ∀ n, dvc (ix2 n (0 : Fin 1)) = (Gr A).dinv n)
    (h1 : ∀ n d, hgs (ix2 n d) = (∑ k : Fin 128, harr (ix2 n k) * Wg (ix2 k d)) * dvc (ix2 n (0 : Fin 1)))
    (h2 : ∀ e k, gath (ix2 e k) = hgs (ix2 ((Gr A).srcc e) k))
    (h3 : ∀ n k, agg (ix2 n k) = 0 + ∑ e ∈ Finset.univ.filter (fun e => (Gr A).lands e n), gath (ix2 e k))
    (h4 : ∀ n d, pre (ix2 n d) = (((dvc (ix2 n (0 : Fin 1)) * agg (ix2 n d)
        + (dvc (ix2 n (0 : Fin 1)) * dvc (ix2 n (0 : Fin 1))) * (∑ k : Fin 128, harr (ix2 n k) * Wg (ix2 k d)))
        + bg (ix2 (0 : Fin 1) d)) + (∑ k : Fin 128, harr (ix2 n k) * Wl (ix2 k d))) + bl (ix2 (0 : Fin 1) d))
    (h5s : ∀ d, s (ix2 (0 : Fin 1) d) = ∑ n : Fin 50000, pre (ix2 n d))
    (h5q : ∀ d, q (ix2 (0 : Fin 1) d) = ∑ n : Fin 50000, pre (ix2 n d) * pre (ix2 n d))
    (h6m : ∀ d, mean (ix2 (0 : Fin 1) d) = Ideal.div (s (ix2 (0 : Fin 1) d)) (Ideal.ofBits .f32 0x47435000#32))
    (h6v : ∀ d, var (ix2 (0 : Fin 1) d) = max (Ideal.div (q (ix2 (0 : Fin 1) d)) (Ideal.ofBits .f32 0x47435000#32)
        - mean (ix2 (0 : Fin 1) d) * mean (ix2 (0 : Fin 1) d)) 0)
    (h7 : ∀ n d, hnew (ix2 n d) = max ((((pre (ix2 n d) - mean (ix2 (0 : Fin 1) d))
        * Ideal.rsqrt (var (ix2 (0 : Fin 1) d) + Ideal.ofBits .f32 0x3727C5AC#32)) * gam (ix2 (0 : Fin 1) d))
        + bet (ix2 (0 : Fin 1) d)) 0) :
    ∀ n d, hnew (ix2 n d) = newK (Gr A) (Wt A l) hin n d := by
  have hp := preK_of A l hin harr hgs agg pre gath Wg Wl dvc bg bl hh hWg hWl hbg hbl hdv h1 h2 h3 h4
  have cntE : (Gr A).cnt = Ideal.ofBits .f32 0x47435000#32 := by simp only [Gr]
  have epsE : (Gr A).eps = Ideal.ofBits .f32 0x3727C5AC#32 := by simp only [Gr]
  have hmean : ∀ d, mean (ix2 (0 : Fin 1) d) = meanK (Gr A) (Wt A l) hin d := fun d => by
    rw [h6m, h5s]
    unfold meanK
    rw [cntE]
    exact congrArg (fun t => Ideal.div t (Ideal.ofBits .f32 0x47435000#32))
      (Finset.sum_congr rfl (fun n _ => hp n d))
  have hvar : ∀ d, var (ix2 (0 : Fin 1) d) = varK (Gr A) (Wt A l) hin d := fun d => by
    have hq : ∑ n : Fin 50000, pre (ix2 n d) * pre (ix2 n d)
        = ∑ n : Fin 50000, preK (Gr A) (Wt A l) hin n d * preK (Gr A) (Wt A l) hin n d :=
      Finset.sum_congr rfl (fun n _ => by rw [hp n d])
    rw [h6v, h5q, hmean, hq]
    unfold varK
    rw [cntE]
  have wgam : ∀ d, (Wt A l).gam d = A.gamma (ix2 l d) := fun _ => rfl
  have wbet : ∀ d, (Wt A l).bet d = A.beta (ix2 l d) := fun _ => rfl
  intro n d
  rw [h7, hp, hmean, hvar, hgam, hbet]
  unfold newK
  rw [epsE, wgam, wbet]

end K

/-! ## The output projection and the running sums, kernels' form -/

section KOut

variable (A : Args)

/-- The projection of the last running sum: the kernels' arrays give the kernels' form of the network's output. -/
theorem outK_of (xl : (⟨2, ![50000, 128]⟩ : Shape).Idx → EReal) (Wp : (⟨2, ![128, 64]⟩ : Shape).Idx → EReal)
    (bpr : (⟨2, ![1, 64]⟩ : Shape).Idx → EReal) (out : (⟨2, ![50000, 64]⟩ : Shape).Idx → EReal)
    (hx : ∀ n k, xl (ix2 n k) = xK3 A n k) (hW : ∀ k o, Wp (ix2 k o) = A.Wp (ix2 k o))
    (hb : ∀ o, bpr (ix2 (0 : Fin 1) o) = A.bp (ix1 o))
    (ho : ∀ n o, out (ix2 n o) = (∑ k : Fin 128, xl (ix2 n k) * Wp (ix2 k o)) + bpr (ix2 (0 : Fin 1) o)) :
    ∀ n o, out (ix2 n o) = outK A n o := by
  intro n o
  rw [ho, hb]
  unfold outK mm
  exact congrArg (fun t => t + A.bp (ix1 o)) (Finset.sum_congr rfl (fun k _ => by rw [hx, hW]))

/-- The first running sum: zero plus the first layer. -/
theorem xK1_of (z hnew xnew : (⟨2, ![50000, 128]⟩ : Shape).Idx → EReal) (hz : ∀ i, z i = 0)
    (hh : ∀ n d, hnew (ix2 n d) = hK1 A n d) (hx : ∀ i, xnew i = z i + hnew i) :
    ∀ n d, xnew (ix2 n d) = xK1 A n d := by
  intro n d
  rw [hx, hz, hh]
  rfl

/-- The second running sum. -/
theorem xK2_of (xprev hnew xnew : (⟨2, ![50000, 128]⟩ : Shape).Idx → EReal)
    (hp : ∀ n d, xprev (ix2 n d) = xK1 A n d) (hh : ∀ n d, hnew (ix2 n d) = hK2 A n d)
    (hx : ∀ i, xnew i = xprev i + hnew i) : ∀ n d, xnew (ix2 n d) = xK2 A n d := by
  intro n d
  rw [hx, hp, hh]
  rfl

/-- The third running sum. -/
theorem xK3_of (xprev hnew xnew : (⟨2, ![50000, 128]⟩ : Shape).Idx → EReal)
    (hp : ∀ n d, xprev (ix2 n d) = xK2 A n d) (hh : ∀ n d, hnew (ix2 n d) = hK3 A n d)
    (hx : ∀ i, xnew i = xprev i + hnew i) : ∀ n d, xnew (ix2 n d) = xK3 A n d := by
  intro n d
  rw [hx, hp, hh]
  rfl

end KOut

/-! ## The array program's form of one layer -/

section R

variable (A : Args) (l : Fin 3) (hin : Fin 50000 → Fin 128 → EReal)
  (harr mg ml agg pre hnew : (⟨2, ![50000, 128]⟩ : Shape).Idx → EReal)
  (gath msg : (⟨2, ![600000, 128]⟩ : Shape).Idx → EReal)
  (Wg Wl : (⟨2, ![128, 128]⟩ : Shape).Idx → EReal)
  (dv : (⟨1, ![50000]⟩ : Shape).Idx → EReal) (ew : (⟨1, ![600000]⟩ : Shape).Idx → EReal)
  (mean var : (⟨1, ![128]⟩ : Shape).Idx → EReal)

/-- Before normalisation: the array program's arrays give its form of the specification. -/
theorem preR_of
    (hh : ∀ n d, harr (ix2 n d) = hin n d)
    (hWg : ∀ k d, Wg (ix2 k d) = A.Wg (ix3 l k d)) (hWl : ∀ k d, Wl (ix2 k d) = A.Wl (ix3 l k d))
    (hdv : ∀ n, dv (ix1 n) = (Gr A).dinv n)
    (hmg : ∀ n d, mg (ix2 n d) = ∑ k : Fin 128, harr (ix2 n k) * Wg (ix2 k d))
    (hml : ∀ n d, ml (ix2 n d) = ∑ k : Fin 128, harr (ix2 n k) * Wl (ix2 k d))
    (hew : ∀ e, ew (ix1 e) = dv (ix1 ((Gr A).srcc e)) * dv (ix1 ((Gr A).dstc e)))
    (hg : ∀ e k, gath (ix2 e k) = mg (ix2 ((Gr A).srcc e) k))
    (hmsg : ∀ e k, msg (ix2 e k) = gath (ix2 e k) * ew (ix1 e))
    (hagg : ∀ n k, agg (ix2 n k) = 0 + ∑ e ∈ Finset.univ.filter (fun e => (Gr A).lands e n), msg (ix2 e k))
    (hpre : ∀ n d, pre (ix2 n d) = (((agg (ix2 n d) + mg (ix2 n d) * (dv (ix1 n) * dv (ix1 n))) + A.bg (ix2 l d))
        + ml (ix2 n d)) + A.bl (ix2 l d)) :
    ∀ n d, pre (ix2 n d) = preR (Gr A) (Wt A l) hin n d := by
  have mmg : ∀ n d, mg (ix2 n d) = mm hin (Wt A l).Wg n d :=
    fun n d => (hmg n d).trans (mm_of hin harr Wg (Wt A l).Wg hh (fun k d => (hWg k d).trans rfl) n d)
  have mml : ∀ n d, ml (ix2 n d) = mm hin (Wt A l).Wl n d :=
    fun n d => (hml n d).trans (mm_of hin harr Wl (Wt A l).Wl hh (fun k d => (hWl k d).trans rfl) n d)
  have aggE : ∀ n d, agg (ix2 n d) = aggR (Gr A) (Wt A l) hin n d := fun n d => by
    rw [hagg]
    unfold aggR
    refine congrArg (fun t => (0 : EReal) + t) (Finset.sum_congr rfl (fun e _ => ?_))
    rw [hmsg, hg, hew, hdv, hdv, mmg]
    rfl
  have wbg : ∀ d, (Wt A l).bg d = A.bg (ix2 l d) := fun _ => rfl
  have wbl : ∀ d, (Wt A l).bl d = A.bl (ix2 l d) := fun _ => rfl
  intro n d
  rw [hpre, aggE, mmg, mml, hdv]
  unfold preR
  rw [wbg, wbl]

/-- The layer's new features: the array program's arrays give its form of the specification. -/
theorem layerR
    (hh : ∀ n d, harr (ix2 n d) = hin n d)
    (hWg : ∀ k d, Wg (ix2 k d) = A.Wg (ix3 l k d)) (hWl : ∀ k d, Wl (ix2 k d) = A.Wl (ix3 l k d))
    (hdv : ∀ n, dv (ix1 n) = (Gr A).dinv n)
    (hmg : ∀ n d, mg (ix2 n d) = ∑ k : Fin 128, harr (ix2 n k) * Wg (ix2 k d))
    (hml : ∀ n d, ml (ix2 n d) = ∑ k : Fin 128, harr (ix2 n k) * Wl (ix2 k d))
    (hew : ∀ e, ew (ix1 e) = dv (ix1 ((Gr A).srcc e)) * dv (ix1 ((Gr A).dstc e)))
    (hg : ∀ e k, gath (ix2 e k) = mg (ix2 ((Gr A).srcc e) k))
    (hmsg : ∀ e k, msg (ix2 e k) = gath (ix2 e k) * ew (ix1 e))
    (hagg : ∀ n k, agg (ix2 n k) = 0 + ∑ e ∈ Finset.univ.filter (fun e => (Gr A).lands e n), msg (ix2 e k))
    (hpre : ∀ n d, pre (ix2 n d) = (((agg (ix2 n d) + mg (ix2 n d) * (dv (ix1 n) * dv (ix1 n))) + A.bg (ix2 l d))
        + ml (ix2 n d)) + A.bl (ix2 l d))
    (hmean : ∀ d, mean (ix1 d) = Ideal.div (0 + ∑ n : Fin 50000, pre (ix2 n d)) (Ideal.ofBits .f32 0x47435000#32))
    (hvar : ∀ d, var (ix1 d) = Ideal.div (0 + ∑ n : Fin 50000, (pre (ix2 n d) - mean (ix1 d)) * (pre (ix2 n d) - mean (ix1 d)))
        (Ideal.ofBits .f32 0x47435000#32))
    (hnewE : ∀ n d, hnew (ix2 n d) = max ((((pre (ix2 n d) - mean (ix1 d))
        * Ideal.rsqrt (var (ix1 d) + Ideal.ofBits .f32 0x3727C5AC#32)) * A.gamma (ix2 l d)) + A.beta (ix2 l d)) 0) :
    ∀ n d, hnew (ix2 n d) = newR (Gr A) (Wt A l) hin n d := by
  have hp := preR_of A l hin harr mg ml agg pre gath msg Wg Wl dv ew hh hWg hWl hdv hmg hml hew hg hmsg hagg hpre
  have cntE : (Gr A).cnt = Ideal.ofBits .f32 0x47435000#32 := by simp only [Gr]
  have epsE : (Gr A).eps = Ideal.ofBits .f32 0x3727C5AC#32 := by simp only [Gr]
  have hm : ∀ d, mean (ix1 d) = meanR (Gr A) (Wt A l) hin d := fun d => by
    rw [hmean]
    unfold meanR
    rw [cntE]
    exact congrArg (fun t => Ideal.div ((0 : EReal) + t) (Ideal.ofBits .f32 0x47435000#32))
      (Finset.sum_congr rfl (fun n _ => hp n d))
  have hv : ∀ d, var (ix1 d) = varR (Gr A) (Wt A l) hin d := fun d => by
    rw [hvar, hm]
    unfold varR
    rw [cntE]
    exact congrArg (fun t => Ideal.div ((0 : EReal) + t) (Ideal.ofBits .f32 0x47435000#32))
      (Finset.sum_congr rfl (fun n _ => by rw [hp n d]))
  have wgam : ∀ d, (Wt A l).gam d = A.gamma (ix2 l d) := fun _ => rfl
  have wbet : ∀ d, (Wt A l).bet d = A.beta (ix2 l d) := fun _ => rfl
  intro n d
  rw [hnewE, hp, hm, hv]
  unfold newR
  rw [epsE, wgam, wbet]

end R

/-! ## The output projection and the running sums, array program's form -/

section ROut

variable (A : Args)

/-- The projection of the last running sum, array program's form. -/
theorem outR_of (xl : (⟨2, ![50000, 128]⟩ : Shape).Idx → EReal) (Wp : (⟨2, ![128, 64]⟩ : Shape).Idx → EReal)
    (out : (⟨2, ![50000, 64]⟩ : Shape).Idx → EReal)
    (hx : ∀ n k, xl (ix2 n k) = xR3 A n k) (hW : ∀ k o, Wp (ix2 k o) = A.Wp (ix2 k o))
    (ho : ∀ n o, out (ix2 n o) = (∑ k : Fin 128, xl (ix2 n k) * Wp (ix2 k o)) + A.bp (ix1 o)) :
    ∀ n o, out (ix2 n o) = outR A n o := by
  intro n o
  rw [ho]
  unfold outR mm
  exact congrArg (fun t => t + A.bp (ix1 o)) (Finset.sum_congr rfl (fun k _ => by rw [hx, hW]))

theorem xR1_of (z hnew xnew : (⟨2, ![50000, 128]⟩ : Shape).Idx → EReal) (hz : ∀ i, z i = 0)
    (hh : ∀ n d, hnew (ix2 n d) = hR1 A n d) (hx : ∀ i, xnew i = z i + hnew i) :
    ∀ n d, xnew (ix2 n d) = xR1 A n d := by
  intro n d
  rw [hx, hz, hh]
  rfl

theorem xR2_of (xprev hnew xnew : (⟨2, ![50000, 128]⟩ : Shape).Idx → EReal)
    (hp : ∀ n d, xprev (ix2 n d) = xR1 A n d) (hh : ∀ n d, hnew (ix2 n d) = hR2 A n d)
    (hx : ∀ i, xnew i = xprev i + hnew i) : ∀ n d, xnew (ix2 n d) = xR2 A n d := by
  intro n d
  rw [hx, hp, hh]
  rfl

theorem xR3_of (xprev hnew xnew : (⟨2, ![50000, 128]⟩ : Shape).Idx → EReal)
    (hp : ∀ n d, xprev (ix2 n d) = xR2 A n d) (hh : ∀ n d, hnew (ix2 n d) = hR3 A n d)
    (hx : ∀ i, xnew i = xprev i + hnew i) : ∀ n d, xnew (ix2 n d) = xR3 A n d := by
  intro n d
  rw [hx, hp, hh]
  rfl

end ROut

end Cert.LayerBridge

end
-- ==== Proof.KernelLayer1.lean ====
/-
  Layer 1 of the kernel program, buffer by buffer, in terms of the network's arguments.

  The edge phase is the same in every layer: rows of the scaled features are gathered through the WRAPPED source column
  (a negative word wraps once, then the index is clamped) and accumulated through the RAW target column (a word outside
  the node range lands nowhere), so the accumulated array at node `n`, feature `k`, is zero plus the sum, over the edges
  that land on `n`, of the scaled features' row of the edge's clamped source at feature `k`.
-/
import proofs.«134443_j73787538145745_2_alg».proof.Proof.KernelCols
import proofs.«134443_j73787538145745_2_alg».proof.Proof.KernelWalk
import proofs.«134443_j73787538145745_2_alg».proof.Proof.ScaledRows0
import proofs.«134443_j73787538145745_2_alg».proof.Proof.Combine1
import proofs.«134443_j73787538145745_2_alg».proof.Proof.NormStep2
import proofs.«134443_j73787538145745_2_alg».proof.Proof.LayerBridge

set_option maxRecDepth 16384

noncomputable section

namespace Cert.KernelIdeal.Net

open Cert.KernelIdeal Cert.KernelIdeal.Gen
open Idealize.ShloMosaic Idealize.ShloMosaic.TcCoe Idealize.ShloMosaic.ValueIdx Idealize.ShloMosaic.StableHlo
open Idealize.SL Idealize.SL.Sem
open Cert.NetSpec Cert.LayerSpec Cert.LibEdgeIdx

/-- A buffer's contents, read as an array of extended reals. -/
abbrev asArr (s : Shape) (f : s.Idx → EReal) : s.Idx → EReal := f

/-! ## The edge columns and the edge phase, over any vectors of edge words -/

/-- A flat vector of words as a column, at edge `e`. -/
theorem rawCol_apply (v : S600000.Idx → BitVec 32) (e : Fin 600000) :
    (broadcastInDim S600000x1 ![0] Facts₀.bcast_S600000_S600000x1_0 v) (edgeAt e) = v (ix1 e) :=
  HostWeights.bcast_col_apply _ _ e

/-- The wrapped column of a flat vector of words, at edge `e`: compare with zero, add the node count, select. -/
theorem wrapCol_apply (v : S600000.Idx → BitVec 32) (e : Fin 600000) :
    (broadcastInDim S600000x1 ![0] Facts₀.bcast_S600000_S600000x1_0
      (select (cmpi .slt v (broadcastInDim S600000 ![] Facts₀.bcast_S_S600000 (constantI S_ 32 0#32)))
        (addi v (broadcastInDim S600000 ![] Facts₀.bcast_S_S600000 (constantI S_ 32 50000#32))) v)) (edgeAt e)
      = wrapIdx (v (ix1 e)) := by
  refine (HostWeights.bcast_col_apply _ _ e).trans ?_
  show Scalar.select (IntOp.cmpi .slt (v (ix1 e))
      ((broadcastInDim S600000 ![] Facts₀.bcast_S_S600000 (constantI S_ 32 0#32)) (ix1 e)))
    (IntOp.addi (v (ix1 e)) ((broadcastInDim S600000 ![] Facts₀.bcast_S_S600000 (constantI S_ 32 50000#32)) (ix1 e)))
    (v (ix1 e)) = _
  rw [HostWeights.bcast_scalar_apply, HostWeights.bcast_scalar_apply]
  exact Cert.HostGraph.wrap_select _

/-- THE EDGE PHASE: gather the scaled rows through the wrapped sources, widen, accumulate through the raw targets. -/
theorem edgePhase_apply (A : Args) (hgs : FVec Ideal S50000x128 .bf16) (vsrc vdst : S600000.Idx → BitVec 32)
    (hs : ∀ e, vsrc (ix1 e) = srcRaw A e) (hd : ∀ e, vdst (ix1 e) = dstRaw A e) (n : Fin 50000) (k : Fin 128) :
    Host.scatterAdd (F := Ideal) scatter_S50000x128_S600000x1_S600000x128_1_0_0_1
      (broadcastInDim S50000x128 ![] Facts₀.bcast_S_S50000x128 (constant (F := Ideal) S_ .f32 0x00000000#32))
      (broadcastInDim S600000x1 ![0] Facts₀.bcast_S600000_S600000x1_0 vdst)
      (extf .f32 (Host.gather gather_S50000x128_S600000x1_S600000x128_1_0_n_n_0_1_1128 hgs
        (broadcastInDim S600000x1 ![0] Facts₀.bcast_S600000_S600000x1_0
          (select (cmpi .slt vsrc (broadcastInDim S600000 ![] Facts₀.bcast_S_S600000 (constantI S_ 32 0#32)))
            (addi vsrc (broadcastInDim S600000 ![] Facts₀.bcast_S_S600000 (constantI S_ 32 50000#32))) vsrc)))
        Facts₀.bitsLt_bf16_f32) (ix2 n k)
      = 0 + ∑ e ∈ Finset.univ.filter (fun e => (Gr A).lands e n), hgs (ix2 ((Gr A).srcc e) k) := by
  refine (Cert.HostGraph.scatter_rows_raw A Facts₀.scatter_S50000x128_S600000x1_S600000x128_1_0_0_1_wf _ _ _ ?zz ?cc n k).trans ?_
  case zz => intro i; rw [HostWeights.bcast_scalar_apply]; exact zero_val
  case cc => intro e; exact (rawCol_apply vdst e).trans (hd e)
  refine congrArg (fun t => (0 : EReal) + t) (Finset.sum_congr rfl fun e _ => ?_)
  rw [extf_apply]
  exact Cert.HostGraph.gather_rows_src A Facts₀.gather_S50000x128_S600000x1_S600000x128_1_0_n_n_0_1_1128_wf hgs _
    (fun e => (wrapCol_apply vsrc e).trans (congrArg wrapIdx (hs e))) e k

variable (m : (ℓ : Loc nD τ sig) → Buf (Elt Ideal) ℓ) (ρ : Dev nD → PrngReg)

/-! ## Layer 1 -/

/-- Region 0's output: the input features times layer 1's `Wg`, each row scaled by its node's `dinv`. -/
theorem hgs1_apply (c : Dev nD) (n : Fin 50000) (d : Fin 128) :
    asArr S50000x128 (W2 m ρ c (Proc.devRef .tc main_v15)) (ix2 n d)
      = (∑ k : Fin 128, h0 (KArgs m c) n k * (KArgs m c).Wg (ix3 (0 : Fin 3) k d)) * (Gr (KArgs m c)).dinv n := by
  refine (congrFun ((W2_arr m ρ c 3).trans (ScaledRows0.final (V1 m ρ) c)) (ix2 n d)).trans ?_
  unfold ScaledRows0.scaledRows
  refine congrArg₂ (· * ·) (Finset.sum_congr rfl fun k _ => congrArg₂ (· * ·) ?_ ?_) ?_
  · exact congrFun (Walk.arg0_W1 m ρ c) (ix2 n k)
  · exact wg0_first m ρ c k d
  · exact dinv_col m ρ c n

/-- The accumulated messages of layer 1. -/
theorem agg1_apply (c : Dev nD) (n : Fin 50000) (k : Fin 128) :
    asArr S50000x128 (W3 m ρ c (Proc.devRef .tc main_v26)) (ix2 n k)
      = 0 + ∑ e ∈ Finset.univ.filter (fun e => (Gr (KArgs m c)).lands e n),
          asArr S50000x128 (W2 m ρ c (Proc.devRef .tc main_v15)) (ix2 ((Gr (KArgs m c)).srcc e) k) := by
  show StableHlo.after hostOps1 (W2 m ρ c) (Proc.devRef .tc main_v26) (ix2 n k) = _
  generalize hW : W2 m ρ c = Wv
  after_results_simp
  subst hW
  exact edgePhase_apply (KArgs m c) _ _ _
    (fun e => (congrFun (Walk.v1_W2 m ρ c) (ix1 e)).trans (src_vec m ρ c e))
    (fun e => (congrFun (Walk.v3_W2 m ρ c) (ix1 e)).trans (dst_vec m ρ c e)) n k

/-! ### Layer 1's parameter slices (second stretch) -/

/-- The division of the array program at an index. -/
theorem hostDivf_apply {s : Shape} (a b : s.Idx → EReal) (i : s.Idx) :
    (Host.divf (F := Ideal) (φ := FTy.f32) (s := s) a b) i = Ideal.div (a i) (b i) := rfl

/-- Layer 1's `bg` as a row. -/
theorem bg1_row (c : Dev nD) (d : Fin 128) :
    asArr S1x128 (W3 m ρ c (Proc.devRef .tc main_v29)) (ix2 (0 : Fin 1) d) = (KArgs m c).bg (ix2 (0 : Fin 3) d) := by
  show StableHlo.after hostOps1 (W2 m ρ c) (Proc.devRef .tc main_v29) (ix2 (0 : Fin 1) d) = _
  generalize hW : W2 m ρ c = Wv
  after_results_simp
  subst hW
  exact (HostWeights.slice2_row_apply _ 0 0 rfl _ _ _ d).trans (congrFun (Walk.arg3_W2 m ρ c) (ix2 (0 : Fin 3) d))

/-- Layer 1's `bl` as a row. -/
theorem bl1_row (c : Dev nD) (d : Fin 128) :
    asArr S1x128 (W3 m ρ c (Proc.devRef .tc main_v32)) (ix2 (0 : Fin 1) d) = (KArgs m c).bl (ix2 (0 : Fin 3) d) := by
  show StableHlo.after hostOps1 (W2 m ρ c) (Proc.devRef .tc main_v32) (ix2 (0 : Fin 1) d) = _
  generalize hW : W2 m ρ c = Wv
  after_results_simp
  subst hW
  exact (HostWeights.slice2_row_apply _ 0 0 rfl _ _ _ d).trans (congrFun (Walk.arg5_W2 m ρ c) (ix2 (0 : Fin 3) d))

/-- Layer 1's `Wl`. -/
theorem wl1_mat (c : Dev nD) (k d : Fin 128) :
    asArr S128x128 (W3 m ρ c (Proc.devRef .tc main_v34)) (ix2 k d) = (KArgs m c).Wl (ix3 (0 : Fin 3) k d) := by
  show StableHlo.after hostOps1 (W2 m ρ c) (Proc.devRef .tc main_v34) (ix2 k d) = _
  generalize hW : W2 m ρ c = Wv
  after_results_simp
  subst hW
  exact (HostWeights.slice3_apply _ 0 0 rfl _ _ k d).trans (congrFun (Walk.arg4_W2 m ρ c) (ix3 (0 : Fin 3) k d))

/-- Layer 1's `Wg`, as region 1 reads it. -/
theorem wg1_mat (c : Dev nD) (k d : Fin 128) :
    asArr S128x128 (W3 m ρ c (Proc.devRef .tc main_v36)) (ix2 k d) = (KArgs m c).Wg (ix3 (0 : Fin 3) k d) := by
  show StableHlo.after hostOps1 (W2 m ρ c) (Proc.devRef .tc main_v36) (ix2 k d) = _
  generalize hW : W2 m ρ c = Wv
  after_results_simp
  subst hW
  exact (HostWeights.slice3_apply _ 0 0 rfl _ _ k d).trans (congrFun (Walk.arg2_W2 m ρ c) (ix3 (0 : Fin 3) k d))

/-! ### Layer 1's statistics and scale rows (third stretch) -/

/-- The mean row: the one-pass sum over the node count. -/
theorem mean1_row (c : Dev nD) (d : Fin 128) :
    asArr S1x128 (W5 m ρ c (Proc.devRef .tc main_v39)) (ix2 (0 : Fin 1) d)
      = Ideal.div (asArr S1x128 (W4 m ρ c (Proc.devRef .tc main_v37_1)) (ix2 (0 : Fin 1) d)) (Ideal.ofBits .f32 0x47435000#32) := by
  show StableHlo.after hostOps2 (W4 m ρ c) (Proc.devRef .tc main_v39) (ix2 (0 : Fin 1) d) = _
  generalize hW : W4 m ρ c = Wv
  after_results_simp
  subst hW
  rw [hostDivf_apply, HostWeights.bcast_scalar_apply]
  rfl

/-- The variance row: the one-pass sum of squares over the count, minus the squared mean, clipped below at zero. -/
theorem var1_row (c : Dev nD) (d : Fin 128) :
    asArr S1x128 (W5 m ρ c (Proc.devRef .tc main_v45)) (ix2 (0 : Fin 1) d)
      = max (Ideal.div (asArr S1x128 (W4 m ρ c (Proc.devRef .tc main_v37_2)) (ix2 (0 : Fin 1) d)) (Ideal.ofBits .f32 0x47435000#32)
          - asArr S1x128 (W5 m ρ c (Proc.devRef .tc main_v39)) (ix2 (0 : Fin 1) d)
            * asArr S1x128 (W5 m ρ c (Proc.devRef .tc main_v39)) (ix2 (0 : Fin 1) d)) 0 := by
  rw [mean1_row]
  show StableHlo.after hostOps2 (W4 m ρ c) (Proc.devRef .tc main_v45) (ix2 (0 : Fin 1) d) = _
  generalize hW : W4 m ρ c = Wv
  after_results_simp
  subst hW
  have hz : (constant (F := Ideal) S_ FTy.f32 0x00000000#32 : S_.Idx → EReal) ix0 = (0 : EReal) := zero_val
  rw [maximumf_apply, subf_apply, mulf_apply, hostDivf_apply, hostDivf_apply, HostWeights.bcast_scalar_apply,
    HostWeights.bcast_scalar_apply, hz]
  rfl

/-- Layer 1's `gamma` as a row. -/
theorem gam1_row (c : Dev nD) (d : Fin 128) :
    asArr S1x128 (W5 m ρ c (Proc.devRef .tc main_v48)) (ix2 (0 : Fin 1) d) = (KArgs m c).gamma (ix2 (0 : Fin 3) d) := by
  show StableHlo.after hostOps2 (W4 m ρ c) (Proc.devRef .tc main_v48) (ix2 (0 : Fin 1) d) = _
  generalize hW : W4 m ρ c = Wv
  after_results_simp
  subst hW
  exact (HostWeights.slice2_row_apply _ 0 0 rfl _ _ _ d).trans (congrFun (Walk.arg6_W4 m ρ c) (ix2 (0 : Fin 3) d))

/-- Layer 1's `beta` as a row. -/
theorem bet1_row (c : Dev nD) (d : Fin 128) :
    asArr S1x128 (W5 m ρ c (Proc.devRef .tc main_v51)) (ix2 (0 : Fin 1) d) = (KArgs m c).beta (ix2 (0 : Fin 3) d) := by
  show StableHlo.after hostOps2 (W4 m ρ c) (Proc.devRef .tc main_v51) (ix2 (0 : Fin 1) d) = _
  generalize hW : W4 m ρ c = Wv
  after_results_simp
  subst hW
  exact (HostWeights.slice2_row_apply _ 0 0 rfl _ _ _ d).trans (congrFun (Walk.arg7_W4 m ρ c) (ix2 (0 : Fin 3) d))

/-! ### Layer 1's regions 1 and 2, and the layer -/

/-- Region 1's first output at `(n, d)`, in the kernels' association, over the buffers the layer uses. -/
theorem pre1_apply (c : Dev nD) (n : Fin 50000) (d : Fin 128) :
    asArr S50000x128 (W4 m ρ c (Proc.devRef .tc main_v37_0)) (ix2 n d)
      = (((asArr S50000x1 (W1 m ρ c (Proc.devRef .tc main_v11)) (ix2 n (0 : Fin 1))
            * asArr S50000x128 (W3 m ρ c (Proc.devRef .tc main_v26)) (ix2 n d)
          + (asArr S50000x1 (W1 m ρ c (Proc.devRef .tc main_v11)) (ix2 n (0 : Fin 1))
              * asArr S50000x1 (W1 m ρ c (Proc.devRef .tc main_v11)) (ix2 n (0 : Fin 1)))
            * (∑ k : Fin 128, (KArgs m c).x (ix2 n k) * asArr S128x128 (W3 m ρ c (Proc.devRef .tc main_v36)) (ix2 k d)))
          + asArr S1x128 (W3 m ρ c (Proc.devRef .tc main_v29)) (ix2 (0 : Fin 1) d))
          + (∑ k : Fin 128, (KArgs m c).x (ix2 n k) * asArr S128x128 (W3 m ρ c (Proc.devRef .tc main_v34)) (ix2 k d)))
          + asArr S1x128 (W3 m ρ c (Proc.devRef .tc main_v32)) (ix2 (0 : Fin 1) d) := by
  refine (congrFun ((W4_arr m ρ c 7).trans (Combine1.final7 (V3 m ρ) c)) (ix2 n d)).trans ?_
  unfold Combine1.preArr
  have hdv : asArr S50000x1 (V3 m ρ c (Pipeline.arrRef spec1 4)) (ix2 n (0 : Fin 1))
      = asArr S50000x1 (W1 m ρ c (Proc.devRef .tc main_v11)) (ix2 n (0 : Fin 1)) :=
    congrFun (Walk.v11_W3 m ρ c) (ix2 n (0 : Fin 1))
  have hx : ∀ k : Fin 128, asArr S50000x128 (V3 m ρ c (Pipeline.arrRef spec1 0)) (ix2 n k) = (KArgs m c).x (ix2 n k) :=
    fun k => congrFun (Walk.arg0_W3 m ρ c) (ix2 n k)
  refine congrArg₂ (· + ·) (congrArg₂ (· + ·) (congrArg₂ (· + ·) (congrArg₂ (· + ·) (congrArg₂ (· * ·) hdv rfl)
    (congrArg₂ (· * ·) (congrArg₂ (· * ·) hdv hdv) (Finset.sum_congr rfl fun k _ => congrArg₂ (· * ·) (hx k) rfl))) rfl)
    (Finset.sum_congr rfl fun k _ => congrArg₂ (· * ·) (hx k) rfl)) rfl

/-- Region 1's running sum, written back at the last point: the sum of its first output over the nodes. -/
theorem sum1_row (c : Dev nD) (d : Fin 128) :
    asArr S1x128 (W4 m ρ c (Proc.devRef .tc main_v37_1)) (ix2 (0 : Fin 1) d)
      = ∑ n : Fin 50000, asArr S50000x128 (W4 m ρ c (Proc.devRef .tc main_v37_0)) (ix2 n d) := by
  have h8 : asArr S1x128 (W4 m ρ c (Proc.devRef .tc main_v37_1)) = Combine1.colSums (Combine1.pre (V3 m ρ) c) :=
    (W4_arr m ρ c 8).trans (Combine1.final8 (V3 m ρ) c)
  have h7 : asArr S50000x128 (W4 m ρ c (Proc.devRef .tc main_v37_0)) = Combine1.pre (V3 m ρ) c :=
    (W4_arr m ρ c 7).trans (Combine1.final7 (V3 m ρ) c)
  exact (congrFun h8 (ix2 (0 : Fin 1) d)).trans (Finset.sum_congr rfl fun n _ => (congrFun h7 (ix2 n d)).symm)

/-- Region 1's running sum of squares. -/
theorem sumsq1_row (c : Dev nD) (d : Fin 128) :
    asArr S1x128 (W4 m ρ c (Proc.devRef .tc main_v37_2)) (ix2 (0 : Fin 1) d)
      = ∑ n : Fin 50000, asArr S50000x128 (W4 m ρ c (Proc.devRef .tc main_v37_0)) (ix2 n d)
          * asArr S50000x128 (W4 m ρ c (Proc.devRef .tc main_v37_0)) (ix2 n d) := by
  have h9 : asArr S1x128 (W4 m ρ c (Proc.devRef .tc main_v37_2))
      = Combine1.colSums (fun i => Combine1.pre (V3 m ρ) c i * Combine1.pre (V3 m ρ) c i) :=
    (W4_arr m ρ c 9).trans (Combine1.final9 (V3 m ρ) c)
  have h7 : asArr S50000x128 (W4 m ρ c (Proc.devRef .tc main_v37_0)) = Combine1.pre (V3 m ρ) c :=
    (W4_arr m ρ c 7).trans (Combine1.final7 (V3 m ρ) c)
  exact (congrFun h9 (ix2 (0 : Fin 1) d)).trans (Finset.sum_congr rfl fun n _ =>
    congrArg₂ (· * ·) (congrFun h7 (ix2 n d)).symm (congrFun h7 (ix2 n d)).symm)

/-- Region 2's first output: the normalised, scaled, shifted and clipped features. -/
theorem new1_apply (c : Dev nD) (n : Fin 50000) (d : Fin 128) :
    asArr S50000x128 (W6 m ρ c (Proc.devRef .tc main_v52_0)) (ix2 n d)
      = max ((((asArr S50000x128 (W4 m ρ c (Proc.devRef .tc main_v37_0)) (ix2 n d)
            - asArr S1x128 (W5 m ρ c (Proc.devRef .tc main_v39)) (ix2 (0 : Fin 1) d))
          * Ideal.rsqrt (asArr S1x128 (W5 m ρ c (Proc.devRef .tc main_v45)) (ix2 (0 : Fin 1) d) + Ideal.ofBits .f32 0x3727C5AC#32))
          * asArr S1x128 (W5 m ρ c (Proc.devRef .tc main_v48)) (ix2 (0 : Fin 1) d))
          + asArr S1x128 (W5 m ρ c (Proc.devRef .tc main_v51)) (ix2 (0 : Fin 1) d)) 0 := by
  refine (congrFun ((W6_arr m ρ c 6).trans (NormStep2.final6 (V5 m ρ) c)) (ix2 n d)).trans ?_
  unfold NormStep2.normArr
  have hp : asArr S50000x128 (V5 m ρ c (Pipeline.arrRef spec2 0)) (ix2 n d)
      = asArr S50000x128 (W4 m ρ c (Proc.devRef .tc main_v37_0)) (ix2 n d) :=
    congrFun (Walk.v37_0_W5 m ρ c) (ix2 n d)
  exact congrArg (fun t => max ((((t - asArr S1x128 (W5 m ρ c (Proc.devRef .tc main_v39)) (ix2 (0 : Fin 1) d))
      * Ideal.rsqrt (asArr S1x128 (W5 m ρ c (Proc.devRef .tc main_v45)) (ix2 (0 : Fin 1) d) + Ideal.ofBits .f32 0x3727C5AC#32))
      * asArr S1x128 (W5 m ρ c (Proc.devRef .tc main_v48)) (ix2 (0 : Fin 1) d))
      + asArr S1x128 (W5 m ρ c (Proc.devRef .tc main_v51)) (ix2 (0 : Fin 1) d)) 0) hp

/-- LAYER 1 of the kernel program: its new features are the specification's, kernels' form. -/
theorem layer1_new (c : Dev nD) (n : Fin 50000) (d : Fin 128) :
    asArr S50000x128 (W6 m ρ c (Proc.devRef .tc main_v52_0)) (ix2 n d) = hK1 (KArgs m c) n d := by
  refine Cert.LayerBridge.layerK (KArgs m c) (0 : Fin 3) (h0 (KArgs m c)) (KArgs m c).x
    (W2 m ρ c (Proc.devRef .tc main_v15)) (W3 m ρ c (Proc.devRef .tc main_v26)) (W4 m ρ c (Proc.devRef .tc main_v37_0))
    (W6 m ρ c (Proc.devRef .tc main_v52_0))
    (fun j => asArr S50000x128 (W2 m ρ c (Proc.devRef .tc main_v15)) (ix2 ((Gr (KArgs m c)).srcc (j 0)) (j 1)))
    (W3 m ρ c (Proc.devRef .tc main_v36)) (W3 m ρ c (Proc.devRef .tc main_v34)) (W1 m ρ c (Proc.devRef .tc main_v11))
    (W3 m ρ c (Proc.devRef .tc main_v29)) (W3 m ρ c (Proc.devRef .tc main_v32))
    (W5 m ρ c (Proc.devRef .tc main_v48)) (W5 m ρ c (Proc.devRef .tc main_v51))
    (W4 m ρ c (Proc.devRef .tc main_v37_1)) (W4 m ρ c (Proc.devRef .tc main_v37_2))
    (W5 m ρ c (Proc.devRef .tc main_v39)) (W5 m ρ c (Proc.devRef .tc main_v45))
    (fun _ _ => rfl) (wg1_mat m ρ c) (wl1_mat m ρ c) (bg1_row m ρ c) (bl1_row m ρ c) (gam1_row m ρ c) (bet1_row m ρ c)
    (dinv_col m ρ c) ?h1 (fun _ _ => rfl) (agg1_apply m ρ c) (pre1_apply m ρ c) (sum1_row m ρ c) (sumsq1_row m ρ c)
    (mean1_row m ρ c) (var1_row m ρ c) (new1_apply m ρ c) n d
  intro n d
  refine (hgs1_apply m ρ c n d).trans ?_
  refine congrArg₂ (· * ·) (Finset.sum_congr rfl fun k _ => congrArg₂ (· * ·) rfl (wg1_mat m ρ c k d).symm) (dinv_col m ρ c n).symm

/-- LAYER 1's running sum. -/
theorem layer1_sum (c : Dev nD) (n : Fin 50000) (d : Fin 128) :
    asArr S50000x128 (W6 m ρ c (Proc.devRef .tc main_v52_1)) (ix2 n d) = xK1 (KArgs m c) n d := by
  refine Cert.LayerBridge.xK1_of (KArgs m c) (W5 m ρ c (Proc.devRef .tc main_v12)) (W6 m ρ c (Proc.devRef .tc main_v52_0))
    (W6 m ρ c (Proc.devRef .tc main_v52_1)) ?hz (layer1_new m ρ c) ?hx n d
  case hz => intro i; exact (congrFun (Walk.v12_W5 m ρ c) i).trans (zeros_arr m ρ c i)
  case hx =>
    intro i
    have h7 := congrFun ((W6_arr m ρ c 7).trans (NormStep2.final7 (V5 m ρ) c)) i
    have h6 := congrFun ((W6_arr m ρ c 6).trans (NormStep2.final6 (V5 m ρ) c)) i
    exact h7.trans (congrArg (fun t => asArr S50000x128 (W5 m ρ c (Proc.devRef .tc main_v12)) i + t) h6.symm)

end Cert.KernelIdeal.Net

end
-- ==== Proof.ScaledRows3.lean ====
/-
  The first tiled region of a layer (region 3): each grid point takes a block of 5000 node rows, multiplies it by the
  layer's `Wg`, and scales every row by that node's `dinv`.  The blocks tile the node axis, so after the region the
  output array holds, at node `n` and feature `d`, `(∑ k, h[n, k] · Wg[k, d]) · dinv[n]` of the arrays the region was
  entered with (the narrowing to a 16-bit format on the way out is the identity on the extended reals).
-/
import proofs.«134443_j73787538145745_2_alg».proof.Proof.Gen.KernelIdeal.Frame
import proofs.«134443_j73787538145745_2_alg».proof.Proof.BlockOps
import Idealize.ShloMosaic.Lib.Pipeline.Value

set_option maxRecDepth 16384

noncomputable section

namespace Cert.KernelIdeal.ScaledRows3

open Cert.KernelIdeal Cert.KernelIdeal.Gen Cert.KernelIdeal.BlockOps
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The region's result as one function of its three input arrays: rows of `x` against `W`, row `n` scaled by `dv n`. -/
def scaledRows (x : S50000x128.Idx → EReal) (W : S128x128.Idx → EReal) (dv : S50000x1.Idx → EReal) : S50000x128.Idx → EReal :=
  fun i => (∑ k : Fin 128, x (ix2 (i 0) k) * W (ix2 k (i 1))) * dv (ix2 (i 0) (0 : Fin 1))

/-- The body's stored value at row `p`, feature `q` of a block, from the three loaded blocks. -/
theorem pay_apply (x0 : Vec Ideal S5000x128 .f32) (x1 : Vec Ideal S128x128 .f32) (x2 : Vec Ideal S5000x1 .f32)
    (p : Fin 5000) (q : Fin 128) :
    k3_pay1 (F := Ideal) x0 x1 x2 (ix2 p q) = (∑ k : Fin 128, x0 (ix2 p k) * x1 (ix2 k q)) * x2 (ix2 p (0 : Fin 1)) := by
  unfold k3_pay1
  rw [truncf_apply, mulf_apply, matmul128_apply, bcastCol_apply, shapeCast_self, shapeCast_self, shapeCast_self]
  rfl

/-- The same at a general index of the block. -/
theorem pay_at (x0 : Vec Ideal S5000x128 .f32) (x1 : Vec Ideal S128x128 .f32) (x2 : Vec Ideal S5000x1 .f32) (j : S5000x128.Idx) :
    k3_pay1 (F := Ideal) x0 x1 x2 j = (∑ k : Fin 128, x0 (ix2 (j 0) k) * x1 (ix2 k (j 1))) * x2 (ix2 (j 0) (0 : Fin 1)) := by
  exact (congrArg (k3_pay1 (F := Ideal) x0 x1 x2) (eq_ix2 j)).trans (pay_apply x0 x1 x2 (j 0) (j 1))

/-- The printed index maps over the ten grid points: the row-block windows move with the point, the weight window
    stays at block (0, 0). -/
theorem idx_facts : ∀ t : Fin cfg3.N, win3_3.index t (0 : Fin 2) = t.val ∧ win3_3.index t (1 : Fin 2) = 0
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `p`, feature `k` of input window 0's block at point `t` is row `t · 5000 + p` of its array. -/
theorem blk0_apply (c : Dev nD) (t : Fin cfg3.N) (p : Fin 5000) (k : Fin 128) (hp : t.val * 5000 + p.val < 50000) :
    iblk3 V c 0 t (ix2 p k) = V c (Pipeline.arrRef spec3 0) (ix2 ⟨t.val * 5000 + p.val, hp⟩ k) := by
  obtain ⟨e0, e1, e2, e3, e4, e5, e6, e7⟩ := idx_facts t
  show V c (Pipeline.arrRef spec3 0) (((cfg3.win 0).blk t).view.emb (ix2 p k)) = _
  refine congrArg (V c (Pipeline.arrRef spec3 0)) (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * k.val = k.val; omega

/-- The weight window's block is the whole matrix. -/
theorem blk1_apply (c : Dev nD) (t : Fin cfg3.N) (k : Fin 128) (q : Fin 128) :
    iblk3 V c 1 t (ix2 k q) = V c (Pipeline.arrRef spec3 1) (ix2 k q) := by
  obtain ⟨e0, e1, e2, e3, e4, e5, e6, e7⟩ := idx_facts t
  show V c (Pipeline.arrRef spec3 1) (((cfg3.win 1).blk t).view.emb (ix2 k q)) = _
  refine congrArg (V c (Pipeline.arrRef spec3 1)) (funext fun a => Fin.ext ?_)
  match a with
  | ⟨0, _⟩ => show win3_1.index t (0 : Fin 2) * 128 + 1 * k.val = k.val; omega
  | ⟨1, _⟩ => show win3_1.index t (1 : Fin 2) * 128 + 1 * q.val = q.val; omega

/-- Row `p` of the `dinv` window's block at point `t` is entry `t · 5000 + p` of its column. -/
theorem blk2_apply (c : Dev nD) (t : Fin cfg3.N) (p : Fin 5000) (hp : t.val * 5000 + p.val < 50000) :
    iblk3 V c 2 t (ix2 p (0 : Fin 1)) = V c (Pipeline.arrRef spec3 2) (ix2 ⟨t.val * 5000 + p.val, hp⟩ (0 : Fin 1)) := by
  obtain ⟨e0, e1, e2, e3, e4, e5, e6, e7⟩ := idx_facts t
  show V c (Pipeline.arrRef spec3 2) (((cfg3.win 2).blk t).view.emb (ix2 p (0 : Fin 1))) = _
  refine congrArg (V c (Pipeline.arrRef spec3 2)) (funext fun a => Fin.ext ?_)
  match a with
  | ⟨0, _⟩ => show win3_2.index t (0 : Fin 2) * 5000 + 1 * p.val = t.val * 5000 + p.val; omega
  | ⟨1, _⟩ => show win3_2.index t (1 : Fin 2) * 1 + 1 * (0 : Fin 1).val = (0 : Fin 1).val; omega

/-- WHAT POINT `t` WRITES BACK is block `t` of `scaledRows` of the arrays the region was entered with. -/
theorem flushed_eq (c : Dev nD) (t : Fin cfg3.N) :
    (dat3 V c).flushed 3 t = ((cfg3.win 3).blk t).view.read (Elt Ideal)
      (scaledRows (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x128) hz, View.ld_unit_zero (S := S5000x1) hz]
  obtain ⟨e0, e1, e2, e3, e4, e5, e6, e7⟩ := idx_facts t
  have ht : t.val < 10 := t.isLt
  funext j
  have hj0 : (j 0).val < 5000 := (j 0).isLt
  have hj1 : (j 1).val < 128 := (j 1).isLt
  have hrow : t.val * 5000 + (j 0).val < 50000 := by omega
  show k3_pay1 (F := Ideal) (iblk3 V c 0 t) (iblk3 V c 1 t) (iblk3 V c 2 t) j
    = scaledRows (V c (Pipeline.arrRef spec3 0)) (V c (Pipeline.arrRef spec3 1)) (V c (Pipeline.arrRef spec3 2))
        (((cfg3.win 3).blk t).view.emb j)
  have hemb : ((cfg3.win 3).blk t).view.emb j = ix2 (⟨t.val * 5000 + (j 0).val, hrow⟩ : Fin 50000) (⟨(j 1).val, hj1⟩ : Fin 128) := by
    funext a; apply Fin.ext
    match a with
    | ⟨0, _⟩ => show win3_3.index t (0 : Fin 2) * 5000 + 1 * (j 0).val = t.val * 5000 + (j 0).val; omega
    | ⟨1, _⟩ => show win3_3.index t (1 : Fin 2) * 128 + 1 * (j 1).val = (j 1).val; omega
  rw [hemb]
  refine (pay_at _ _ _ j).trans ?_
  unfold scaledRows
  refine congrArg₂ (· * ·) (Finset.sum_congr rfl fun k _ => congrArg₂ (· * ·) ?_ ?_) ?_
  · exact blk0_apply V c t (j 0) k hrow
  · exact blk1_apply V c t k (j 1)
  · exact blk2_apply V c t (j 0) hrow

/-- An index of the output array is in point `t`'s block iff each coordinate is in the block's range on its axis. -/
theorem mem_blk (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole (Pipeline.arrRef spec3 3)).slice (win3_3.rect t)).set ↔ _
  rw [View.set_slice_whole, Rect.mem_set_unit]
  exact Iff.rfl

/-- Every node row is in the block of the point `row / 5000`. -/
theorem cover (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  refine ⟨⟨(i 0).val / 5000, by show (i 0).val / 5000 < 10; omega⟩, flush3_3 _, ?_⟩
  rw [mem_blk]
  obtain ⟨e0, e1, -⟩ := idx_facts ⟨(i 0).val / 5000, by show (i 0).val / 5000 < 10; omega⟩
  intro a
  match a with
  | ⟨0, _⟩ =>
    show win3_3.index _ (0 : Fin 2) * 5000 ≤ (i 0).val ∧ (i 0).val < win3_3.index _ (0 : Fin 2) * 5000 + 5000
    rw [e0]; show (i 0).val / 5000 * 5000 ≤ (i 0).val ∧ (i 0).val < (i 0).val / 5000 * 5000 + 5000; omega
  | ⟨1, _⟩ =>
    show win3_3.index _ (1 : Fin 2) * 128 ≤ (i 1).val ∧ (i 1).val < win3_3.index _ (1 : Fin 2) * 128 + 128
    rw [e1]; omega

/-- THE OUTPUT ARRAY after the region. -/
theorem final (c : Dev nD) : (dat3 V c).arrAt 3 cfg3.N
    = scaledRows (V c (Pipeline.arrRef spec3 0)) (V c (Pipeline.arrRef spec3 1)) (V c (Pipeline.arrRef spec3 2)) :=
  (dat3 V c).arrAt_eq_of_cover 3 _ (fun t _ => flushed_eq V c t) cover

end Cert.KernelIdeal.ScaledRows3

end
-- ==== Proof.Combine4.lean ====
/- The second tiled region of the second layer (region 4): each grid point takes a block of 5000 nodes and forms their
  pre-activations `(((dinv·agg + (dinv·dinv)·(h·Wg)) + bg) + h·Wl) + bl`, writes the block back, and adds the block's
  column sums and the column sums of its squares into two rows that stay in place across the grid: zeroed at the first
  point, written back after the last.  So after the region the first output holds every node's pre-activation, and the
  two rows hold, feature by feature, the sum over all 50000 nodes of the pre-activations and of their squares (on the
  extended reals the ten blockwise partial sums re-associate into one sum with no finiteness needed).
-/
import proofs.«134443_j73787538145745_2_alg».proof.Proof.Gen.KernelIdeal.Frame
import proofs.«134443_j73787538145745_2_alg».proof.Proof.BlockOps
import Idealize.ShloMosaic.Lib.Pipeline.Value
import Idealize.ShloMosaic.Lib.Tactic

set_option maxRecDepth 16384

noncomputable section

namespace Cert.KernelIdeal.Combine4

open Cert.KernelIdeal Cert.KernelIdeal.Gen Cert.KernelIdeal.BlockOps
open Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

/-! ## What each case of the body leaves in each output buffer

The body's one conditional (taken at the first grid point only) zeroes the two running rows.  In either case the block
of pre-activations is the one store of `k4_pay5`; the running sum row is the store of `k4_pay1` over what the row held
(the zero row just stored, in the first case; what the point before left, in the other), and likewise `k4_pay2` for the
running sum of squares.  The payload takes its blocks in the order (h, Wl, Wg, dinv, agg, bg, bl). -/

/-- First point: the block of pre-activations. -/
theorem out_A_7 (c : Dev nD) (i : grid4.Coords) (a1 : Memref sig .tc .vmem S5000x128 .f32) (h1 : a1.IsWhole) (a2 : Memref sig .tc .vmem S128x128 .f32) (h2 : a2.IsWhole) (a3 : Memref sig .tc .vmem S128x128 .f32) (h3 : a3.IsWhole) (a4 : Memref sig .tc .vmem S5000x128 .f32) (h4 : a4.IsWhole) (a5 : Memref sig .tc .vmem S5000x1 .f32) (h5 : a5.IsWhole) (a6 : Memref sig .tc .vmem S1x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond4_0 i) (x0 : Vec Ideal S5000x128 .f32) (x1 : Vec Ideal S128x128 .f32) (x2 : Vec Ideal S128x128 .f32) (x3 : Vec Ideal S5000x128 .f32) (x4 : Vec Ideal S5000x1 .f32) (x5 : Vec Ideal S1x128 .f32) (x6 : Vec Ideal S1x128 .f32) :
    out4_A_7 (F := Ideal) c i a1 h1 a2 h2 a3 h3 a4 h4 a5 h5 a6 h6 a7 h7 a8 h8 a9 h9 a10 h10 hc x0 x1 x2 x3 x4 x5 x6 = k4_pay5 x0 x1 x2 x4 x3 x5 x6 := by
  unfold out4_A_7
  rw [View.read_writes_eq_canon _ _ _ (cover4_A_7 c i a1 h1 a2 h2 a3 h3 a4 h4 a5 h5 a6 h6 a7 h7 a8 h8 a9 h9 a10 h10 hc x0 x1 x2 x3 x4 x5 x6)]
  unfold kernelRun4_A
  dsimp only
  sl_unfold_words
  rw [View.canon_unit_zero (S := S5000x128) hz]
  simp only [View.readAt_eq_ld, h1.read_unread, h2.read_unread, h3.read_unread, h4.read_unread, h5.read_unread, h6.read_unread, h7.read_unread, View.ld_unit_zero (S := S5000x128) hz, View.ld_unit_zero (S := S128x128) hz, View.ld_unit_zero (S := S5000x1) hz, View.ld_unit_zero (S := S1x128) hz]

/-- First point: the sum row is the zero row plus the block's column sums. -/
theorem out_A_8 (c : Dev nD) (i : grid4.Coords) (a1 : Memref sig .tc .vmem S5000x128 .f32) (h1 : a1.IsWhole) (a2 : Memref sig .tc .vmem S128x128 .f32) (h2 : a2.IsWhole) (a3 : Memref sig .tc .vmem S128x128 .f32) (h3 : a3.IsWhole) (a4 : Memref sig .tc .vmem S5000x128 .f32) (h4 : a4.IsWhole) (a5 : Memref sig .tc .vmem S5000x1 .f32) (h5 : a5.IsWhole) (a6 : Memref sig .tc .vmem S1x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond4_0 i) (x0 : Vec Ideal S5000x128 .f32) (x1 : Vec Ideal S128x128 .f32) (x2 : Vec Ideal S128x128 .f32) (x3 : Vec Ideal S5000x128 .f32) (x4 : Vec Ideal S5000x1 .f32) (x5 : Vec Ideal S1x128 .f32) (x6 : Vec Ideal S1x128 .f32) :
    out4_A_8 (F := Ideal) c i a1 h1 a2 h2 a3 h3 a4 h4 a5 h5 a6 h6 a7 h7 a8 h8 a9 h9 a10 h10 hc x0 x1 x2 x3 x4 x5 x6 = k4_pay1 (k4_pay5 x0 x1 x2 x4 x3 x5 x6) (k4_pay3 (F := Ideal)) := by
  unfold out4_A_8
  rw [View.read_writes_eq_canon _ _ _ (cover4_A_8 c i a1 h1 a2 h2 a3 h3 a4 h4 a5 h5 a6 h6 a7 h7 a8 h8 a9 h9 a10 h10 hc x0 x1 x2 x3 x4 x5 x6)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, View.ld_unit_zero (S := S5000x128) hz, View.ld_unit_zero (S := S128x128) hz, View.ld_unit_zero (S := S5000x1) hz, View.ld_unit_zero (S := S1x128) hz]

/-- First point: the sum-of-squares row is the zero row plus the column sums of the block's squares. -/
theorem out_A_9 (c : Dev nD) (i : grid4.Coords) (a1 : Memref sig .tc .vmem S5000x128 .f32) (h1 : a1.IsWhole) (a2 : Memref sig .tc .vmem S128x128 .f32) (h2 : a2.IsWhole) (a3 : Memref sig .tc .vmem S128x128 .f32) (h3 : a3.IsWhole) (a4 : Memref sig .tc .vmem S5000x128 .f32) (h4 : a4.IsWhole) (a5 : Memref sig .tc .vmem S5000x1 .f32) (h5 : a5.IsWhole) (a6 : Memref sig .tc .vmem S1x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond4_0 i) (x0 : Vec Ideal S5000x128 .f32) (x1 : Vec Ideal S128x128 .f32) (x2 : Vec Ideal S128x128 .f32) (x3 : Vec Ideal S5000x128 .f32) (x4 : Vec Ideal S5000x1 .f32) (x5 : Vec Ideal S1x128 .f32) (x6 : Vec Ideal S1x128 .f32) :
    out4_A_9 (F := Ideal) c i a1 h1 a2 h2 a3 h3 a4 h4 a5 h5 a6 h6 a7 h7 a8 h8 a9 h9 a10 h10 hc x0 x1 x2 x3 x4 x5 x6 = k4_pay2 (k4_pay5 x0 x1 x2 x4 x3 x5 x6) (k4_pay4 (F := Ideal)) := by
  unfold out4_A_9
  rw [View.read_writes_eq_canon _ _ _ (cover4_A_9 c i a1 h1 a2 h2 a3 h3 a4 h4 a5 h5 a6 h6 a7 h7 a8 h8 a9 h9 a10 h10 hc x0 x1 x2 x3 x4 x5 x6)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, View.ld_unit_zero (S := S5000x128) hz, View.ld_unit_zero (S := S128x128) hz, View.ld_unit_zero (S := S5000x1) hz, View.ld_unit_zero (S := S1x128) hz]

/-- A later point: the block of pre-activations. -/
theorem out_B_7 (c : Dev nD) (i : grid4.Coords) (a1 : Memref sig .tc .vmem S5000x128 .f32) (h1 : a1.IsWhole) (a2 : Memref sig .tc .vmem S128x128 .f32) (h2 : a2.IsWhole) (a3 : Memref sig .tc .vmem S128x128 .f32) (h3 : a3.IsWhole) (a4 : Memref sig .tc .vmem S5000x128 .f32) (h4 : a4.IsWhole) (a5 : Memref sig .tc .vmem S5000x1 .f32) (h5 : a5.IsWhole) (a6 : Memref sig .tc .vmem S1x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond4_0 i) (x0 : Vec Ideal S5000x128 .f32) (x1 : Vec Ideal S128x128 .f32) (x2 : Vec Ideal S128x128 .f32) (x3 : Vec Ideal S5000x128 .f32) (x4 : Vec Ideal S5000x1 .f32) (x5 : Vec Ideal S1x128 .f32) (x6 : Vec Ideal S1x128 .f32) (xo8 : Vec Ideal S1x128 .f32) (xo9 : Vec Ideal S1x128 .f32) :
    out4_B_7 (F := Ideal) c i a1 h1 a2 h2 a3 h3 a4 h4 a5 h5 a6 h6 a7 h7 a8 h8 a9 h9 a10 h10 hc x0 x1 x2 x3 x4 x5 x6 xo8 xo9 = k4_pay5 x0 x1 x2 x4 x3 x5 x6 := by
  unfold out4_B_7
  rw [View.read_writes_eq_canon _ _ _ (cover4_B_7 c i a1 h1 a2 h2 a3 h3 a4 h4 a5 h5 a6 h6 a7 h7 a8 h8 a9 h9 a10 h10 hc x0 x1 x2 x3 x4 x5 x6 xo8 xo9)]
  unfold kernelRun4_B
  dsimp only
  sl_unfold_words
  rw [View.canon_unit_zero (S := S5000x128) hz]
  simp only [View.readAt_eq_ld, h1.read_unread, h2.read_unread, h3.read_unread, h4.read_unread, h5.read_unread, h6.read_unread, h7.read_unread, View.ld_unit_zero (S := S5000x128) hz, View.ld_unit_zero (S := S128x128) hz, View.ld_unit_zero (S := S5000x1) hz, View.ld_unit_zero (S := S1x128) hz]

/-- A later point: the sum row is what it held plus the block's column sums. -/
theorem out_B_8 (c : Dev nD) (i : grid4.Coords) (a1 : Memref sig .tc .vmem S5000x128 .f32) (h1 : a1.IsWhole) (a2 : Memref sig .tc .vmem S128x128 .f32) (h2 : a2.IsWhole) (a3 : Memref sig .tc .vmem S128x128 .f32) (h3 : a3.IsWhole) (a4 : Memref sig .tc .vmem S5000x128 .f32) (h4 : a4.IsWhole) (a5 : Memref sig .tc .vmem S5000x1 .f32) (h5 : a5.IsWhole) (a6 : Memref sig .tc .vmem S1x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond4_0 i) (x0 : Vec Ideal S5000x128 .f32) (x1 : Vec Ideal S128x128 .f32) (x2 : Vec Ideal S128x128 .f32) (x3 : Vec Ideal S5000x128 .f32) (x4 : Vec Ideal S5000x1 .f32) (x5 : Vec Ideal S1x128 .f32) (x6 : Vec Ideal S1x128 .f32) (xo8 : Vec Ideal S1x128 .f32) (xo9 : Vec Ideal S1x128 .f32) :
    out4_B_8 (F := Ideal) c i a1 h1 a2 h2 a3 h3 a4 h4 a5 h5 a6 h6 a7 h7 a8 h8 a9 h9 a10 h10 hc x0 x1 x2 x3 x4 x5 x6 xo8 xo9 = k4_pay1 (k4_pay5 x0 x1 x2 x4 x3 x5 x6) xo8 := by
  unfold out4_B_8
  rw [View.read_writes_eq_canon _ _ _ (cover4_B_8 c i a1 h1 a2 h2 a3 h3 a4 h4 a5 h5 a6 h6 a7 h7 a8 h8 a9 h9 a10 h10 hc x0 x1 x2 x3 x4 x5 x6 xo8 xo9)]
  unfold kernelRun4_B
  dsimp only
  sl_unfold_words
  rw [View.canon_unit_zero (S := S1x128) hz]
  simp only [View.readAt_eq_ld, h1.read_unread, h2.read_unread, h3.read_unread, h4.read_unread, h5.read_unread, h6.read_unread, h7.read_unread, h9.read_unread, View.ld_unit_zero (S := S5000x128) hz, View.ld_unit_zero (S := S128x128) hz, View.ld_unit_zero (S := S5000x1) hz, View.ld_unit_zero (S := S1x128) hz]

/-- A later point: the sum-of-squares row is what it held plus the column sums of the block's squares. -/
theorem out_B_9 (c : Dev nD) (i : grid4.Coords) (a1 : Memref sig .tc .vmem S5000x128 .f32) (h1 : a1.IsWhole) (a2 : Memref sig .tc .vmem S128x128 .f32) (h2 : a2.IsWhole) (a3 : Memref sig .tc .vmem S128x128 .f32) (h3 : a3.IsWhole) (a4 : Memref sig .tc .vmem S5000x128 .f32) (h4 : a4.IsWhole) (a5 : Memref sig .tc .vmem S5000x1 .f32) (h5 : a5.IsWhole) (a6 : Memref sig .tc .vmem S1x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond4_0 i) (x0 : Vec Ideal S5000x128 .f32) (x1 : Vec Ideal S128x128 .f32) (x2 : Vec Ideal S128x128 .f32) (x3 : Vec Ideal S5000x128 .f32) (x4 : Vec Ideal S5000x1 .f32) (x5 : Vec Ideal S1x128 .f32) (x6 : Vec Ideal S1x128 .f32) (xo8 : Vec Ideal S1x128 .f32) (xo9 : Vec Ideal S1x128 .f32) :
    out4_B_9 (F := Ideal) c i a1 h1 a2 h2 a3 h3 a4 h4 a5 h5 a6 h6 a7 h7 a8 h8 a9 h9 a10 h10 hc x0 x1 x2 x3 x4 x5 x6 xo8 xo9 = k4_pay2 (k4_pay5 x0 x1 x2 x4 x3 x5 x6) xo9 := by
  unfold out4_B_9
  rw [View.read_writes_eq_canon _ _ _ (cover4_B_9 c i a1 h1 a2 h2 a3 h3 a4 h4 a5 h5 a6 h6 a7 h7 a8 h8 a9 h9 a10 h10 hc x0 x1 x2 x3 x4 x5 x6 xo8 xo9)]
  unfold kernelRun4_B
  dsimp only
  sl_unfold_words
  rw [View.canon_unit_zero (S := S1x128) hz]
  simp only [View.readAt_eq_ld, h1.read_unread, h2.read_unread, h3.read_unread, h4.read_unread, h5.read_unread, h6.read_unread, h7.read_unread, h10.read_unread, View.ld_unit_zero (S := S5000x128) hz, View.ld_unit_zero (S := S128x128) hz, View.ld_unit_zero (S := S5000x1) hz, View.ld_unit_zero (S := S1x128) hz]

/-! ## The stored values, entry by entry -/

/-- Row `p`, feature `q` of the block of pre-activations, from the seven loaded blocks:
    `(((dinv·agg + (dinv·dinv)·(h·Wg)) + bg) + h·Wl) + bl`. -/
theorem pay5_apply (x0 : Vec Ideal S5000x128 .f32) (x1 : Vec Ideal S128x128 .f32) (x2 : Vec Ideal S128x128 .f32)
    (x4 : Vec Ideal S5000x1 .f32) (x3 : Vec Ideal S5000x128 .f32) (x5 : Vec Ideal S1x128 .f32) (x6 : Vec Ideal S1x128 .f32)
    (p : Fin 5000) (q : Fin 128) :
    k4_pay5 (F := Ideal) x0 x1 x2 x4 x3 x5 x6 (ix2 p q)
      = (((x4 (ix2 p (0 : Fin 1)) * x3 (ix2 p q)
            + (x4 (ix2 p (0 : Fin 1)) * x4 (ix2 p (0 : Fin 1))) * (∑ k : Fin 128, x0 (ix2 p k) * x2 (ix2 k q)))
          + x5 (ix2 (0 : Fin 1) q))
        + (∑ k : Fin 128, x0 (ix2 p k) * x1 (ix2 k q)))
      + x6 (ix2 (0 : Fin 1) q) := by
  unfold k4_pay5
  simp only [shapeCast_self]
  rw [addf_apply, addf_apply, addf_apply, addf_apply, mulf_apply, mulf_apply, bcastCol_apply, bcastCol_apply,
    bcastRow_apply, bcastRow_apply, matmul128_apply, matmul128_apply, mulf_apply]
  rfl

/-- Feature `q` of the new sum row: the old entry plus the sum of the block's 5000 rows. -/
theorem pay1_apply (v31 : FVec Ideal S5000x128 .f32) (v34 : Vec Ideal S1x128 .f32) (q : Fin 128) :
    k4_pay1 (F := Ideal) v31 v34 (ix2 (0 : Fin 1) q) = v34 (ix2 (0 : Fin 1) q) + ∑ p : Fin 5000, v31 (ix2 p q) := by
  unfold k4_pay1
  dsimp only
  refine (addf_apply _ _ _).trans (congrArg₂ (· + ·) (congrFun (shapeCast_self v34 _) _) ?_)
  refine (castRow_apply _ q).trans ?_
  exact rowSum_apply v31 _ _ q

/-- Feature `q` of the new sum-of-squares row: the old entry plus the sum of the squares of the block's 5000 rows. -/
theorem pay2_apply (v31 : FVec Ideal S5000x128 .f32) (v39 : Vec Ideal S1x128 .f32) (q : Fin 128) :
    k4_pay2 (F := Ideal) v31 v39 (ix2 (0 : Fin 1) q)
      = v39 (ix2 (0 : Fin 1) q) + ∑ p : Fin 5000, v31 (ix2 p q) * v31 (ix2 p q) := by
  unfold k4_pay2
  dsimp only
  refine (addf_apply _ _ _).trans (congrArg₂ (· + ·) (congrFun (shapeCast_self v39 _) _) ?_)
  refine (castRow_apply _ q).trans ?_
  exact rowSum_apply (mulf v31 v31) _ _ q

/-- The two rows the first point stores before accumulating are zero. -/
theorem pay3_apply (j : S1x128.Idx) : k4_pay3 (F := Ideal) j = 0 := Ideal.ofBits_zero_f32
theorem pay4_apply (j : S1x128.Idx) : k4_pay4 (F := Ideal) j = 0 := Ideal.ofBits_zero_f32

variable (V : (c : Dev nD) → (b : Ref sig .tc) → Buf (Elt Ideal) ((c : Thread nD τ).loc b))

/-! ## The region's result as one function of its input arrays -/

/-- The pre-activation of node `n`, feature `d`, from the node features `h`, the two weight matrices, the aggregated
    neighbour features `agg`, the degree scalings `dv` and the two bias rows:
    `(((dv n · agg n d + (dv n · dv n) · ∑ₖ h n k · Wg k d) + bg d) + ∑ₖ h n k · Wl k d) + bl d`. -/
def preArr (h : S50000x128.Idx → EReal) (Wl Wg : S128x128.Idx → EReal) (agg : S50000x128.Idx → EReal)
    (dv : S50000x1.Idx → EReal) (bg bl : S1x128.Idx → EReal) : S50000x128.Idx → EReal :=
  fun i => (((dv (ix2 (i 0) (0 : Fin 1)) * agg i
        + (dv (ix2 (i 0) (0 : Fin 1)) * dv (ix2 (i 0) (0 : Fin 1))) * (∑ k : Fin 128, h (ix2 (i 0) k) * Wg (ix2 k (i 1))))
      + bg (ix2 (0 : Fin 1) (i 1)))
    + (∑ k : Fin 128, h (ix2 (i 0) k) * Wl (ix2 k (i 1))))
  + bl (ix2 (0 : Fin 1) (i 1))

theorem preArr_apply (h : S50000x128.Idx → EReal) (Wl Wg : S128x128.Idx → EReal) (agg : S50000x128.Idx → EReal)
    (dv : S50000x1.Idx → EReal) (bg bl : S1x128.Idx → EReal) (n : Fin 50000) (q : Fin 128) :
    preArr h Wl Wg agg dv bg bl (ix2 n q)
      = (((dv (ix2 n (0 : Fin 1)) * agg (ix2 n q)
            + (dv (ix2 n (0 : Fin 1)) * dv (ix2 n (0 : Fin 1))) * (∑ k : Fin 128, h (ix2 n k) * Wg (ix2 k q)))
          + bg (ix2 (0 : Fin 1) q))
        + (∑ k : Fin 128, h (ix2 n k) * Wl (ix2 k q)))
      + bl (ix2 (0 : Fin 1) q) := rfl

/-- The region's pre-activations, of the arrays the region was entered with. -/
abbrev pre (c : Dev nD) : S50000x128.Idx → EReal := preArr (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6))

/-! ## The windows' blocks read off their arrays -/

/-- The printed index maps over the ten grid points: the four row-block windows move with the point, the weights, the
    bias rows and the two running rows stay at block (0, 0). -/
theorem idx_facts : ∀ t : Fin cfg4.N,
    (win4_0.index t (0 : Fin 2) = t.val ∧ win4_0.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = t.val ∧ win4_3.index t (1 : Fin 2) = 0)
    ∧ (win4_4.index t (0 : Fin 2) = t.val ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = t.val ∧ win4_7.index t (1 : Fin 2) = 0)
    ∧ (win4_8.index t (0 : Fin 2) = 0 ∧ win4_8.index t (1 : Fin 2) = 0)
    ∧ (win4_9.index t (0 : Fin 2) = 0 ∧ win4_9.index t (1 : Fin 2) = 0) :=
  (by decide +kernel : ∀ t : Fin grid4.N, _)

/-- Row `p`, feature `k` of the node-feature block at point `t` is row `t · 5000 + p` of its array. -/
theorem blk0_apply (c : Dev nD) (t : Fin cfg4.N) (p : Fin 5000) (k : Fin 128) (hp : t.val * 5000 + p.val < 50000) :
    iblk4 V c 0 t (ix2 p k) = V c (Pipeline.arrRef spec4 0) (ix2 ⟨t.val * 5000 + p.val, hp⟩ k) := by
  obtain ⟨⟨e0, e1⟩, -⟩ := idx_facts t
  show V c (Pipeline.arrRef spec4 0) (((cfg4.win 0).blk t).view.emb (ix2 p k)) = _
  refine congrArg (V c (Pipeline.arrRef spec4 0)) (funext fun a => Fin.ext ?_)
  match a with
  | ⟨0, _⟩ => show win4_0.index t (0 : Fin 2) * 5000 + 1 * p.val = t.val * 5000 + p.val; omega
  | ⟨1, _⟩ => show win4_0.index t (1 : Fin 2) * 128 + 1 * k.val = k.val; omega

/-- The first weight window's block is the whole matrix. -/
theorem blk1_apply (c : Dev nD) (t : Fin cfg4.N) (k : Fin 128) (q : Fin 128) :
    iblk4 V c 1 t (ix2 k q) = V c (Pipeline.arrRef spec4 1) (ix2 k q) := by
  obtain ⟨-, ⟨e0, e1⟩, -⟩ := idx_facts t
  show V c (Pipeline.arrRef spec4 1) (((cfg4.win 1).blk t).view.emb (ix2 k q)) = _
  refine congrArg (V c (Pipeline.arrRef spec4 1)) (funext fun a => Fin.ext ?_)
  match a with
  | ⟨0, _⟩ => show win4_1.index t (0 : Fin 2) * 128 + 1 * k.val = k.val; omega
  | ⟨1, _⟩ => show win4_1.index t (1 : Fin 2) * 128 + 1 * q.val = q.val; omega

/-- The second weight window's block is the whole matrix. -/
theorem blk2_apply (c : Dev nD) (t : Fin cfg4.N) (k : Fin 128) (q : Fin 128) :
    iblk4 V c 2 t (ix2 k q) = V c (Pipeline.arrRef spec4 2) (ix2 k q) := by
  obtain ⟨-, -, ⟨e0, e1⟩, -⟩ := idx_facts t
  show V c (Pipeline.arrRef spec4 2) (((cfg4.win 2).blk t).view.emb (ix2 k q)) = _
  refine congrArg (V c (Pipeline.arrRef spec4 2)) (funext fun a => Fin.ext ?_)
  match a with
  | ⟨0, _⟩ => show win4_2.index t (0 : Fin 2) * 128 + 1 * k.val = k.val; omega
  | ⟨1, _⟩ => show win4_2.index t (1 : Fin 2) * 128 + 1 * q.val = q.val; omega

/-- Row `p`, feature `q` of the aggregate block at point `t` is row `t · 5000 + p` of its array. -/
theorem blk3_apply (c : Dev nD) (t : Fin cfg4.N) (p : Fin 5000) (q : Fin 128) (hp : t.val * 5000 + p.val < 50000) :
    iblk4 V c 3 t (ix2 p q) = V c (Pipeline.arrRef spec4 3) (ix2 ⟨t.val * 5000 + p.val, hp⟩ q) := by
  obtain ⟨-, -, -, ⟨e0, e1⟩, -⟩ := idx_facts t
  show V c (Pipeline.arrRef spec4 3) (((cfg4.win 3).blk t).view.emb (ix2 p q)) = _
  refine congrArg (V c (Pipeline.arrRef spec4 3)) (funext fun a => Fin.ext ?_)
  match a with
  | ⟨0, _⟩ => show win4_3.index t (0 : Fin 2) * 5000 + 1 * p.val = t.val * 5000 + p.val; omega
  | ⟨1, _⟩ => show win4_3.index t (1 : Fin 2) * 128 + 1 * q.val = q.val; omega

/-- Row `p` of the scaling block at point `t` is entry `t · 5000 + p` of its column. -/
theorem blk4_apply (c : Dev nD) (t : Fin cfg4.N) (p : Fin 5000) (hp : t.val * 5000 + p.val < 50000) :
    iblk4 V c 4 t (ix2 p (0 : Fin 1)) = V c (Pipeline.arrRef spec4 4) (ix2 ⟨t.val * 5000 + p.val, hp⟩ (0 : Fin 1)) := by
  obtain ⟨-, -, -, -, ⟨e0, e1⟩, -⟩ := idx_facts t
  show V c (Pipeline.arrRef spec4 4) (((cfg4.win 4).blk t).view.emb (ix2 p (0 : Fin 1))) = _
  refine congrArg (V c (Pipeline.arrRef spec4 4)) (funext fun a => Fin.ext ?_)
  match a with
  | ⟨0, _⟩ => show win4_4.index t (0 : Fin 2) * 5000 + 1 * p.val = t.val * 5000 + p.val; omega
  | ⟨1, _⟩ => show win4_4.index t (1 : Fin 2) * 1 + 1 * (0 : Fin 1).val = (0 : Fin 1).val; omega

/-- The first bias window's block is the whole row. -/
theorem blk5_apply (c : Dev nD) (t : Fin cfg4.N) (q : Fin 128) :
    iblk4 V c 5 t (ix2 (0 : Fin 1) q) = V c (Pipeline.arrRef spec4 5) (ix2 (0 : Fin 1) q) := by
  obtain ⟨-, -, -, -, -, ⟨e0, e1⟩, -⟩ := idx_facts t
  show V c (Pipeline.arrRef spec4 5) (((cfg4.win 5).blk t).view.emb (ix2 (0 : Fin 1) q)) = _
  refine congrArg (V c (Pipeline.arrRef spec4 5)) (funext fun a => Fin.ext ?_)
  match a with
  | ⟨0, _⟩ => show win4_5.index t (0 : Fin 2) * 1 + 1 * (0 : Fin 1).val = (0 : Fin 1).val; omega
  | ⟨1, _⟩ => show win4_5.index t (1 : Fin 2) * 128 + 1 * q.val = q.val; omega

/-- The second bias window's block is the whole row. -/
theorem blk6_apply (c : Dev nD) (t : Fin cfg4.N) (q : Fin 128) :
    iblk4 V c 6 t (ix2 (0 : Fin 1) q) = V c (Pipeline.arrRef spec4 6) (ix2 (0 : Fin 1) q) := by
  obtain ⟨-, -, -, -, -, -, ⟨e0, e1⟩, -⟩ := idx_facts t
  show V c (Pipeline.arrRef spec4 6) (((cfg4.win 6).blk t).view.emb (ix2 (0 : Fin 1) q)) = _
  refine congrArg (V c (Pipeline.arrRef spec4 6)) (funext fun a => Fin.ext ?_)
  match a with
  | ⟨0, _⟩ => show win4_6.index t (0 : Fin 2) * 1 + 1 * (0 : Fin 1).val = (0 : Fin 1).val; omega
  | ⟨1, _⟩ => show win4_6.index t (1 : Fin 2) * 128 + 1 * q.val = q.val; omega

/-! ## The block of pre-activations at a grid point -/

/-- What every point stores in the first output's buffer: the payload of the seven window blocks. -/
def preBlk (c : Dev nD) (t : Fin cfg4.N) : Vec Ideal S5000x128 .f32 :=
  k4_pay5 (F := Ideal) (iblk4 V c 0 t) (iblk4 V c 1 t) (iblk4 V c 2 t) (iblk4 V c 4 t) (iblk4 V c 3 t) (iblk4 V c 5 t) (iblk4 V c 6 t)

/-- Row `p`, feature `q` of that block is the pre-activation of node `t · 5000 + p`. -/
theorem preBlk_apply (c : Dev nD) (t : Fin cfg4.N) (p : Fin 5000) (q : Fin 128) (hp : t.val * 5000 + p.val < 50000) :
    preBlk V c t (ix2 p q) = pre V c (ix2 ⟨t.val * 5000 + p.val, hp⟩ q) := by
  unfold preBlk
  refine (pay5_apply _ _ _ _ _ _ _ p q).trans ?_
  refine Eq.trans ?_ (preArr_apply _ _ _ _ _ _ _ ⟨t.val * 5000 + p.val, hp⟩ q).symm
  refine congrArg₂ (· + ·) (congrArg₂ (· + ·) (congrArg₂ (· + ·) (congrArg₂ (· + ·) (congrArg₂ (· * ·) ?_ ?_)
    (congrArg₂ (· * ·) (congrArg₂ (· * ·) ?_ ?_) (Finset.sum_congr rfl fun k _ => congrArg₂ (· * ·) ?_ ?_))) ?_)
    (Finset.sum_congr rfl fun k _ => congrArg₂ (· * ·) ?_ ?_)) ?_
  · exact blk4_apply V c t p hp
  · exact blk3_apply V c t p q hp
  · exact blk4_apply V c t p hp
  · exact blk4_apply V c t p hp
  · exact blk0_apply V c t p k hp
  · exact blk2_apply V c t k q
  · exact blk5_apply V c t q
  · exact blk0_apply V c t p k hp
  · exact blk1_apply V c t k q
  · exact blk6_apply V c t q

/-! ## What the three buffers hold after each point -/

/-- At the first point: the block, and the zero rows plus the block's column sums. -/
theorem at_A (c : Dev nD) (t : Fin cfg4.N) (h0 : t.val % 10 = 0) :
    outsAt4 V c t.val t.isLt
      = (preBlk V c t, k4_pay1 (F := Ideal) (preBlk V c t) (k4_pay3 (F := Ideal)),
          k4_pay2 (F := Ideal) (preBlk V c t) (k4_pay4 (F := Ideal))) :=
  (outsAt4_A V c t h0).trans (congrArg₂ Prod.mk
    (out_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) ((hcond4_0 t).mpr h0) (iblk4 V c 0 t) (iblk4 V c 1 t) (iblk4 V c 2 t) (iblk4 V c 3 t) (iblk4 V c 4 t) (iblk4 V c 5 t) (iblk4 V c 6 t))
    (congrArg₂ Prod.mk
      (out_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) ((hcond4_0 t).mpr h0) (iblk4 V c 0 t) (iblk4 V c 1 t) (iblk4 V c 2 t) (iblk4 V c 3 t) (iblk4 V c 4 t) (iblk4 V c 5 t) (iblk4 V c 6 t))
      (out_A_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) ((hcond4_0 t).mpr h0) (iblk4 V c 0 t) (iblk4 V c 1 t) (iblk4 V c 2 t) (iblk4 V c 3 t) (iblk4 V c 4 t) (iblk4 V c 5 t) (iblk4 V c 6 t))))

/-- At a later point: the block, and the rows the point before left plus the block's column sums. -/
theorem at_B (c : Dev nD) (t : Fin cfg4.N) (h0 : ¬t.val % 10 = 0) :
    outsAt4 V c t.val t.isLt
      = (preBlk V c t, k4_pay1 (F := Ideal) (preBlk V c t) (outsAt4 V c (t.val - 1) (Nat.lt_of_le_of_lt (Nat.sub_le _ _) t.isLt)).2.1,
          k4_pay2 (F := Ideal) (preBlk V c t) (outsAt4 V c (t.val - 1) (Nat.lt_of_le_of_lt (Nat.sub_le _ _) t.isLt)).2.2) :=
  (outsAt4_B V c t h0).trans (congrArg₂ Prod.mk
    (out_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (fun h => h0 ((hcond4_0 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.1 (outsAt4 V c (t.val - 1) (Nat.lt_of_le_of_lt (Nat.sub_le _ _) t.isLt)).2.2)
    (congrArg₂ Prod.mk
      (out_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (fun h => h0 ((hcond4_0 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.1 (outsAt4 V c (t.val - 1) (Nat.lt_of_le_of_lt (Nat.sub_le _ _) t.isLt)).2.2)
      (out_B_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (fun h => h0 ((hcond4_0 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.1 (outsAt4 V c (t.val - 1) (Nat.lt_of_le_of_lt (Nat.sub_le _ _) t.isLt)).2.2)))

/-- Every point leaves its block of pre-activations in the first output's buffer. -/
theorem out7_eq (c : Dev nD) (t : Fin cfg4.N) : (outsAt4 V c t.val t.isLt).1 = preBlk V c t := by
  by_cases h0 : t.val % 10 = 0
  · exact congrArg Prod.fst (at_A V c t h0)
  · exact congrArg Prod.fst (at_B V c t h0)

/-! ## The running rows are partial sums over the nodes -/

/-- Node `r`'s entry at feature `q` of a node-indexed array, zero past the last node: the summand of the partial sums. -/
def term (φ : S50000x128.Idx → EReal) (q : Fin 128) (r : ℕ) : EReal :=
  if h : r < 50000 then φ (ix2 ⟨r, h⟩ q) else 0

/-- The column sum of a block whose rows are the nodes `t · 5000, …, t · 5000 + 4999` is the sum of those 5000 terms. -/
theorem blkSum (φ : S50000x128.Idx → EReal) (q : Fin 128) (t : ℕ) (ht : t < 10) (X : Fin 5000 → EReal)
    (hX : ∀ (p : Fin 5000) (hp : t * 5000 + p.val < 50000), X p = φ (ix2 ⟨t * 5000 + p.val, hp⟩ q)) :
    ∑ p : Fin 5000, X p = ∑ r ∈ Finset.range 5000, term φ q (t * 5000 + r) := by
  rw [Finset.sum_range]
  refine Finset.sum_congr rfl fun p _ => ?_
  have hp : t * 5000 + p.val < 50000 := by have := p.isLt; omega
  rw [hX p hp]
  unfold term
  rw [dif_pos hp]

/-- Adding block `t`'s column sum to the sum over the nodes below `t · 5000` gives the sum over the nodes below
    `(t + 1) · 5000`. -/
theorem sum_extend (φ : S50000x128.Idx → EReal) (q : Fin 128) (t : ℕ) (ht : t < 10) (X : Fin 5000 → EReal)
    (hX : ∀ (p : Fin 5000) (hp : t * 5000 + p.val < 50000), X p = φ (ix2 ⟨t * 5000 + p.val, hp⟩ q)) :
    ∑ r ∈ Finset.range (t * 5000), term φ q r + ∑ p : Fin 5000, X p = ∑ r ∈ Finset.range ((t + 1) * 5000), term φ q r := by
  rw [show (t + 1) * 5000 = t * 5000 + 5000 by omega, Finset.sum_range_add, blkSum φ q t ht X hX]

/-- The sum over the nodes below `10 · 5000` is the sum over all nodes. -/
theorem total (φ : S50000x128.Idx → EReal) (q : Fin 128) (n : ℕ) (h9 : n = 9) :
    ∑ r ∈ Finset.range ((n + 1) * 5000), term φ q r = ∑ m : Fin 50000, φ (ix2 m q) := by
  subst h9
  rw [show (9 + 1) * 5000 = 50000 by norm_num, Finset.sum_range]
  refine Finset.sum_congr rfl fun m _ => ?_
  unfold term
  rw [dif_pos m.isLt]

/-- THE INVARIANT.  After point `n` the sum row holds, at feature `q`, the sum of the pre-activations of the nodes
    below `(n + 1) · 5000`, and the sum-of-squares row the sum of their squares: zero plus the first block's column sums
    at the first point, the row the point before left plus this block's column sums after. -/
theorem acc_eq (c : Dev nD) : ∀ (n : ℕ) (hn : n < cfg4.N),
    (∀ q : Fin 128, (outsAt4 V c n hn).2.1 (ix2 (0 : Fin 1) q)
        = ∑ r ∈ Finset.range ((n + 1) * 5000), term (pre V c) q r)
    ∧ (∀ q : Fin 128, (outsAt4 V c n hn).2.2 (ix2 (0 : Fin 1) q)
        = ∑ r ∈ Finset.range ((n + 1) * 5000), term (fun i => pre V c i * pre V c i) q r)
  | 0, hn => by
    have e := at_A V c ⟨0, hn⟩ rfl
    have hN : (0 : ℕ) < 10 := by omega
    refine ⟨fun q => ?_, fun q => ?_⟩
    · refine (congrFun (congrArg (fun x => x.2.1) e) (ix2 (0 : Fin 1) q)).trans ?_
      refine (pay1_apply _ _ q).trans ?_
      refine Eq.trans (congrArg (fun z => z + ∑ p : Fin 5000, preBlk V c ⟨0, hn⟩ (ix2 p q))
        (?_ : _ = ∑ r ∈ Finset.range (0 * 5000), term (pre V c) q r))
        (sum_extend (pre V c) q 0 hN (fun p => preBlk V c ⟨0, hn⟩ (ix2 p q)) (fun p hp => preBlk_apply V c ⟨0, hn⟩ p q hp))
      rw [pay3_apply, Nat.zero_mul, Finset.range_zero, Finset.sum_empty]
    · refine (congrFun (congrArg (fun x => x.2.2) e) (ix2 (0 : Fin 1) q)).trans ?_
      refine (pay2_apply _ _ q).trans ?_
      refine Eq.trans (congrArg (fun z => z + ∑ p : Fin 5000, preBlk V c ⟨0, hn⟩ (ix2 p q) * preBlk V c ⟨0, hn⟩ (ix2 p q))
        (?_ : _ = ∑ r ∈ Finset.range (0 * 5000), term (fun i => pre V c i * pre V c i) q r))
        (sum_extend (fun i => pre V c i * pre V c i) q 0 hN (fun p => preBlk V c ⟨0, hn⟩ (ix2 p q) * preBlk V c ⟨0, hn⟩ (ix2 p q))
          (fun p hp => congrArg₂ (· * ·) (preBlk_apply V c ⟨0, hn⟩ p q hp) (preBlk_apply V c ⟨0, hn⟩ p q hp)))
      rw [pay4_apply, Nat.zero_mul, Finset.range_zero, Finset.sum_empty]
  | n + 1, hn => by
    have hN10 : cfg4.N = 10 := N_4
    have hN : n + 1 < 10 := by omega
    have hB : ¬(⟨n + 1, hn⟩ : Fin cfg4.N).val % 10 = 0 := by dsimp only; omega
    have e := at_B V c ⟨n + 1, hn⟩ hB
    obtain ⟨ih8, ih9⟩ := acc_eq c n (Nat.lt_of_succ_lt hn)
    refine ⟨fun q => ?_, fun q => ?_⟩
    · refine (congrFun (congrArg (fun x => x.2.1) e) (ix2 (0 : Fin 1) q)).trans ?_
      refine (pay1_apply _ _ q).trans ?_
      refine Eq.trans (congrArg (fun z => z + ∑ p : Fin 5000, preBlk V c ⟨n + 1, hn⟩ (ix2 p q))
        (?_ : _ = ∑ r ∈ Finset.range ((n + 1) * 5000), term (pre V c) q r))
        (sum_extend (pre V c) q (n + 1) hN (fun p => preBlk V c ⟨n + 1, hn⟩ (ix2 p q)) (fun p hp => preBlk_apply V c ⟨n + 1, hn⟩ p q hp))
      exact ih8 q
    · refine (congrFun (congrArg (fun x => x.2.2) e) (ix2 (0 : Fin 1) q)).trans ?_
      refine (pay2_apply _ _ q).trans ?_
      refine Eq.trans (congrArg (fun z => z + ∑ p : Fin 5000, preBlk V c ⟨n + 1, hn⟩ (ix2 p q) * preBlk V c ⟨n + 1, hn⟩ (ix2 p q))
        (?_ : _ = ∑ r ∈ Finset.range ((n + 1) * 5000), term (fun i => pre V c i * pre V c i) q r))
        (sum_extend (fun i => pre V c i * pre V c i) q (n + 1) hN (fun p => preBlk V c ⟨n + 1, hn⟩ (ix2 p q) * preBlk V c ⟨n + 1, hn⟩ (ix2 p q))
          (fun p hp => congrArg₂ (· * ·) (preBlk_apply V c ⟨n + 1, hn⟩ p q hp) (preBlk_apply V c ⟨n + 1, hn⟩ p q hp)))
      exact ih9 q

/-! ## From the blocks to the arrays -/

/-- WHAT POINT `t` WRITES BACK to the first output is block `t` of the pre-activations. -/
theorem flushed7_eq (c : Dev nD) (t : Fin cfg4.N) :
    (dat4 V c).flushed 7 t = ((cfg4.win 7).blk t).view.read (Elt Ideal) (pre V c) := by
  show (cfg4.win 7).cut (grid4.coords t) ((dat4 V c).after 7 t) = _
  rw [after4_7, out7_eq V c t]
  obtain ⟨-, -, -, -, -, -, -, ⟨e0, e1⟩, -⟩ := idx_facts t
  have ht : t.val < 10 := t.isLt
  funext j
  have hj0 : (j 0).val < 5000 := (j 0).isLt
  have hj1 : (j 1).val < 128 := (j 1).isLt
  have hrow : t.val * 5000 + (j 0).val < 50000 := by omega
  show preBlk V c t j = pre V c (((cfg4.win 7).blk t).view.emb j)
  have hemb : ((cfg4.win 7).blk t).view.emb j = ix2 (⟨t.val * 5000 + (j 0).val, hrow⟩ : Fin 50000) (j 1) := by
    funext a; apply Fin.ext
    match a with
    | ⟨0, _⟩ => show win4_7.index t (0 : Fin 2) * 5000 + 1 * (j 0).val = t.val * 5000 + (j 0).val; omega
    | ⟨1, _⟩ => show win4_7.index t (1 : Fin 2) * 128 + 1 * (j 1).val = (j 1).val; omega
  rw [hemb]
  exact (congrArg (preBlk V c t) (eq_ix2 j)).trans (preBlk_apply V c t (j 0) (j 1) hrow)

/-- An index of the first output is in point `t`'s block iff each coordinate is in the block's range on its axis. -/
theorem mem_blk7 (t : Fin cfg4.N) (i : S50000x128.Idx) :
    i ∈ ((cfg4.win 7).blk t).view.set ↔ ∀ a : Fin 2, win4_7.index t a * S5000x128.size a ≤ (i a).val
      ∧ (i a).val < win4_7.index t a * S5000x128.size a + S5000x128.size a := by
  show i ∈ ((View.whole (Pipeline.arrRef spec4 7)).slice (win4_7.rect t)).set ↔ _
  rw [View.set_slice_whole, Rect.mem_set_unit]
  exact Iff.rfl

/-- Every node row is in the block of the point `row / 5000`. -/
theorem cover7 (i : S50000x128.Idx) : ∃ t : Fin cfg4.N, (cfg4.win 7).flush t = true ∧ i ∈ ((cfg4.win 7).blk t).view.set := by
  have hi0 : (i 0).val < 50000 := (i 0).isLt
  have hi1 : (i 1).val < 128 := (i 1).isLt
  refine ⟨⟨(i 0).val / 5000, by show (i 0).val / 5000 < 10; omega⟩, flush4_7 _, ?_⟩
  rw [mem_blk7]
  obtain ⟨-, -, -, -, -, -, -, ⟨e0, e1⟩, -⟩ := idx_facts ⟨(i 0).val / 5000, by show (i 0).val / 5000 < 10; omega⟩
  intro a
  match a with
  | ⟨0, _⟩ =>
    show win4_7.index _ (0 : Fin 2) * 5000 ≤ (i 0).val ∧ (i 0).val < win4_7.index _ (0 : Fin 2) * 5000 + 5000
    rw [e0]; show (i 0).val / 5000 * 5000 ≤ (i 0).val ∧ (i 0).val < (i 0).val / 5000 * 5000 + 5000; omega
  | ⟨1, _⟩ =>
    show win4_7.index _ (1 : Fin 2) * 128 ≤ (i 1).val ∧ (i 1).val < win4_7.index _ (1 : Fin 2) * 128 + 128
    rw [e1]; omega

/-- THE FIRST OUTPUT ARRAY after the region: every node's pre-activation. -/
theorem final7 (c : Dev nD) : (dat4 V c).arrAt 7 cfg4.N = (preArr (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6))) :=
  (dat4 V c).arrAt_eq_of_cover 7 _ (fun t _ => flushed7_eq V c t) cover7

/-- The last of the ten grid points: the only one that writes the two running rows back. -/
abbrev tLast4 : Fin cfg4.N := ⟨9, by show 9 < 10; omega⟩

/-- Feature by feature, the sum of a node-indexed array over all 50000 nodes. -/
def colSums (φ : S50000x128.Idx → EReal) : S1x128.Idx → EReal := fun i => ∑ n : Fin 50000, φ (ix2 n (i 1))

/-- WHAT THE LAST POINT WRITES BACK to the sum row: feature by feature, the sum over all nodes of the pre-activations.
    Only the last point writes this row back; by then the row holds the sum over the nodes below `10 · 5000`. -/
theorem flushed8_eq (c : Dev nD) (t : Fin cfg4.N) (hf : (cfg4.win 8).flush t = true) :
    (dat4 V c).flushed 8 t = ((cfg4.win 8).blk t).view.read (Elt Ideal) (colSums (pre V c)) := by
  have ht : t.val < 10 := t.isLt
  have h9 : t.val = 9 := by have := (flush4_8 t).mp hf; omega
  have hX : ∀ q : Fin 128, (outsAt4 V c t.val t.isLt).2.1 (ix2 (0 : Fin 1) q) = colSums (pre V c) (ix2 (0 : Fin 1) q) :=
    fun q => ((acc_eq V c t.val t.isLt).1 q).trans (total (pre V c) q t.val h9)
  show (cfg4.win 8).cut (grid4.coords t) ((dat4 V c).after 8 t) = _
  rw [after4_8]
  generalize (outsAt4 V c t.val t.isLt).2.1 = X at hX
  have hXG : X = colSums (pre V c) := funext fun i => by
    have hi0 : (i 0).val < 1 := (i 0).isLt
    have hi : i = ix2 (0 : Fin 1) (i 1) := by
      funext a
      match a with
      | ⟨0, _⟩ => exact Fin.ext (by show (i 0).val = 0; omega)
      | ⟨1, _⟩ => rfl
    exact (congrArg X hi).trans ((hX (i 1)).trans (congrArg (colSums (pre V c)) hi).symm)
  subst hXG
  obtain rfl : t = tLast4 := Fin.ext h9
  obtain ⟨-, -, -, -, -, -, -, -, ⟨e80, e81⟩, ⟨e90, e91⟩⟩ := idx_facts tLast4
  have hz' : (fun a => win4_8.index tLast4 a * (Pipeline.arrRef spec4 8).ty.shape.size a) = fun _ => 0 :=
    funext fun a => by
      match a with
      | ⟨0, _⟩ => show win4_8.index tLast4 (0 : Fin 2) * 1 = 0; rw [e80]
      | ⟨1, _⟩ => show win4_8.index tLast4 (1 : Fin 2) * 128 = 0; rw [e81]
  exact (Memref.read_access_unit_zero (Elt Ideal) (Pipeline.arrRef spec4 8) hz'
    (fun a => le_of_eq (by have h := congrFun hz' a; dsimp only at h; rw [h, Nat.zero_add])) (colSums (pre V c))).symm

/-- An index of the sum row is in point `t`'s block iff each coordinate is in the block's range on its axis. -/
theorem mem_blk8 (t : Fin cfg4.N) (i : S1x128.Idx) :
    i ∈ ((cfg4.win 8).blk t).view.set ↔ ∀ a : Fin 2, win4_8.index t a * S1x128.size a ≤ (i a).val
      ∧ (i a).val < win4_8.index t a * S1x128.size a + S1x128.size a := by
  show i ∈ ((View.whole (Pipeline.arrRef spec4 8)).slice (win4_8.rect t)).set ↔ _
  rw [View.set_slice_whole, Rect.mem_set_unit]
  exact Iff.rfl

/-- The row is one block, and the last point writes it back. -/
theorem cover8 (i : S1x128.Idx) : ∃ t : Fin cfg4.N, (cfg4.win 8).flush t = true ∧ i ∈ ((cfg4.win 8).blk t).view.set := by
  have hi0 : (i 0).val < 1 := (i 0).isLt
  have hi1 : (i 1).val < 128 := (i 1).isLt
  refine ⟨tLast4, (flush4_8 _).mpr rfl, ?_⟩
  rw [mem_blk8]
  obtain ⟨-, -, -, -, -, -, -, -, ⟨e80, e81⟩, ⟨e90, e91⟩⟩ := idx_facts tLast4
  intro a
  match a with
  | ⟨0, _⟩ =>
    show win4_8.index _ (0 : Fin 2) * 1 ≤ (i 0).val ∧ (i 0).val < win4_8.index _ (0 : Fin 2) * 1 + 1
    rw [e80]; omega
  | ⟨1, _⟩ =>
    show win4_8.index _ (1 : Fin 2) * 128 ≤ (i 1).val ∧ (i 1).val < win4_8.index _ (1 : Fin 2) * 128 + 128
    rw [e81]; omega

/-- THE SECOND OUTPUT ARRAY after the region: feature by feature, the sum of the pre-activations over all 50000 nodes. -/
theorem final8 (c : Dev nD) : (dat4 V c).arrAt 8 cfg4.N
    = (fun i => ∑ n : Fin 50000, (preArr (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6))) (ix2 n (i 1)) : S1x128.Idx → EReal) :=
  (dat4 V c).arrAt_eq_of_cover 8 (colSums (pre V c)) (fun t hf => flushed8_eq V c t hf) cover8

/-- WHAT THE LAST POINT WRITES BACK to the sum-of-squares row: feature by feature, the sum over all nodes of the squares of the pre-activations.
    Only the last point writes this row back; by then the row holds the sum over the nodes below `10 · 5000`. -/
theorem flushed9_eq (c : Dev nD) (t : Fin cfg4.N) (hf : (cfg4.win 9).flush t = true) :
    (dat4 V c).flushed 9 t = ((cfg4.win 9).blk t).view.read (Elt Ideal) (colSums (fun i => pre V c i * pre V c i)) := by
  have ht : t.val < 10 := t.isLt
  have h9 : t.val = 9 := by have := (flush4_9 t).mp hf; omega
  have hX : ∀ q : Fin 128, (outsAt4 V c t.val t.isLt).2.2 (ix2 (0 : Fin 1) q) = colSums (fun i => pre V c i * pre V c i) (ix2 (0 : Fin 1) q) :=
    fun q => ((acc_eq V c t.val t.isLt).2 q).trans (total (fun i => pre V c i * pre V c i) q t.val h9)
  show (cfg4.win 9).cut (grid4.coords t) ((dat4 V c).after 9 t) = _
  rw [after4_9]
  generalize (outsAt4 V c t.val t.isLt).2.2 = X at hX
  have hXG : X = colSums (fun i => pre V c i * pre V c i) := funext fun i => by
    have hi0 : (i 0).val < 1 := (i 0).isLt
    have hi : i = ix2 (0 : Fin 1) (i 1) := by
      funext a
      match a with
      | ⟨0, _⟩ => exact Fin.ext (by show (i 0).val = 0; omega)
      | ⟨1, _⟩ => rfl
    exact (congrArg X hi).trans ((hX (i 1)).trans (congrArg (colSums (fun i => pre V c i * pre V c i)) hi).symm)
  subst hXG
  obtain rfl : t = tLast4 := Fin.ext h9
  obtain ⟨-, -, -, -, -, -, -, -, ⟨e80, e81⟩, ⟨e90, e91⟩⟩ := idx_facts tLast4
  have hz' : (fun a => win4_9.index tLast4 a * (Pipeline.arrRef spec4 9).ty.shape.size a) = fun _ => 0 :=
    funext fun a => by
      match a with
      | ⟨0, _⟩ => show win4_9.index tLast4 (0 : Fin 2) * 1 = 0; rw [e90]
      | ⟨1, _⟩ => show win4_9.index tLast4 (1 : Fin 2) * 128 = 0; rw [e91]
  exact (Memref.read_access_unit_zero (Elt Ideal) (Pipeline.arrRef spec4 9) hz'
    (fun a => le_of_eq (by have h := congrFun hz' a; dsimp only at h; rw [h, Nat.zero_add])) (colSums (fun i => pre V c i * pre V c i))).symm

/-- An index of the sum-of-squares row is in point `t`'s block iff each coordinate is in the block's range on its axis. -/
theorem mem_blk9 (t : Fin cfg4.N) (i : S1x128.Idx) :
    i ∈ ((cfg4.win 9).blk t).view.set ↔ ∀ a : Fin 2, win4_9.index t a * S1x128.size a ≤ (i a).val
      ∧ (i a).val < win4_9.index t a * S1x128.size a + S1x128.size a := by
  show i ∈ ((View.whole (Pipeline.arrRef spec4 9)).slice (win4_9.rect t)).set ↔ _
  rw [View.set_slice_whole, Rect.mem_set_unit]
  exact Iff.rfl

/-- The row is one block, and the last point writes it back. -/
theorem cover9 (i : S1x128.Idx) : ∃ t : Fin cfg4.N, (cfg4.win 9).flush t = true ∧ i ∈ ((cfg4.win 9).blk t).view.set := by
  have hi0 : (i 0).val < 1 := (i 0).isLt
  have hi1 : (i 1).val < 128 := (i 1).isLt
  refine ⟨tLast4, (flush4_9 _).mpr rfl, ?_⟩
  rw [mem_blk9]
  obtain ⟨-, -, -, -, -, -, -, -, ⟨e80, e81⟩, ⟨e90, e91⟩⟩ := idx_facts tLast4
  intro a
  match a with
  | ⟨0, _⟩ =>
    show win4_9.index _ (0 : Fin 2) * 1 ≤ (i 0).val ∧ (i 0).val < win4_9.index _ (0 : Fin 2) * 1 + 1
    rw [e90]; omega
  | ⟨1, _⟩ =>
    show win4_9.index _ (1 : Fin 2) * 128 ≤ (i 1).val ∧ (i 1).val < win4_9.index _ (1 : Fin 2) * 128 + 128
    rw [e91]; omega

/-- THE THIRD OUTPUT ARRAY after the region: feature by feature, the sum of the squared pre-activations over all 50000 nodes. -/
theorem final9 (c : Dev nD) : (dat4 V c).arrAt 9 cfg4.N
    = (fun i => ∑ n : Fin 50000, (preArr (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6))) (ix2 n (i 1)) * (preArr (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6))) (ix2 n (i 1)) : S1x128.Idx → EReal) :=
  (dat4 V c).arrAt_eq_of_cover 9 (colSums (fun i => pre V c i * pre V c i)) (fun t hf => flushed9_eq V c t hf) cover9

end Cert.KernelIdeal.Combine4

end
-- ==== Proof.NormStep5.lean ====
/- The normalisation region of a layer (region 5): each grid point takes a block of 5000 node rows of the pre-activation
  `hpre` and, feature by feature, subtracts the feature's mean, scales by the reciprocal square root of the feature's
  variance plus a small constant, multiplies by `gamma`, adds `beta` and clamps below at zero.  That is the first output;
  the second is the block of the running node features plus the first.  The mean, variance, `gamma` and `beta` rows are
  the same at every point and the blocks tile the node axis, so after the region the two output arrays are these
  entrywise functions of the arrays the region was entered with.
-/
import proofs.«134443_j73787538145745_2_alg».proof.Proof.Gen.KernelIdeal.Frame
import proofs.«134443_j73787538145745_2_alg».proof.Proof.BlockOps
import Idealize.ShloMosaic.Lib.Pipeline.Value

set_option maxRecDepth 16384

noncomputable section

namespace Cert.KernelIdeal.NormStep5

open Cert.KernelIdeal Cert.KernelIdeal.Gen Cert.KernelIdeal.BlockOps
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One entry's normalisation: `max ((((h − m) · rsqrt (v + ε)) · g) + b) 0`, `ε` the 32-bit constant of the body. -/
def normAt (h m v g b : EReal) : EReal :=
  max ((((h - m) * Ideal.rsqrt (v + (Ideal.ofBits .f32 0x3727C5AC#32 : EReal))) * g) + b) 0

/-- The region's first result as one function of its five input arrays: entry `(n, d)` of `hp` normalised with feature
    `d`'s mean, variance, `gamma` and `beta`. -/
def normArr (hp : S50000x128.Idx → EReal) (mean var gam bet : S1x128.Idx → EReal) : S50000x128.Idx → EReal :=
  fun i => max ((((hp i - mean (ix2 0 (i 1))) * Ideal.rsqrt (var (ix2 0 (i 1)) + (Ideal.ofBits .f32 0x3727C5AC#32 : EReal)))
    * gam (ix2 0 (i 1))) + bet (ix2 0 (i 1))) 0

/-- The region's second result: the running node features plus the first result, entry by entry. -/
def resArr (xin hp : S50000x128.Idx → EReal) (mean var gam bet : S1x128.Idx → EReal) : S50000x128.Idx → EReal :=
  fun i => xin i + normArr hp mean var gam bet i

theorem normArr_apply (hp : S50000x128.Idx → EReal) (mean var gam bet : S1x128.Idx → EReal) (i : S50000x128.Idx) :
    normArr hp mean var gam bet i
      = normAt (hp i) (mean (ix2 0 (i 1))) (var (ix2 0 (i 1))) (gam (ix2 0 (i 1))) (bet (ix2 0 (i 1))) := rfl

/-- The entrywise reciprocal square root of a vector, at an index. -/
theorem rsqrtVec_apply {s : Shape} {φ : FTy} (a : FVec Ideal s φ) (i : s.Idx) : rsqrt a i = Ideal.rsqrt (a i) := rfl

/-- The first stored value at row `p`, feature `q` of a block, from the loaded variance row, pre-activation block, mean row,
    `gamma` row and `beta` row (the order in which the body reads them). -/
theorem pay1_apply (v0 : Vec Ideal S1x128 .f32) (v5 : Vec Ideal S5000x128 .f32) (v7 v13 v17 : Vec Ideal S1x128 .f32)
    (p : Fin 5000) (q : Fin 128) :
    k5_pay1 (F := Ideal) v0 v5 v7 v13 v17 (ix2 p q)
      = normAt (v5 (ix2 p q)) (v7 (ix2 (0 : Fin 1) q)) (v0 (ix2 (0 : Fin 1) q)) (v13 (ix2 (0 : Fin 1) q)) (v17 (ix2 (0 : Fin 1) q)) := by
  unfold k5_pay1
  rw [maximumf_apply, broadcast_apply, addf_apply, mulf_apply, mulf_apply, subf_apply,
    bcastRow_apply, bcastRow_apply, bcastRow_apply, bcastRow_apply]
  simp only [shapeCast_self]
  unfold normAt
  refine congrArg₂ max ?_ Ideal.ofBits_zero_f32
  rfl

/-- The second stored value: the running features' entry plus the first stored value. -/
theorem pay2_apply (v0 : Vec Ideal S1x128 .f32) (v5 : Vec Ideal S5000x128 .f32) (v7 v13 v17 : Vec Ideal S1x128 .f32)
    (v24 : Vec Ideal S5000x128 .f32) (p : Fin 5000) (q : Fin 128) :
    k5_pay2 (F := Ideal) v0 v5 v7 v13 v17 v24 (ix2 p q) = v24 (ix2 p q) + k5_pay1 (F := Ideal) v0 v5 v7 v13 v17 (ix2 p q) := by
  unfold k5_pay2
  rw [addf_apply, shapeCast_self]

/-- The printed index maps of the four row-block windows over the ten grid points: they move with the point. -/
theorem idx_blk : ∀ t : Fin cfg5.N, win5_0.index t (0 : Fin 2) = t.val ∧ win5_0.index t (1 : Fin 2) = 0
    ∧ win5_5.index t (0 : Fin 2) = t.val ∧ win5_5.index t (1 : Fin 2) = 0
    ∧ win5_6.index t (0 : Fin 2) = t.val ∧ win5_6.index t (1 : Fin 2) = 0
    ∧ win5_7.index t (0 : Fin 2) = t.val ∧ win5_7.index t (1 : Fin 2) = 0 :=
  (by decide +kernel : ∀ t : Fin grid5.N, _)

/-- The printed index maps of the four one-row windows over the ten grid points: they stay at block (0, 0). -/
theorem idx_row : ∀ t : Fin cfg5.N, win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- Row `p`, feature `q` of the pre-activation window's block at point `t` is row `t · 5000 + p` of its array. -/
theorem blkH_apply (c : Dev nD) (t : Fin cfg5.N) (p : Fin 5000) (q : Fin 128) (hp : t.val * 5000 + p.val < 50000) :
    iblk5 V c 0 t (ix2 p q) = V c (Pipeline.arrRef spec5 0) (ix2 ⟨t.val * 5000 + p.val, hp⟩ q) := by
  obtain ⟨e0, e1, e2, e3, e4, e5, e6, e7⟩ := idx_blk t
  show V c (Pipeline.arrRef spec5 0) (((cfg5.win 0).blk t).view.emb (ix2 p q)) = _
  refine congrArg (V c (Pipeline.arrRef spec5 0)) (funext fun a => Fin.ext ?_)
  match a with
  | ⟨0, _⟩ => show win5_0.index t (0 : Fin 2) * 5000 + 1 * p.val = t.val * 5000 + p.val; omega
  | ⟨1, _⟩ => show win5_0.index t (1 : Fin 2) * 128 + 1 * q.val = q.val; omega

/-- Row `p`, feature `q` of the running-features window's block at point `t` is row `t · 5000 + p` of its array. -/
theorem blkX_apply (c : Dev nD) (t : Fin cfg5.N) (p : Fin 5000) (q : Fin 128) (hp : t.val * 5000 + p.val < 50000) :
    iblk5 V c 5 t (ix2 p q) = V c (Pipeline.arrRef spec5 5) (ix2 ⟨t.val * 5000 + p.val, hp⟩ q) := by
  obtain ⟨e0, e1, e2, e3, e4, e5, e6, e7⟩ := idx_blk t
  show V c (Pipeline.arrRef spec5 5) (((cfg5.win 5).blk t).view.emb (ix2 p q)) = _
  refine congrArg (V c (Pipeline.arrRef spec5 5)) (funext fun a => Fin.ext ?_)
  match a with
  | ⟨0, _⟩ => show win5_5.index t (0 : Fin 2) * 5000 + 1 * p.val = t.val * 5000 + p.val; omega
  | ⟨1, _⟩ => show win5_5.index t (1 : Fin 2) * 128 + 1 * q.val = q.val; omega

/-- The mean window's block is the whole mean row. -/
theorem rowMean_apply (c : Dev nD) (t : Fin cfg5.N) (q : Fin 128) :
    iblk5 V c 1 t (ix2 (0 : Fin 1) q) = V c (Pipeline.arrRef spec5 1) (ix2 (0 : Fin 1) q) := by
  obtain ⟨e0, e1, e2, e3, e4, e5, e6, e7⟩ := idx_row t
  show V c (Pipeline.arrRef spec5 1) (((cfg5.win 1).blk t).view.emb (ix2 (0 : Fin 1) q)) = _
  refine congrArg (V c (Pipeline.arrRef spec5 1)) (funext fun a => Fin.ext ?_)
  match a with
  | ⟨0, _⟩ => show win5_1.index t (0 : Fin 2) * 1 + 1 * (0 : Fin 1).val = (0 : Fin 1).val; omega
  | ⟨1, _⟩ => show win5_1.index t (1 : Fin 2) * 128 + 1 * q.val = q.val; omega

/-- The variance window's block is the whole variance row. -/
theorem rowVar_apply (c : Dev nD) (t : Fin cfg5.N) (q : Fin 128) :
    iblk5 V c 2 t (ix2 (0 : Fin 1) q) = V c (Pipeline.arrRef spec5 2) (ix2 (0 : Fin 1) q) := by
  obtain ⟨e0, e1, e2, e3, e4, e5, e6, e7⟩ := idx_row t
  show V c (Pipeline.arrRef spec5 2) (((cfg5.win 2).blk t).view.emb (ix2 (0 : Fin 1) q)) = _
  refine congrArg (V c (Pipeline.arrRef spec5 2)) (funext fun a => Fin.ext ?_)
  match a with
  | ⟨0, _⟩ => show win5_2.index t (0 : Fin 2) * 1 + 1 * (0 : Fin 1).val = (0 : Fin 1).val; omega
  | ⟨1, _⟩ => show win5_2.index t (1 : Fin 2) * 128 + 1 * q.val = q.val; omega

/-- The gamma window's block is the whole gamma row. -/
theorem rowGam_apply (c : Dev nD) (t : Fin cfg5.N) (q : Fin 128) :
    iblk5 V c 3 t (ix2 (0 : Fin 1) q) = V c (Pipeline.arrRef spec5 3) (ix2 (0 : Fin 1) q) := by
  obtain ⟨e0, e1, e2, e3, e4, e5, e6, e7⟩ := idx_row t
  show V c (Pipeline.arrRef spec5 3) (((cfg5.win 3).blk t).view.emb (ix2 (0 : Fin 1) q)) = _
  refine congrArg (V c (Pipeline.arrRef spec5 3)) (funext fun a => Fin.ext ?_)
  match a with
  | ⟨0, _⟩ => show win5_3.index t (0 : Fin 2) * 1 + 1 * (0 : Fin 1).val = (0 : Fin 1).val; omega
  | ⟨1, _⟩ => show win5_3.index t (1 : Fin 2) * 128 + 1 * q.val = q.val; omega

/-- The beta window's block is the whole beta row. -/
theorem rowBet_apply (c : Dev nD) (t : Fin cfg5.N) (q : Fin 128) :
    iblk5 V c 4 t (ix2 (0 : Fin 1) q) = V c (Pipeline.arrRef spec5 4) (ix2 (0 : Fin 1) q) := by
  obtain ⟨e0, e1, e2, e3, e4, e5, e6, e7⟩ := idx_row t
  show V c (Pipeline.arrRef spec5 4) (((cfg5.win 4).blk t).view.emb (ix2 (0 : Fin 1) q)) = _
  refine congrArg (V c (Pipeline.arrRef spec5 4)) (funext fun a => Fin.ext ?_)
  match a with
  | ⟨0, _⟩ => show win5_4.index t (0 : Fin 2) * 1 + 1 * (0 : Fin 1).val = (0 : Fin 1).val; omega
  | ⟨1, _⟩ => show win5_4.index t (1 : Fin 2) * 128 + 1 * q.val = q.val; omega

/-- The first stored value at point `t`, block row `p`, feature `q` is `normArr` of the entry arrays at node row
    `t · 5000 + p`. -/
theorem norm_blk (c : Dev nD) (t : Fin cfg5.N) (p : Fin 5000) (q : Fin 128) (hrow : t.val * 5000 + p.val < 50000) :
    k5_pay1 (F := Ideal) (iblk5 V c 2 t) (iblk5 V c 0 t) (iblk5 V c 1 t) (iblk5 V c 3 t) (iblk5 V c 4 t) (ix2 p q)
      = normArr (V c (Pipeline.arrRef spec5 0)) (V c (Pipeline.arrRef spec5 1)) (V c (Pipeline.arrRef spec5 2))
        (V c (Pipeline.arrRef spec5 3)) (V c (Pipeline.arrRef spec5 4)) (ix2 (⟨t.val * 5000 + p.val, hrow⟩ : Fin 50000) q) := by
  refine (pay1_apply _ _ _ _ _ p q).trans ?_
  rw [normArr_apply]
  refine congr (congr (congr (congr (congrArg normAt ?_) ?_) ?_) ?_) ?_
  · exact blkH_apply V c t p q hrow
  · exact rowMean_apply V c t q
  · exact rowVar_apply V c t q
  · exact rowGam_apply V c t q
  · exact rowBet_apply V c t q

set_option maxHeartbeats 1000000 in
/-- WHAT POINT `t` WRITES BACK to output 6 is block `t` of `normArr` of the arrays the region was entered with. -/
theorem flushed6_eq (c : Dev nD) (t : Fin cfg5.N) :
    (dat5 V c).flushed 6 t = ((cfg5.win 6).blk t).view.read (Elt Ideal)
      (normArr (V c (Pipeline.arrRef spec5 0)) (V c (Pipeline.arrRef spec5 1)) (V c (Pipeline.arrRef spec5 2))
        (V c (Pipeline.arrRef spec5 3)) (V c (Pipeline.arrRef spec5 4))) := by
  show (cfg5.win 6).cut (grid5.coords t) ((dat5 V c).after 6 t) = _
  rw [after5_6]
  unfold out5_6
  rw [View.canon_unit_zero hz]
  simp only [View.ld_unit_zero (S := S5000x128) hz, View.ld_unit_zero (S := S1x128) hz]
  obtain ⟨e0, e1, e2, e3, e4, e5, e6, e7⟩ := idx_blk t
  have ht : t.val < 10 := t.isLt
  funext j
  obtain ⟨p, q, rfl⟩ : ∃ (p : Fin 5000) (q : Fin 128), j = ix2 p q := ⟨j 0, j 1, eq_ix2 j⟩
  have hp : p.val < 5000 := p.isLt
  have hrow : t.val * 5000 + p.val < 50000 := by omega
  show k5_pay1 (F := Ideal) (iblk5 V c 2 t) (iblk5 V c 0 t) (iblk5 V c 1 t) (iblk5 V c 3 t) (iblk5 V c 4 t) (ix2 p q)
    = normArr (V c (Pipeline.arrRef spec5 0)) (V c (Pipeline.arrRef spec5 1)) (V c (Pipeline.arrRef spec5 2))
        (V c (Pipeline.arrRef spec5 3)) (V c (Pipeline.arrRef spec5 4)) (((cfg5.win 6).blk t).view.emb (ix2 p q))
  have hemb : ((cfg5.win 6).blk t).view.emb (ix2 p q) = ix2 (⟨t.val * 5000 + p.val, hrow⟩ : Fin 50000) q := by
    funext a; apply Fin.ext
    match a with
    | ⟨0, _⟩ => show win5_6.index t (0 : Fin 2) * 5000 + 1 * p.val = t.val * 5000 + p.val; omega
    | ⟨1, _⟩ => show win5_6.index t (1 : Fin 2) * 128 + 1 * q.val = q.val; omega
  rw [hemb]
  exact norm_blk V c t p q hrow

set_option maxHeartbeats 1000000 in
/-- WHAT POINT `t` WRITES BACK to output 7 is block `t` of the running features plus `normArr`. -/
theorem flushed7_eq (c : Dev nD) (t : Fin cfg5.N) :
    (dat5 V c).flushed 7 t = ((cfg5.win 7).blk t).view.read (Elt Ideal)
      (resArr (V c (Pipeline.arrRef spec5 5)) (V c (Pipeline.arrRef spec5 0)) (V c (Pipeline.arrRef spec5 1)) (V c (Pipeline.arrRef spec5 2))
        (V c (Pipeline.arrRef spec5 3)) (V c (Pipeline.arrRef spec5 4))) := by
  show (cfg5.win 7).cut (grid5.coords t) ((dat5 V c).after 7 t) = _
  rw [after5_7]
  unfold out5_7
  rw [View.canon_unit_zero hz]
  simp only [View.ld_unit_zero (S := S5000x128) hz, View.ld_unit_zero (S := S1x128) hz]
  obtain ⟨e0, e1, e2, e3, e4, e5, e6, e7⟩ := idx_blk t
  have ht : t.val < 10 := t.isLt
  funext j
  obtain ⟨p, q, rfl⟩ : ∃ (p : Fin 5000) (q : Fin 128), j = ix2 p q := ⟨j 0, j 1, eq_ix2 j⟩
  have hp : p.val < 5000 := p.isLt
  have hrow : t.val * 5000 + p.val < 50000 := by omega
  show k5_pay2 (F := Ideal) (iblk5 V c 2 t) (iblk5 V c 0 t) (iblk5 V c 1 t) (iblk5 V c 3 t) (iblk5 V c 4 t) (iblk5 V c 5 t) (ix2 p q)
    = resArr (V c (Pipeline.arrRef spec5 5)) (V c (Pipeline.arrRef spec5 0)) (V c (Pipeline.arrRef spec5 1)) (V c (Pipeline.arrRef spec5 2))
        (V c (Pipeline.arrRef spec5 3)) (V c (Pipeline.arrRef spec5 4)) (((cfg5.win 7).blk t).view.emb (ix2 p q))
  have hemb : ((cfg5.win 7).blk t).view.emb (ix2 p q) = ix2 (⟨t.val * 5000 + p.val, hrow⟩ : Fin 50000) q := by
    funext a; apply Fin.ext
    match a with
    | ⟨0, _⟩ => show win5_7.index t (0 : Fin 2) * 5000 + 1 * p.val = t.val * 5000 + p.val; omega
    | ⟨1, _⟩ => show win5_7.index t (1 : Fin 2) * 128 + 1 * q.val = q.val; omega
  rw [hemb]
  refine (pay2_apply _ _ _ _ _ _ p q).trans ?_
  unfold resArr
  exact congrArg₂ (· + ·) (blkX_apply V c t p q hrow) (norm_blk V c t p q hrow)

/-- An index of output 6's array is in point `t`'s block iff each coordinate is in the block's range on its axis. -/
theorem mem_blk6 (t : Fin cfg5.N) (i : S50000x128.Idx) :
    i ∈ ((cfg5.win 6).blk t).view.set ↔ ∀ a : Fin 2, win5_6.index t a * S5000x128.size a ≤ (i a).val
      ∧ (i a).val < win5_6.index t a * S5000x128.size a + S5000x128.size a := by
  show i ∈ ((View.whole (Pipeline.arrRef spec5 6)).slice (win5_6.rect t)).set ↔ _
  rw [View.set_slice_whole, Rect.mem_set_unit]
  exact Iff.rfl

/-- Every node row of output 6 is in the block of the point `row / 5000`. -/
theorem cover6 (i : S50000x128.Idx) : ∃ t : Fin cfg5.N, (cfg5.win 6).flush t = true ∧ i ∈ ((cfg5.win 6).blk t).view.set := by
  have hi0 : (i 0).val < 50000 := (i 0).isLt
  have hi1 : (i 1).val < 128 := (i 1).isLt
  refine ⟨⟨(i 0).val / 5000, by show (i 0).val / 5000 < 10; omega⟩, flush5_6 _, ?_⟩
  rw [mem_blk6]
  obtain ⟨e0, e1, e2, e3, e4, e5, e6, e7⟩ := idx_blk ⟨(i 0).val / 5000, by show (i 0).val / 5000 < 10; omega⟩
  intro a
  match a with
  | ⟨0, _⟩ =>
    show win5_6.index _ (0 : Fin 2) * 5000 ≤ (i 0).val ∧ (i 0).val < win5_6.index _ (0 : Fin 2) * 5000 + 5000
    rw [e4]; show (i 0).val / 5000 * 5000 ≤ (i 0).val ∧ (i 0).val < (i 0).val / 5000 * 5000 + 5000; omega
  | ⟨1, _⟩ =>
    show win5_6.index _ (1 : Fin 2) * 128 ≤ (i 1).val ∧ (i 1).val < win5_6.index _ (1 : Fin 2) * 128 + 128
    rw [e5]; omega

/-- An index of output 7's array is in point `t`'s block iff each coordinate is in the block's range on its axis. -/
theorem mem_blk7 (t : Fin cfg5.N) (i : S50000x128.Idx) :
    i ∈ ((cfg5.win 7).blk t).view.set ↔ ∀ a : Fin 2, win5_7.index t a * S5000x128.size a ≤ (i a).val
      ∧ (i a).val < win5_7.index t a * S5000x128.size a + S5000x128.size a := by
  show i ∈ ((View.whole (Pipeline.arrRef spec5 7)).slice (win5_7.rect t)).set ↔ _
  rw [View.set_slice_whole, Rect.mem_set_unit]
  exact Iff.rfl

/-- Every node row of output 7 is in the block of the point `row / 5000`. -/
theorem cover7 (i : S50000x128.Idx) : ∃ t : Fin cfg5.N, (cfg5.win 7).flush t = true ∧ i ∈ ((cfg5.win 7).blk t).view.set := by
  have hi0 : (i 0).val < 50000 := (i 0).isLt
  have hi1 : (i 1).val < 128 := (i 1).isLt
  refine ⟨⟨(i 0).val / 5000, by show (i 0).val / 5000 < 10; omega⟩, flush5_7 _, ?_⟩
  rw [mem_blk7]
  obtain ⟨e0, e1, e2, e3, e4, e5, e6, e7⟩ := idx_blk ⟨(i 0).val / 5000, by show (i 0).val / 5000 < 10; omega⟩
  intro a
  match a with
  | ⟨0, _⟩ =>
    show win5_7.index _ (0 : Fin 2) * 5000 ≤ (i 0).val ∧ (i 0).val < win5_7.index _ (0 : Fin 2) * 5000 + 5000
    rw [e6]; show (i 0).val / 5000 * 5000 ≤ (i 0).val ∧ (i 0).val < (i 0).val / 5000 * 5000 + 5000; omega
  | ⟨1, _⟩ =>
    show win5_7.index _ (1 : Fin 2) * 128 ≤ (i 1).val ∧ (i 1).val < win5_7.index _ (1 : Fin 2) * 128 + 128
    rw [e7]; omega

/-- THE FIRST OUTPUT ARRAY after the region. -/
theorem final6 (c : Dev nD) : (dat5 V c).arrAt 6 cfg5.N
    = normArr (V c (Pipeline.arrRef spec5 0)) (V c (Pipeline.arrRef spec5 1)) (V c (Pipeline.arrRef spec5 2))
        (V c (Pipeline.arrRef spec5 3)) (V c (Pipeline.arrRef spec5 4)) :=
  (dat5 V c).arrAt_eq_of_cover 6 _ (fun t _ => flushed6_eq V c t) cover6

/-- THE SECOND OUTPUT ARRAY after the region. -/
theorem final7 (c : Dev nD) : (dat5 V c).arrAt 7 cfg5.N
    = resArr (V c (Pipeline.arrRef spec5 5)) (V c (Pipeline.arrRef spec5 0)) (V c (Pipeline.arrRef spec5 1)) (V c (Pipeline.arrRef spec5 2))
        (V c (Pipeline.arrRef spec5 3)) (V c (Pipeline.arrRef spec5 4)) :=
  (dat5 V c).arrAt_eq_of_cover 7 _ (fun t _ => flushed7_eq V c t) cover7

end Cert.KernelIdeal.NormStep5

end
-- ==== Proof.KernelLayer2.lean ====
/- Layer 2 of the kernel program, buffer by buffer, in terms of the network's arguments: the same chain as layer 1 with the
   buffers, boundaries and regions of this layer, its input features and running sum taken from layer 1's outputs and its
   first slice of the stacked `Wg` from its own short stretch of array operations. -/
import proofs.«134443_j73787538145745_2_alg».proof.Proof.KernelLayer1
import proofs.«134443_j73787538145745_2_alg».proof.Proof.ScaledRows3
import proofs.«134443_j73787538145745_2_alg».proof.Proof.Combine4
import proofs.«134443_j73787538145745_2_alg».proof.Proof.NormStep5

set_option maxRecDepth 16384

noncomputable section

namespace Cert.KernelIdeal.Net

open Cert.KernelIdeal Cert.KernelIdeal.Gen
open Idealize.ShloMosaic Idealize.ShloMosaic.TcCoe Idealize.ShloMosaic.ValueIdx Idealize.ShloMosaic.StableHlo
open Idealize.SL Idealize.SL.Sem
open Cert.NetSpec Cert.LayerSpec Cert.LibEdgeIdx

variable (m : (ℓ : Loc nD τ sig) → Buf (Elt Ideal) ℓ) (ρ : Dev nD → PrngReg)

/-- Layer 2's `Wg`, as the first region of the layer reads it. -/
theorem wgA2_mat (c : Dev nD) (k d : Fin 128) :
    asArr S128x128 (W7 m ρ c (Proc.devRef .tc main_v54)) (ix2 k d) = (KArgs m c).Wg (ix3 (1 : Fin 3) k d) := by
  show StableHlo.after hostOps3 (W6 m ρ c) (Proc.devRef .tc main_v54) (ix2 k d) = _
  generalize hW : W6 m ρ c = Wv
  after_results_simp
  subst hW
  exact (HostWeights.slice3_apply _ 1 1 rfl _ _ k d).trans (congrFun (Walk.arg2_W6 m ρ c) (ix3 (1 : Fin 3) k d))

/-- The layer's first region: the previous layer's features times this layer's `Wg`, each row scaled by its node's `dinv`. -/
theorem hgs2_apply (c : Dev nD) (n : Fin 50000) (d : Fin 128) :
    asArr S50000x128 (W8 m ρ c (Proc.devRef .tc main_v55)) (ix2 n d)
      = (∑ k : Fin 128, asArr S50000x128 (W6 m ρ c (Proc.devRef .tc main_v52_0)) (ix2 n k) * (KArgs m c).Wg (ix3 (1 : Fin 3) k d))
          * (Gr (KArgs m c)).dinv n := by
  refine (congrFun ((W8_arr m ρ c 3).trans (ScaledRows3.final (V7 m ρ) c)) (ix2 n d)).trans ?_
  unfold ScaledRows3.scaledRows
  refine congrArg₂ (· * ·) (Finset.sum_congr rfl fun k _ => congrArg₂ (· * ·) ?_ ?_) ?_
  · exact congrFun (Walk.v52_0_W7 m ρ c) (ix2 n k)
  · exact wgA2_mat m ρ c k d
  · exact (congrFun (Walk.v11_W7 m ρ c) (ix2 n (0 : Fin 1))).trans (dinv_col m ρ c n)

/-- The accumulated messages of layer 2. -/
theorem agg2_apply (c : Dev nD) (n : Fin 50000) (k : Fin 128) :
    asArr S50000x128 (W9 m ρ c (Proc.devRef .tc main_v66)) (ix2 n k)
      = 0 + ∑ e ∈ Finset.univ.filter (fun e => (Gr (KArgs m c)).lands e n),
          asArr S50000x128 (W8 m ρ c (Proc.devRef .tc main_v55)) (ix2 ((Gr (KArgs m c)).srcc e) k) := by
  show StableHlo.after hostOps4 (W8 m ρ c) (Proc.devRef .tc main_v66) (ix2 n k) = _
  generalize hW : W8 m ρ c = Wv
  after_results_simp
  subst hW
  exact edgePhase_apply (KArgs m c) _ _ _
    (fun e => (congrFun (Walk.v1_W8 m ρ c) (ix1 e)).trans (src_vec m ρ c e))
    (fun e => (congrFun (Walk.v3_W8 m ρ c) (ix1 e)).trans (dst_vec m ρ c e)) n k

/-! ### Layer 2's parameter slices (second stretch) -/

/-- Layer 2's `bg` as a row. -/
theorem bg2_row (c : Dev nD) (d : Fin 128) :
    asArr S1x128 (W9 m ρ c (Proc.devRef .tc main_v69)) (ix2 (0 : Fin 1) d) = (KArgs m c).bg (ix2 (1 : Fin 3) d) := by
  show StableHlo.after hostOps4 (W8 m ρ c) (Proc.devRef .tc main_v69) (ix2 (0 : Fin 1) d) = _
  generalize hW : W8 m ρ c = Wv
  after_results_simp
  subst hW
  exact (HostWeights.slice2_row_apply _ 1 1 rfl _ _ _ d).trans (congrFun (Walk.arg3_W8 m ρ c) (ix2 (1 : Fin 3) d))

/-- Layer 2's `bl` as a row. -/
theorem bl2_row (c : Dev nD) (d : Fin 128) :
    asArr S1x128 (W9 m ρ c (Proc.devRef .tc main_v72)) (ix2 (0 : Fin 1) d) = (KArgs m c).bl (ix2 (1 : Fin 3) d) := by
  show StableHlo.after hostOps4 (W8 m ρ c) (Proc.devRef .tc main_v72) (ix2 (0 : Fin 1) d) = _
  generalize hW : W8 m ρ c = Wv
  after_results_simp
  subst hW
  exact (HostWeights.slice2_row_apply _ 1 1 rfl _ _ _ d).trans (congrFun (Walk.arg5_W8 m ρ c) (ix2 (1 : Fin 3) d))

/-- Layer 2's `Wl`. -/
theorem wl2_mat (c : Dev nD) (k d : Fin 128) :
    asArr S128x128 (W9 m ρ c (Proc.devRef .tc main_v74)) (ix2 k d) = (KArgs m c).Wl (ix3 (1 : Fin 3) k d) := by
  show StableHlo.after hostOps4 (W8 m ρ c) (Proc.devRef .tc main_v74) (ix2 k d) = _
  generalize hW : W8 m ρ c = Wv
  after_results_simp
  subst hW
  exact (HostWeights.slice3_apply _ 1 1 rfl _ _ k d).trans (congrFun (Walk.arg4_W8 m ρ c) (ix3 (1 : Fin 3) k d))

/-- Layer 2's `Wg`, as region 1 reads it. -/
theorem wg2_mat (c : Dev nD) (k d : Fin 128) :
    asArr S128x128 (W9 m ρ c (Proc.devRef .tc main_v76)) (ix2 k d) = (KArgs m c).Wg (ix3 (1 : Fin 3) k d) := by
  show StableHlo.after hostOps4 (W8 m ρ c) (Proc.devRef .tc main_v76) (ix2 k d) = _
  generalize hW : W8 m ρ c = Wv
  after_results_simp
  subst hW
  exact (HostWeights.slice3_apply _ 1 1 rfl _ _ k d).trans (congrFun (Walk.arg2_W8 m ρ c) (ix3 (1 : Fin 3) k d))

/-! ### Layer 2's statistics and scale rows (third stretch) -/

/-- The mean row: the one-pass sum over the node count. -/
theorem mean2_row (c : Dev nD) (d : Fin 128) :
    asArr S1x128 (W11 m ρ c (Proc.devRef .tc main_v79)) (ix2 (0 : Fin 1) d)
      = Ideal.div (asArr S1x128 (W10 m ρ c (Proc.devRef .tc main_v77_1)) (ix2 (0 : Fin 1) d)) (Ideal.ofBits .f32 0x47435000#32) := by
  show StableHlo.after hostOps5 (W10 m ρ c) (Proc.devRef .tc main_v79) (ix2 (0 : Fin 1) d) = _
  generalize hW : W10 m ρ c = Wv
  after_results_simp
  subst hW
  rw [hostDivf_apply, HostWeights.bcast_scalar_apply]
  rfl

/-- The variance row: the one-pass sum of squares over the count, minus the squared mean, clipped below at zero. -/
theorem var2_row (c : Dev nD) (d : Fin 128) :
    asArr S1x128 (W11 m ρ c (Proc.devRef .tc main_v85)) (ix2 (0 : Fin 1) d)
      = max (Ideal.div (asArr S1x128 (W10 m ρ c (Proc.devRef .tc main_v77_2)) (ix2 (0 : Fin 1) d)) (Ideal.ofBits .f32 0x47435000#32)
          - asArr S1x128 (W11 m ρ c (Proc.devRef .tc main_v79)) (ix2 (0 : Fin 1) d)
            * asArr S1x128 (W11 m ρ c (Proc.devRef .tc main_v79)) (ix2 (0 : Fin 1) d)) 0 := by
  rw [mean2_row]
  show StableHlo.after hostOps5 (W10 m ρ c) (Proc.devRef .tc main_v85) (ix2 (0 : Fin 1) d) = _
  generalize hW : W10 m ρ c = Wv
  after_results_simp
  subst hW
  have hz : (constant (F := Ideal) S_ FTy.f32 0x00000000#32 : S_.Idx → EReal) ix0 = (0 : EReal) := zero_val
  rw [maximumf_apply, subf_apply, mulf_apply, hostDivf_apply, hostDivf_apply, HostWeights.bcast_scalar_apply,
    HostWeights.bcast_scalar_apply, hz]
  rfl

/-- Layer 2's `gamma` as a row. -/
theorem gam2_row (c : Dev nD) (d : Fin 128) :
    asArr S1x128 (W11 m ρ c (Proc.devRef .tc main_v88)) (ix2 (0 : Fin 1) d) = (KArgs m c).gamma (ix2 (1 : Fin 3) d) := by
  show StableHlo.after hostOps5 (W10 m ρ c) (Proc.devRef .tc main_v88) (ix2 (0 : Fin 1) d) = _
  generalize hW : W10 m ρ c = Wv
  after_results_simp
  subst hW
  exact (HostWeights.slice2_row_apply _ 1 1 rfl _ _ _ d).trans (congrFun (Walk.arg6_W10 m ρ c) (ix2 (1 : Fin 3) d))

/-- Layer 2's `beta` as a row. -/
theorem bet2_row (c : Dev nD) (d : Fin 128) :
    asArr S1x128 (W11 m ρ c (Proc.devRef .tc main_v91)) (ix2 (0 : Fin 1) d) = (KArgs m c).beta (ix2 (1 : Fin 3) d) := by
  show StableHlo.after hostOps5 (W10 m ρ c) (Proc.devRef .tc main_v91) (ix2 (0 : Fin 1) d) = _
  generalize hW : W10 m ρ c = Wv
  after_results_simp
  subst hW
  exact (HostWeights.slice2_row_apply _ 1 1 rfl _ _ _ d).trans (congrFun (Walk.arg7_W10 m ρ c) (ix2 (1 : Fin 3) d))

/-! ### Layer 2's regions 1 and 2, and the layer -/

/-- Region 1's first output at `(n, d)`, in the kernels' association, over the buffers the layer uses. -/
theorem pre2_apply (c : Dev nD) (n : Fin 50000) (d : Fin 128) :
    asArr S50000x128 (W10 m ρ c (Proc.devRef .tc main_v77_0)) (ix2 n d)
      = (((asArr S50000x1 (W1 m ρ c (Proc.devRef .tc main_v11)) (ix2 n (0 : Fin 1))
            * asArr S50000x128 (W9 m ρ c (Proc.devRef .tc main_v66)) (ix2 n d)
          + (asArr S50000x1 (W1 m ρ c (Proc.devRef .tc main_v11)) (ix2 n (0 : Fin 1))
              * asArr S50000x1 (W1 m ρ c (Proc.devRef .tc main_v11)) (ix2 n (0 : Fin 1)))
            * (∑ k : Fin 128, asArr S50000x128 (W6 m ρ c (Proc.devRef .tc main_v52_0)) (ix2 n k) * asArr S128x128 (W9 m ρ c (Proc.devRef .tc main_v76)) (ix2 k d)))
          + asArr S1x128 (W9 m ρ c (Proc.devRef .tc main_v69)) (ix2 (0 : Fin 1) d))
          + (∑ k : Fin 128, asArr S50000x128 (W6 m ρ c (Proc.devRef .tc main_v52_0)) (ix2 n k) * asArr S128x128 (W9 m ρ c (Proc.devRef .tc main_v74)) (ix2 k d)))
          + asArr S1x128 (W9 m ρ c (Proc.devRef .tc main_v72)) (ix2 (0 : Fin 1) d) := by
  refine (congrFun ((W10_arr m ρ c 7).trans (Combine4.final7 (V9 m ρ) c)) (ix2 n d)).trans ?_
  unfold Combine4.preArr
  have hdv : asArr S50000x1 (V9 m ρ c (Pipeline.arrRef spec4 4)) (ix2 n (0 : Fin 1))
      = asArr S50000x1 (W1 m ρ c (Proc.devRef .tc main_v11)) (ix2 n (0 : Fin 1)) :=
    congrFun (Walk.v11_W9 m ρ c) (ix2 n (0 : Fin 1))
  have hx : ∀ k : Fin 128, asArr S50000x128 (V9 m ρ c (Pipeline.arrRef spec4 0)) (ix2 n k) = asArr S50000x128 (W6 m ρ c (Proc.devRef .tc main_v52_0)) (ix2 n k) :=
    fun k => congrFun (Walk.v52_0_W9 m ρ c) (ix2 n k)
  refine congrArg₂ (· + ·) (congrArg₂ (· + ·) (congrArg₂ (· + ·) (congrArg₂ (· + ·) (congrArg₂ (· * ·) hdv rfl)
    (congrArg₂ (· * ·) (congrArg₂ (· * ·) hdv hdv) (Finset.sum_congr rfl fun k _ => congrArg₂ (· * ·) (hx k) rfl))) rfl)
    (Finset.sum_congr rfl fun k _ => congrArg₂ (· * ·) (hx k) rfl)) rfl

/-- Region 1's running sum, written back at the last point: the sum of its first output over the nodes. -/
theorem sum2_row (c : Dev nD) (d : Fin 128) :
    asArr S1x128 (W10 m ρ c (Proc.devRef .tc main_v77_1)) (ix2 (0 : Fin 1) d)
      = ∑ n : Fin 50000, asArr S50000x128 (W10 m ρ c (Proc.devRef .tc main_v77_0)) (ix2 n d) := by
  have h8 : asArr S1x128 (W10 m ρ c (Proc.devRef .tc main_v77_1)) = Combine4.colSums (Combine4.pre (V9 m ρ) c) :=
    (W10_arr m ρ c 8).trans (Combine4.final8 (V9 m ρ) c)
  have h7 : asArr S50000x128 (W10 m ρ c (Proc.devRef .tc main_v77_0)) = Combine4.pre (V9 m ρ) c :=
    (W10_arr m ρ c 7).trans (Combine4.final7 (V9 m ρ) c)
  exact (congrFun h8 (ix2 (0 : Fin 1) d)).trans (Finset.sum_congr rfl fun n _ => (congrFun h7 (ix2 n d)).symm)

/-- Region 1's running sum of squares. -/
theorem sumsq2_row (c : Dev nD) (d : Fin 128) :
    asArr S1x128 (W10 m ρ c (Proc.devRef .tc main_v77_2)) (ix2 (0 : Fin 1) d)
      = ∑ n : Fin 50000, asArr S50000x128 (W10 m ρ c (Proc.devRef .tc main_v77_0)) (ix2 n d)
          * asArr S50000x128 (W10 m ρ c (Proc.devRef .tc main_v77_0)) (ix2 n d) := by
  have h9 : asArr S1x128 (W10 m ρ c (Proc.devRef .tc main_v77_2))
      = Combine4.colSums (fun i => Combine4.pre (V9 m ρ) c i * Combine4.pre (V9 m ρ) c i) :=
    (W10_arr m ρ c 9).trans (Combine4.final9 (V9 m ρ) c)
  have h7 : asArr S50000x128 (W10 m ρ c (Proc.devRef .tc main_v77_0)) = Combine4.pre (V9 m ρ) c :=
    (W10_arr m ρ c 7).trans (Combine4.final7 (V9 m ρ) c)
  exact (congrFun h9 (ix2 (0 : Fin 1) d)).trans (Finset.sum_congr rfl fun n _ =>
    congrArg₂ (· * ·) (congrFun h7 (ix2 n d)).symm (congrFun h7 (ix2 n d)).symm)

/-- Region 2's first output: the normalised, scaled, shifted and clipped features. -/
theorem new2_apply (c : Dev nD) (n : Fin 50000) (d : Fin 128) :
    asArr S50000x128 (W12 m ρ c (Proc.devRef .tc main_v92_0)) (ix2 n d)
      = max ((((asArr S50000x128 (W10 m ρ c (Proc.devRef .tc main_v77_0)) (ix2 n d)
            - asArr S1x128 (W11 m ρ c (Proc.devRef .tc main_v79)) (ix2 (0 : Fin 1) d))
          * Ideal.rsqrt (asArr S1x128 (W11 m ρ c (Proc.devRef .tc main_v85)) (ix2 (0 : Fin 1) d) + Ideal.ofBits .f32 0x3727C5AC#32))
          * asArr S1x128 (W11 m ρ c (Proc.devRef .tc main_v88)) (ix2 (0 : Fin 1) d))
          + asArr S1x128 (W11 m ρ c (Proc.devRef .tc main_v91)) (ix2 (0 : Fin 1) d)) 0 := by
  refine (congrFun ((W12_arr m ρ c 6).trans (NormStep5.final6 (V11 m ρ) c)) (ix2 n d)).trans ?_
  unfold NormStep5.normArr
  have hp : asArr S50000x128 (V11 m ρ c (Pipeline.arrRef spec5 0)) (ix2 n d)
      = asArr S50000x128 (W10 m ρ c (Proc.devRef .tc main_v77_0)) (ix2 n d) :=
    congrFun (Walk.v77_0_W11 m ρ c) (ix2 n d)
  exact congrArg (fun t => max ((((t - asArr S1x128 (W11 m ρ c (Proc.devRef .tc main_v79)) (ix2 (0 : Fin 1) d))
      * Ideal.rsqrt (asArr S1x128 (W11 m ρ c (Proc.devRef .tc main_v85)) (ix2 (0 : Fin 1) d) + Ideal.ofBits .f32 0x3727C5AC#32))
      * asArr S1x128 (W11 m ρ c (Proc.devRef .tc main_v88)) (ix2 (0 : Fin 1) d))
      + asArr S1x128 (W11 m ρ c (Proc.devRef .tc main_v91)) (ix2 (0 : Fin 1) d)) 0) hp

/-- LAYER 2 of the kernel program: its new features are the specification's, kernels' form. -/
theorem layer2_new (c : Dev nD) (n : Fin 50000) (d : Fin 128) :
    asArr S50000x128 (W12 m ρ c (Proc.devRef .tc main_v92_0)) (ix2 n d) = hK2 (KArgs m c) n d := by
  refine Cert.LayerBridge.layerK (KArgs m c) (1 : Fin 3) (hK1 (KArgs m c)) (W6 m ρ c (Proc.devRef .tc main_v52_0))
    (W8 m ρ c (Proc.devRef .tc main_v55)) (W9 m ρ c (Proc.devRef .tc main_v66)) (W10 m ρ c (Proc.devRef .tc main_v77_0))
    (W12 m ρ c (Proc.devRef .tc main_v92_0))
    (fun j => asArr S50000x128 (W8 m ρ c (Proc.devRef .tc main_v55)) (ix2 ((Gr (KArgs m c)).srcc (j 0)) (j 1)))
    (W9 m ρ c (Proc.devRef .tc main_v76)) (W9 m ρ c (Proc.devRef .tc main_v74)) (W1 m ρ c (Proc.devRef .tc main_v11))
    (W9 m ρ c (Proc.devRef .tc main_v69)) (W9 m ρ c (Proc.devRef .tc main_v72))
    (W11 m ρ c (Proc.devRef .tc main_v88)) (W11 m ρ c (Proc.devRef .tc main_v91))
    (W10 m ρ c (Proc.devRef .tc main_v77_1)) (W10 m ρ c (Proc.devRef .tc main_v77_2))
    (W11 m ρ c (Proc.devRef .tc main_v79)) (W11 m ρ c (Proc.devRef .tc main_v85))
    (layer1_new m ρ c) (wg2_mat m ρ c) (wl2_mat m ρ c) (bg2_row m ρ c) (bl2_row m ρ c) (gam2_row m ρ c) (bet2_row m ρ c)
    (dinv_col m ρ c) ?h1 (fun _ _ => rfl) (agg2_apply m ρ c) (pre2_apply m ρ c) (sum2_row m ρ c) (sumsq2_row m ρ c)
    (mean2_row m ρ c) (var2_row m ρ c) (new2_apply m ρ c) n d
  intro n d
  refine (hgs2_apply m ρ c n d).trans ?_
  refine congrArg₂ (· * ·) (Finset.sum_congr rfl fun k _ => congrArg₂ (· * ·) rfl (wg2_mat m ρ c k d).symm) (dinv_col m ρ c n).symm

/-- LAYER 2's running sum. -/
theorem layer2_sum (c : Dev nD) (n : Fin 50000) (d : Fin 128) :
    asArr S50000x128 (W12 m ρ c (Proc.devRef .tc main_v92_1)) (ix2 n d) = xK2 (KArgs m c) n d := by
  refine Cert.LayerBridge.xK2_of (KArgs m c) (W11 m ρ c (Proc.devRef .tc main_v52_1)) (W12 m ρ c (Proc.devRef .tc main_v92_0))
    (W12 m ρ c (Proc.devRef .tc main_v92_1)) ?hp (layer2_new m ρ c) ?hx n d
  case hp => intro n d; exact (congrFun (Walk.v52_1_W11 m ρ c) (ix2 n d)).trans (layer1_sum m ρ c n d)
  case hx =>
    intro i
    have h7 := congrFun ((W12_arr m ρ c 7).trans (NormStep5.final7 (V11 m ρ) c)) i
    have h6 := congrFun ((W12_arr m ρ c 6).trans (NormStep5.final6 (V11 m ρ) c)) i
    exact h7.trans (congrArg (fun t => asArr S50000x128 (W11 m ρ c (Proc.devRef .tc main_v52_1)) i + t) h6.symm)

end Cert.KernelIdeal.Net

end
-- ==== Proof.ScaledRows6.lean ====
/-
  The first tiled region of a layer (region 6): each grid point takes a block of 5000 node rows, multiplies it by the
  layer's `Wg`, and scales every row by that node's `dinv`.  The blocks tile the node axis, so after the region the
  output array holds, at node `n` and feature `d`, `(∑ k, h[n, k] · Wg[k, d]) · dinv[n]` of the arrays the region was
  entered with (the narrowing to a 16-bit format on the way out is the identity on the extended reals).
-/
import proofs.«134443_j73787538145745_2_alg».proof.Proof.Gen.KernelIdeal.Frame
import proofs.«134443_j73787538145745_2_alg».proof.Proof.BlockOps
import Idealize.ShloMosaic.Lib.Pipeline.Value

set_option maxRecDepth 16384

noncomputable section

namespace Cert.KernelIdeal.ScaledRows6

open Cert.KernelIdeal Cert.KernelIdeal.Gen Cert.KernelIdeal.BlockOps
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The region's result as one function of its three input arrays: rows of `x` against `W`, row `n` scaled by `dv n`. -/
def scaledRows (x : S50000x128.Idx → EReal) (W : S128x128.Idx → EReal) (dv : S50000x1.Idx → EReal) : S50000x128.Idx → EReal :=
  fun i => (∑ k : Fin 128, x (ix2 (i 0) k) * W (ix2 k (i 1))) * dv (ix2 (i 0) (0 : Fin 1))

/-- The body's stored value at row `p`, feature `q` of a block, from the three loaded blocks. -/
theorem pay_apply (x0 : Vec Ideal S5000x128 .f32) (x1 : Vec Ideal S128x128 .f32) (x2 : Vec Ideal S5000x1 .f32)
    (p : Fin 5000) (q : Fin 128) :
    k6_pay1 (F := Ideal) x0 x1 x2 (ix2 p q) = (∑ k : Fin 128, x0 (ix2 p k) * x1 (ix2 k q)) * x2 (ix2 p (0 : Fin 1)) := by
  unfold k6_pay1
  rw [truncf_apply, mulf_apply, matmul128_apply, bcastCol_apply, shapeCast_self, shapeCast_self, shapeCast_self]
  rfl

/-- The same at a general index of the block. -/
theorem pay_at (x0 : Vec Ideal S5000x128 .f32) (x1 : Vec Ideal S128x128 .f32) (x2 : Vec Ideal S5000x1 .f32) (j : S5000x128.Idx) :
    k6_pay1 (F := Ideal) x0 x1 x2 j = (∑ k : Fin 128, x0 (ix2 (j 0) k) * x1 (ix2 k (j 1))) * x2 (ix2 (j 0) (0 : Fin 1)) := by
  exact (congrArg (k6_pay1 (F := Ideal) x0 x1 x2) (eq_ix2 j)).trans (pay_apply x0 x1 x2 (j 0) (j 1))

/-- The printed index maps over the ten grid points: the row-block windows move with the point, the weight window
    stays at block (0, 0). -/
theorem idx_facts : ∀ t : Fin cfg6.N, win6_3.index t (0 : Fin 2) = t.val ∧ win6_3.index t (1 : Fin 2) = 0
    ∧ win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Row `p`, feature `k` of input window 0's block at point `t` is row `t · 5000 + p` of its array. -/
theorem blk0_apply (c : Dev nD) (t : Fin cfg6.N) (p : Fin 5000) (k : Fin 128) (hp : t.val * 5000 + p.val < 50000) :
    iblk6 V c 0 t (ix2 p k) = V c (Pipeline.arrRef spec6 0) (ix2 ⟨t.val * 5000 + p.val, hp⟩ k) := by
  obtain ⟨e0, e1, e2, e3, e4, e5, e6, e7⟩ := idx_facts t
  show V c (Pipeline.arrRef spec6 0) (((cfg6.win 0).blk t).view.emb (ix2 p k)) = _
  refine congrArg (V c (Pipeline.arrRef spec6 0)) (funext fun a => Fin.ext ?_)
  match a with
  | ⟨0, _⟩ => show win6_0.index t (0 : Fin 2) * 5000 + 1 * p.val = t.val * 5000 + p.val; omega
  | ⟨1, _⟩ => show win6_0.index t (1 : Fin 2) * 128 + 1 * k.val = k.val; omega

/-- The weight window's block is the whole matrix. -/
theorem blk1_apply (c : Dev nD) (t : Fin cfg6.N) (k : Fin 128) (q : Fin 128) :
    iblk6 V c 1 t (ix2 k q) = V c (Pipeline.arrRef spec6 1) (ix2 k q) := by
  obtain ⟨e0, e1, e2, e3, e4, e5, e6, e7⟩ := idx_facts t
  show V c (Pipeline.arrRef spec6 1) (((cfg6.win 1).blk t).view.emb (ix2 k q)) = _
  refine congrArg (V c (Pipeline.arrRef spec6 1)) (funext fun a => Fin.ext ?_)
  match a with
  | ⟨0, _⟩ => show win6_1.index t (0 : Fin 2) * 128 + 1 * k.val = k.val; omega
  | ⟨1, _⟩ => show win6_1.index t (1 : Fin 2) * 128 + 1 * q.val = q.val; omega

/-- Row `p` of the `dinv` window's block at point `t` is entry `t · 5000 + p` of its column. -/
theorem blk2_apply (c : Dev nD) (t : Fin cfg6.N) (p : Fin 5000) (hp : t.val * 5000 + p.val < 50000) :
    iblk6 V c 2 t (ix2 p (0 : Fin 1)) = V c (Pipeline.arrRef spec6 2) (ix2 ⟨t.val * 5000 + p.val, hp⟩ (0 : Fin 1)) := by
  obtain ⟨e0, e1, e2, e3, e4, e5, e6, e7⟩ := idx_facts t
  show V c (Pipeline.arrRef spec6 2) (((cfg6.win 2).blk t).view.emb (ix2 p (0 : Fin 1))) = _
  refine congrArg (V c (Pipeline.arrRef spec6 2)) (funext fun a => Fin.ext ?_)
  match a with
  | ⟨0, _⟩ => show win6_2.index t (0 : Fin 2) * 5000 + 1 * p.val = t.val * 5000 + p.val; omega
  | ⟨1, _⟩ => show win6_2.index t (1 : Fin 2) * 1 + 1 * (0 : Fin 1).val = (0 : Fin 1).val; omega

/-- WHAT POINT `t` WRITES BACK is block `t` of `scaledRows` of the arrays the region was entered with. -/
theorem flushed_eq (c : Dev nD) (t : Fin cfg6.N) :
    (dat6 V c).flushed 3 t = ((cfg6.win 3).blk t).view.read (Elt Ideal)
      (scaledRows (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz]
  simp only [View.ld_unit_zero (S := S5000x128) hz, View.ld_unit_zero (S := S128x128) hz, View.ld_unit_zero (S := S5000x1) hz]
  obtain ⟨e0, e1, e2, e3, e4, e5, e6, e7⟩ := idx_facts t
  have ht : t.val < 10 := t.isLt
  funext j
  have hj0 : (j 0).val < 5000 := (j 0).isLt
  have hj1 : (j 1).val < 128 := (j 1).isLt
  have hrow : t.val * 5000 + (j 0).val < 50000 := by omega
  show k6_pay1 (F := Ideal) (iblk6 V c 0 t) (iblk6 V c 1 t) (iblk6 V c 2 t) j
    = scaledRows (V c (Pipeline.arrRef spec6 0)) (V c (Pipeline.arrRef spec6 1)) (V c (Pipeline.arrRef spec6 2))
        (((cfg6.win 3).blk t).view.emb j)
  have hemb : ((cfg6.win 3).blk t).view.emb j = ix2 (⟨t.val * 5000 + (j 0).val, hrow⟩ : Fin 50000) (⟨(j 1).val, hj1⟩ : Fin 128) := by
    funext a; apply Fin.ext
    match a with
    | ⟨0, _⟩ => show win6_3.index t (0 : Fin 2) * 5000 + 1 * (j 0).val = t.val * 5000 + (j 0).val; omega
    | ⟨1, _⟩ => show win6_3.index t (1 : Fin 2) * 128 + 1 * (j 1).val = (j 1).val; omega
  rw [hemb]
  refine (pay_at _ _ _ j).trans ?_
  unfold scaledRows
  refine congrArg₂ (· * ·) (Finset.sum_congr rfl fun k _ => congrArg₂ (· * ·) ?_ ?_) ?_
  · exact blk0_apply V c t (j 0) k hrow
  · exact blk1_apply V c t k (j 1)
  · exact blk2_apply V c t (j 0) hrow

/-- An index of the output array is in point `t`'s block iff each coordinate is in the block's range on its axis. -/
theorem mem_blk (t : Fin cfg6.N) (i : S50000x128.Idx) :
    i ∈ ((cfg6.win 3).blk t).view.set ↔ ∀ a : Fin 2, win6_3.index t a * S5000x128.size a ≤ (i a).val
      ∧ (i a).val < win6_3.index t a * S5000x128.size a + S5000x128.size a := by
  show i ∈ ((View.whole (Pipeline.arrRef spec6 3)).slice (win6_3.rect t)).set ↔ _
  rw [View.set_slice_whole, Rect.mem_set_unit]
  exact Iff.rfl

/-- Every node row is in the block of the point `row / 5000`. -/
theorem cover (i : S50000x128.Idx) : ∃ t : Fin cfg6.N, (cfg6.win 3).flush t = true ∧ i ∈ ((cfg6.win 3).blk t).view.set := by
  have hi0 : (i 0).val < 50000 := (i 0).isLt
  have hi1 : (i 1).val < 128 := (i 1).isLt
  refine ⟨⟨(i 0).val / 5000, by show (i 0).val / 5000 < 10; omega⟩, flush6_3 _, ?_⟩
  rw [mem_blk]
  obtain ⟨e0, e1, -⟩ := idx_facts ⟨(i 0).val / 5000, by show (i 0).val / 5000 < 10; omega⟩
  intro a
  match a with
  | ⟨0, _⟩ =>
    show win6_3.index _ (0 : Fin 2) * 5000 ≤ (i 0).val ∧ (i 0).val < win6_3.index _ (0 : Fin 2) * 5000 + 5000
    rw [e0]; show (i 0).val / 5000 * 5000 ≤ (i 0).val ∧ (i 0).val < (i 0).val / 5000 * 5000 + 5000; omega
  | ⟨1, _⟩ =>
    show win6_3.index _ (1 : Fin 2) * 128 ≤ (i 1).val ∧ (i 1).val < win6_3.index _ (1 : Fin 2) * 128 + 128
    rw [e1]; omega

/-- THE OUTPUT ARRAY after the region. -/
theorem final (c : Dev nD) : (dat6 V c).arrAt 3 cfg6.N
    = scaledRows (V c (Pipeline.arrRef spec6 0)) (V c (Pipeline.arrRef spec6 1)) (V c (Pipeline.arrRef spec6 2)) :=
  (dat6 V c).arrAt_eq_of_cover 3 _ (fun t _ => flushed_eq V c t) cover

end Cert.KernelIdeal.ScaledRows6

end
-- ==== Proof.Combine7.lean ====
/- The second tiled region of the third layer (region 7): each grid point takes a block of 5000 nodes and forms their
  pre-activations `(((dinv·agg + (dinv·dinv)·(h·Wg)) + bg) + h·Wl) + bl`, writes the block back, and adds the block's
  column sums and the column sums of its squares into two rows that stay in place across the grid: zeroed at the first
  point, written back after the last.  So after the region the first output holds every node's pre-activation, and the
  two rows hold, feature by feature, the sum over all 50000 nodes of the pre-activations and of their squares (on the
  extended reals the ten blockwise partial sums re-associate into one sum with no finiteness needed).
-/
import proofs.«134443_j73787538145745_2_alg».proof.Proof.Gen.KernelIdeal.Frame
import proofs.«134443_j73787538145745_2_alg».proof.Proof.BlockOps
import Idealize.ShloMosaic.Lib.Pipeline.Value
import Idealize.ShloMosaic.Lib.Tactic

set_option maxRecDepth 16384

noncomputable section

namespace Cert.KernelIdeal.Combine7

open Cert.KernelIdeal Cert.KernelIdeal.Gen Cert.KernelIdeal.BlockOps
open Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

/-! ## What each case of the body leaves in each output buffer

The body's one conditional (taken at the first grid point only) zeroes the two running rows.  In either case the block
of pre-activations is the one store of `k7_pay5`; the running sum row is the store of `k7_pay1` over what the row held
(the zero row just stored, in the first case; what the point before left, in the other), and likewise `k7_pay2` for the
running sum of squares.  The payload takes its blocks in the order (h, Wl, Wg, dinv, agg, bg, bl). -/

/-- First point: the block of pre-activations. -/
theorem out_A_7 (c : Dev nD) (i : grid7.Coords) (a1 : Memref sig .tc .vmem S5000x128 .f32) (h1 : a1.IsWhole) (a2 : Memref sig .tc .vmem S128x128 .f32) (h2 : a2.IsWhole) (a3 : Memref sig .tc .vmem S128x128 .f32) (h3 : a3.IsWhole) (a4 : Memref sig .tc .vmem S5000x128 .f32) (h4 : a4.IsWhole) (a5 : Memref sig .tc .vmem S5000x1 .f32) (h5 : a5.IsWhole) (a6 : Memref sig .tc .vmem S1x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond7_0 i) (x0 : Vec Ideal S5000x128 .f32) (x1 : Vec Ideal S128x128 .f32) (x2 : Vec Ideal S128x128 .f32) (x3 : Vec Ideal S5000x128 .f32) (x4 : Vec Ideal S5000x1 .f32) (x5 : Vec Ideal S1x128 .f32) (x6 : Vec Ideal S1x128 .f32) :
    out7_A_7 (F := Ideal) c i a1 h1 a2 h2 a3 h3 a4 h4 a5 h5 a6 h6 a7 h7 a8 h8 a9 h9 a10 h10 hc x0 x1 x2 x3 x4 x5 x6 = k7_pay5 x0 x1 x2 x4 x3 x5 x6 := by
  unfold out7_A_7
  rw [View.read_writes_eq_canon _ _ _ (cover7_A_7 c i a1 h1 a2 h2 a3 h3 a4 h4 a5 h5 a6 h6 a7 h7 a8 h8 a9 h9 a10 h10 hc x0 x1 x2 x3 x4 x5 x6)]
  unfold kernelRun7_A
  dsimp only
  sl_unfold_words
  rw [View.canon_unit_zero (S := S5000x128) hz]
  simp only [View.readAt_eq_ld, h1.read_unread, h2.read_unread, h3.read_unread, h4.read_unread, h5.read_unread, h6.read_unread, h7.read_unread, View.ld_unit_zero (S := S5000x128) hz, View.ld_unit_zero (S := S128x128) hz, View.ld_unit_zero (S := S5000x1) hz, View.ld_unit_zero (S := S1x128) hz]

/-- First point: the sum row is the zero row plus the block's column sums. -/
theorem out_A_8 (c : Dev nD) (i : grid7.Coords) (a1 : Memref sig .tc .vmem S5000x128 .f32) (h1 : a1.IsWhole) (a2 : Memref sig .tc .vmem S128x128 .f32) (h2 : a2.IsWhole) (a3 : Memref sig .tc .vmem S128x128 .f32) (h3 : a3.IsWhole) (a4 : Memref sig .tc .vmem S5000x128 .f32) (h4 : a4.IsWhole) (a5 : Memref sig .tc .vmem S5000x1 .f32) (h5 : a5.IsWhole) (a6 : Memref sig .tc .vmem S1x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond7_0 i) (x0 : Vec Ideal S5000x128 .f32) (x1 : Vec Ideal S128x128 .f32) (x2 : Vec Ideal S128x128 .f32) (x3 : Vec Ideal S5000x128 .f32) (x4 : Vec Ideal S5000x1 .f32) (x5 : Vec Ideal S1x128 .f32) (x6 : Vec Ideal S1x128 .f32) :
    out7_A_8 (F := Ideal) c i a1 h1 a2 h2 a3 h3 a4 h4 a5 h5 a6 h6 a7 h7 a8 h8 a9 h9 a10 h10 hc x0 x1 x2 x3 x4 x5 x6 = k7_pay1 (k7_pay5 x0 x1 x2 x4 x3 x5 x6) (k7_pay3 (F := Ideal)) := by
  unfold out7_A_8
  rw [View.read_writes_eq_canon _ _ _ (cover7_A_8 c i a1 h1 a2 h2 a3 h3 a4 h4 a5 h5 a6 h6 a7 h7 a8 h8 a9 h9 a10 h10 hc x0 x1 x2 x3 x4 x5 x6)]
  unfold kernelRun7_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, View.ld_unit_zero (S := S5000x128) hz, View.ld_unit_zero (S := S128x128) hz, View.ld_unit_zero (S := S5000x1) hz, View.ld_unit_zero (S := S1x128) hz]

/-- First point: the sum-of-squares row is the zero row plus the column sums of the block's squares. -/
theorem out_A_9 (c : Dev nD) (i : grid7.Coords) (a1 : Memref sig .tc .vmem S5000x128 .f32) (h1 : a1.IsWhole) (a2 : Memref sig .tc .vmem S128x128 .f32) (h2 : a2.IsWhole) (a3 : Memref sig .tc .vmem S128x128 .f32) (h3 : a3.IsWhole) (a4 : Memref sig .tc .vmem S5000x128 .f32) (h4 : a4.IsWhole) (a5 : Memref sig .tc .vmem S5000x1 .f32) (h5 : a5.IsWhole) (a6 : Memref sig .tc .vmem S1x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond7_0 i) (x0 : Vec Ideal S5000x128 .f32) (x1 : Vec Ideal S128x128 .f32) (x2 : Vec Ideal S128x128 .f32) (x3 : Vec Ideal S5000x128 .f32) (x4 : Vec Ideal S5000x1 .f32) (x5 : Vec Ideal S1x128 .f32) (x6 : Vec Ideal S1x128 .f32) :
    out7_A_9 (F := Ideal) c i a1 h1 a2 h2 a3 h3 a4 h4 a5 h5 a6 h6 a7 h7 a8 h8 a9 h9 a10 h10 hc x0 x1 x2 x3 x4 x5 x6 = k7_pay2 (k7_pay5 x0 x1 x2 x4 x3 x5 x6) (k7_pay4 (F := Ideal)) := by
  unfold out7_A_9
  rw [View.read_writes_eq_canon _ _ _ (cover7_A_9 c i a1 h1 a2 h2 a3 h3 a4 h4 a5 h5 a6 h6 a7 h7 a8 h8 a9 h9 a10 h10 hc x0 x1 x2 x3 x4 x5 x6)]
  unfold kernelRun7_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, View.ld_unit_zero (S := S5000x128) hz, View.ld_unit_zero (S := S128x128) hz, View.ld_unit_zero (S := S5000x1) hz, View.ld_unit_zero (S := S1x128) hz]

/-- A later point: the block of pre-activations. -/
theorem out_B_7 (c : Dev nD) (i : grid7.Coords) (a1 : Memref sig .tc .vmem S5000x128 .f32) (h1 : a1.IsWhole) (a2 : Memref sig .tc .vmem S128x128 .f32) (h2 : a2.IsWhole) (a3 : Memref sig .tc .vmem S128x128 .f32) (h3 : a3.IsWhole) (a4 : Memref sig .tc .vmem S5000x128 .f32) (h4 : a4.IsWhole) (a5 : Memref sig .tc .vmem S5000x1 .f32) (h5 : a5.IsWhole) (a6 : Memref sig .tc .vmem S1x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond7_0 i) (x0 : Vec Ideal S5000x128 .f32) (x1 : Vec Ideal S128x128 .f32) (x2 : Vec Ideal S128x128 .f32) (x3 : Vec Ideal S5000x128 .f32) (x4 : Vec Ideal S5000x1 .f32) (x5 : Vec Ideal S1x128 .f32) (x6 : Vec Ideal S1x128 .f32) (xo8 : Vec Ideal S1x128 .f32) (xo9 : Vec Ideal S1x128 .f32) :
    out7_B_7 (F := Ideal) c i a1 h1 a2 h2 a3 h3 a4 h4 a5 h5 a6 h6 a7 h7 a8 h8 a9 h9 a10 h10 hc x0 x1 x2 x3 x4 x5 x6 xo8 xo9 = k7_pay5 x0 x1 x2 x4 x3 x5 x6 := by
  unfold out7_B_7
  rw [View.read_writes_eq_canon _ _ _ (cover7_B_7 c i a1 h1 a2 h2 a3 h3 a4 h4 a5 h5 a6 h6 a7 h7 a8 h8 a9 h9 a10 h10 hc x0 x1 x2 x3 x4 x5 x6 xo8 xo9)]
  unfold kernelRun7_B
  dsimp only
  sl_unfold_words
  rw [View.canon_unit_zero (S := S5000x128) hz]
  simp only [View.readAt_eq_ld, h1.read_unread, h2.read_unread, h3.read_unread, h4.read_unread, h5.read_unread, h6.read_unread, h7.read_unread, View.ld_unit_zero (S := S5000x128) hz, View.ld_unit_zero (S := S128x128) hz, View.ld_unit_zero (S := S5000x1) hz, View.ld_unit_zero (S := S1x128) hz]

/-- A later point: the sum row is what it held plus the block's column sums. -/
theorem out_B_8 (c : Dev nD) (i : grid7.Coords) (a1 : Memref sig .tc .vmem S5000x128 .f32) (h1 : a1.IsWhole) (a2 : Memref sig .tc .vmem S128x128 .f32) (h2 : a2.IsWhole) (a3 : Memref sig .tc .vmem S128x128 .f32) (h3 : a3.IsWhole) (a4 : Memref sig .tc .vmem S5000x128 .f32) (h4 : a4.IsWhole) (a5 : Memref sig .tc .vmem S5000x1 .f32) (h5 : a5.IsWhole) (a6 : Memref sig .tc .vmem S1x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond7_0 i) (x0 : Vec Ideal S5000x128 .f32) (x1 : Vec Ideal S128x128 .f32) (x2 : Vec Ideal S128x128 .f32) (x3 : Vec Ideal S5000x128 .f32) (x4 : Vec Ideal S5000x1 .f32) (x5 : Vec Ideal S1x128 .f32) (x6 : Vec Ideal S1x128 .f32) (xo8 : Vec Ideal S1x128 .f32) (xo9 : Vec Ideal S1x128 .f32) :
    out7_B_8 (F := Ideal) c i a1 h1 a2 h2 a3 h3 a4 h4 a5 h5 a6 h6 a7 h7 a8 h8 a9 h9 a10 h10 hc x0 x1 x2 x3 x4 x5 x6 xo8 xo9 = k7_pay1 (k7_pay5 x0 x1 x2 x4 x3 x5 x6) xo8 := by
  unfold out7_B_8
  rw [View.read_writes_eq_canon _ _ _ (cover7_B_8 c i a1 h1 a2 h2 a3 h3 a4 h4 a5 h5 a6 h6 a7 h7 a8 h8 a9 h9 a10 h10 hc x0 x1 x2 x3 x4 x5 x6 xo8 xo9)]
  unfold kernelRun7_B
  dsimp only
  sl_unfold_words
  rw [View.canon_unit_zero (S := S1x128) hz]
  simp only [View.readAt_eq_ld, h1.read_unread, h2.read_unread, h3.read_unread, h4.read_unread, h5.read_unread, h6.read_unread, h7.read_unread, h9.read_unread, View.ld_unit_zero (S := S5000x128) hz, View.ld_unit_zero (S := S128x128) hz, View.ld_unit_zero (S := S5000x1) hz, View.ld_unit_zero (S := S1x128) hz]

/-- A later point: the sum-of-squares row is what it held plus the column sums of the block's squares. -/
theorem out_B_9 (c : Dev nD) (i : grid7.Coords) (a1 : Memref sig .tc .vmem S5000x128 .f32) (h1 : a1.IsWhole) (a2 : Memref sig .tc .vmem S128x128 .f32) (h2 : a2.IsWhole) (a3 : Memref sig .tc .vmem S128x128 .f32) (h3 : a3.IsWhole) (a4 : Memref sig .tc .vmem S5000x128 .f32) (h4 : a4.IsWhole) (a5 : Memref sig .tc .vmem S5000x1 .f32) (h5 : a5.IsWhole) (a6 : Memref sig .tc .vmem S1x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond7_0 i) (x0 : Vec Ideal S5000x128 .f32) (x1 : Vec Ideal S128x128 .f32) (x2 : Vec Ideal S128x128 .f32) (x3 : Vec Ideal S5000x128 .f32) (x4 : Vec Ideal S5000x1 .f32) (x5 : Vec Ideal S1x128 .f32) (x6 : Vec Ideal S1x128 .f32) (xo8 : Vec Ideal S1x128 .f32) (xo9 : Vec Ideal S1x128 .f32) :
    out7_B_9 (F := Ideal) c i a1 h1 a2 h2 a3 h3 a4 h4 a5 h5 a6 h6 a7 h7 a8 h8 a9 h9 a10 h10 hc x0 x1 x2 x3 x4 x5 x6 xo8 xo9 = k7_pay2 (k7_pay5 x0 x1 x2 x4 x3 x5 x6) xo9 := by
  unfold out7_B_9
  rw [View.read_writes_eq_canon _ _ _ (cover7_B_9 c i a1 h1 a2 h2 a3 h3 a4 h4 a5 h5 a6 h6 a7 h7 a8 h8 a9 h9 a10 h10 hc x0 x1 x2 x3 x4 x5 x6 xo8 xo9)]
  unfold kernelRun7_B
  dsimp only
  sl_unfold_words
  rw [View.canon_unit_zero (S := S1x128) hz]
  simp only [View.readAt_eq_ld, h1.read_unread, h2.read_unread, h3.read_unread, h4.read_unread, h5.read_unread, h6.read_unread, h7.read_unread, h10.read_unread, View.ld_unit_zero (S := S5000x128) hz, View.ld_unit_zero (S := S128x128) hz, View.ld_unit_zero (S := S5000x1) hz, View.ld_unit_zero (S := S1x128) hz]

/-! ## The stored values, entry by entry -/

/-- Row `p`, feature `q` of the block of pre-activations, from the seven loaded blocks:
    `(((dinv·agg + (dinv·dinv)·(h·Wg)) + bg) + h·Wl) + bl`. -/
theorem pay5_apply (x0 : Vec Ideal S5000x128 .f32) (x1 : Vec Ideal S128x128 .f32) (x2 : Vec Ideal S128x128 .f32)
    (x4 : Vec Ideal S5000x1 .f32) (x3 : Vec Ideal S5000x128 .f32) (x5 : Vec Ideal S1x128 .f32) (x6 : Vec Ideal S1x128 .f32)
    (p : Fin 5000) (q : Fin 128) :
    k7_pay5 (F := Ideal) x0 x1 x2 x4 x3 x5 x6 (ix2 p q)
      = (((x4 (ix2 p (0 : Fin 1)) * x3 (ix2 p q)
            + (x4 (ix2 p (0 : Fin 1)) * x4 (ix2 p (0 : Fin 1))) * (∑ k : Fin 128, x0 (ix2 p k) * x2 (ix2 k q)))
          + x5 (ix2 (0 : Fin 1) q))
        + (∑ k : Fin 128, x0 (ix2 p k) * x1 (ix2 k q)))
      + x6 (ix2 (0 : Fin 1) q) := by
  unfold k7_pay5
  simp only [shapeCast_self]
  rw [addf_apply, addf_apply, addf_apply, addf_apply, mulf_apply, mulf_apply, bcastCol_apply, bcastCol_apply,
    bcastRow_apply, bcastRow_apply, matmul128_apply, matmul128_apply, mulf_apply]
  rfl

/-- Feature `q` of the new sum row: the old entry plus the sum of the block's 5000 rows. -/
theorem pay1_apply (v31 : FVec Ideal S5000x128 .f32) (v34 : Vec Ideal S1x128 .f32) (q : Fin 128) :
    k7_pay1 (F := Ideal) v31 v34 (ix2 (0 : Fin 1) q) = v34 (ix2 (0 : Fin 1) q) + ∑ p : Fin 5000, v31 (ix2 p q) := by
  unfold k7_pay1
  dsimp only
  refine (addf_apply _ _ _).trans (congrArg₂ (· + ·) (congrFun (shapeCast_self v34 _) _) ?_)
  refine (castRow_apply _ q).trans ?_
  exact rowSum_apply v31 _ _ q

/-- Feature `q` of the new sum-of-squares row: the old entry plus the sum of the squares of the block's 5000 rows. -/
theorem pay2_apply (v31 : FVec Ideal S5000x128 .f32) (v39 : Vec Ideal S1x128 .f32) (q : Fin 128) :
    k7_pay2 (F := Ideal) v31 v39 (ix2 (0 : Fin 1) q)
      = v39 (ix2 (0 : Fin 1) q) + ∑ p : Fin 5000, v31 (ix2 p q) * v31 (ix2 p q) := by
  unfold k7_pay2
  dsimp only
  refine (addf_apply _ _ _).trans (congrArg₂ (· + ·) (congrFun (shapeCast_self v39 _) _) ?_)
  refine (castRow_apply _ q).trans ?_
  exact rowSum_apply (mulf v31 v31) _ _ q

/-- The two rows the first point stores before accumulating are zero. -/
theorem pay3_apply (j : S1x128.Idx) : k7_pay3 (F := Ideal) j = 0 := Ideal.ofBits_zero_f32
theorem pay4_apply (j : S1x128.Idx) : k7_pay4 (F := Ideal) j = 0 := Ideal.ofBits_zero_f32

variable (V : (c : Dev nD) → (b : Ref sig .tc) → Buf (Elt Ideal) ((c : Thread nD τ).loc b))

/-! ## The region's result as one function of its input arrays -/

/-- The pre-activation of node `n`, feature `d`, from the node features `h`, the two weight matrices, the aggregated
    neighbour features `agg`, the degree scalings `dv` and the two bias rows:
    `(((dv n · agg n d + (dv n · dv n) · ∑ₖ h n k · Wg k d) + bg d) + ∑ₖ h n k · Wl k d) + bl d`. -/
def preArr (h : S50000x128.Idx → EReal) (Wl Wg : S128x128.Idx → EReal) (agg : S50000x128.Idx → EReal)
    (dv : S50000x1.Idx → EReal) (bg bl : S1x128.Idx → EReal) : S50000x128.Idx → EReal :=
  fun i => (((dv (ix2 (i 0) (0 : Fin 1)) * agg i
        + (dv (ix2 (i 0) (0 : Fin 1)) * dv (ix2 (i 0) (0 : Fin 1))) * (∑ k : Fin 128, h (ix2 (i 0) k) * Wg (ix2 k (i 1))))
      + bg (ix2 (0 : Fin 1) (i 1)))
    + (∑ k : Fin 128, h (ix2 (i 0) k) * Wl (ix2 k (i 1))))
  + bl (ix2 (0 : Fin 1) (i 1))

theorem preArr_apply (h : S50000x128.Idx → EReal) (Wl Wg : S128x128.Idx → EReal) (agg : S50000x128.Idx → EReal)
    (dv : S50000x1.Idx → EReal) (bg bl : S1x128.Idx → EReal) (n : Fin 50000) (q : Fin 128) :
    preArr h Wl Wg agg dv bg bl (ix2 n q)
      = (((dv (ix2 n (0 : Fin 1)) * agg (ix2 n q)
            + (dv (ix2 n (0 : Fin 1)) * dv (ix2 n (0 : Fin 1))) * (∑ k : Fin 128, h (ix2 n k) * Wg (ix2 k q)))
          + bg (ix2 (0 : Fin 1) q))
        + (∑ k : Fin 128, h (ix2 n k) * Wl (ix2 k q)))
      + bl (ix2 (0 : Fin 1) q) := rfl

/-- The region's pre-activations, of the arrays the region was entered with. -/
abbrev pre (c : Dev nD) : S50000x128.Idx → EReal := preArr (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6))

/-! ## The windows' blocks read off their arrays -/

/-- The printed index maps over the ten grid points: the four row-block windows move with the point, the weights, the
    bias rows and the two running rows stay at block (0, 0). -/
theorem idx_facts : ∀ t : Fin cfg7.N,
    (win7_0.index t (0 : Fin 2) = t.val ∧ win7_0.index t (1 : Fin 2) = 0)
    ∧ (win7_1.index t (0 : Fin 2) = 0 ∧ win7_1.index t (1 : Fin 2) = 0)
    ∧ (win7_2.index t (0 : Fin 2) = 0 ∧ win7_2.index t (1 : Fin 2) = 0)
    ∧ (win7_3.index t (0 : Fin 2) = t.val ∧ win7_3.index t (1 : Fin 2) = 0)
    ∧ (win7_4.index t (0 : Fin 2) = t.val ∧ win7_4.index t (1 : Fin 2) = 0)
    ∧ (win7_5.index t (0 : Fin 2) = 0 ∧ win7_5.index t (1 : Fin 2) = 0)
    ∧ (win7_6.index t (0 : Fin 2) = 0 ∧ win7_6.index t (1 : Fin 2) = 0)
    ∧ (win7_7.index t (0 : Fin 2) = t.val ∧ win7_7.index t (1 : Fin 2) = 0)
    ∧ (win7_8.index t (0 : Fin 2) = 0 ∧ win7_8.index t (1 : Fin 2) = 0)
    ∧ (win7_9.index t (0 : Fin 2) = 0 ∧ win7_9.index t (1 : Fin 2) = 0) :=
  (by decide +kernel : ∀ t : Fin grid7.N, _)

/-- Row `p`, feature `k` of the node-feature block at point `t` is row `t · 5000 + p` of its array. -/
theorem blk0_apply (c : Dev nD) (t : Fin cfg7.N) (p : Fin 5000) (k : Fin 128) (hp : t.val * 5000 + p.val < 50000) :
    iblk7 V c 0 t (ix2 p k) = V c (Pipeline.arrRef spec7 0) (ix2 ⟨t.val * 5000 + p.val, hp⟩ k) := by
  obtain ⟨⟨e0, e1⟩, -⟩ := idx_facts t
  show V c (Pipeline.arrRef spec7 0) (((cfg7.win 0).blk t).view.emb (ix2 p k)) = _
  refine congrArg (V c (Pipeline.arrRef spec7 0)) (funext fun a => Fin.ext ?_)
  match a with
  | ⟨0, _⟩ => show win7_0.index t (0 : Fin 2) * 5000 + 1 * p.val = t.val * 5000 + p.val; omega
  | ⟨1, _⟩ => show win7_0.index t (1 : Fin 2) * 128 + 1 * k.val = k.val; omega

/-- The first weight window's block is the whole matrix. -/
theorem blk1_apply (c : Dev nD) (t : Fin cfg7.N) (k : Fin 128) (q : Fin 128) :
    iblk7 V c 1 t (ix2 k q) = V c (Pipeline.arrRef spec7 1) (ix2 k q) := by
  obtain ⟨-, ⟨e0, e1⟩, -⟩ := idx_facts t
  show V c (Pipeline.arrRef spec7 1) (((cfg7.win 1).blk t).view.emb (ix2 k q)) = _
  refine congrArg (V c (Pipeline.arrRef spec7 1)) (funext fun a => Fin.ext ?_)
  match a with
  | ⟨0, _⟩ => show win7_1.index t (0 : Fin 2) * 128 + 1 * k.val = k.val; omega
  | ⟨1, _⟩ => show win7_1.index t (1 : Fin 2) * 128 + 1 * q.val = q.val; omega

/-- The second weight window's block is the whole matrix. -/
theorem blk2_apply (c : Dev nD) (t : Fin cfg7.N) (k : Fin 128) (q : Fin 128) :
    iblk7 V c 2 t (ix2 k q) = V c (Pipeline.arrRef spec7 2) (ix2 k q) := by
  obtain ⟨-, -, ⟨e0, e1⟩, -⟩ := idx_facts t
  show V c (Pipeline.arrRef spec7 2) (((cfg7.win 2).blk t).view.emb (ix2 k q)) = _
  refine congrArg (V c (Pipeline.arrRef spec7 2)) (funext fun a => Fin.ext ?_)
  match a with
  | ⟨0, _⟩ => show win7_2.index t (0 : Fin 2) * 128 + 1 * k.val = k.val; omega
  | ⟨1, _⟩ => show win7_2.index t (1 : Fin 2) * 128 + 1 * q.val = q.val; omega

/-- Row `p`, feature `q` of the aggregate block at point `t` is row `t · 5000 + p` of its array. -/
theorem blk3_apply (c : Dev nD) (t : Fin cfg7.N) (p : Fin 5000) (q : Fin 128) (hp : t.val * 5000 + p.val < 50000) :
    iblk7 V c 3 t (ix2 p q) = V c (Pipeline.arrRef spec7 3) (ix2 ⟨t.val * 5000 + p.val, hp⟩ q) := by
  obtain ⟨-, -, -, ⟨e0, e1⟩, -⟩ := idx_facts t
  show V c (Pipeline.arrRef spec7 3) (((cfg7.win 3).blk t).view.emb (ix2 p q)) = _
  refine congrArg (V c (Pipeline.arrRef spec7 3)) (funext fun a => Fin.ext ?_)
  match a with
  | ⟨0, _⟩ => show win7_3.index t (0 : Fin 2) * 5000 + 1 * p.val = t.val * 5000 + p.val; omega
  | ⟨1, _⟩ => show win7_3.index t (1 : Fin 2) * 128 + 1 * q.val = q.val; omega

/-- Row `p` of the scaling block at point `t` is entry `t · 5000 + p` of its column. -/
theorem blk4_apply (c : Dev nD) (t : Fin cfg7.N) (p : Fin 5000) (hp : t.val * 5000 + p.val < 50000) :
    iblk7 V c 4 t (ix2 p (0 : Fin 1)) = V c (Pipeline.arrRef spec7 4) (ix2 ⟨t.val * 5000 + p.val, hp⟩ (0 : Fin 1)) := by
  obtain ⟨-, -, -, -, ⟨e0, e1⟩, -⟩ := idx_facts t
  show V c (Pipeline.arrRef spec7 4) (((cfg7.win 4).blk t).view.emb (ix2 p (0 : Fin 1))) = _
  refine congrArg (V c (Pipeline.arrRef spec7 4)) (funext fun a => Fin.ext ?_)
  match a with
  | ⟨0, _⟩ => show win7_4.index t (0 : Fin 2) * 5000 + 1 * p.val = t.val * 5000 + p.val; omega
  | ⟨1, _⟩ => show win7_4.index t (1 : Fin 2) * 1 + 1 * (0 : Fin 1).val = (0 : Fin 1).val; omega

/-- The first bias window's block is the whole row. -/
theorem blk5_apply (c : Dev nD) (t : Fin cfg7.N) (q : Fin 128) :
    iblk7 V c 5 t (ix2 (0 : Fin 1) q) = V c (Pipeline.arrRef spec7 5) (ix2 (0 : Fin 1) q) := by
  obtain ⟨-, -, -, -, -, ⟨e0, e1⟩, -⟩ := idx_facts t
  show V c (Pipeline.arrRef spec7 5) (((cfg7.win 5).blk t).view.emb (ix2 (0 : Fin 1) q)) = _
  refine congrArg (V c (Pipeline.arrRef spec7 5)) (funext fun a => Fin.ext ?_)
  match a with
  | ⟨0, _⟩ => show win7_5.index t (0 : Fin 2) * 1 + 1 * (0 : Fin 1).val = (0 : Fin 1).val; omega
  | ⟨1, _⟩ => show win7_5.index t (1 : Fin 2) * 128 + 1 * q.val = q.val; omega

/-- The second bias window's block is the whole row. -/
theorem blk6_apply (c : Dev nD) (t : Fin cfg7.N) (q : Fin 128) :
    iblk7 V c 6 t (ix2 (0 : Fin 1) q) = V c (Pipeline.arrRef spec7 6) (ix2 (0 : Fin 1) q) := by
  obtain ⟨-, -, -, -, -, -, ⟨e0, e1⟩, -⟩ := idx_facts t
  show V c (Pipeline.arrRef spec7 6) (((cfg7.win 6).blk t).view.emb (ix2 (0 : Fin 1) q)) = _
  refine congrArg (V c (Pipeline.arrRef spec7 6)) (funext fun a => Fin.ext ?_)
  match a with
  | ⟨0, _⟩ => show win7_6.index t (0 : Fin 2) * 1 + 1 * (0 : Fin 1).val = (0 : Fin 1).val; omega
  | ⟨1, _⟩ => show win7_6.index t (1 : Fin 2) * 128 + 1 * q.val = q.val; omega

/-! ## The block of pre-activations at a grid point -/

/-- What every point stores in the first output's buffer: the payload of the seven window blocks. -/
def preBlk (c : Dev nD) (t : Fin cfg7.N) : Vec Ideal S5000x128 .f32 :=
  k7_pay5 (F := Ideal) (iblk7 V c 0 t) (iblk7 V c 1 t) (iblk7 V c 2 t) (iblk7 V c 4 t) (iblk7 V c 3 t) (iblk7 V c 5 t) (iblk7 V c 6 t)

/-- Row `p`, feature `q` of that block is the pre-activation of node `t · 5000 + p`. -/
theorem preBlk_apply (c : Dev nD) (t : Fin cfg7.N) (p : Fin 5000) (q : Fin 128) (hp : t.val * 5000 + p.val < 50000) :
    preBlk V c t (ix2 p q) = pre V c (ix2 ⟨t.val * 5000 + p.val, hp⟩ q) := by
  unfold preBlk
  refine (pay5_apply _ _ _ _ _ _ _ p q).trans ?_
  refine Eq.trans ?_ (preArr_apply _ _ _ _ _ _ _ ⟨t.val * 5000 + p.val, hp⟩ q).symm
  refine congrArg₂ (· + ·) (congrArg₂ (· + ·) (congrArg₂ (· + ·) (congrArg₂ (· + ·) (congrArg₂ (· * ·) ?_ ?_)
    (congrArg₂ (· * ·) (congrArg₂ (· * ·) ?_ ?_) (Finset.sum_congr rfl fun k _ => congrArg₂ (· * ·) ?_ ?_))) ?_)
    (Finset.sum_congr rfl fun k _ => congrArg₂ (· * ·) ?_ ?_)) ?_
  · exact blk4_apply V c t p hp
  · exact blk3_apply V c t p q hp
  · exact blk4_apply V c t p hp
  · exact blk4_apply V c t p hp
  · exact blk0_apply V c t p k hp
  · exact blk2_apply V c t k q
  · exact blk5_apply V c t q
  · exact blk0_apply V c t p k hp
  · exact blk1_apply V c t k q
  · exact blk6_apply V c t q

/-! ## What the three buffers hold after each point -/

/-- At the first point: the block, and the zero rows plus the block's column sums. -/
theorem at_A (c : Dev nD) (t : Fin cfg7.N) (h0 : t.val % 10 = 0) :
    outsAt7 V c t.val t.isLt
      = (preBlk V c t, k7_pay1 (F := Ideal) (preBlk V c t) (k7_pay3 (F := Ideal)),
          k7_pay2 (F := Ideal) (preBlk V c t) (k7_pay4 (F := Ideal))) :=
  (outsAt7_A V c t h0).trans (congrArg₂ Prod.mk
    (out_A_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) ((hcond7_0 t).mpr h0) (iblk7 V c 0 t) (iblk7 V c 1 t) (iblk7 V c 2 t) (iblk7 V c 3 t) (iblk7 V c 4 t) (iblk7 V c 5 t) (iblk7 V c 6 t))
    (congrArg₂ Prod.mk
      (out_A_8 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) ((hcond7_0 t).mpr h0) (iblk7 V c 0 t) (iblk7 V c 1 t) (iblk7 V c 2 t) (iblk7 V c 3 t) (iblk7 V c 4 t) (iblk7 V c 5 t) (iblk7 V c 6 t))
      (out_A_9 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) ((hcond7_0 t).mpr h0) (iblk7 V c 0 t) (iblk7 V c 1 t) (iblk7 V c 2 t) (iblk7 V c 3 t) (iblk7 V c 4 t) (iblk7 V c 5 t) (iblk7 V c 6 t))))

/-- At a later point: the block, and the rows the point before left plus the block's column sums. -/
theorem at_B (c : Dev nD) (t : Fin cfg7.N) (h0 : ¬t.val % 10 = 0) :
    outsAt7 V c t.val t.isLt
      = (preBlk V c t, k7_pay1 (F := Ideal) (preBlk V c t) (outsAt7 V c (t.val - 1) (Nat.lt_of_le_of_lt (Nat.sub_le _ _) t.isLt)).2.1,
          k7_pay2 (F := Ideal) (preBlk V c t) (outsAt7 V c (t.val - 1) (Nat.lt_of_le_of_lt (Nat.sub_le _ _) t.isLt)).2.2) :=
  (outsAt7_B V c t h0).trans (congrArg₂ Prod.mk
    (out_B_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (fun h => h0 ((hcond7_0 t).mp h)) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2.1 (outsAt7 V c (t.val - 1) (Nat.lt_of_le_of_lt (Nat.sub_le _ _) t.isLt)).2.2)
    (congrArg₂ Prod.mk
      (out_B_8 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (fun h => h0 ((hcond7_0 t).mp h)) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2.1 (outsAt7 V c (t.val - 1) (Nat.lt_of_le_of_lt (Nat.sub_le _ _) t.isLt)).2.2)
      (out_B_9 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (fun h => h0 ((hcond7_0 t).mp h)) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2.1 (outsAt7 V c (t.val - 1) (Nat.lt_of_le_of_lt (Nat.sub_le _ _) t.isLt)).2.2)))

/-- Every point leaves its block of pre-activations in the first output's buffer. -/
theorem out7_eq (c : Dev nD) (t : Fin cfg7.N) : (outsAt7 V c t.val t.isLt).1 = preBlk V c t := by
  by_cases h0 : t.val % 10 = 0
  · exact congrArg Prod.fst (at_A V c t h0)
  · exact congrArg Prod.fst (at_B V c t h0)

/-! ## The running rows are partial sums over the nodes -/

/-- Node `r`'s entry at feature `q` of a node-indexed array, zero past the last node: the summand of the partial sums. -/
def term (φ : S50000x128.Idx → EReal) (q : Fin 128) (r : ℕ) : EReal :=
  if h : r < 50000 then φ (ix2 ⟨r, h⟩ q) else 0

/-- The column sum of a block whose rows are the nodes `t · 5000, …, t · 5000 + 4999` is the sum of those 5000 terms. -/
theorem blkSum (φ : S50000x128.Idx → EReal) (q : Fin 128) (t : ℕ) (ht : t < 10) (X : Fin 5000 → EReal)
    (hX : ∀ (p : Fin 5000) (hp : t * 5000 + p.val < 50000), X p = φ (ix2 ⟨t * 5000 + p.val, hp⟩ q)) :
    ∑ p : Fin 5000, X p = ∑ r ∈ Finset.range 5000, term φ q (t * 5000 + r) := by
  rw [Finset.sum_range]
  refine Finset.sum_congr rfl fun p _ => ?_
  have hp : t * 5000 + p.val < 50000 := by have := p.isLt; omega
  rw [hX p hp]
  unfold term
  rw [dif_pos hp]

/-- Adding block `t`'s column sum to the sum over the nodes below `t · 5000` gives the sum over the nodes below
    `(t + 1) · 5000`. -/
theorem sum_extend (φ : S50000x128.Idx → EReal) (q : Fin 128) (t : ℕ) (ht : t < 10) (X : Fin 5000 → EReal)
    (hX : ∀ (p : Fin 5000) (hp : t * 5000 + p.val < 50000), X p = φ (ix2 ⟨t * 5000 + p.val, hp⟩ q)) :
    ∑ r ∈ Finset.range (t * 5000), term φ q r + ∑ p : Fin 5000, X p = ∑ r ∈ Finset.range ((t + 1) * 5000), term φ q r := by
  rw [show (t + 1) * 5000 = t * 5000 + 5000 by omega, Finset.sum_range_add, blkSum φ q t ht X hX]

/-- The sum over the nodes below `10 · 5000` is the sum over all nodes. -/
theorem total (φ : S50000x128.Idx → EReal) (q : Fin 128) (n : ℕ) (h9 : n = 9) :
    ∑ r ∈ Finset.range ((n + 1) * 5000), term φ q r = ∑ m : Fin 50000, φ (ix2 m q) := by
  subst h9
  rw [show (9 + 1) * 5000 = 50000 by norm_num, Finset.sum_range]
  refine Finset.sum_congr rfl fun m _ => ?_
  unfold term
  rw [dif_pos m.isLt]

/-- THE INVARIANT.  After point `n` the sum row holds, at feature `q`, the sum of the pre-activations of the nodes
    below `(n + 1) · 5000`, and the sum-of-squares row the sum of their squares: zero plus the first block's column sums
    at the first point, the row the point before left plus this block's column sums after. -/
theorem acc_eq (c : Dev nD) : ∀ (n : ℕ) (hn : n < cfg7.N),
    (∀ q : Fin 128, (outsAt7 V c n hn).2.1 (ix2 (0 : Fin 1) q)
        = ∑ r ∈ Finset.range ((n + 1) * 5000), term (pre V c) q r)
    ∧ (∀ q : Fin 128, (outsAt7 V c n hn).2.2 (ix2 (0 : Fin 1) q)
        = ∑ r ∈ Finset.range ((n + 1) * 5000), term (fun i => pre V c i * pre V c i) q r)
  | 0, hn => by
    have e := at_A V c ⟨0, hn⟩ rfl
    have hN : (0 : ℕ) < 10 := by omega
    refine ⟨fun q => ?_, fun q => ?_⟩
    · refine (congrFun (congrArg (fun x => x.2.1) e) (ix2 (0 : Fin 1) q)).trans ?_
      refine (pay1_apply _ _ q).trans ?_
      refine Eq.trans (congrArg (fun z => z + ∑ p : Fin 5000, preBlk V c ⟨0, hn⟩ (ix2 p q))
        (?_ : _ = ∑ r ∈ Finset.range (0 * 5000), term (pre V c) q r))
        (sum_extend (pre V c) q 0 hN (fun p => preBlk V c ⟨0, hn⟩ (ix2 p q)) (fun p hp => preBlk_apply V c ⟨0, hn⟩ p q hp))
      rw [pay3_apply, Nat.zero_mul, Finset.range_zero, Finset.sum_empty]
    · refine (congrFun (congrArg (fun x => x.2.2) e) (ix2 (0 : Fin 1) q)).trans ?_
      refine (pay2_apply _ _ q).trans ?_
      refine Eq.trans (congrArg (fun z => z + ∑ p : Fin 5000, preBlk V c ⟨0, hn⟩ (ix2 p q) * preBlk V c ⟨0, hn⟩ (ix2 p q))
        (?_ : _ = ∑ r ∈ Finset.range (0 * 5000), term (fun i => pre V c i * pre V c i) q r))
        (sum_extend (fun i => pre V c i * pre V c i) q 0 hN (fun p => preBlk V c ⟨0, hn⟩ (ix2 p q) * preBlk V c ⟨0, hn⟩ (ix2 p q))
          (fun p hp => congrArg₂ (· * ·) (preBlk_apply V c ⟨0, hn⟩ p q hp) (preBlk_apply V c ⟨0, hn⟩ p q hp)))
      rw [pay4_apply, Nat.zero_mul, Finset.range_zero, Finset.sum_empty]
  | n + 1, hn => by
    have hN10 : cfg7.N = 10 := N_7
    have hN : n + 1 < 10 := by omega
    have hB : ¬(⟨n + 1, hn⟩ : Fin cfg7.N).val % 10 = 0 := by dsimp only; omega
    have e := at_B V c ⟨n + 1, hn⟩ hB
    obtain ⟨ih8, ih9⟩ := acc_eq c n (Nat.lt_of_succ_lt hn)
    refine ⟨fun q => ?_, fun q => ?_⟩
    · refine (congrFun (congrArg (fun x => x.2.1) e) (ix2 (0 : Fin 1) q)).trans ?_
      refine (pay1_apply _ _ q).trans ?_
      refine Eq.trans (congrArg (fun z => z + ∑ p : Fin 5000, preBlk V c ⟨n + 1, hn⟩ (ix2 p q))
        (?_ : _ = ∑ r ∈ Finset.range ((n + 1) * 5000), term (pre V c) q r))
        (sum_extend (pre V c) q (n + 1) hN (fun p => preBlk V c ⟨n + 1, hn⟩ (ix2 p q)) (fun p hp => preBlk_apply V c ⟨n + 1, hn⟩ p q hp))
      exact ih8 q
    · refine (congrFun (congrArg (fun x => x.2.2) e) (ix2 (0 : Fin 1) q)).trans ?_
      refine (pay2_apply _ _ q).trans ?_
      refine Eq.trans (congrArg (fun z => z + ∑ p : Fin 5000, preBlk V c ⟨n + 1, hn⟩ (ix2 p q) * preBlk V c ⟨n + 1, hn⟩ (ix2 p q))
        (?_ : _ = ∑ r ∈ Finset.range ((n + 1) * 5000), term (fun i => pre V c i * pre V c i) q r))
        (sum_extend (fun i => pre V c i * pre V c i) q (n + 1) hN (fun p => preBlk V c ⟨n + 1, hn⟩ (ix2 p q) * preBlk V c ⟨n + 1, hn⟩ (ix2 p q))
          (fun p hp => congrArg₂ (· * ·) (preBlk_apply V c ⟨n + 1, hn⟩ p q hp) (preBlk_apply V c ⟨n + 1, hn⟩ p q hp)))
      exact ih9 q

/-! ## From the blocks to the arrays -/

/-- WHAT POINT `t` WRITES BACK to the first output is block `t` of the pre-activations. -/
theorem flushed7_eq (c : Dev nD) (t : Fin cfg7.N) :
    (dat7 V c).flushed 7 t = ((cfg7.win 7).blk t).view.read (Elt Ideal) (pre V c) := by
  show (cfg7.win 7).cut (grid7.coords t) ((dat7 V c).after 7 t) = _
  rw [after7_7, out7_eq V c t]
  obtain ⟨-, -, -, -, -, -, -, ⟨e0, e1⟩, -⟩ := idx_facts t
  have ht : t.val < 10 := t.isLt
  funext j
  have hj0 : (j 0).val < 5000 := (j 0).isLt
  have hj1 : (j 1).val < 128 := (j 1).isLt
  have hrow : t.val * 5000 + (j 0).val < 50000 := by omega
  show preBlk V c t j = pre V c (((cfg7.win 7).blk t).view.emb j)
  have hemb : ((cfg7.win 7).blk t).view.emb j = ix2 (⟨t.val * 5000 + (j 0).val, hrow⟩ : Fin 50000) (j 1) := by
    funext a; apply Fin.ext
    match a with
    | ⟨0, _⟩ => show win7_7.index t (0 : Fin 2) * 5000 + 1 * (j 0).val = t.val * 5000 + (j 0).val; omega
    | ⟨1, _⟩ => show win7_7.index t (1 : Fin 2) * 128 + 1 * (j 1).val = (j 1).val; omega
  rw [hemb]
  exact (congrArg (preBlk V c t) (eq_ix2 j)).trans (preBlk_apply V c t (j 0) (j 1) hrow)

/-- An index of the first output is in point `t`'s block iff each coordinate is in the block's range on its axis. -/
theorem mem_blk7 (t : Fin cfg7.N) (i : S50000x128.Idx) :
    i ∈ ((cfg7.win 7).blk t).view.set ↔ ∀ a : Fin 2, win7_7.index t a * S5000x128.size a ≤ (i a).val
      ∧ (i a).val < win7_7.index t a * S5000x128.size a + S5000x128.size a := by
  show i ∈ ((View.whole (Pipeline.arrRef spec7 7)).slice (win7_7.rect t)).set ↔ _
  rw [View.set_slice_whole, Rect.mem_set_unit]
  exact Iff.rfl

/-- Every node row is in the block of the point `row / 5000`. -/
theorem cover7 (i : S50000x128.Idx) : ∃ t : Fin cfg7.N, (cfg7.win 7).flush t = true ∧ i ∈ ((cfg7.win 7).blk t).view.set := by
  have hi0 : (i 0).val < 50000 := (i 0).isLt
  have hi1 : (i 1).val < 128 := (i 1).isLt
  refine ⟨⟨(i 0).val / 5000, by show (i 0).val / 5000 < 10; omega⟩, flush7_7 _, ?_⟩
  rw [mem_blk7]
  obtain ⟨-, -, -, -, -, -, -, ⟨e0, e1⟩, -⟩ := idx_facts ⟨(i 0).val / 5000, by show (i 0).val / 5000 < 10; omega⟩
  intro a
  match a with
  | ⟨0, _⟩ =>
    show win7_7.index _ (0 : Fin 2) * 5000 ≤ (i 0).val ∧ (i 0).val < win7_7.index _ (0 : Fin 2) * 5000 + 5000
    rw [e0]; show (i 0).val / 5000 * 5000 ≤ (i 0).val ∧ (i 0).val < (i 0).val / 5000 * 5000 + 5000; omega
  | ⟨1, _⟩ =>
    show win7_7.index _ (1 : Fin 2) * 128 ≤ (i 1).val ∧ (i 1).val < win7_7.index _ (1 : Fin 2) * 128 + 128
    rw [e1]; omega

/-- THE FIRST OUTPUT ARRAY after the region: every node's pre-activation. -/
theorem final7 (c : Dev nD) : (dat7 V c).arrAt 7 cfg7.N = (preArr (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6))) :=
  (dat7 V c).arrAt_eq_of_cover 7 _ (fun t _ => flushed7_eq V c t) cover7

/-- The last of the ten grid points: the only one that writes the two running rows back. -/
abbrev tLast7 : Fin cfg7.N := ⟨9, by show 9 < 10; omega⟩

/-- Feature by feature, the sum of a node-indexed array over all 50000 nodes. -/
def colSums (φ : S50000x128.Idx → EReal) : S1x128.Idx → EReal := fun i => ∑ n : Fin 50000, φ (ix2 n (i 1))

/-- WHAT THE LAST POINT WRITES BACK to the sum row: feature by feature, the sum over all nodes of the pre-activations.
    Only the last point writes this row back; by then the row holds the sum over the nodes below `10 · 5000`. -/
theorem flushed8_eq (c : Dev nD) (t : Fin cfg7.N) (hf : (cfg7.win 8).flush t = true) :
    (dat7 V c).flushed 8 t = ((cfg7.win 8).blk t).view.read (Elt Ideal) (colSums (pre V c)) := by
  have ht : t.val < 10 := t.isLt
  have h9 : t.val = 9 := by have := (flush7_8 t).mp hf; omega
  have hX : ∀ q : Fin 128, (outsAt7 V c t.val t.isLt).2.1 (ix2 (0 : Fin 1) q) = colSums (pre V c) (ix2 (0 : Fin 1) q) :=
    fun q => ((acc_eq V c t.val t.isLt).1 q).trans (total (pre V c) q t.val h9)
  show (cfg7.win 8).cut (grid7.coords t) ((dat7 V c).after 8 t) = _
  rw [after7_8]
  generalize (outsAt7 V c t.val t.isLt).2.1 = X at hX
  have hXG : X = colSums (pre V c) := funext fun i => by
    have hi0 : (i 0).val < 1 := (i 0).isLt
    have hi : i = ix2 (0 : Fin 1) (i 1) := by
      funext a
      match a with
      | ⟨0, _⟩ => exact Fin.ext (by show (i 0).val = 0; omega)
      | ⟨1, _⟩ => rfl
    exact (congrArg X hi).trans ((hX (i 1)).trans (congrArg (colSums (pre V c)) hi).symm)
  subst hXG
  obtain rfl : t = tLast7 := Fin.ext h9
  obtain ⟨-, -, -, -, -, -, -, -, ⟨e80, e81⟩, ⟨e90, e91⟩⟩ := idx_facts tLast7
  have hz' : (fun a => win7_8.index tLast7 a * (Pipeline.arrRef spec7 8).ty.shape.size a) = fun _ => 0 :=
    funext fun a => by
      match a with
      | ⟨0, _⟩ => show win7_8.index tLast7 (0 : Fin 2) * 1 = 0; rw [e80]
      | ⟨1, _⟩ => show win7_8.index tLast7 (1 : Fin 2) * 128 = 0; rw [e81]
  exact (Memref.read_access_unit_zero (Elt Ideal) (Pipeline.arrRef spec7 8) hz'
    (fun a => le_of_eq (by have h := congrFun hz' a; dsimp only at h; rw [h, Nat.zero_add])) (colSums (pre V c))).symm

/-- An index of the sum row is in point `t`'s block iff each coordinate is in the block's range on its axis. -/
theorem mem_blk8 (t : Fin cfg7.N) (i : S1x128.Idx) :
    i ∈ ((cfg7.win 8).blk t).view.set ↔ ∀ a : Fin 2, win7_8.index t a * S1x128.size a ≤ (i a).val
      ∧ (i a).val < win7_8.index t a * S1x128.size a + S1x128.size a := by
  show i ∈ ((View.whole (Pipeline.arrRef spec7 8)).slice (win7_8.rect t)).set ↔ _
  rw [View.set_slice_whole, Rect.mem_set_unit]
  exact Iff.rfl

/-- The row is one block, and the last point writes it back. -/
theorem cover8 (i : S1x128.Idx) : ∃ t : Fin cfg7.N, (cfg7.win 8).flush t = true ∧ i ∈ ((cfg7.win 8).blk t).view.set := by
  have hi0 : (i 0).val < 1 := (i 0).isLt
  have hi1 : (i 1).val < 128 := (i 1).isLt
  refine ⟨tLast7, (flush7_8 _).mpr rfl, ?_⟩
  rw [mem_blk8]
  obtain ⟨-, -, -, -, -, -, -, -, ⟨e80, e81⟩, ⟨e90, e91⟩⟩ := idx_facts tLast7
  intro a
  match a with
  | ⟨0, _⟩ =>
    show win7_8.index _ (0 : Fin 2) * 1 ≤ (i 0).val ∧ (i 0).val < win7_8.index _ (0 : Fin 2) * 1 + 1
    rw [e80]; omega
  | ⟨1, _⟩ =>
    show win7_8.index _ (1 : Fin 2) * 128 ≤ (i 1).val ∧ (i 1).val < win7_8.index _ (1 : Fin 2) * 128 + 128
    rw [e81]; omega

/-- THE SECOND OUTPUT ARRAY after the region: feature by feature, the sum of the pre-activations over all 50000 nodes. -/
theorem final8 (c : Dev nD) : (dat7 V c).arrAt 8 cfg7.N
    = (fun i => ∑ n : Fin 50000, (preArr (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6))) (ix2 n (i 1)) : S1x128.Idx → EReal) :=
  (dat7 V c).arrAt_eq_of_cover 8 (colSums (pre V c)) (fun t hf => flushed8_eq V c t hf) cover8

/-- WHAT THE LAST POINT WRITES BACK to the sum-of-squares row: feature by feature, the sum over all nodes of the squares of the pre-activations.
    Only the last point writes this row back; by then the row holds the sum over the nodes below `10 · 5000`. -/
theorem flushed9_eq (c : Dev nD) (t : Fin cfg7.N) (hf : (cfg7.win 9).flush t = true) :
    (dat7 V c).flushed 9 t = ((cfg7.win 9).blk t).view.read (Elt Ideal) (colSums (fun i => pre V c i * pre V c i)) := by
  have ht : t.val < 10 := t.isLt
  have h9 : t.val = 9 := by have := (flush7_9 t).mp hf; omega
  have hX : ∀ q : Fin 128, (outsAt7 V c t.val t.isLt).2.2 (ix2 (0 : Fin 1) q) = colSums (fun i => pre V c i * pre V c i) (ix2 (0 : Fin 1) q) :=
    fun q => ((acc_eq V c t.val t.isLt).2 q).trans (total (fun i => pre V c i * pre V c i) q t.val h9)
  show (cfg7.win 9).cut (grid7.coords t) ((dat7 V c).after 9 t) = _
  rw [after7_9]
  generalize (outsAt7 V c t.val t.isLt).2.2 = X at hX
  have hXG : X = colSums (fun i => pre V c i * pre V c i) := funext fun i => by
    have hi0 : (i 0).val < 1 := (i 0).isLt
    have hi : i = ix2 (0 : Fin 1) (i 1) := by
      funext a
      match a with
      | ⟨0, _⟩ => exact Fin.ext (by show (i 0).val = 0; omega)
      | ⟨1, _⟩ => rfl
    exact (congrArg X hi).trans ((hX (i 1)).trans (congrArg (colSums (fun i => pre V c i * pre V c i)) hi).symm)
  subst hXG
  obtain rfl : t = tLast7 := Fin.ext h9
  obtain ⟨-, -, -, -, -, -, -, -, ⟨e80, e81⟩, ⟨e90, e91⟩⟩ := idx_facts tLast7
  have hz' : (fun a => win7_9.index tLast7 a * (Pipeline.arrRef spec7 9).ty.shape.size a) = fun _ => 0 :=
    funext fun a => by
      match a with
      | ⟨0, _⟩ => show win7_9.index tLast7 (0 : Fin 2) * 1 = 0; rw [e90]
      | ⟨1, _⟩ => show win7_9.index tLast7 (1 : Fin 2) * 128 = 0; rw [e91]
  exact (Memref.read_access_unit_zero (Elt Ideal) (Pipeline.arrRef spec7 9) hz'
    (fun a => le_of_eq (by have h := congrFun hz' a; dsimp only at h; rw [h, Nat.zero_add])) (colSums (fun i => pre V c i * pre V c i))).symm

/-- An index of the sum-of-squares row is in point `t`'s block iff each coordinate is in the block's range on its axis. -/
theorem mem_blk9 (t : Fin cfg7.N) (i : S1x128.Idx) :
    i ∈ ((cfg7.win 9).blk t).view.set ↔ ∀ a : Fin 2, win7_9.index t a * S1x128.size a ≤ (i a).val
      ∧ (i a).val < win7_9.index t a * S1x128.size a + S1x128.size a := by
  show i ∈ ((View.whole (Pipeline.arrRef spec7 9)).slice (win7_9.rect t)).set ↔ _
  rw [View.set_slice_whole, Rect.mem_set_unit]
  exact Iff.rfl

/-- The row is one block, and the last point writes it back. -/
theorem cover9 (i : S1x128.Idx) : ∃ t : Fin cfg7.N, (cfg7.win 9).flush t = true ∧ i ∈ ((cfg7.win 9).blk t).view.set := by
  have hi0 : (i 0).val < 1 := (i 0).isLt
  have hi1 : (i 1).val < 128 := (i 1).isLt
  refine ⟨tLast7, (flush7_9 _).mpr rfl, ?_⟩
  rw [mem_blk9]
  obtain ⟨-, -, -, -, -, -, -, -, ⟨e80, e81⟩, ⟨e90, e91⟩⟩ := idx_facts tLast7
  intro a
  match a with
  | ⟨0, _⟩ =>
    show win7_9.index _ (0 : Fin 2) * 1 ≤ (i 0).val ∧ (i 0).val < win7_9.index _ (0 : Fin 2) * 1 + 1
    rw [e90]; omega
  | ⟨1, _⟩ =>
    show win7_9.index _ (1 : Fin 2) * 128 ≤ (i 1).val ∧ (i 1).val < win7_9.index _ (1 : Fin 2) * 128 + 128
    rw [e91]; omega

/-- THE THIRD OUTPUT ARRAY after the region: feature by feature, the sum of the squared pre-activations over all 50000 nodes. -/
theorem final9 (c : Dev nD) : (dat7 V c).arrAt 9 cfg7.N
    = (fun i => ∑ n : Fin 50000, (preArr (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6))) (ix2 n (i 1)) * (preArr (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6))) (ix2 n (i 1)) : S1x128.Idx → EReal) :=
  (dat7 V c).arrAt_eq_of_cover 9 (colSums (fun i => pre V c i * pre V c i)) (fun t hf => flushed9_eq V c t hf) cover9

end Cert.KernelIdeal.Combine7

end
-- ==== Proof.NormStep8.lean ====
/- The normalisation region of a layer (region 8): each grid point takes a block of 5000 node rows of the pre-activation
  `hpre` and, feature by feature, subtracts the feature's mean, scales by the reciprocal square root of the feature's
  variance plus a small constant, multiplies by `gamma`, adds `beta` and clamps below at zero.  That is the first output;
  the second is the block of the running node features plus the first.  The mean, variance, `gamma` and `beta` rows are
  the same at every point and the blocks tile the node axis, so after the region the two output arrays are these
  entrywise functions of the arrays the region was entered with.
-/
import proofs.«134443_j73787538145745_2_alg».proof.Proof.Gen.KernelIdeal.Frame
import proofs.«134443_j73787538145745_2_alg».proof.Proof.BlockOps
import Idealize.ShloMosaic.Lib.Pipeline.Value

set_option maxRecDepth 16384

noncomputable section

namespace Cert.KernelIdeal.NormStep8

open Cert.KernelIdeal Cert.KernelIdeal.Gen Cert.KernelIdeal.BlockOps
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One entry's normalisation: `max ((((h − m) · rsqrt (v + ε)) · g) + b) 0`, `ε` the 32-bit constant of the body. -/
def normAt (h m v g b : EReal) : EReal :=
  max ((((h - m) * Ideal.rsqrt (v + (Ideal.ofBits .f32 0x3727C5AC#32 : EReal))) * g) + b) 0

/-- The region's first result as one function of its five input arrays: entry `(n, d)` of `hp` normalised with feature
    `d`'s mean, variance, `gamma` and `beta`. -/
def normArr (hp : S50000x128.Idx → EReal) (mean var gam bet : S1x128.Idx → EReal) : S50000x128.Idx → EReal :=
  fun i => max ((((hp i - mean (ix2 0 (i 1))) * Ideal.rsqrt (var (ix2 0 (i 1)) + (Ideal.ofBits .f32 0x3727C5AC#32 : EReal)))
    * gam (ix2 0 (i 1))) + bet (ix2 0 (i 1))) 0

/-- The region's second result: the running node features plus the first result, entry by entry. -/
def resArr (xin hp : S50000x128.Idx → EReal) (mean var gam bet : S1x128.Idx → EReal) : S50000x128.Idx → EReal :=
  fun i => xin i + normArr hp mean var gam bet i

theorem normArr_apply (hp : S50000x128.Idx → EReal) (mean var gam bet : S1x128.Idx → EReal) (i : S50000x128.Idx) :
    normArr hp mean var gam bet i
      = normAt (hp i) (mean (ix2 0 (i 1))) (var (ix2 0 (i 1))) (gam (ix2 0 (i 1))) (bet (ix2 0 (i 1))) := rfl

/-- The entrywise reciprocal square root of a vector, at an index. -/
theorem rsqrtVec_apply {s : Shape} {φ : FTy} (a : FVec Ideal s φ) (i : s.Idx) : rsqrt a i = Ideal.rsqrt (a i) := rfl

/-- The first stored value at row `p`, feature `q` of a block, from the loaded variance row, pre-activation block, mean row,
    `gamma` row and `beta` row (the order in which the body reads them). -/
theorem pay1_apply (v0 : Vec Ideal S1x128 .f32) (v5 : Vec Ideal S5000x128 .f32) (v7 v13 v17 : Vec Ideal S1x128 .f32)
    (p : Fin 5000) (q : Fin 128) :
    k8_pay1 (F := Ideal) v0 v5 v7 v13 v17 (ix2 p q)
      = normAt (v5 (ix2 p q)) (v7 (ix2 (0 : Fin 1) q)) (v0 (ix2 (0 : Fin 1) q)) (v13 (ix2 (0 : Fin 1) q)) (v17 (ix2 (0 : Fin 1) q)) := by
  unfold k8_pay1
  rw [maximumf_apply, broadcast_apply, addf_apply, mulf_apply, mulf_apply, subf_apply,
    bcastRow_apply, bcastRow_apply, bcastRow_apply, bcastRow_apply]
  simp only [shapeCast_self]
  unfold normAt
  refine congrArg₂ max ?_ Ideal.ofBits_zero_f32
  rfl

/-- The second stored value: the running features' entry plus the first stored value. -/
theorem pay2_apply (v0 : Vec Ideal S1x128 .f32) (v5 : Vec Ideal S5000x128 .f32) (v7 v13 v17 : Vec Ideal S1x128 .f32)
    (v24 : Vec Ideal S5000x128 .f32) (p : Fin 5000) (q : Fin 128) :
    k8_pay2 (F := Ideal) v0 v5 v7 v13 v17 v24 (ix2 p q) = v24 (ix2 p q) + k8_pay1 (F := Ideal) v0 v5 v7 v13 v17 (ix2 p q) := by
  unfold k8_pay2
  rw [addf_apply, shapeCast_self]

/-- The printed index maps of the four row-block windows over the ten grid points: they move with the point. -/
theorem idx_blk : ∀ t : Fin cfg8.N, win8_0.index t (0 : Fin 2) = t.val ∧ win8_0.index t (1 : Fin 2) = 0
    ∧ win8_5.index t (0 : Fin 2) = t.val ∧ win8_5.index t (1 : Fin 2) = 0
    ∧ win8_6.index t (0 : Fin 2) = t.val ∧ win8_6.index t (1 : Fin 2) = 0
    ∧ win8_7.index t (0 : Fin 2) = t.val ∧ win8_7.index t (1 : Fin 2) = 0 :=
  (by decide +kernel : ∀ t : Fin grid8.N, _)

/-- The printed index maps of the four one-row windows over the ten grid points: they stay at block (0, 0). -/
theorem idx_row : ∀ t : Fin cfg8.N, win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

/-- Row `p`, feature `q` of the pre-activation window's block at point `t` is row `t · 5000 + p` of its array. -/
theorem blkH_apply (c : Dev nD) (t : Fin cfg8.N) (p : Fin 5000) (q : Fin 128) (hp : t.val * 5000 + p.val < 50000) :
    iblk8 V c 0 t (ix2 p q) = V c (Pipeline.arrRef spec8 0) (ix2 ⟨t.val * 5000 + p.val, hp⟩ q) := by
  obtain ⟨e0, e1, e2, e3, e4, e5, e6, e7⟩ := idx_blk t
  show V c (Pipeline.arrRef spec8 0) (((cfg8.win 0).blk t).view.emb (ix2 p q)) = _
  refine congrArg (V c (Pipeline.arrRef spec8 0)) (funext fun a => Fin.ext ?_)
  match a with
  | ⟨0, _⟩ => show win8_0.index t (0 : Fin 2) * 5000 + 1 * p.val = t.val * 5000 + p.val; omega
  | ⟨1, _⟩ => show win8_0.index t (1 : Fin 2) * 128 + 1 * q.val = q.val; omega

/-- Row `p`, feature `q` of the running-features window's block at point `t` is row `t · 5000 + p` of its array. -/
theorem blkX_apply (c : Dev nD) (t : Fin cfg8.N) (p : Fin 5000) (q : Fin 128) (hp : t.val * 5000 + p.val < 50000) :
    iblk8 V c 5 t (ix2 p q) = V c (Pipeline.arrRef spec8 5) (ix2 ⟨t.val * 5000 + p.val, hp⟩ q) := by
  obtain ⟨e0, e1, e2, e3, e4, e5, e6, e7⟩ := idx_blk t
  show V c (Pipeline.arrRef spec8 5) (((cfg8.win 5).blk t).view.emb (ix2 p q)) = _
  refine congrArg (V c (Pipeline.arrRef spec8 5)) (funext fun a => Fin.ext ?_)
  match a with
  | ⟨0, _⟩ => show win8_5.index t (0 : Fin 2) * 5000 + 1 * p.val = t.val * 5000 + p.val; omega
  | ⟨1, _⟩ => show win8_5.index t (1 : Fin 2) * 128 + 1 * q.val = q.val; omega

/-- The mean window's block is the whole mean row. -/
theorem rowMean_apply (c : Dev nD) (t : Fin cfg8.N) (q : Fin 128) :
    iblk8 V c 1 t (ix2 (0 : Fin 1) q) = V c (Pipeline.arrRef spec8 1) (ix2 (0 : Fin 1) q) := by
  obtain ⟨e0, e1, e2, e3, e4, e5, e6, e7⟩ := idx_row t
  show V c (Pipeline.arrRef spec8 1) (((cfg8.win 1).blk t).view.emb (ix2 (0 : Fin 1) q)) = _
  refine congrArg (V c (Pipeline.arrRef spec8 1)) (funext fun a => Fin.ext ?_)
  match a with
  | ⟨0, _⟩ => show win8_1.index t (0 : Fin 2) * 1 + 1 * (0 : Fin 1).val = (0 : Fin 1).val; omega
  | ⟨1, _⟩ => show win8_1.index t (1 : Fin 2) * 128 + 1 * q.val = q.val; omega

/-- The variance window's block is the whole variance row. -/
theorem rowVar_apply (c : Dev nD) (t : Fin cfg8.N) (q : Fin 128) :
    iblk8 V c 2 t (ix2 (0 : Fin 1) q) = V c (Pipeline.arrRef spec8 2) (ix2 (0 : Fin 1) q) := by
  obtain ⟨e0, e1, e2, e3, e4, e5, e6, e7⟩ := idx_row t
  show V c (Pipeline.arrRef spec8 2) (((cfg8.win 2).blk t).view.emb (ix2 (0 : Fin 1) q)) = _
  refine congrArg (V c (Pipeline.arrRef spec8 2)) (funext fun a => Fin.ext ?_)
  match a with
  | ⟨0, _⟩ => show win8_2.index t (0 : Fin 2) * 1 + 1 * (0 : Fin 1).val = (0 : Fin 1).val; omega
  | ⟨1, _⟩ => show win8_2.index t (1 : Fin 2) * 128 + 1 * q.val = q.val; omega

/-- The gamma window's block is the whole gamma row. -/
theorem rowGam_apply (c : Dev nD) (t : Fin cfg8.N) (q : Fin 128) :
    iblk8 V c 3 t (ix2 (0 : Fin 1) q) = V c (Pipeline.arrRef spec8 3) (ix2 (0 : Fin 1) q) := by
  obtain ⟨e0, e1, e2, e3, e4, e5, e6, e7⟩ := idx_row t
  show V c (Pipeline.arrRef spec8 3) (((cfg8.win 3).blk t).view.emb (ix2 (0 : Fin 1) q)) = _
  refine congrArg (V c (Pipeline.arrRef spec8 3)) (funext fun a => Fin.ext ?_)
  match a with
  | ⟨0, _⟩ => show win8_3.index t (0 : Fin 2) * 1 + 1 * (0 : Fin 1).val = (0 : Fin 1).val; omega
  | ⟨1, _⟩ => show win8_3.index t (1 : Fin 2) * 128 + 1 * q.val = q.val; omega

/-- The beta window's block is the whole beta row. -/
theorem rowBet_apply (c : Dev nD) (t : Fin cfg8.N) (q : Fin 128) :
    iblk8 V c 4 t (ix2 (0 : Fin 1) q) = V c (Pipeline.arrRef spec8 4) (ix2 (0 : Fin 1) q) := by
  obtain ⟨e0, e1, e2, e3, e4, e5, e6, e7⟩ := idx_row t
  show V c (Pipeline.arrRef spec8 4) (((cfg8.win 4).blk t).view.emb (ix2 (0 : Fin 1) q)) = _
  refine congrArg (V c (Pipeline.arrRef spec8 4)) (funext fun a => Fin.ext ?_)
  match a with
  | ⟨0, _⟩ => show win8_4.index t (0 : Fin 2) * 1 + 1 * (0 : Fin 1).val = (0 : Fin 1).val; omega
  | ⟨1, _⟩ => show win8_4.index t (1 : Fin 2) * 128 + 1 * q.val = q.val; omega

/-- The first stored value at point `t`, block row `p`, feature `q` is `normArr` of the entry arrays at node row
    `t · 5000 + p`. -/
theorem norm_blk (c : Dev nD) (t : Fin cfg8.N) (p : Fin 5000) (q : Fin 128) (hrow : t.val * 5000 + p.val < 50000) :
    k8_pay1 (F := Ideal) (iblk8 V c 2 t) (iblk8 V c 0 t) (iblk8 V c 1 t) (iblk8 V c 3 t) (iblk8 V c 4 t) (ix2 p q)
      = normArr (V c (Pipeline.arrRef spec8 0)) (V c (Pipeline.arrRef spec8 1)) (V c (Pipeline.arrRef spec8 2))
        (V c (Pipeline.arrRef spec8 3)) (V c (Pipeline.arrRef spec8 4)) (ix2 (⟨t.val * 5000 + p.val, hrow⟩ : Fin 50000) q) := by
  refine (pay1_apply _ _ _ _ _ p q).trans ?_
  rw [normArr_apply]
  refine congr (congr (congr (congr (congrArg normAt ?_) ?_) ?_) ?_) ?_
  · exact blkH_apply V c t p q hrow
  · exact rowMean_apply V c t q
  · exact rowVar_apply V c t q
  · exact rowGam_apply V c t q
  · exact rowBet_apply V c t q

set_option maxHeartbeats 1000000 in
/-- WHAT POINT `t` WRITES BACK to output 6 is block `t` of `normArr` of the arrays the region was entered with. -/
theorem flushed6_eq (c : Dev nD) (t : Fin cfg8.N) :
    (dat8 V c).flushed 6 t = ((cfg8.win 6).blk t).view.read (Elt Ideal)
      (normArr (V c (Pipeline.arrRef spec8 0)) (V c (Pipeline.arrRef spec8 1)) (V c (Pipeline.arrRef spec8 2))
        (V c (Pipeline.arrRef spec8 3)) (V c (Pipeline.arrRef spec8 4))) := by
  show (cfg8.win 6).cut (grid8.coords t) ((dat8 V c).after 6 t) = _
  rw [after8_6]
  unfold out8_6
  rw [View.canon_unit_zero hz]
  simp only [View.ld_unit_zero (S := S5000x128) hz, View.ld_unit_zero (S := S1x128) hz]
  obtain ⟨e0, e1, e2, e3, e4, e5, e6, e7⟩ := idx_blk t
  have ht : t.val < 10 := t.isLt
  funext j
  obtain ⟨p, q, rfl⟩ : ∃ (p : Fin 5000) (q : Fin 128), j = ix2 p q := ⟨j 0, j 1, eq_ix2 j⟩
  have hp : p.val < 5000 := p.isLt
  have hrow : t.val * 5000 + p.val < 50000 := by omega
  show k8_pay1 (F := Ideal) (iblk8 V c 2 t) (iblk8 V c 0 t) (iblk8 V c 1 t) (iblk8 V c 3 t) (iblk8 V c 4 t) (ix2 p q)
    = normArr (V c (Pipeline.arrRef spec8 0)) (V c (Pipeline.arrRef spec8 1)) (V c (Pipeline.arrRef spec8 2))
        (V c (Pipeline.arrRef spec8 3)) (V c (Pipeline.arrRef spec8 4)) (((cfg8.win 6).blk t).view.emb (ix2 p q))
  have hemb : ((cfg8.win 6).blk t).view.emb (ix2 p q) = ix2 (⟨t.val * 5000 + p.val, hrow⟩ : Fin 50000) q := by
    funext a; apply Fin.ext
    match a with
    | ⟨0, _⟩ => show win8_6.index t (0 : Fin 2) * 5000 + 1 * p.val = t.val * 5000 + p.val; omega
    | ⟨1, _⟩ => show win8_6.index t (1 : Fin 2) * 128 + 1 * q.val = q.val; omega
  rw [hemb]
  exact norm_blk V c t p q hrow

set_option maxHeartbeats 1000000 in
/-- WHAT POINT `t` WRITES BACK to output 7 is block `t` of the running features plus `normArr`. -/
theorem flushed7_eq (c : Dev nD) (t : Fin cfg8.N) :
    (dat8 V c).flushed 7 t = ((cfg8.win 7).blk t).view.read (Elt Ideal)
      (resArr (V c (Pipeline.arrRef spec8 5)) (V c (Pipeline.arrRef spec8 0)) (V c (Pipeline.arrRef spec8 1)) (V c (Pipeline.arrRef spec8 2))
        (V c (Pipeline.arrRef spec8 3)) (V c (Pipeline.arrRef spec8 4))) := by
  show (cfg8.win 7).cut (grid8.coords t) ((dat8 V c).after 7 t) = _
  rw [after8_7]
  unfold out8_7
  rw [View.canon_unit_zero hz]
  simp only [View.ld_unit_zero (S := S5000x128) hz, View.ld_unit_zero (S := S1x128) hz]
  obtain ⟨e0, e1, e2, e3, e4, e5, e6, e7⟩ := idx_blk t
  have ht : t.val < 10 := t.isLt
  funext j
  obtain ⟨p, q, rfl⟩ : ∃ (p : Fin 5000) (q : Fin 128), j = ix2 p q := ⟨j 0, j 1, eq_ix2 j⟩
  have hp : p.val < 5000 := p.isLt
  have hrow : t.val * 5000 + p.val < 50000 := by omega
  show k8_pay2 (F := Ideal) (iblk8 V c 2 t) (iblk8 V c 0 t) (iblk8 V c 1 t) (iblk8 V c 3 t) (iblk8 V c 4 t) (iblk8 V c 5 t) (ix2 p q)
    = resArr (V c (Pipeline.arrRef spec8 5)) (V c (Pipeline.arrRef spec8 0)) (V c (Pipeline.arrRef spec8 1)) (V c (Pipeline.arrRef spec8 2))
        (V c (Pipeline.arrRef spec8 3)) (V c (Pipeline.arrRef spec8 4)) (((cfg8.win 7).blk t).view.emb (ix2 p q))
  have hemb : ((cfg8.win 7).blk t).view.emb (ix2 p q) = ix2 (⟨t.val * 5000 + p.val, hrow⟩ : Fin 50000) q := by
    funext a; apply Fin.ext
    match a with
    | ⟨0, _⟩ => show win8_7.index t (0 : Fin 2) * 5000 + 1 * p.val = t.val * 5000 + p.val; omega
    | ⟨1, _⟩ => show win8_7.index t (1 : Fin 2) * 128 + 1 * q.val = q.val; omega
  rw [hemb]
  refine (pay2_apply _ _ _ _ _ _ p q).trans ?_
  unfold resArr
  exact congrArg₂ (· + ·) (blkX_apply V c t p q hrow) (norm_blk V c t p q hrow)

/-- An index of output 6's array is in point `t`'s block iff each coordinate is in the block's range on its axis. -/
theorem mem_blk6 (t : Fin cfg8.N) (i : S50000x128.Idx) :
    i ∈ ((cfg8.win 6).blk t).view.set ↔ ∀ a : Fin 2, win8_6.index t a * S5000x128.size a ≤ (i a).val
      ∧ (i a).val < win8_6.index t a * S5000x128.size a + S5000x128.size a := by
  show i ∈ ((View.whole (Pipeline.arrRef spec8 6)).slice (win8_6.rect t)).set ↔ _
  rw [View.set_slice_whole, Rect.mem_set_unit]
  exact Iff.rfl

/-- Every node row of output 6 is in the block of the point `row / 5000`. -/
theorem cover6 (i : S50000x128.Idx) : ∃ t : Fin cfg8.N, (cfg8.win 6).flush t = true ∧ i ∈ ((cfg8.win 6).blk t).view.set := by
  have hi0 : (i 0).val < 50000 := (i 0).isLt
  have hi1 : (i 1).val < 128 := (i 1).isLt
  refine ⟨⟨(i 0).val / 5000, by show (i 0).val / 5000 < 10; omega⟩, flush8_6 _, ?_⟩
  rw [mem_blk6]
  obtain ⟨e0, e1, e2, e3, e4, e5, e6, e7⟩ := idx_blk ⟨(i 0).val / 5000, by show (i 0).val / 5000 < 10; omega⟩
  intro a
  match a with
  | ⟨0, _⟩ =>
    show win8_6.index _ (0 : Fin 2) * 5000 ≤ (i 0).val ∧ (i 0).val < win8_6.index _ (0 : Fin 2) * 5000 + 5000
    rw [e4]; show (i 0).val / 5000 * 5000 ≤ (i 0).val ∧ (i 0).val < (i 0).val / 5000 * 5000 + 5000; omega
  | ⟨1, _⟩ =>
    show win8_6.index _ (1 : Fin 2) * 128 ≤ (i 1).val ∧ (i 1).val < win8_6.index _ (1 : Fin 2) * 128 + 128
    rw [e5]; omega

/-- An index of output 7's array is in point `t`'s block iff each coordinate is in the block's range on its axis. -/
theorem mem_blk7 (t : Fin cfg8.N) (i : S50000x128.Idx) :
    i ∈ ((cfg8.win 7).blk t).view.set ↔ ∀ a : Fin 2, win8_7.index t a * S5000x128.size a ≤ (i a).val
      ∧ (i a).val < win8_7.index t a * S5000x128.size a + S5000x128.size a := by
  show i ∈ ((View.whole (Pipeline.arrRef spec8 7)).slice (win8_7.rect t)).set ↔ _
  rw [View.set_slice_whole, Rect.mem_set_unit]
  exact Iff.rfl

/-- Every node row of output 7 is in the block of the point `row / 5000`. -/
theorem cover7 (i : S50000x128.Idx) : ∃ t : Fin cfg8.N, (cfg8.win 7).flush t = true ∧ i ∈ ((cfg8.win 7).blk t).view.set := by
  have hi0 : (i 0).val < 50000 := (i 0).isLt
  have hi1 : (i 1).val < 128 := (i 1).isLt
  refine ⟨⟨(i 0).val / 5000, by show (i 0).val / 5000 < 10; omega⟩, flush8_7 _, ?_⟩
  rw [mem_blk7]
  obtain ⟨e0, e1, e2, e3, e4, e5, e6, e7⟩ := idx_blk ⟨(i 0).val / 5000, by show (i 0).val / 5000 < 10; omega⟩
  intro a
  match a with
  | ⟨0, _⟩ =>
    show win8_7.index _ (0 : Fin 2) * 5000 ≤ (i 0).val ∧ (i 0).val < win8_7.index _ (0 : Fin 2) * 5000 + 5000
    rw [e6]; show (i 0).val / 5000 * 5000 ≤ (i 0).val ∧ (i 0).val < (i 0).val / 5000 * 5000 + 5000; omega
  | ⟨1, _⟩ =>
    show win8_7.index _ (1 : Fin 2) * 128 ≤ (i 1).val ∧ (i 1).val < win8_7.index _ (1 : Fin 2) * 128 + 128
    rw [e7]; omega

/-- THE FIRST OUTPUT ARRAY after the region. -/
theorem final6 (c : Dev nD) : (dat8 V c).arrAt 6 cfg8.N
    = normArr (V c (Pipeline.arrRef spec8 0)) (V c (Pipeline.arrRef spec8 1)) (V c (Pipeline.arrRef spec8 2))
        (V c (Pipeline.arrRef spec8 3)) (V c (Pipeline.arrRef spec8 4)) :=
  (dat8 V c).arrAt_eq_of_cover 6 _ (fun t _ => flushed6_eq V c t) cover6

/-- THE SECOND OUTPUT ARRAY after the region. -/
theorem final7 (c : Dev nD) : (dat8 V c).arrAt 7 cfg8.N
    = resArr (V c (Pipeline.arrRef spec8 5)) (V c (Pipeline.arrRef spec8 0)) (V c (Pipeline.arrRef spec8 1)) (V c (Pipeline.arrRef spec8 2))
        (V c (Pipeline.arrRef spec8 3)) (V c (Pipeline.arrRef spec8 4)) :=
  (dat8 V c).arrAt_eq_of_cover 7 _ (fun t _ => flushed7_eq V c t) cover7

end Cert.KernelIdeal.NormStep8

end
-- ==== Proof.KernelLayer3.lean ====
/- Layer 3 of the kernel program, buffer by buffer, in terms of the network's arguments: the same chain as layer 1 with the
   buffers, boundaries and regions of this layer, its input features and running sum taken from layer 2's outputs and its
   first slice of the stacked `Wg` from its own short stretch of array operations. -/
import proofs.«134443_j73787538145745_2_alg».proof.Proof.KernelLayer2
import proofs.«134443_j73787538145745_2_alg».proof.Proof.ScaledRows6
import proofs.«134443_j73787538145745_2_alg».proof.Proof.Combine7
import proofs.«134443_j73787538145745_2_alg».proof.Proof.NormStep8

set_option maxRecDepth 16384

noncomputable section

namespace Cert.KernelIdeal.Net

open Cert.KernelIdeal Cert.KernelIdeal.Gen
open Idealize.ShloMosaic Idealize.ShloMosaic.TcCoe Idealize.ShloMosaic.ValueIdx Idealize.ShloMosaic.StableHlo
open Idealize.SL Idealize.SL.Sem
open Cert.NetSpec Cert.LayerSpec Cert.LibEdgeIdx

variable (m : (ℓ : Loc nD τ sig) → Buf (Elt Ideal) ℓ) (ρ : Dev nD → PrngReg)

/-- Layer 3's `Wg`, as the first region of the layer reads it. -/
theorem wgA3_mat (c : Dev nD) (k d : Fin 128) :
    asArr S128x128 (W13 m ρ c (Proc.devRef .tc main_v94)) (ix2 k d) = (KArgs m c).Wg (ix3 (2 : Fin 3) k d) := by
  show StableHlo.after hostOps6 (W12 m ρ c) (Proc.devRef .tc main_v94) (ix2 k d) = _
  generalize hW : W12 m ρ c = Wv
  after_results_simp
  subst hW
  exact (HostWeights.slice3_apply _ 2 2 rfl _ _ k d).trans (congrFun (Walk.arg2_W12 m ρ c) (ix3 (2 : Fin 3) k d))

/-- The layer's first region: the previous layer's features times this layer's `Wg`, each row scaled by its node's `dinv`. -/
theorem hgs3_apply (c : Dev nD) (n : Fin 50000) (d : Fin 128) :
    asArr S50000x128 (W14 m ρ c (Proc.devRef .tc main_v95)) (ix2 n d)
      = (∑ k : Fin 128, asArr S50000x128 (W12 m ρ c (Proc.devRef .tc main_v92_0)) (ix2 n k) * (KArgs m c).Wg (ix3 (2 : Fin 3) k d))
          * (Gr (KArgs m c)).dinv n := by
  refine (congrFun ((W14_arr m ρ c 3).trans (ScaledRows6.final (V13 m ρ) c)) (ix2 n d)).trans ?_
  unfold ScaledRows6.scaledRows
  refine congrArg₂ (· * ·) (Finset.sum_congr rfl fun k _ => congrArg₂ (· * ·) ?_ ?_) ?_
  · exact congrFun (Walk.v92_0_W13 m ρ c) (ix2 n k)
  · exact wgA3_mat m ρ c k d
  · exact (congrFun (Walk.v11_W13 m ρ c) (ix2 n (0 : Fin 1))).trans (dinv_col m ρ c n)

/-- The accumulated messages of layer 3. -/
theorem agg3_apply (c : Dev nD) (n : Fin 50000) (k : Fin 128) :
    asArr S50000x128 (W15 m ρ c (Proc.devRef .tc main_v106)) (ix2 n k)
      = 0 + ∑ e ∈ Finset.univ.filter (fun e => (Gr (KArgs m c)).lands e n),
          asArr S50000x128 (W14 m ρ c (Proc.devRef .tc main_v95)) (ix2 ((Gr (KArgs m c)).srcc e) k) := by
  show StableHlo.after hostOps7 (W14 m ρ c) (Proc.devRef .tc main_v106) (ix2 n k) = _
  generalize hW : W14 m ρ c = Wv
  after_results_simp
  subst hW
  exact edgePhase_apply (KArgs m c) _ _ _
    (fun e => (congrFun (Walk.v1_W14 m ρ c) (ix1 e)).trans (src_vec m ρ c e))
    (fun e => (congrFun (Walk.v3_W14 m ρ c) (ix1 e)).trans (dst_vec m ρ c e)) n k

/-! ### Layer 3's parameter slices (second stretch) -/

/-- Layer 3's `bg` as a row. -/
theorem bg3_row (c : Dev nD) (d : Fin 128) :
    asArr S1x128 (W15 m ρ c (Proc.devRef .tc main_v109)) (ix2 (0 : Fin 1) d) = (KArgs m c).bg (ix2 (2 : Fin 3) d) := by
  show StableHlo.after hostOps7 (W14 m ρ c) (Proc.devRef .tc main_v109) (ix2 (0 : Fin 1) d) = _
  generalize hW : W14 m ρ c = Wv
  after_results_simp
  subst hW
  exact (HostWeights.slice2_row_apply _ 2 2 rfl _ _ _ d).trans (congrFun (Walk.arg3_W14 m ρ c) (ix2 (2 : Fin 3) d))

/-- Layer 3's `bl` as a row. -/
theorem bl3_row (c : Dev nD) (d : Fin 128) :
    asArr S1x128 (W15 m ρ c (Proc.devRef .tc main_v112)) (ix2 (0 : Fin 1) d) = (KArgs m c).bl (ix2 (2 : Fin 3) d) := by
  show StableHlo.after hostOps7 (W14 m ρ c) (Proc.devRef .tc main_v112) (ix2 (0 : Fin 1) d) = _
  generalize hW : W14 m ρ c = Wv
  after_results_simp
  subst hW
  exact (HostWeights.slice2_row_apply _ 2 2 rfl _ _ _ d).trans (congrFun (Walk.arg5_W14 m ρ c) (ix2 (2 : Fin 3) d))

/-- Layer 3's `Wl`. -/
theorem wl3_mat (c : Dev nD) (k d : Fin 128) :
    asArr S128x128 (W15 m ρ c (Proc.devRef .tc main_v114)) (ix2 k d) = (KArgs m c).Wl (ix3 (2 : Fin 3) k d) := by
  show StableHlo.after hostOps7 (W14 m ρ c) (Proc.devRef .tc main_v114) (ix2 k d) = _
  generalize hW : W14 m ρ c = Wv
  after_results_simp
  subst hW
  exact (HostWeights.slice3_apply _ 2 2 rfl _ _ k d).trans (congrFun (Walk.arg4_W14 m ρ c) (ix3 (2 : Fin 3) k d))

/-- Layer 3's `Wg`, as region 1 reads it. -/
theorem wg3_mat (c : Dev nD) (k d : Fin 128) :
    asArr S128x128 (W15 m ρ c (Proc.devRef .tc main_v116)) (ix2 k d) = (KArgs m c).Wg (ix3 (2 : Fin 3) k d) := by
  show StableHlo.after hostOps7 (W14 m ρ c) (Proc.devRef .tc main_v116) (ix2 k d) = _
  generalize hW : W14 m ρ c = Wv
  after_results_simp
  subst hW
  exact (HostWeights.slice3_apply _ 2 2 rfl _ _ k d).trans (congrFun (Walk.arg2_W14 m ρ c) (ix3 (2 : Fin 3) k d))

/-! ### Layer 3's statistics and scale rows (third stretch) -/

/-- The mean row: the one-pass sum over the node count. -/
theorem mean3_row (c : Dev nD) (d : Fin 128) :
    asArr S1x128 (W17 m ρ c (Proc.devRef .tc main_v119)) (ix2 (0 : Fin 1) d)
      = Ideal.div (asArr S1x128 (W16 m ρ c (Proc.devRef .tc main_v117_1)) (ix2 (0 : Fin 1) d)) (Ideal.ofBits .f32 0x47435000#32) := by
  show StableHlo.after hostOps8 (W16 m ρ c) (Proc.devRef .tc main_v119) (ix2 (0 : Fin 1) d) = _
  generalize hW : W16 m ρ c = Wv
  after_results_simp
  subst hW
  rw [hostDivf_apply, HostWeights.bcast_scalar_apply]
  rfl

/-- The variance row: the one-pass sum of squares over the count, minus the squared mean, clipped below at zero. -/
theorem var3_row (c : Dev nD) (d : Fin 128) :
    asArr S1x128 (W17 m ρ c (Proc.devRef .tc main_v125)) (ix2 (0 : Fin 1) d)
      = max (Ideal.div (asArr S1x128 (W16 m ρ c (Proc.devRef .tc main_v117_2)) (ix2 (0 : Fin 1) d)) (Ideal.ofBits .f32 0x47435000#32)
          - asArr S1x128 (W17 m ρ c (Proc.devRef .tc main_v119)) (ix2 (0 : Fin 1) d)
            * asArr S1x128 (W17 m ρ c (Proc.devRef .tc main_v119)) (ix2 (0 : Fin 1) d)) 0 := by
  rw [mean3_row]
  show StableHlo.after hostOps8 (W16 m ρ c) (Proc.devRef .tc main_v125) (ix2 (0 : Fin 1) d) = _
  generalize hW : W16 m ρ c = Wv
  after_results_simp
  subst hW
  have hz : (constant (F := Ideal) S_ FTy.f32 0x00000000#32 : S_.Idx → EReal) ix0 = (0 : EReal) := zero_val
  rw [maximumf_apply, subf_apply, mulf_apply, hostDivf_apply, hostDivf_apply, HostWeights.bcast_scalar_apply,
    HostWeights.bcast_scalar_apply, hz]
  rfl

/-- Layer 3's `gamma` as a row. -/
theorem gam3_row (c : Dev nD) (d : Fin 128) :
    asArr S1x128 (W17 m ρ c (Proc.devRef .tc main_v128)) (ix2 (0 : Fin 1) d) = (KArgs m c).gamma (ix2 (2 : Fin 3) d) := by
  show StableHlo.after hostOps8 (W16 m ρ c) (Proc.devRef .tc main_v128) (ix2 (0 : Fin 1) d) = _
  generalize hW : W16 m ρ c = Wv
  after_results_simp
  subst hW
  exact (HostWeights.slice2_row_apply _ 2 2 rfl _ _ _ d).trans (congrFun (Walk.arg6_W16 m ρ c) (ix2 (2 : Fin 3) d))

/-- Layer 3's `beta` as a row. -/
theorem bet3_row (c : Dev nD) (d : Fin 128) :
    asArr S1x128 (W17 m ρ c (Proc.devRef .tc main_v131)) (ix2 (0 : Fin 1) d) = (KArgs m c).beta (ix2 (2 : Fin 3) d) := by
  show StableHlo.after hostOps8 (W16 m ρ c) (Proc.devRef .tc main_v131) (ix2 (0 : Fin 1) d) = _
  generalize hW : W16 m ρ c = Wv
  after_results_simp
  subst hW
  exact (HostWeights.slice2_row_apply _ 2 2 rfl _ _ _ d).trans (congrFun (Walk.arg7_W16 m ρ c) (ix2 (2 : Fin 3) d))

/-! ### Layer 3's regions 1 and 2, and the layer -/

/-- Region 1's first output at `(n, d)`, in the kernels' association, over the buffers the layer uses. -/
theorem pre3_apply (c : Dev nD) (n : Fin 50000) (d : Fin 128) :
    asArr S50000x128 (W16 m ρ c (Proc.devRef .tc main_v117_0)) (ix2 n d)
      = (((asArr S50000x1 (W1 m ρ c (Proc.devRef .tc main_v11)) (ix2 n (0 : Fin 1))
            * asArr S50000x128 (W15 m ρ c (Proc.devRef .tc main_v106)) (ix2 n d)
          + (asArr S50000x1 (W1 m ρ c (Proc.devRef .tc main_v11)) (ix2 n (0 : Fin 1))
              * asArr S50000x1 (W1 m ρ c (Proc.devRef .tc main_v11)) (ix2 n (0 : Fin 1)))
            * (∑ k : Fin 128, asArr S50000x128 (W12 m ρ c (Proc.devRef .tc main_v92_0)) (ix2 n k) * asArr S128x128 (W15 m ρ c (Proc.devRef .tc main_v116)) (ix2 k d)))
          + asArr S1x128 (W15 m ρ c (Proc.devRef .tc main_v109)) (ix2 (0 : Fin 1) d))
          + (∑ k : Fin 128, asArr S50000x128 (W12 m ρ c (Proc.devRef .tc main_v92_0)) (ix2 n k) * asArr S128x128 (W15 m ρ c (Proc.devRef .tc main_v114)) (ix2 k d)))
          + asArr S1x128 (W15 m ρ c (Proc.devRef .tc main_v112)) (ix2 (0 : Fin 1) d) := by
  refine (congrFun ((W16_arr m ρ c 7).trans (Combine7.final7 (V15 m ρ) c)) (ix2 n d)).trans ?_
  unfold Combine7.preArr
  have hdv : asArr S50000x1 (V15 m ρ c (Pipeline.arrRef spec7 4)) (ix2 n (0 : Fin 1))
      = asArr S50000x1 (W1 m ρ c (Proc.devRef .tc main_v11)) (ix2 n (0 : Fin 1)) :=
    congrFun (Walk.v11_W15 m ρ c) (ix2 n (0 : Fin 1))
  have hx : ∀ k : Fin 128, asArr S50000x128 (V15 m ρ c (Pipeline.arrRef spec7 0)) (ix2 n k) = asArr S50000x128 (W12 m ρ c (Proc.devRef .tc main_v92_0)) (ix2 n k) :=
    fun k => congrFun (Walk.v92_0_W15 m ρ c) (ix2 n k)
  refine congrArg₂ (· + ·) (congrArg₂ (· + ·) (congrArg₂ (· + ·) (congrArg₂ (· + ·) (congrArg₂ (· * ·) hdv rfl)
    (congrArg₂ (· * ·) (congrArg₂ (· * ·) hdv hdv) (Finset.sum_congr rfl fun k _ => congrArg₂ (· * ·) (hx k) rfl))) rfl)
    (Finset.sum_congr rfl fun k _ => congrArg₂ (· * ·) (hx k) rfl)) rfl

/-- Region 1's running sum, written back at the last point: the sum of its first output over the nodes. -/
theorem sum3_row (c : Dev nD) (d : Fin 128) :
    asArr S1x128 (W16 m ρ c (Proc.devRef .tc main_v117_1)) (ix2 (0 : Fin 1) d)
      = ∑ n : Fin 50000, asArr S50000x128 (W16 m ρ c (Proc.devRef .tc main_v117_0)) (ix2 n d) := by
  have h8 : asArr S1x128 (W16 m ρ c (Proc.devRef .tc main_v117_1)) = Combine7.colSums (Combine7.pre (V15 m ρ) c) :=
    (W16_arr m ρ c 8).trans (Combine7.final8 (V15 m ρ) c)
  have h7 : asArr S50000x128 (W16 m ρ c (Proc.devRef .tc main_v117_0)) = Combine7.pre (V15 m ρ) c :=
    (W16_arr m ρ c 7).trans (Combine7.final7 (V15 m ρ) c)
  exact (congrFun h8 (ix2 (0 : Fin 1) d)).trans (Finset.sum_congr rfl fun n _ => (congrFun h7 (ix2 n d)).symm)

/-- Region 1's running sum of squares. -/
theorem sumsq3_row (c : Dev nD) (d : Fin 128) :
    asArr S1x128 (W16 m ρ c (Proc.devRef .tc main_v117_2)) (ix2 (0 : Fin 1) d)
      = ∑ n : Fin 50000, asArr S50000x128 (W16 m ρ c (Proc.devRef .tc main_v117_0)) (ix2 n d)
          * asArr S50000x128 (W16 m ρ c (Proc.devRef .tc main_v117_0)) (ix2 n d) := by
  have h9 : asArr S1x128 (W16 m ρ c (Proc.devRef .tc main_v117_2))
      = Combine7.colSums (fun i => Combine7.pre (V15 m ρ) c i * Combine7.pre (V15 m ρ) c i) :=
    (W16_arr m ρ c 9).trans (Combine7.final9 (V15 m ρ) c)
  have h7 : asArr S50000x128 (W16 m ρ c (Proc.devRef .tc main_v117_0)) = Combine7.pre (V15 m ρ) c :=
    (W16_arr m ρ c 7).trans (Combine7.final7 (V15 m ρ) c)
  exact (congrFun h9 (ix2 (0 : Fin 1) d)).trans (Finset.sum_congr rfl fun n _ =>
    congrArg₂ (· * ·) (congrFun h7 (ix2 n d)).symm (congrFun h7 (ix2 n d)).symm)

/-- Region 2's first output: the normalised, scaled, shifted and clipped features. -/
theorem new3_apply (c : Dev nD) (n : Fin 50000) (d : Fin 128) :
    asArr S50000x128 (W18 m ρ c (Proc.devRef .tc main_v132_0)) (ix2 n d)
      = max ((((asArr S50000x128 (W16 m ρ c (Proc.devRef .tc main_v117_0)) (ix2 n d)
            - asArr S1x128 (W17 m ρ c (Proc.devRef .tc main_v119)) (ix2 (0 : Fin 1) d))
          * Ideal.rsqrt (asArr S1x128 (W17 m ρ c (Proc.devRef .tc main_v125)) (ix2 (0 : Fin 1) d) + Ideal.ofBits .f32 0x3727C5AC#32))
          * asArr S1x128 (W17 m ρ c (Proc.devRef .tc main_v128)) (ix2 (0 : Fin 1) d))
          + asArr S1x128 (W17 m ρ c (Proc.devRef .tc main_v131)) (ix2 (0 : Fin 1) d)) 0 := by
  refine (congrFun ((W18_arr m ρ c 6).trans (NormStep8.final6 (V17 m ρ) c)) (ix2 n d)).trans ?_
  unfold NormStep8.normArr
  have hp : asArr S50000x128 (V17 m ρ c (Pipeline.arrRef spec8 0)) (ix2 n d)
      = asArr S50000x128 (W16 m ρ c (Proc.devRef .tc main_v117_0)) (ix2 n d) :=
    congrFun (Walk.v117_0_W17 m ρ c) (ix2 n d)
  exact congrArg (fun t => max ((((t - asArr S1x128 (W17 m ρ c (Proc.devRef .tc main_v119)) (ix2 (0 : Fin 1) d))
      * Ideal.rsqrt (asArr S1x128 (W17 m ρ c (Proc.devRef .tc main_v125)) (ix2 (0 : Fin 1) d) + Ideal.ofBits .f32 0x3727C5AC#32))
      * asArr S1x128 (W17 m ρ c (Proc.devRef .tc main_v128)) (ix2 (0 : Fin 1) d))
      + asArr S1x128 (W17 m ρ c (Proc.devRef .tc main_v131)) (ix2 (0 : Fin 1) d)) 0) hp

/-- LAYER 3 of the kernel program: its new features are the specification's, kernels' form. -/
theorem layer3_new (c : Dev nD) (n : Fin 50000) (d : Fin 128) :
    asArr S50000x128 (W18 m ρ c (Proc.devRef .tc main_v132_0)) (ix2 n d) = hK3 (KArgs m c) n d := by
  refine Cert.LayerBridge.layerK (KArgs m c) (2 : Fin 3) (hK2 (KArgs m c)) (W12 m ρ c (Proc.devRef .tc main_v92_0))
    (W14 m ρ c (Proc.devRef .tc main_v95)) (W15 m ρ c (Proc.devRef .tc main_v106)) (W16 m ρ c (Proc.devRef .tc main_v117_0))
    (W18 m ρ c (Proc.devRef .tc main_v132_0))
    (fun j => asArr S50000x128 (W14 m ρ c (Proc.devRef .tc main_v95)) (ix2 ((Gr (KArgs m c)).srcc (j 0)) (j 1)))
    (W15 m ρ c (Proc.devRef .tc main_v116)) (W15 m ρ c (Proc.devRef .tc main_v114)) (W1 m ρ c (Proc.devRef .tc main_v11))
    (W15 m ρ c (Proc.devRef .tc main_v109)) (W15 m ρ c (Proc.devRef .tc main_v112))
    (W17 m ρ c (Proc.devRef .tc main_v128)) (W17 m ρ c (Proc.devRef .tc main_v131))
    (W16 m ρ c (Proc.devRef .tc main_v117_1)) (W16 m ρ c (Proc.devRef .tc main_v117_2))
    (W17 m ρ c (Proc.devRef .tc main_v119)) (W17 m ρ c (Proc.devRef .tc main_v125))
    (layer2_new m ρ c) (wg3_mat m ρ c) (wl3_mat m ρ c) (bg3_row m ρ c) (bl3_row m ρ c) (gam3_row m ρ c) (bet3_row m ρ c)
    (dinv_col m ρ c) ?h1 (fun _ _ => rfl) (agg3_apply m ρ c) (pre3_apply m ρ c) (sum3_row m ρ c) (sumsq3_row m ρ c)
    (mean3_row m ρ c) (var3_row m ρ c) (new3_apply m ρ c) n d
  intro n d
  refine (hgs3_apply m ρ c n d).trans ?_
  refine congrArg₂ (· * ·) (Finset.sum_congr rfl fun k _ => congrArg₂ (· * ·) rfl (wg3_mat m ρ c k d).symm) (dinv_col m ρ c n).symm

/-- LAYER 3's running sum. -/
theorem layer3_sum (c : Dev nD) (n : Fin 50000) (d : Fin 128) :
    asArr S50000x128 (W18 m ρ c (Proc.devRef .tc main_v132_1)) (ix2 n d) = xK3 (KArgs m c) n d := by
  refine Cert.LayerBridge.xK3_of (KArgs m c) (W17 m ρ c (Proc.devRef .tc main_v92_1)) (W18 m ρ c (Proc.devRef .tc main_v132_0))
    (W18 m ρ c (Proc.devRef .tc main_v132_1)) ?hp (layer3_new m ρ c) ?hx n d
  case hp => intro n d; exact (congrFun (Walk.v92_1_W17 m ρ c) (ix2 n d)).trans (layer2_sum m ρ c n d)
  case hx =>
    intro i
    have h7 := congrFun ((W18_arr m ρ c 7).trans (NormStep8.final7 (V17 m ρ) c)) i
    have h6 := congrFun ((W18_arr m ρ c 6).trans (NormStep8.final6 (V17 m ρ) c)) i
    exact h7.trans (congrArg (fun t => asArr S50000x128 (W17 m ρ c (Proc.devRef .tc main_v92_1)) i + t) h6.symm)

end Cert.KernelIdeal.Net

end
-- ==== Proof.Project9.lean ====
/-
  The last tiled region (region 9): each grid point takes a block of 5000 node rows, multiplies it by the projection
  matrix `Wp` (128 features to 64) and adds the bias row `bp` to every row.  The blocks tile the node axis, so after the
  region the output array holds, at node `n` and output feature `d`, `(∑ k, x[n, k] · Wp[k, d]) + bp[0, d]` of the arrays
  the region was entered with (the narrowing of both factors to a 16-bit format before the product is the identity on
  the extended reals).
-/
import proofs.«134443_j73787538145745_2_alg».proof.Proof.Gen.KernelIdeal.Frame
import proofs.«134443_j73787538145745_2_alg».proof.Proof.BlockOps
import Idealize.ShloMosaic.Lib.Pipeline.Value

set_option maxRecDepth 16384

noncomputable section

namespace Cert.KernelIdeal.Project9

open Cert.KernelIdeal Cert.KernelIdeal.Gen Cert.KernelIdeal.BlockOps
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The region's result as one function of its three input arrays: rows of `x` against `Wp`, plus the bias of the
    output feature. -/
def projArr (x : S50000x128.Idx → EReal) (Wp : S128x64.Idx → EReal) (bp : S1x64.Idx → EReal) : S50000x64.Idx → EReal :=
  fun i => (∑ k : Fin 128, x (ix2 (i 0) k) * Wp (ix2 k (i 1))) + bp (ix2 0 (i 1))

/-- The body's stored value at row `p`, output feature `q` of a block, from the three loaded blocks. -/
theorem pay_apply (x0 : Vec Ideal S5000x128 .f32) (x1 : Vec Ideal S128x64 .f32) (x2 : Vec Ideal S1x64 .f32)
    (p : Fin 5000) (q : Fin 64) :
    k9_pay1 (F := Ideal) x0 x1 x2 (ix2 p q) = (∑ k : Fin 128, x0 (ix2 p k) * x1 (ix2 k q)) + x2 (ix2 (0 : Fin 1) q) := by
  unfold k9_pay1
  rw [addf_apply, matmul64_apply, bcastRow64_apply, shapeCast_self, shapeCast_self]
  rfl

/-- The printed index maps over the ten grid points: the row-block windows move with the point, the matrix and the
    bias row stay at block (0, 0). -/
theorem idx_facts : ∀ t : Fin cfg9.N, win9_3.index t (0 : Fin 2) = t.val ∧ win9_3.index t (1 : Fin 2) = 0
    ∧ win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0 :=
  (by decide +kernel : ∀ t : Fin grid9.N, _)

/-- Row `p`, feature `k` of input window 0's block at point `t` is row `t · 5000 + p` of its array. -/
theorem blk0_apply (c : Dev nD) (t : Fin cfg9.N) (p : Fin 5000) (k : Fin 128) (hp : t.val * 5000 + p.val < 50000) :
    iblk9 V c 0 t (ix2 p k) = V c (Pipeline.arrRef spec9 0) (ix2 ⟨t.val * 5000 + p.val, hp⟩ k) := by
  obtain ⟨e0, e1, e2, e3, e4, e5, e6, e7⟩ := idx_facts t
  show V c (Pipeline.arrRef spec9 0) (((cfg9.win 0).blk t).view.emb (ix2 p k)) = _
  refine congrArg (V c (Pipeline.arrRef spec9 0)) (funext fun a => Fin.ext ?_)
  match a with
  | ⟨0, _⟩ => show win9_0.index t (0 : Fin 2) * 5000 + 1 * p.val = t.val * 5000 + p.val; omega
  | ⟨1, _⟩ => show win9_0.index t (1 : Fin 2) * 128 + 1 * k.val = k.val; omega

/-- The matrix window's block is the whole matrix. -/
theorem blk1_apply (c : Dev nD) (t : Fin cfg9.N) (k : Fin 128) (q : Fin 64) :
    iblk9 V c 1 t (ix2 k q) = V c (Pipeline.arrRef spec9 1) (ix2 k q) := by
  obtain ⟨e0, e1, e2, e3, e4, e5, e6, e7⟩ := idx_facts t
  show V c (Pipeline.arrRef spec9 1) (((cfg9.win 1).blk t).view.emb (ix2 k q)) = _
  refine congrArg (V c (Pipeline.arrRef spec9 1)) (funext fun a => Fin.ext ?_)
  match a with
  | ⟨0, _⟩ => show win9_1.index t (0 : Fin 2) * 128 + 1 * k.val = k.val; omega
  | ⟨1, _⟩ => show win9_1.index t (1 : Fin 2) * 64 + 1 * q.val = q.val; omega

/-- The bias window's block is the whole bias row. -/
theorem blk2_apply (c : Dev nD) (t : Fin cfg9.N) (q : Fin 64) :
    iblk9 V c 2 t (ix2 (0 : Fin 1) q) = V c (Pipeline.arrRef spec9 2) (ix2 (0 : Fin 1) q) := by
  obtain ⟨e0, e1, e2, e3, e4, e5, e6, e7⟩ := idx_facts t
  show V c (Pipeline.arrRef spec9 2) (((cfg9.win 2).blk t).view.emb (ix2 (0 : Fin 1) q)) = _
  refine congrArg (V c (Pipeline.arrRef spec9 2)) (funext fun a => Fin.ext ?_)
  match a with
  | ⟨0, _⟩ => show win9_2.index t (0 : Fin 2) * 1 + 1 * (0 : Fin 1).val = (0 : Fin 1).val; omega
  | ⟨1, _⟩ => show win9_2.index t (1 : Fin 2) * 64 + 1 * q.val = q.val; omega

/-- WHAT POINT `t` WRITES BACK is block `t` of `projArr` of the arrays the region was entered with. -/
theorem flushed_eq (c : Dev nD) (t : Fin cfg9.N) :
    (dat9 V c).flushed 3 t = ((cfg9.win 3).blk t).view.read (Elt Ideal)
      (projArr (V c (Pipeline.arrRef spec9 0)) (V c (Pipeline.arrRef spec9 1)) (V c (Pipeline.arrRef spec9 2))) := by
  show (cfg9.win 3).cut (grid9.coords t) ((dat9 V c).after 3 t) = _
  rw [after9_3]
  unfold out9_3
  rw [View.canon_unit_zero hz]
  simp only [View.ld_unit_zero (S := S5000x128) hz, View.ld_unit_zero (S := S128x64) hz, View.ld_unit_zero (S := S1x64) hz]
  obtain ⟨e0, e1, e2, e3, e4, e5, e6, e7⟩ := idx_facts t
  have ht : t.val < 10 := t.isLt
  funext j
  obtain ⟨p, q, rfl⟩ : ∃ (p : Fin 5000) (q : Fin 64), j = ix2 p q := ⟨j 0, j 1, eq_ix2 j⟩
  have hp : p.val < 5000 := p.isLt
  have hrow : t.val * 5000 + p.val < 50000 := by omega
  show k9_pay1 (F := Ideal) (iblk9 V c 0 t) (iblk9 V c 1 t) (iblk9 V c 2 t) (ix2 p q)
    = projArr (V c (Pipeline.arrRef spec9 0)) (V c (Pipeline.arrRef spec9 1)) (V c (Pipeline.arrRef spec9 2))
        (((cfg9.win 3).blk t).view.emb (ix2 p q))
  have hemb : ((cfg9.win 3).blk t).view.emb (ix2 p q) = ix2 (⟨t.val * 5000 + p.val, hrow⟩ : Fin 50000) q := by
    funext a; apply Fin.ext
    match a with
    | ⟨0, _⟩ => show win9_3.index t (0 : Fin 2) * 5000 + 1 * p.val = t.val * 5000 + p.val; omega
    | ⟨1, _⟩ => show win9_3.index t (1 : Fin 2) * 64 + 1 * q.val = q.val; omega
  rw [hemb]
  refine (pay_apply _ _ _ p q).trans ?_
  unfold projArr
  refine congrArg₂ (· + ·) (Finset.sum_congr rfl fun k _ => congrArg₂ (· * ·) ?_ ?_) ?_
  · exact blk0_apply V c t p k hrow
  · exact blk1_apply V c t k q
  · exact blk2_apply V c t q

/-- An index of the output array is in point `t`'s block iff each coordinate is in the block's range on its axis. -/
theorem mem_blk (t : Fin cfg9.N) (i : S50000x64.Idx) :
    i ∈ ((cfg9.win 3).blk t).view.set ↔ ∀ a : Fin 2, win9_3.index t a * S5000x64.size a ≤ (i a).val
      ∧ (i a).val < win9_3.index t a * S5000x64.size a + S5000x64.size a := by
  show i ∈ ((View.whole (Pipeline.arrRef spec9 3)).slice (win9_3.rect t)).set ↔ _
  rw [View.set_slice_whole, Rect.mem_set_unit]
  exact Iff.rfl

/-- Every node row is in the block of the point `row / 5000`. -/
theorem cover (i : S50000x64.Idx) : ∃ t : Fin cfg9.N, (cfg9.win 3).flush t = true ∧ i ∈ ((cfg9.win 3).blk t).view.set := by
  have hi0 : (i 0).val < 50000 := (i 0).isLt
  have hi1 : (i 1).val < 64 := (i 1).isLt
  refine ⟨⟨(i 0).val / 5000, by show (i 0).val / 5000 < 10; omega⟩, flush9_3 _, ?_⟩
  rw [mem_blk]
  obtain ⟨e0, e1, -⟩ := idx_facts ⟨(i 0).val / 5000, by show (i 0).val / 5000 < 10; omega⟩
  intro a
  match a with
  | ⟨0, _⟩ =>
    show win9_3.index _ (0 : Fin 2) * 5000 ≤ (i 0).val ∧ (i 0).val < win9_3.index _ (0 : Fin 2) * 5000 + 5000
    rw [e0]; show (i 0).val / 5000 * 5000 ≤ (i 0).val ∧ (i 0).val < (i 0).val / 5000 * 5000 + 5000; omega
  | ⟨1, _⟩ =>
    show win9_3.index _ (1 : Fin 2) * 64 ≤ (i 1).val ∧ (i 1).val < win9_3.index _ (1 : Fin 2) * 64 + 64
    rw [e1]; omega

/-- THE OUTPUT ARRAY after the region. -/
theorem final3 (c : Dev nD) : (dat9 V c).arrAt 3 cfg9.N
    = projArr (V c (Pipeline.arrRef spec9 0)) (V c (Pipeline.arrRef spec9 1)) (V c (Pipeline.arrRef spec9 2)) :=
  (dat9 V c).arrAt_eq_of_cover 3 _ (fun t _ => flushed_eq V c t) cover

end Cert.KernelIdeal.Project9

end
-- ==== Proof.KernelValue.lean ====
/-
  The kernel program's result: the projection region multiplies the running sum of the three layers' outputs by `Wp`
  block by block and adds the bias row, so after the whole program the result array holds, at node `n` and output `o`,
  the specification's network value in the kernels' form.
-/
import proofs.«134443_j73787538145745_2_alg».proof.Proof.KernelLayer3
import proofs.«134443_j73787538145745_2_alg».proof.Proof.Project9

set_option maxRecDepth 16384

noncomputable section

namespace Cert.KernelIdeal.Net

open Cert.KernelIdeal Cert.KernelIdeal.Gen
open Idealize.ShloMosaic Idealize.ShloMosaic.TcCoe Idealize.ShloMosaic.ValueIdx Idealize.ShloMosaic.StableHlo
open Idealize.SL Idealize.SL.Sem
open Cert.NetSpec Cert.LayerSpec Cert.LibEdgeIdx

variable (m : (ℓ : Loc nD τ sig) → Buf (Elt Ideal) ℓ) (ρ : Dev nD → PrngReg)

/-- The output bias as a row. -/
theorem bp_row (c : Dev nD) (o : Fin 64) :
    asArr S1x64 (W19 m ρ c (Proc.devRef .tc main_v133)) (ix2 (0 : Fin 1) o) = (KArgs m c).bp (ix1 o) := by
  show StableHlo.after hostOps9 (W18 m ρ c) (Proc.devRef .tc main_v133) (ix2 (0 : Fin 1) o) = _
  generalize hW : W18 m ρ c = Wv
  after_results_simp
  subst hW
  exact (HostWeights.row_cast_apply _ _ o).trans (congrFun (Walk.arg9_W18 m ρ c) (ix1 o))

/-- The result array at `(n, o)`. -/
theorem out_apply (c : Dev nD) (n : Fin 50000) (o : Fin 64) :
    asArr S50000x64 (W20 m ρ c (Proc.devRef .tc main_v134)) (ix2 n o) = outK (KArgs m c) n o := by
  refine Cert.LayerBridge.outK_of (KArgs m c) (W18 m ρ c (Proc.devRef .tc main_v132_1)) (KArgs m c).Wp
    (W19 m ρ c (Proc.devRef .tc main_v133)) (W20 m ρ c (Proc.devRef .tc main_v134))
    (layer3_sum m ρ c) (fun _ _ => rfl) (bp_row m ρ c) ?ho n o
  intro n o
  refine (congrFun ((W20_arr m ρ c 3).trans (Project9.final3 (V19 m ρ) c)) (ix2 n o)).trans ?_
  unfold Project9.projArr
  refine congrArg₂ (· + ·) (Finset.sum_congr rfl fun k _ => congrArg₂ (· * ·) ?_ ?_) rfl
  · exact congrFun (Walk.v132_1_W19 m ρ c) (ix2 n k)
  · exact congrFun (Walk.arg8_W19 m ρ c) (ix2 k o)

/-- THE KERNEL PROGRAM'S RESULT as one function of its arguments. -/
theorem kernel_value (c : Dev nD) :
    asArr S50000x64 (W20 m ρ c (Proc.devRef .tc main_v134)) = fun i => outK (KArgs m c) (i 0) (i 1) := by
  funext i
  exact (congrArg (asArr S50000x64 (W20 m ρ c (Proc.devRef .tc main_v134))) (eq_ix2 i)).trans (out_apply m ρ c (i 0) (i 1))

end Cert.KernelIdeal.Net

end
-- ==== Proof.FiniteArgs.lean ====
/-
  The certificate's precondition says a printed predicate of the ten argument arrays is all ones.  The predicate is the
  conjunction, over the nine float arrays, of `all (|x| < +∞)`: the comparison of `|x|` with the 32-bit pattern of `+∞`,
  reduced by `and` over every axis.  On the extended reals `|x| = max x (-x)` is below `⊤` exactly when `x` is neither
  infinity, so the precondition says every entry of every float argument is a real number.
-/
import proofs.«134443_j73787538145745_2_alg».proof.Pre_finite_inputs
import Idealize.ShloMosaic.Lib.ReduceAll
import Idealize.ShloMosaic.Lib.ValueIdx
import Idealize.ShloMosaic.PureOps.Ideal.Laws
import proofs.«134443_j73787538145745_2_alg».proof.Defs
import proofs.«134443_j73787538145745_2_alg».proof.Proof.Gen.Pre_finite_inputs
import proofs.«134443_j73787538145745_2_alg».proof.Proof.NetSpec
import proofs.«134443_j73787538145745_2_alg».proof.Proof.KernelCols

noncomputable section

namespace Cert.FiniteArgs

open Idealize.ShloMosaic Idealize.ShloMosaic.ValueIdx Idealize.SL.Sem
open Cert.Pre_finite_inputs

/-- The rank-0 shape has one index. -/
instance : Subsingleton S_.Idx := ⟨fun a b => funext fun d => d.elim0⟩

/-- An extended real whose absolute value compares below the 32-bit pattern of `+∞` is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  have hlt : max x (-x) < ⊤ := by
    have h' : BitVec.ofBool (decide (max x (-x) < (⊤ : EReal))) = 1#1 := h
    by_contra hn
    rw [decide_eq_false hn] at h'
    exact absurd h' (by decide)
  induction x using EReal.rec with
  | bot => exact absurd hlt (by simp)
  | coe r => exact ⟨r, rfl⟩
  | top => exact absurd hlt (by simp)

/-- `all (|x| < +∞)` over an array of any shape, as the predicate spells it (the comparison against the broadcast
    constant, reduced by `and` over every axis from 1), says every entry of `x` is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) (i : s.Idx) : ∃ r : ℝ, x i = (r : EReal) :=
  real_of_abs_lt (x i) (Host.reduce_andi_all _ _ hr hu ix0 e i)

/-- The conjunction of two rank-0 `i1` arrays is 1 exactly when both are. -/
theorem and_ix0 (x y : IVec S_ 1) (h : andi x y ix0 = 1#1) : x ix0 = 1#1 ∧ y ix0 = 1#1 := IntOp.andi_eq_one.1 h

/-- THE PREDICATE DECODED: if it holds of ten arrays, every entry of the nine float arrays is a real number. -/
theorem reals_of_fn [Facts] (a0 : FVec Ideal S50000x128 .f32) (a1 : IVec S2x600000 32) (a2 : FVec Ideal S3x128x128 .f32)
    (a3 : FVec Ideal S3x128 .f32) (a4 : FVec Ideal S3x128x128 .f32) (a5 a6 a7 : FVec Ideal S3x128 .f32)
    (a8 : FVec Ideal S128x64 .f32) (a9 : FVec Ideal S64 .f32)
    (h : fn (F := Ideal) a0 a1 a2 a3 a4 a5 a6 a7 a8 a9 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)) ∧ (∀ i, ∃ r : ℝ, a9 i = (r : EReal)) := by
  have e := congrFun h ix0
  dsimp only [fn, fn_part1, fn_part2] at e
  obtain ⟨e8, h9⟩ := and_ix0 _ _ e
  obtain ⟨e7, h8⟩ := and_ix0 _ _ e8
  obtain ⟨e6, h7⟩ := and_ix0 _ _ e7
  obtain ⟨e5, h6⟩ := and_ix0 _ _ e6
  obtain ⟨e4, h5⟩ := and_ix0 _ _ e5
  obtain ⟨e3, h4⟩ := and_ix0 _ _ e4
  obtain ⟨e2, h3⟩ := and_ix0 _ _ e3
  obtain ⟨h0, h2⟩ := and_ix0 _ _ e2
  exact ⟨all_real a0 _ _ _ h0, all_real a2 _ _ _ h2, all_real a3 _ _ _ h3, all_real a4 _ _ _ h4, all_real a5 _ _ _ h5,
    all_real a6 _ _ _ h6, all_real a7 _ _ _ h7, all_real a8 _ _ _ h8, all_real a9 _ _ _ h9⟩

/-- THE KERNEL PROGRAM'S ARGUMENTS ARE REAL under the certificate's precondition, on every device. -/
theorem args_real (m : (ℓ : Loc Cert.KernelIdeal.nD Cert.KernelIdeal.τ Cert.KernelIdeal.sig) → Buf (Elt Ideal) ℓ)
    (hpre : Cert.Pre_KernelIdeal m) (c : Dev Cert.KernelIdeal.nD) : (Cert.KernelIdeal.Net.KArgs m c).Real := by
  obtain ⟨h0, h2, h3, h4, h5, h6, h7, h8, h9⟩ := reals_of_fn _ _ _ _ _ _ _ _ _ _ (hpre c)
  exact { x := h0, Wg := h2, Wl := h4, bg := h3, bl := h5, gamma := h6, beta := h7, Wp := h8, bp := h9 }

end Cert.FiniteArgs

end
-- ==== Proof.RefFold.lean ====
/-
  The reference program's run, read with its sharing kept.  The run ends every buffer at the fold of the program's 263
  operations over the launch contents.  The list of operations is cut at the three updates of the running sum into five
  consecutive pieces: the graph part, one piece per layer, and the projection.  The fold of a concatenation is the
  fold of its second part over the fold of its first, so the pieces are read one after another; across each cut only
  the buffers a later piece reads are carried, each as its stage of the ten argument arrays (the stage functions of
  the reading module), so that a layer's output is named once and never expanded into the next layer's term.
-/
import proofs.«134443_j73787538145745_2_alg».proof.Proof.RefRunFold
import proofs.«134443_j73787538145745_2_alg».proof.Proof.RefRead

noncomputable section

namespace Cert.ReferenceIdeal.RefFold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The fold of a concatenation is the fold of the second part over the fold of the first. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => simp only [List.cons_append, after_cons, ih]

/-! ## The five pieces -/

/-- Operations 1 to 37 of @main. -/
abbrev c0 : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_cst (constant S_ .f32 0x3F800000#32),
    unary main_cst main_v4 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S600000x1 ![0] bcast_S600000_S600000x1_0 : (⟨S600000, .i32⟩ : BufTy).Contents (Elt F) → (⟨S600000x1, .i32⟩ : BufTy).Contents (Elt F)),
    ternary main_v5 main_v6 main_v4 main_v7 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (addf : (⟨S50000, .f32⟩ : BufTy).Contents (Elt F) → (⟨S50000, .f32⟩ : BufTy).Contents (Elt F) → (⟨S50000, .f32⟩ : BufTy).Contents (Elt F)),
    unary main_v9 main_v10 (Host.rsqrt : (⟨S50000, .f32⟩ : BufTy).Contents (Elt F) → (⟨S50000, .f32⟩ : BufTy).Contents (Elt F)),
    nullary main_c (constantI S_ 32 0#32),
    unary main_c main_v11 (broadcastInDim S600000 ![] bcast_S_S600000 : (⟨S_, .i32⟩ : BufTy).Contents (Elt F) → (⟨S600000, .i32⟩ : BufTy).Contents (Elt F)),
    binary main_v1 main_v11 main_v12 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v13 (broadcastInDim S600000 ![] bcast_S_S600000 : (⟨S_, .i32⟩ : BufTy).Contents (Elt F) → (⟨S600000, .i32⟩ : BufTy).Contents (Elt F)),
    binary main_v1 main_v13 main_v14 (addi : (⟨S600000, .i32⟩ : BufTy).Contents (Elt F) → (⟨S600000, .i32⟩ : BufTy).Contents (Elt F) → (⟨S600000, .i32⟩ : BufTy).Contents (Elt F)),
    ternary main_v12 main_v14 main_v1 main_v15 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v15 main_v16 (broadcastInDim S600000x1 ![0] bcast_S600000_S600000x1_0 : (⟨S600000, .i32⟩ : BufTy).Contents (Elt F) → (⟨S600000x1, .i32⟩ : BufTy).Contents (Elt F)),
    binary main_v10 main_v16 main_v17 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_3 (constantI S_ 32 0#32),
    unary main_c_3 main_v18 (broadcastInDim S600000 ![] bcast_S_S600000 : (⟨S_, .i32⟩ : BufTy).Contents (Elt F) → (⟨S600000, .i32⟩ : BufTy).Contents (Elt F)),
    binary main_v3 main_v18 main_v19 (cmpi .slt : (⟨S600000, .i32⟩ : BufTy).Contents (Elt F) → (⟨S600000, .i32⟩ : BufTy).Contents (Elt F) → (⟨S600000, .i1⟩ : BufTy).Contents (Elt F)),
    nullary main_c_4 (constantI S_ 32 50000#32),
    unary main_c_4 main_v20 (broadcastInDim S600000 ![] bcast_S_S600000 : (⟨S_, .i32⟩ : BufTy).Contents (Elt F) → (⟨S600000, .i32⟩ : BufTy).Contents (Elt F)),
    binary main_v3 main_v20 main_v21 (addi : (⟨S600000, .i32⟩ : BufTy).Contents (Elt F) → (⟨S600000, .i32⟩ : BufTy).Contents (Elt F) → (⟨S600000, .i32⟩ : BufTy).Contents (Elt F)),
    ternary main_v19 main_v21 main_v3 main_v22 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v22 main_v23 (broadcastInDim S600000x1 ![0] bcast_S600000_S600000x1_0 : (⟨S600000, .i32⟩ : BufTy).Contents (Elt F) → (⟨S600000x1, .i32⟩ : BufTy).Contents (Elt F)),
    binary main_v10 main_v23 main_v24 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v17 main_v24 main_v25 (mulf : (⟨S600000, .f32⟩ : BufTy).Contents (Elt F) → (⟨S600000, .f32⟩ : BufTy).Contents (Elt F) → (⟨S600000, .f32⟩ : BufTy).Contents (Elt F)),
    binary main_v10 main_v10 main_v26 (mulf : (⟨S50000, .f32⟩ : BufTy).Contents (Elt F) → (⟨S50000, .f32⟩ : BufTy).Contents (Elt F) → (⟨S50000, .f32⟩ : BufTy).Contents (Elt F)),
    unary main_v26 main_v27 (broadcastInDim S50000x1 ![0] bcast_S50000_S50000x1_0 : (⟨S50000, .f32⟩ : BufTy).Contents (Elt F) → (⟨S50000x1, .f32⟩ : BufTy).Contents (Elt F)),
    nullary main_cst_5 (constant S_ .f32 0x00000000#32),
    unary main_cst_5 main_v28 (broadcastInDim S50000x128 ![] bcast_S_S50000x128 : (⟨S_, .f32⟩ : BufTy).Contents (Elt F) → (⟨S50000x128, .f32⟩ : BufTy).Contents (Elt F)) ]

/-- Operations 38 to 111 of @main. -/
abbrev c1 : List (HloOp τ sig (Elt F)) :=
  [ unary main_arg2 main_v29 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v29 main_v30 rfl shapeCasts_S1x128x128_S128x128,
    binary main_arg0 main_v30 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v32 (broadcastInDim S600000 ![] bcast_S_S600000 : (⟨S_, .i32⟩ : BufTy).Contents (Elt F) → (⟨S600000, .i32⟩ : BufTy).Contents (Elt F)),
    binary main_v1 main_v32 main_v33 (cmpi .slt : (⟨S600000, .i32⟩ : BufTy).Contents (Elt F) → (⟨S600000, .i32⟩ : BufTy).Contents (Elt F) → (⟨S600000, .i1⟩ : BufTy).Contents (Elt F)),
    nullary main_c_7 (constantI S_ 32 50000#32),
    unary main_c_7 main_v34 (broadcastInDim S600000 ![] bcast_S_S600000 : (⟨S_, .i32⟩ : BufTy).Contents (Elt F) → (⟨S600000, .i32⟩ : BufTy).Contents (Elt F)),
    binary main_v1 main_v34 main_v35 (addi : (⟨S600000, .i32⟩ : BufTy).Contents (Elt F) → (⟨S600000, .i32⟩ : BufTy).Contents (Elt F) → (⟨S600000, .i32⟩ : BufTy).Contents (Elt F)),
    ternary main_v33 main_v35 main_v1 main_v36 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v36 main_v37 (broadcastInDim S600000x1 ![0] bcast_S600000_S600000x1_0 : (⟨S600000, .i32⟩ : BufTy).Contents (Elt F) → (⟨S600000x1, .i32⟩ : BufTy).Contents (Elt F)),
    binary main_v31 main_v37 main_v38 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v25 main_v39 (broadcastInDim S600000x1 ![0] bcast_S600000_S600000x1_0 : (⟨S600000, .f32⟩ : BufTy).Contents (Elt F) → (⟨S600000x1, .f32⟩ : BufTy).Contents (Elt F)),
    unary main_v39 main_v40 (broadcastInDim S600000x128 ![0, 1] bcast_S600000x1_S600000x128_0_1 : (⟨S600000x1, .f32⟩ : BufTy).Contents (Elt F) → (⟨S600000x128, .f32⟩ : BufTy).Contents (Elt F)),
    binary main_v38 main_v40 main_v41 (mulf : (⟨S600000x128, .f32⟩ : BufTy).Contents (Elt F) → (⟨S600000x128, .f32⟩ : BufTy).Contents (Elt F) → (⟨S600000x128, .f32⟩ : BufTy).Contents (Elt F)),
    nullary main_cst_8 (constant S_ .f32 0x00000000#32),
    unary main_cst_8 main_v42 (broadcastInDim S50000x128 ![] bcast_S_S50000x128 : (⟨S_, .f32⟩ : BufTy).Contents (Elt F) → (⟨S50000x128, .f32⟩ : BufTy).Contents (Elt F)),
    unary main_v3 main_v43 (broadcastInDim S600000x1 ![0] bcast_S600000_S600000x1_0 : (⟨S600000, .i32⟩ : BufTy).Contents (Elt F) → (⟨S600000x1, .i32⟩ : BufTy).Contents (Elt F)),
    ternary main_v42 main_v43 main_v41 main_v44 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v27 main_v45 (broadcastInDim S50000x128 ![0, 1] bcast_S50000x1_S50000x128_0_1 : (⟨S50000x1, .f32⟩ : BufTy).Contents (Elt F) → (⟨S50000x128, .f32⟩ : BufTy).Contents (Elt F)),
    binary main_v31 main_v45 main_v46 (mulf : (⟨S50000x128, .f32⟩ : BufTy).Contents (Elt F) → (⟨S50000x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    unary main_arg3 main_v48 ((extractStridedSlice S1x128 ![0, 0] · slices_S3x128_S1x128_0_0) : (⟨S3x128, .f32⟩ : BufTy).Contents (Elt F) → (⟨S1x128, .f32⟩ : BufTy).Contents (Elt F)),
    reshape main_v48 main_v49 rfl shapeCasts_S1x128_S128,
    unary main_v49 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v47 main_v51 main_v52 (addf : (⟨S50000x128, .f32⟩ : BufTy).Contents (Elt F) → (⟨S50000x128, .f32⟩ : BufTy).Contents (Elt F) → (⟨S50000x128, .f32⟩ : BufTy).Contents (Elt F)),
    unary main_arg4 main_v53 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v53 main_v54 rfl shapeCasts_S1x128x128_S128x128,
    binary main_arg0 main_v54 main_v55 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v52 main_v55 main_v56 (addf : (⟨S50000x128, .f32⟩ : BufTy).Contents (Elt F) → (⟨S50000x128, .f32⟩ : BufTy).Contents (Elt F) → (⟨S50000x128, .f32⟩ : BufTy).Contents (Elt F)),
    unary main_arg5 main_v57 ((extractStridedSlice S1x128 ![0, 0] · slices_S3x128_S1x128_0_0) : (⟨S3x128, .f32⟩ : BufTy).Contents (Elt F) → (⟨S1x128, .f32⟩ : BufTy).Contents (Elt F)),
    reshape main_v57 main_v58 rfl shapeCasts_S1x128_S128,
    unary main_v58 main_v59 (broadcastInDim S1x128 ![1] bcast_S128_S1x128_1 : (⟨S128, .f32⟩ : BufTy).Contents (Elt F) → (⟨S1x128, .f32⟩ : BufTy).Contents (Elt F)),
    unary main_v59 main_v60 (broadcastInDim S50000x128 ![0, 1] bcast_S1x128_S50000x128_0_1 : (⟨S1x128, .f32⟩ : BufTy).Contents (Elt F) → (⟨S50000x128, .f32⟩ : BufTy).Contents (Elt F)),
    binary main_v56 main_v60 main_v61 (addf : (⟨S50000x128, .f32⟩ : BufTy).Contents (Elt F) → (⟨S50000x128, .f32⟩ : BufTy).Contents (Elt F) → (⟨S50000x128, .f32⟩ : BufTy).Contents (Elt F)),
    nullary main_cst_9 (constant S_ .f32 0x00000000#32),
    binary main_v61 main_cst_9 main_v62 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_10 (constant S_ .f32 0x47435000#32),
    unary main_cst_10 main_v63 (broadcastInDim S128 ![] bcast_S_S128 : (⟨S_, .f32⟩ : BufTy).Contents (Elt F) → (⟨S128, .f32⟩ : BufTy).Contents (Elt F)),
    binary main_v62 main_v63 main_v64 (Host.divf : (⟨S128, .f32⟩ : BufTy).Contents (Elt F) → (⟨S128, .f32⟩ : BufTy).Contents (Elt F) → (⟨S128, .f32⟩ : BufTy).Contents (Elt F)),
    unary main_v64 main_v65 (broadcastInDim S1x128 ![1] bcast_S128_S1x128_1 : (⟨S128, .f32⟩ : BufTy).Contents (Elt F) → (⟨S1x128, .f32⟩ : BufTy).Contents (Elt F)),
    unary main_v65 main_v66 (broadcastInDim S50000x128 ![0, 1] bcast_S1x128_S50000x128_0_1 : (⟨S1x128, .f32⟩ : BufTy).Contents (Elt F) → (⟨S50000x128, .f32⟩ : BufTy).Contents (Elt F)),
    binary main_v61 main_v66 main_v67 (subf : (⟨S50000x128, .f32⟩ : BufTy).Contents (Elt F) → (⟨S50000x128, .f32⟩ : BufTy).Contents (Elt F) → (⟨S50000x128, .f32⟩ : BufTy).Contents (Elt F)),
    binary main_v67 main_v67 main_v68 (mulf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v68 main_cst_11 main_v69 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v70 (broadcastInDim S128 ![] bcast_S_S128 : (⟨S_, .f32⟩ : BufTy).Contents (Elt F) → (⟨S128, .f32⟩ : BufTy).Contents (Elt F)),
    binary main_v69 main_v70 main_v71 (Host.divf : (⟨S128, .f32⟩ : BufTy).Contents (Elt F) → (⟨S128, .f32⟩ : BufTy).Contents (Elt F) → (⟨S128, .f32⟩ : BufTy).Contents (Elt F)),
    unary main_v64 main_v72 (broadcastInDim S1x128 ![1] bcast_S128_S1x128_1 : (⟨S128, .f32⟩ : BufTy).Contents (Elt F) → (⟨S1x128, .f32⟩ : BufTy).Contents (Elt F)),
    unary main_v72 main_v73 (broadcastInDim S50000x128 ![0, 1] bcast_S1x128_S50000x128_0_1 : (⟨S1x128, .f32⟩ : BufTy).Contents (Elt F) → (⟨S50000x128, .f32⟩ : BufTy).Contents (Elt F)),
    binary main_v61 main_v73 main_v74 (subf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3727C5AC#32),
    unary main_cst_13 main_v75 (broadcastInDim S128 ![] bcast_S_S128 : (⟨S_, .f32⟩ : BufTy).Contents (Elt F) → (⟨S128, .f32⟩ : BufTy).Contents (Elt F)),
    binary main_v71 main_v75 main_v76 (addf : (⟨S128, .f32⟩ : BufTy).Contents (Elt F) → (⟨S128, .f32⟩ : BufTy).Contents (Elt F) → (⟨S128, .f32⟩ : BufTy).Contents (Elt F)),
    unary main_v76 main_v77 (Host.rsqrt : (⟨S128, .f32⟩ : BufTy).Contents (Elt F) → (⟨S128, .f32⟩ : BufTy).Contents (Elt F)),
    unary main_v77 main_v78 (broadcastInDim S1x128 ![1] bcast_S128_S1x128_1 : (⟨S128, .f32⟩ : BufTy).Contents (Elt F) → (⟨S1x128, .f32⟩ : BufTy).Contents (Elt F)),
    unary main_v78 main_v79 (broadcastInDim S50000x128 ![0, 1] bcast_S1x128_S50000x128_0_1 : (⟨S1x128, .f32⟩ : BufTy).Contents (Elt F) → (⟨S50000x128, .f32⟩ : BufTy).Contents (Elt F)),
    binary main_v74 main_v79 main_v80 (mulf : (⟨S50000x128, .f32⟩ : BufTy).Contents (Elt F) → (⟨S50000x128, .f32⟩ : BufTy).Contents (Elt F) → (⟨S50000x128, .f32⟩ : BufTy).Contents (Elt F)),
    unary main_arg6 main_v81 ((extractStridedSlice S1x128 ![0, 0] · slices_S3x128_S1x128_0_0) : (⟨S3x128, .f32⟩ : BufTy).Contents (Elt F) → (⟨S1x128, .f32⟩ : BufTy).Contents (Elt F)),
    reshape main_v81 main_v82 rfl shapeCasts_S1x128_S128,
    unary main_v82 main_v83 (broadcastInDim S1x128 ![1] bcast_S128_S1x128_1 : (⟨S128, .f32⟩ : BufTy).Contents (Elt F) → (⟨S1x128, .f32⟩ : BufTy).Contents (Elt F)),
    unary main_v83 main_v84 (broadcastInDim S50000x128 ![0, 1] bcast_S1x128_S50000x128_0_1 : (⟨S1x128, .f32⟩ : BufTy).Contents (Elt F) → (⟨S50000x128, .f32⟩ : BufTy).Contents (Elt F)),
    binary main_v80 main_v84 main_v85 (mulf : (⟨S50000x128, .f32⟩ : BufTy).Contents (Elt F) → (⟨S50000x128, .f32⟩ : BufTy).Contents (Elt F) → (⟨S50000x128, .f32⟩ : BufTy).Contents (Elt F)),
    unary main_arg7 main_v86 ((extractStridedSlice S1x128 ![0, 0] · slices_S3x128_S1x128_0_0) : (⟨S3x128, .f32⟩ : BufTy).Contents (Elt F) → (⟨S1x128, .f32⟩ : BufTy).Contents (Elt F)),
    reshape main_v86 main_v87 rfl shapeCasts_S1x128_S128,
    unary main_v87 main_v88 (broadcastInDim S1x128 ![1] bcast_S128_S1x128_1 : (⟨S128, .f32⟩ : BufTy).Contents (Elt F) → (⟨S1x128, .f32⟩ : BufTy).Contents (Elt F)),
    unary main_v88 main_v89 (broadcastInDim S50000x128 ![0, 1] bcast_S1x128_S50000x128_0_1 : (⟨S1x128, .f32⟩ : BufTy).Contents (Elt F) → (⟨S50000x128, .f32⟩ : BufTy).Contents (Elt F)),
    binary main_v85 main_v89 main_v90 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v90) (TRef.of (T := ⟨S50000x128, .f32⟩) main_call0_v0) (TRef.of (T := ⟨S50000x128, .f32⟩) main_v91) maximumf,
    binary main_v28 main_v91 main_v92 (addf : (⟨S50000x128, .f32⟩ : BufTy).Contents (Elt F) → (⟨S50000x128, .f32⟩ : BufTy).Contents (Elt F) → (⟨S50000x128, .f32⟩ : BufTy).Contents (Elt F)) ]

/-- Operations 112 to 185 of @main. -/
abbrev c2 : List (HloOp τ sig (Elt F)) :=
  [ unary main_arg2 main_v93 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v93 main_v94 rfl shapeCasts_S1x128x128_S128x128,
    binary main_v91 main_v94 main_v95 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_14 (constantI S_ 32 0#32),
    unary main_c_14 main_v96 (broadcastInDim S600000 ![] bcast_S_S600000 : (⟨S_, .i32⟩ : BufTy).Contents (Elt F) → (⟨S600000, .i32⟩ : BufTy).Contents (Elt F)),
    binary main_v1 main_v96 main_v97 (cmpi .slt : (⟨S600000, .i32⟩ : BufTy).Contents (Elt F) → (⟨S600000, .i32⟩ : BufTy).Contents (Elt F) → (⟨S600000, .i1⟩ : BufTy).Contents (Elt F)),
    nullary main_c_15 (constantI S_ 32 50000#32),
    unary main_c_15 main_v98 (broadcastInDim S600000 ![] bcast_S_S600000 : (⟨S_, .i32⟩ : BufTy).Contents (Elt F) → (⟨S600000, .i32⟩ : BufTy).Contents (Elt F)),
    binary main_v1 main_v98 main_v99 (addi : (⟨S600000, .i32⟩ : BufTy).Contents (Elt F) → (⟨S600000, .i32⟩ : BufTy).Contents (Elt F) → (⟨S600000, .i32⟩ : BufTy).Contents (Elt F)),
    ternary main_v97 main_v99 main_v1 main_v100 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v100 main_v101 (broadcastInDim S600000x1 ![0] bcast_S600000_S600000x1_0 : (⟨S600000, .i32⟩ : BufTy).Contents (Elt F) → (⟨S600000x1, .i32⟩ : BufTy).Contents (Elt F)),
    binary main_v95 main_v101 main_v102 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v25 main_v103 (broadcastInDim S600000x1 ![0] bcast_S600000_S600000x1_0 : (⟨S600000, .f32⟩ : BufTy).Contents (Elt F) → (⟨S600000x1, .f32⟩ : BufTy).Contents (Elt F)),
    unary main_v103 main_v104 (broadcastInDim S600000x128 ![0, 1] bcast_S600000x1_S600000x128_0_1 : (⟨S600000x1, .f32⟩ : BufTy).Contents (Elt F) → (⟨S600000x128, .f32⟩ : BufTy).Contents (Elt F)),
    binary main_v102 main_v104 main_v105 (mulf : (⟨S600000x128, .f32⟩ : BufTy).Contents (Elt F) → (⟨S600000x128, .f32⟩ : BufTy).Contents (Elt F) → (⟨S600000x128, .f32⟩ : BufTy).Contents (Elt F)),
    nullary main_cst_16 (constant S_ .f32 0x00000000#32),
    unary main_cst_16 main_v106 (broadcastInDim S50000x128 ![] bcast_S_S50000x128 : (⟨S_, .f32⟩ : BufTy).Contents (Elt F) → (⟨S50000x128, .f32⟩ : BufTy).Contents (Elt F)),
    unary main_v3 main_v107 (broadcastInDim S600000x1 ![0] bcast_S600000_S600000x1_0 : (⟨S600000, .i32⟩ : BufTy).Contents (Elt F) → (⟨S600000x1, .i32⟩ : BufTy).Contents (Elt F)),
    ternary main_v106 main_v107 main_v105 main_v108 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v27 main_v109 (broadcastInDim S50000x128 ![0, 1] bcast_S50000x1_S50000x128_0_1 : (⟨S50000x1, .f32⟩ : BufTy).Contents (Elt F) → (⟨S50000x128, .f32⟩ : BufTy).Contents (Elt F)),
    binary main_v95 main_v109 main_v110 (mulf : (⟨S50000x128, .f32⟩ : BufTy).Contents (Elt F) → (⟨S50000x128, .f32⟩ : BufTy).Contents (Elt F) → (⟨S50000x128, .f32⟩ : BufTy).Contents (Elt F)),
    binary main_v108 main_v110 main_v111 (addf : (⟨S50000x128, .f32⟩ : BufTy).Contents (Elt F) → (⟨S50000x128, .f32⟩ : BufTy).Contents (Elt F) → (⟨S50000x128, .f32⟩ : BufTy).Contents (Elt F)),
    unary main_arg3 main_v112 ((extractStridedSlice S1x128 ![1, 0] · slices_S3x128_S1x128_1_0) : (⟨S3x128, .f32⟩ : BufTy).Contents (Elt F) → (⟨S1x128, .f32⟩ : BufTy).Contents (Elt F)),
    reshape main_v112 main_v113 rfl shapeCasts_S1x128_S128,
    unary main_v113 main_v114 (broadcastInDim S1x128 ![1] bcast_S128_S1x128_1 : (⟨S128, .f32⟩ : BufTy).Contents (Elt F) → (⟨S1x128, .f32⟩ : BufTy).Contents (Elt F)),
    unary main_v114 main_v115 (broadcastInDim S50000x128 ![0, 1] bcast_S1x128_S50000x128_0_1 : (⟨S1x128, .f32⟩ : BufTy).Contents (Elt F) → (⟨S50000x128, .f32⟩ : BufTy).Contents (Elt F)),
    binary main_v111 main_v115 main_v116 (addf : (⟨S50000x128, .f32⟩ : BufTy).Contents (Elt F) → (⟨S50000x128, .f32⟩ : BufTy).Contents (Elt F) → (⟨S50000x128, .f32⟩ : BufTy).Contents (Elt F)),
    unary main_arg4 main_v117 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v117 main_v118 rfl shapeCasts_S1x128x128_S128x128,
    binary main_v91 main_v118 main_v119 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v116 main_v119 main_v120 (addf : (⟨S50000x128, .f32⟩ : BufTy).Contents (Elt F) → (⟨S50000x128, .f32⟩ : BufTy).Contents (Elt F) → (⟨S50000x128, .f32⟩ : BufTy).Contents (Elt F)),
    unary main_arg5 main_v121 ((extractStridedSlice S1x128 ![1, 0] · slices_S3x128_S1x128_1_0) : (⟨S3x128, .f32⟩ : BufTy).Contents (Elt F) → (⟨S1x128, .f32⟩ : BufTy).Contents (Elt F)),
    reshape main_v121 main_v122 rfl shapeCasts_S1x128_S128,
    unary main_v122 main_v123 (broadcastInDim S1x128 ![1] bcast_S128_S1x128_1 : (⟨S128, .f32⟩ : BufTy).Contents (Elt F) → (⟨S1x128, .f32⟩ : BufTy).Contents (Elt F)),
    unary main_v123 main_v124 (broadcastInDim S50000x128 ![0, 1] bcast_S1x128_S50000x128_0_1 : (⟨S1x128, .f32⟩ : BufTy).Contents (Elt F) → (⟨S50000x128, .f32⟩ : BufTy).Contents (Elt F)),
    binary main_v120 main_v124 main_v125 (addf : (⟨S50000x128, .f32⟩ : BufTy).Contents (Elt F) → (⟨S50000x128, .f32⟩ : BufTy).Contents (Elt F) → (⟨S50000x128, .f32⟩ : BufTy).Contents (Elt F)),
    nullary main_cst_17 (constant S_ .f32 0x00000000#32),
    binary main_v125 main_cst_17 main_v126 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_18 (constant S_ .f32 0x47435000#32),
    unary main_cst_18 main_v127 (broadcastInDim S128 ![] bcast_S_S128 : (⟨S_, .f32⟩ : BufTy).Contents (Elt F) → (⟨S128, .f32⟩ : BufTy).Contents (Elt F)),
    binary main_v126 main_v127 main_v128 (Host.divf : (⟨S128, .f32⟩ : BufTy).Contents (Elt F) → (⟨S128, .f32⟩ : BufTy).Contents (Elt F) → (⟨S128, .f32⟩ : BufTy).Contents (Elt F)),
    unary main_v128 main_v129 (broadcastInDim S1x128 ![1] bcast_S128_S1x128_1 : (⟨S128, .f32⟩ : BufTy).Contents (Elt F) → (⟨S1x128, .f32⟩ : BufTy).Contents (Elt F)),
    unary main_v129 main_v130 (broadcastInDim S50000x128 ![0, 1] bcast_S1x128_S50000x128_0_1 : (⟨S1x128, .f32⟩ : BufTy).Contents (Elt F) → (⟨S50000x128, .f32⟩ : BufTy).Contents (Elt F)),
    binary main_v125 main_v130 main_v131 (subf : (⟨S50000x128, .f32⟩ : BufTy).Contents (Elt F) → (⟨S50000x128, .f32⟩ : BufTy).Contents (Elt F) → (⟨S50000x128, .f32⟩ : BufTy).Contents (Elt F)),
    binary main_v131 main_v131 main_v132 (mulf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x00000000#32),
    binary main_v132 main_cst_19 main_v133 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_20 (constant S_ .f32 0x47435000#32),
    unary main_cst_20 main_v134 (broadcastInDim S128 ![] bcast_S_S128 : (⟨S_, .f32⟩ : BufTy).Contents (Elt F) → (⟨S128, .f32⟩ : BufTy).Contents (Elt F)),
    binary main_v133 main_v134 main_v135 (Host.divf : (⟨S128, .f32⟩ : BufTy).Contents (Elt F) → (⟨S128, .f32⟩ : BufTy).Contents (Elt F) → (⟨S128, .f32⟩ : BufTy).Contents (Elt F)),
    unary main_v128 main_v136 (broadcastInDim S1x128 ![1] bcast_S128_S1x128_1 : (⟨S128, .f32⟩ : BufTy).Contents (Elt F) → (⟨S1x128, .f32⟩ : BufTy).Contents (Elt F)),
    unary main_v136 main_v137 (broadcastInDim S50000x128 ![0, 1] bcast_S1x128_S50000x128_0_1 : (⟨S1x128, .f32⟩ : BufTy).Contents (Elt F) → (⟨S50000x128, .f32⟩ : BufTy).Contents (Elt F)),
    binary main_v125 main_v137 main_v138 (subf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x3727C5AC#32),
    unary main_cst_21 main_v139 (broadcastInDim S128 ![] bcast_S_S128 : (⟨S_, .f32⟩ : BufTy).Contents (Elt F) → (⟨S128, .f32⟩ : BufTy).Contents (Elt F)),
    binary main_v135 main_v139 main_v140 (addf : (⟨S128, .f32⟩ : BufTy).Contents (Elt F) → (⟨S128, .f32⟩ : BufTy).Contents (Elt F) → (⟨S128, .f32⟩ : BufTy).Contents (Elt F)),
    unary main_v140 main_v141 (Host.rsqrt : (⟨S128, .f32⟩ : BufTy).Contents (Elt F) → (⟨S128, .f32⟩ : BufTy).Contents (Elt F)),
    unary main_v141 main_v142 (broadcastInDim S1x128 ![1] bcast_S128_S1x128_1 : (⟨S128, .f32⟩ : BufTy).Contents (Elt F) → (⟨S1x128, .f32⟩ : BufTy).Contents (Elt F)),
    unary main_v142 main_v143 (broadcastInDim S50000x128 ![0, 1] bcast_S1x128_S50000x128_0_1 : (⟨S1x128, .f32⟩ : BufTy).Contents (Elt F) → (⟨S50000x128, .f32⟩ : BufTy).Contents (Elt F)),
    binary main_v138 main_v143 main_v144 (mulf : (⟨S50000x128, .f32⟩ : BufTy).Contents (Elt F) → (⟨S50000x128, .f32⟩ : BufTy).Contents (Elt F) → (⟨S50000x128, .f32⟩ : BufTy).Contents (Elt F)),
    unary main_arg6 main_v145 ((extractStridedSlice S1x128 ![1, 0] · slices_S3x128_S1x128_1_0) : (⟨S3x128, .f32⟩ : BufTy).Contents (Elt F) → (⟨S1x128, .f32⟩ : BufTy).Contents (Elt F)),
    reshape main_v145 main_v146 rfl shapeCasts_S1x128_S128,
    unary main_v146 main_v147 (broadcastInDim S1x128 ![1] bcast_S128_S1x128_1 : (⟨S128, .f32⟩ : BufTy).Contents (Elt F) → (⟨S1x128, .f32⟩ : BufTy).Contents (Elt F)),
    unary main_v147 main_v148 (broadcastInDim S50000x128 ![0, 1] bcast_S1x128_S50000x128_0_1 : (⟨S1x128, .f32⟩ : BufTy).Contents (Elt F) → (⟨S50000x128, .f32⟩ : BufTy).Contents (Elt F)),
    binary main_v144 main_v148 main_v149 (mulf : (⟨S50000x128, .f32⟩ : BufTy).Contents (Elt F) → (⟨S50000x128, .f32⟩ : BufTy).Contents (Elt F) → (⟨S50000x128, .f32⟩ : BufTy).Contents (Elt F)),
    unary main_arg7 main_v150 ((extractStridedSlice S1x128 ![1, 0] · slices_S3x128_S1x128_1_0) : (⟨S3x128, .f32⟩ : BufTy).Contents (Elt F) → (⟨S1x128, .f32⟩ : BufTy).Contents (Elt F)),
    reshape main_v150 main_v151 rfl shapeCasts_S1x128_S128,
    unary main_v151 main_v152 (broadcastInDim S1x128 ![1] bcast_S128_S1x128_1 : (⟨S128, .f32⟩ : BufTy).Contents (Elt F) → (⟨S1x128, .f32⟩ : BufTy).Contents (Elt F)),
    unary main_v152 main_v153 (broadcastInDim S50000x128 ![0, 1] bcast_S1x128_S50000x128_0_1 : (⟨S1x128, .f32⟩ : BufTy).Contents (Elt F) → (⟨S50000x128, .f32⟩ : BufTy).Contents (Elt F)),
    binary main_v149 main_v153 main_v154 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v154) (TRef.of (T := ⟨S50000x128, .f32⟩) main_call1_v0) (TRef.of (T := ⟨S50000x128, .f32⟩) main_v155) maximumf,
    binary main_v92 main_v155 main_v156 (addf : (⟨S50000x128, .f32⟩ : BufTy).Contents (Elt F) → (⟨S50000x128, .f32⟩ : BufTy).Contents (Elt F) → (⟨S50000x128, .f32⟩ : BufTy).Contents (Elt F)) ]

/-- Operations 186 to 259 of @main. -/
abbrev c3 : List (HloOp τ sig (Elt F)) :=
  [ unary main_arg2 main_v157 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v157 main_v158 rfl shapeCasts_S1x128x128_S128x128,
    binary main_v155 main_v158 main_v159 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_22 (constantI S_ 32 0#32),
    unary main_c_22 main_v160 (broadcastInDim S600000 ![] bcast_S_S600000 : (⟨S_, .i32⟩ : BufTy).Contents (Elt F) → (⟨S600000, .i32⟩ : BufTy).Contents (Elt F)),
    binary main_v1 main_v160 main_v161 (cmpi .slt : (⟨S600000, .i32⟩ : BufTy).Contents (Elt F) → (⟨S600000, .i32⟩ : BufTy).Contents (Elt F) → (⟨S600000, .i1⟩ : BufTy).Contents (Elt F)),
    nullary main_c_23 (constantI S_ 32 50000#32),
    unary main_c_23 main_v162 (broadcastInDim S600000 ![] bcast_S_S600000 : (⟨S_, .i32⟩ : BufTy).Contents (Elt F) → (⟨S600000, .i32⟩ : BufTy).Contents (Elt F)),
    binary main_v1 main_v162 main_v163 (addi : (⟨S600000, .i32⟩ : BufTy).Contents (Elt F) → (⟨S600000, .i32⟩ : BufTy).Contents (Elt F) → (⟨S600000, .i32⟩ : BufTy).Contents (Elt F)),
    ternary main_v161 main_v163 main_v1 main_v164 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v164 main_v165 (broadcastInDim S600000x1 ![0] bcast_S600000_S600000x1_0 : (⟨S600000, .i32⟩ : BufTy).Contents (Elt F) → (⟨S600000x1, .i32⟩ : BufTy).Contents (Elt F)),
    binary main_v159 main_v165 main_v166 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v25 main_v167 (broadcastInDim S600000x1 ![0] bcast_S600000_S600000x1_0 : (⟨S600000, .f32⟩ : BufTy).Contents (Elt F) → (⟨S600000x1, .f32⟩ : BufTy).Contents (Elt F)),
    unary main_v167 main_v168 (broadcastInDim S600000x128 ![0, 1] bcast_S600000x1_S600000x128_0_1 : (⟨S600000x1, .f32⟩ : BufTy).Contents (Elt F) → (⟨S600000x128, .f32⟩ : BufTy).Contents (Elt F)),
    binary main_v166 main_v168 main_v169 (mulf : (⟨S600000x128, .f32⟩ : BufTy).Contents (Elt F) → (⟨S600000x128, .f32⟩ : BufTy).Contents (Elt F) → (⟨S600000x128, .f32⟩ : BufTy).Contents (Elt F)),
    nullary main_cst_24 (constant S_ .f32 0x00000000#32),
    unary main_cst_24 main_v170 (broadcastInDim S50000x128 ![] bcast_S_S50000x128 : (⟨S_, .f32⟩ : BufTy).Contents (Elt F) → (⟨S50000x128, .f32⟩ : BufTy).Contents (Elt F)),
    unary main_v3 main_v171 (broadcastInDim S600000x1 ![0] bcast_S600000_S600000x1_0 : (⟨S600000, .i32⟩ : BufTy).Contents (Elt F) → (⟨S600000x1, .i32⟩ : BufTy).Contents (Elt F)),
    ternary main_v170 main_v171 main_v169 main_v172 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v27 main_v173 (broadcastInDim S50000x128 ![0, 1] bcast_S50000x1_S50000x128_0_1 : (⟨S50000x1, .f32⟩ : BufTy).Contents (Elt F) → (⟨S50000x128, .f32⟩ : BufTy).Contents (Elt F)),
    binary main_v159 main_v173 main_v174 (mulf : (⟨S50000x128, .f32⟩ : BufTy).Contents (Elt F) → (⟨S50000x128, .f32⟩ : BufTy).Contents (Elt F) → (⟨S50000x128, .f32⟩ : BufTy).Contents (Elt F)),
    binary main_v172 main_v174 main_v175 (addf : (⟨S50000x128, .f32⟩ : BufTy).Contents (Elt F) → (⟨S50000x128, .f32⟩ : BufTy).Contents (Elt F) → (⟨S50000x128, .f32⟩ : BufTy).Contents (Elt F)),
    unary main_arg3 main_v176 ((extractStridedSlice S1x128 ![2, 0] · slices_S3x128_S1x128_2_0) : (⟨S3x128, .f32⟩ : BufTy).Contents (Elt F) → (⟨S1x128, .f32⟩ : BufTy).Contents (Elt F)),
    reshape main_v176 main_v177 rfl shapeCasts_S1x128_S128,
    unary main_v177 main_v178 (broadcastInDim S1x128 ![1] bcast_S128_S1x128_1 : (⟨S128, .f32⟩ : BufTy).Contents (Elt F) → (⟨S1x128, .f32⟩ : BufTy).Contents (Elt F)),
    unary main_v178 main_v179 (broadcastInDim S50000x128 ![0, 1] bcast_S1x128_S50000x128_0_1 : (⟨S1x128, .f32⟩ : BufTy).Contents (Elt F) → (⟨S50000x128, .f32⟩ : BufTy).Contents (Elt F)),
    binary main_v175 main_v179 main_v180 (addf : (⟨S50000x128, .f32⟩ : BufTy).Contents (Elt F) → (⟨S50000x128, .f32⟩ : BufTy).Contents (Elt F) → (⟨S50000x128, .f32⟩ : BufTy).Contents (Elt F)),
    unary main_arg4 main_v181 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v181 main_v182 rfl shapeCasts_S1x128x128_S128x128,
    binary main_v155 main_v182 main_v183 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v180 main_v183 main_v184 (addf : (⟨S50000x128, .f32⟩ : BufTy).Contents (Elt F) → (⟨S50000x128, .f32⟩ : BufTy).Contents (Elt F) → (⟨S50000x128, .f32⟩ : BufTy).Contents (Elt F)),
    unary main_arg5 main_v185 ((extractStridedSlice S1x128 ![2, 0] · slices_S3x128_S1x128_2_0) : (⟨S3x128, .f32⟩ : BufTy).Contents (Elt F) → (⟨S1x128, .f32⟩ : BufTy).Contents (Elt F)),
    reshape main_v185 main_v186 rfl shapeCasts_S1x128_S128,
    unary main_v186 main_v187 (broadcastInDim S1x128 ![1] bcast_S128_S1x128_1 : (⟨S128, .f32⟩ : BufTy).Contents (Elt F) → (⟨S1x128, .f32⟩ : BufTy).Contents (Elt F)),
    unary main_v187 main_v188 (broadcastInDim S50000x128 ![0, 1] bcast_S1x128_S50000x128_0_1 : (⟨S1x128, .f32⟩ : BufTy).Contents (Elt F) → (⟨S50000x128, .f32⟩ : BufTy).Contents (Elt F)),
    binary main_v184 main_v188 main_v189 (addf : (⟨S50000x128, .f32⟩ : BufTy).Contents (Elt F) → (⟨S50000x128, .f32⟩ : BufTy).Contents (Elt F) → (⟨S50000x128, .f32⟩ : BufTy).Contents (Elt F)),
    nullary main_cst_25 (constant S_ .f32 0x00000000#32),
    binary main_v189 main_cst_25 main_v190 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_26 (constant S_ .f32 0x47435000#32),
    unary main_cst_26 main_v191 (broadcastInDim S128 ![] bcast_S_S128 : (⟨S_, .f32⟩ : BufTy).Contents (Elt F) → (⟨S128, .f32⟩ : BufTy).Contents (Elt F)),
    binary main_v190 main_v191 main_v192 (Host.divf : (⟨S128, .f32⟩ : BufTy).Contents (Elt F) → (⟨S128, .f32⟩ : BufTy).Contents (Elt F) → (⟨S128, .f32⟩ : BufTy).Contents (Elt F)),
    unary main_v192 main_v193 (broadcastInDim S1x128 ![1] bcast_S128_S1x128_1 : (⟨S128, .f32⟩ : BufTy).Contents (Elt F) → (⟨S1x128, .f32⟩ : BufTy).Contents (Elt F)),
    unary main_v193 main_v194 (broadcastInDim S50000x128 ![0, 1] bcast_S1x128_S50000x128_0_1 : (⟨S1x128, .f32⟩ : BufTy).Contents (Elt F) → (⟨S50000x128, .f32⟩ : BufTy).Contents (Elt F)),
    binary main_v189 main_v194 main_v195 (subf : (⟨S50000x128, .f32⟩ : BufTy).Contents (Elt F) → (⟨S50000x128, .f32⟩ : BufTy).Contents (Elt F) → (⟨S50000x128, .f32⟩ : BufTy).Contents (Elt F)),
    binary main_v195 main_v195 main_v196 (mulf : (⟨S50000x128, .f32⟩ : BufTy).Contents (Elt F) → (⟨S50000x128, .f32⟩ : BufTy).Contents (Elt F) → (⟨S50000x128, .f32⟩ : BufTy).Contents (Elt F)),
    nullary main_cst_27 (constant S_ .f32 0x00000000#32),
    binary main_v196 main_cst_27 main_v197 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_28 (constant S_ .f32 0x47435000#32),
    unary main_cst_28 main_v198 (broadcastInDim S128 ![] bcast_S_S128 : (⟨S_, .f32⟩ : BufTy).Contents (Elt F) → (⟨S128, .f32⟩ : BufTy).Contents (Elt F)),
    binary main_v197 main_v198 main_v199 (Host.divf : (⟨S128, .f32⟩ : BufTy).Contents (Elt F) → (⟨S128, .f32⟩ : BufTy).Contents (Elt F) → (⟨S128, .f32⟩ : BufTy).Contents (Elt F)),
    unary main_v192 main_v200 (broadcastInDim S1x128 ![1] bcast_S128_S1x128_1 : (⟨S128, .f32⟩ : BufTy).Contents (Elt F) → (⟨S1x128, .f32⟩ : BufTy).Contents (Elt F)),
    unary main_v200 main_v201 (broadcastInDim S50000x128 ![0, 1] bcast_S1x128_S50000x128_0_1 : (⟨S1x128, .f32⟩ : BufTy).Contents (Elt F) → (⟨S50000x128, .f32⟩ : BufTy).Contents (Elt F)),
    binary main_v189 main_v201 main_v202 (subf : (⟨S50000x128, .f32⟩ : BufTy).Contents (Elt F) → (⟨S50000x128, .f32⟩ : BufTy).Contents (Elt F) → (⟨S50000x128, .f32⟩ : BufTy).Contents (Elt F)),
    nullary main_cst_29 (constant S_ .f32 0x3727C5AC#32),
    unary main_cst_29 main_v203 (broadcastInDim S128 ![] bcast_S_S128 : (⟨S_, .f32⟩ : BufTy).Contents (Elt F) → (⟨S128, .f32⟩ : BufTy).Contents (Elt F)),
    binary main_v199 main_v203 main_v204 (addf : (⟨S128, .f32⟩ : BufTy).Contents (Elt F) → (⟨S128, .f32⟩ : BufTy).Contents (Elt F) → (⟨S128, .f32⟩ : BufTy).Contents (Elt F)),
    unary main_v204 main_v205 (Host.rsqrt : (⟨S128, .f32⟩ : BufTy).Contents (Elt F) → (⟨S128, .f32⟩ : BufTy).Contents (Elt F)),
    unary main_v205 main_v206 (broadcastInDim S1x128 ![1] bcast_S128_S1x128_1 : (⟨S128, .f32⟩ : BufTy).Contents (Elt F) → (⟨S1x128, .f32⟩ : BufTy).Contents (Elt F)),
    unary main_v206 main_v207 (broadcastInDim S50000x128 ![0, 1] bcast_S1x128_S50000x128_0_1 : (⟨S1x128, .f32⟩ : BufTy).Contents (Elt F) → (⟨S50000x128, .f32⟩ : BufTy).Contents (Elt F)),
    binary main_v202 main_v207 main_v208 (mulf : (⟨S50000x128, .f32⟩ : BufTy).Contents (Elt F) → (⟨S50000x128, .f32⟩ : BufTy).Contents (Elt F) → (⟨S50000x128, .f32⟩ : BufTy).Contents (Elt F)),
    unary main_arg6 main_v209 ((extractStridedSlice S1x128 ![2, 0] · slices_S3x128_S1x128_2_0) : (⟨S3x128, .f32⟩ : BufTy).Contents (Elt F) → (⟨S1x128, .f32⟩ : BufTy).Contents (Elt F)),
    reshape main_v209 main_v210 rfl shapeCasts_S1x128_S128,
    unary main_v210 main_v211 (broadcastInDim S1x128 ![1] bcast_S128_S1x128_1 : (⟨S128, .f32⟩ : BufTy).Contents (Elt F) → (⟨S1x128, .f32⟩ : BufTy).Contents (Elt F)),
    unary main_v211 main_v212 (broadcastInDim S50000x128 ![0, 1] bcast_S1x128_S50000x128_0_1 : (⟨S1x128, .f32⟩ : BufTy).Contents (Elt F) → (⟨S50000x128, .f32⟩ : BufTy).Contents (Elt F)),
    binary main_v208 main_v212 main_v213 (mulf : (⟨S50000x128, .f32⟩ : BufTy).Contents (Elt F) → (⟨S50000x128, .f32⟩ : BufTy).Contents (Elt F) → (⟨S50000x128, .f32⟩ : BufTy).Contents (Elt F)),
    unary main_arg7 main_v214 ((extractStridedSlice S1x128 ![2, 0] · slices_S3x128_S1x128_2_0) : (⟨S3x128, .f32⟩ : BufTy).Contents (Elt F) → (⟨S1x128, .f32⟩ : BufTy).Contents (Elt F)),
    reshape main_v214 main_v215 rfl shapeCasts_S1x128_S128,
    unary main_v215 main_v216 (broadcastInDim S1x128 ![1] bcast_S128_S1x128_1 : (⟨S128, .f32⟩ : BufTy).Contents (Elt F) → (⟨S1x128, .f32⟩ : BufTy).Contents (Elt F)),
    unary main_v216 main_v217 (broadcastInDim S50000x128 ![0, 1] bcast_S1x128_S50000x128_0_1 : (⟨S1x128, .f32⟩ : BufTy).Contents (Elt F) → (⟨S50000x128, .f32⟩ : BufTy).Contents (Elt F)),
    binary main_v213 main_v217 main_v218 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v218) (TRef.of (T := ⟨S50000x128, .f32⟩) main_call2_v0) (TRef.of (T := ⟨S50000x128, .f32⟩) main_v219) maximumf,
    binary main_v156 main_v219 main_v220 (addf : (⟨S50000x128, .f32⟩ : BufTy).Contents (Elt F) → (⟨S50000x128, .f32⟩ : BufTy).Contents (Elt F) → (⟨S50000x128, .f32⟩ : BufTy).Contents (Elt F)) ]

/-- Operations 260 to 263 of @main. -/
abbrev c4 : List (HloOp τ sig (Elt F)) :=
  [ binary main_v220 main_arg8 main_v221 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg9 main_v222 (broadcastInDim S1x64 ![1] bcast_S64_S1x64_1 : (⟨S64, .f32⟩ : BufTy).Contents (Elt F) → (⟨S1x64, .f32⟩ : BufTy).Contents (Elt F)),
    unary main_v222 main_v223 (broadcastInDim S50000x64 ![0, 1] bcast_S1x64_S50000x64_0_1 : (⟨S1x64, .f32⟩ : BufTy).Contents (Elt F) → (⟨S50000x64, .f32⟩ : BufTy).Contents (Elt F)),
    binary main_v221 main_v223 main_v224 (addf : (⟨S50000x64, .f32⟩ : BufTy).Contents (Elt F) → (⟨S50000x64, .f32⟩ : BufTy).Contents (Elt F) → (⟨S50000x64, .f32⟩ : BufTy).Contents (Elt F)) ]

set_option maxRecDepth 8192 in
/-- The program's operations are the five pieces in order. -/
theorem ops_split : (ops : List (HloOp τ sig (Elt F))) = c0 ++ (c1 ++ (c2 ++ (c3 ++ c4))) := rfl

/-! ## Each piece read -/

set_option maxRecDepth 8192 in
set_option maxHeartbeats 4000000 in
/-- The graph part: the two rows of the edge list, the edge weights, the self-loop weights and the zero running sum
    are their stages of the edge list; the arguments are left as they were. -/
theorem chunk0 (W : Valuation τ sig (Elt F)) :
    after c0 W (Proc.devRef (τ := τ) .tc main_v1) = val_main_v1 (F := F) (W (Proc.devRef (τ := τ) .tc main_arg1))
    ∧ after c0 W (Proc.devRef (τ := τ) .tc main_v3) = val_main_v3 (F := F) (W (Proc.devRef (τ := τ) .tc main_arg1))
    ∧ after c0 W (Proc.devRef (τ := τ) .tc main_v25) = val_main_v25 (F := F) (W (Proc.devRef (τ := τ) .tc main_arg1))
    ∧ after c0 W (Proc.devRef (τ := τ) .tc main_v27) = val_main_v27 (F := F) (W (Proc.devRef (τ := τ) .tc main_arg1))
    ∧ after c0 W (Proc.devRef (τ := τ) .tc main_v28) = val_main_v28 (F := F)
    ∧ after c0 W (Proc.devRef (τ := τ) .tc main_arg0) = W (Proc.devRef (τ := τ) .tc main_arg0)
    ∧ after c0 W (Proc.devRef (τ := τ) .tc main_arg1) = W (Proc.devRef (τ := τ) .tc main_arg1)
    ∧ after c0 W (Proc.devRef (τ := τ) .tc main_arg2) = W (Proc.devRef (τ := τ) .tc main_arg2)
    ∧ after c0 W (Proc.devRef (τ := τ) .tc main_arg3) = W (Proc.devRef (τ := τ) .tc main_arg3)
    ∧ after c0 W (Proc.devRef (τ := τ) .tc main_arg4) = W (Proc.devRef (τ := τ) .tc main_arg4)
    ∧ after c0 W (Proc.devRef (τ := τ) .tc main_arg5) = W (Proc.devRef (τ := τ) .tc main_arg5)
    ∧ after c0 W (Proc.devRef (τ := τ) .tc main_arg6) = W (Proc.devRef (τ := τ) .tc main_arg6)
    ∧ after c0 W (Proc.devRef (τ := τ) .tc main_arg7) = W (Proc.devRef (τ := τ) .tc main_arg7)
    ∧ after c0 W (Proc.devRef (τ := τ) .tc main_arg8) = W (Proc.devRef (τ := τ) .tc main_arg8)
    ∧ after c0 W (Proc.devRef (τ := τ) .tc main_arg9) = W (Proc.devRef (τ := τ) .tc main_arg9) := by
  refine ⟨?_, ?_, ?_, ?_, ?_, ?_, ?_, ?_, ?_, ?_, ?_, ?_, ?_, ?_, ?_⟩
  all_goals (after_results_simp <;> rfl)

set_option maxRecDepth 8192 in
set_option maxHeartbeats 4000000 in
/-- Layer 1's operations, from contents that hold the graph part's stages and the zero running sum: the
    layer's output and the new running sum are their stages of the arguments; the graph part's stages and the arguments
    are left as they were. -/
theorem chunk1 (W : Valuation τ sig (Elt F)) (x0 : (⟨S50000x128, .f32⟩ : BufTy).Contents (Elt F)) (x1 : (⟨S2x600000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) (x6 : (⟨S3x128, .f32⟩ : BufTy).Contents (Elt F)) (x7 : (⟨S3x128, .f32⟩ : BufTy).Contents (Elt F))
    (a0 : W (Proc.devRef (τ := τ) .tc main_arg0) = x0) (a2 : W (Proc.devRef (τ := τ) .tc main_arg2) = x2) (a3 : W (Proc.devRef (τ := τ) .tc main_arg3) = x3) (a4 : W (Proc.devRef (τ := τ) .tc main_arg4) = x4) (a5 : W (Proc.devRef (τ := τ) .tc main_arg5) = x5) (a6 : W (Proc.devRef (τ := τ) .tc main_arg6) = x6) (a7 : W (Proc.devRef (τ := τ) .tc main_arg7) = x7)
    (h0 : W (Proc.devRef (τ := τ) .tc main_v1) = (val_main_v1 (F := F) x1))
    (h1 : W (Proc.devRef (τ := τ) .tc main_v3) = (val_main_v3 (F := F) x1))
    (h2 : W (Proc.devRef (τ := τ) .tc main_v25) = (val_main_v25 (F := F) x1))
    (h3 : W (Proc.devRef (τ := τ) .tc main_v27) = (val_main_v27 (F := F) x1))
    (h4 : W (Proc.devRef (τ := τ) .tc main_v28) = (val_main_v28 (F := F))) :
    after c1 W (Proc.devRef (τ := τ) .tc main_v91) = (val_main_v91 (F := F) x0 x1 x2 x3 x4 x5 x6 x7)
    ∧ after c1 W (Proc.devRef (τ := τ) .tc main_v92) = (val_main_v92 (F := F) x0 x1 x2 x3 x4 x5 x6 x7)
    ∧ after c1 W (Proc.devRef (τ := τ) .tc main_v1) = W (Proc.devRef (τ := τ) .tc main_v1)
    ∧ after c1 W (Proc.devRef (τ := τ) .tc main_v3) = W (Proc.devRef (τ := τ) .tc main_v3)
    ∧ after c1 W (Proc.devRef (τ := τ) .tc main_v25) = W (Proc.devRef (τ := τ) .tc main_v25)
    ∧ after c1 W (Proc.devRef (τ := τ) .tc main_v27) = W (Proc.devRef (τ := τ) .tc main_v27)
    ∧ after c1 W (Proc.devRef (τ := τ) .tc main_arg0) = W (Proc.devRef (τ := τ) .tc main_arg0)
    ∧ after c1 W (Proc.devRef (τ := τ) .tc main_arg1) = W (Proc.devRef (τ := τ) .tc main_arg1)
    ∧ after c1 W (Proc.devRef (τ := τ) .tc main_arg2) = W (Proc.devRef (τ := τ) .tc main_arg2)
    ∧ after c1 W (Proc.devRef (τ := τ) .tc main_arg3) = W (Proc.devRef (τ := τ) .tc main_arg3)
    ∧ after c1 W (Proc.devRef (τ := τ) .tc main_arg4) = W (Proc.devRef (τ := τ) .tc main_arg4)
    ∧ after c1 W (Proc.devRef (τ := τ) .tc main_arg5) = W (Proc.devRef (τ := τ) .tc main_arg5)
    ∧ after c1 W (Proc.devRef (τ := τ) .tc main_arg6) = W (Proc.devRef (τ := τ) .tc main_arg6)
    ∧ after c1 W (Proc.devRef (τ := τ) .tc main_arg7) = W (Proc.devRef (τ := τ) .tc main_arg7)
    ∧ after c1 W (Proc.devRef (τ := τ) .tc main_arg8) = W (Proc.devRef (τ := τ) .tc main_arg8)
    ∧ after c1 W (Proc.devRef (τ := τ) .tc main_arg9) = W (Proc.devRef (τ := τ) .tc main_arg9) := by
  refine ⟨?_, ?_, ?_, ?_, ?_, ?_, ?_, ?_, ?_, ?_, ?_, ?_, ?_, ?_, ?_, ?_⟩
  · after_results_simp
    simp only [h0, h1, h2, h3, h4, a0, a2, a3, a4, a5, a6, a7]
    rfl
  · after_results_simp
    simp only [h0, h1, h2, h3, h4, a0, a2, a3, a4, a5, a6, a7]
    rfl
  all_goals (after_results_simp <;> rfl)

set_option maxRecDepth 8192 in
set_option maxHeartbeats 4000000 in
/-- Layer 2's operations, from contents that hold the graph part's stages and the previous layer's output and running sum: the
    layer's output and the new running sum are their stages of the arguments; the graph part's stages and the arguments
    are left as they were. -/
theorem chunk2 (W : Valuation τ sig (Elt F)) (x0 : (⟨S50000x128, .f32⟩ : BufTy).Contents (Elt F)) (x1 : (⟨S2x600000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) (x6 : (⟨S3x128, .f32⟩ : BufTy).Contents (Elt F)) (x7 : (⟨S3x128, .f32⟩ : BufTy).Contents (Elt F))
    (a0 : W (Proc.devRef (τ := τ) .tc main_arg0) = x0) (a2 : W (Proc.devRef (τ := τ) .tc main_arg2) = x2) (a3 : W (Proc.devRef (τ := τ) .tc main_arg3) = x3) (a4 : W (Proc.devRef (τ := τ) .tc main_arg4) = x4) (a5 : W (Proc.devRef (τ := τ) .tc main_arg5) = x5) (a6 : W (Proc.devRef (τ := τ) .tc main_arg6) = x6) (a7 : W (Proc.devRef (τ := τ) .tc main_arg7) = x7)
    (h0 : W (Proc.devRef (τ := τ) .tc main_v1) = (val_main_v1 (F := F) x1))
    (h1 : W (Proc.devRef (τ := τ) .tc main_v3) = (val_main_v3 (F := F) x1))
    (h2 : W (Proc.devRef (τ := τ) .tc main_v25) = (val_main_v25 (F := F) x1))
    (h3 : W (Proc.devRef (τ := τ) .tc main_v27) = (val_main_v27 (F := F) x1))
    (h4 : W (Proc.devRef (τ := τ) .tc main_v91) = (val_main_v91 (F := F) x0 x1 x2 x3 x4 x5 x6 x7))
    (h5 : W (Proc.devRef (τ := τ) .tc main_v92) = (val_main_v92 (F := F) x0 x1 x2 x3 x4 x5 x6 x7)) :
    after c2 W (Proc.devRef (τ := τ) .tc main_v155) = (val_main_v155 (F := F) x0 x1 x2 x3 x4 x5 x6 x7)
    ∧ after c2 W (Proc.devRef (τ := τ) .tc main_v156) = (val_main_v156 (F := F) x0 x1 x2 x3 x4 x5 x6 x7)
    ∧ after c2 W (Proc.devRef (τ := τ) .tc main_v1) = W (Proc.devRef (τ := τ) .tc main_v1)
    ∧ after c2 W (Proc.devRef (τ := τ) .tc main_v3) = W (Proc.devRef (τ := τ) .tc main_v3)
    ∧ after c2 W (Proc.devRef (τ := τ) .tc main_v25) = W (Proc.devRef (τ := τ) .tc main_v25)
    ∧ after c2 W (Proc.devRef (τ := τ) .tc main_v27) = W (Proc.devRef (τ := τ) .tc main_v27)
    ∧ after c2 W (Proc.devRef (τ := τ) .tc main_arg0) = W (Proc.devRef (τ := τ) .tc main_arg0)
    ∧ after c2 W (Proc.devRef (τ := τ) .tc main_arg1) = W (Proc.devRef (τ := τ) .tc main_arg1)
    ∧ after c2 W (Proc.devRef (τ := τ) .tc main_arg2) = W (Proc.devRef (τ := τ) .tc main_arg2)
    ∧ after c2 W (Proc.devRef (τ := τ) .tc main_arg3) = W (Proc.devRef (τ := τ) .tc main_arg3)
    ∧ after c2 W (Proc.devRef (τ := τ) .tc main_arg4) = W (Proc.devRef (τ := τ) .tc main_arg4)
    ∧ after c2 W (Proc.devRef (τ := τ) .tc main_arg5) = W (Proc.devRef (τ := τ) .tc main_arg5)
    ∧ after c2 W (Proc.devRef (τ := τ) .tc main_arg6) = W (Proc.devRef (τ := τ) .tc main_arg6)
    ∧ after c2 W (Proc.devRef (τ := τ) .tc main_arg7) = W (Proc.devRef (τ := τ) .tc main_arg7)
    ∧ after c2 W (Proc.devRef (τ := τ) .tc main_arg8) = W (Proc.devRef (τ := τ) .tc main_arg8)
    ∧ after c2 W (Proc.devRef (τ := τ) .tc main_arg9) = W (Proc.devRef (τ := τ) .tc main_arg9) := by
  refine ⟨?_, ?_, ?_, ?_, ?_, ?_, ?_, ?_, ?_, ?_, ?_, ?_, ?_, ?_, ?_, ?_⟩
  · after_results_simp
    simp only [h0, h1, h2, h3, h4, h5, a0, a2, a3, a4, a5, a6, a7]
    rfl
  · after_results_simp
    simp only [h0, h1, h2, h3, h4, h5, a0, a2, a3, a4, a5, a6, a7]
    rfl
  all_goals (after_results_simp <;> rfl)

set_option maxRecDepth 8192 in
set_option maxHeartbeats 4000000 in
/-- Layer 3's operations, from contents that hold the graph part's stages and the previous layer's output and running sum: the
    layer's output and the new running sum are their stages of the arguments; the graph part's stages and the arguments
    are left as they were. -/
theorem chunk3 (W : Valuation τ sig (Elt F)) (x0 : (⟨S50000x128, .f32⟩ : BufTy).Contents (Elt F)) (x1 : (⟨S2x600000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) (x6 : (⟨S3x128, .f32⟩ : BufTy).Contents (Elt F)) (x7 : (⟨S3x128, .f32⟩ : BufTy).Contents (Elt F))
    (a0 : W (Proc.devRef (τ := τ) .tc main_arg0) = x0) (a2 : W (Proc.devRef (τ := τ) .tc main_arg2) = x2) (a3 : W (Proc.devRef (τ := τ) .tc main_arg3) = x3) (a4 : W (Proc.devRef (τ := τ) .tc main_arg4) = x4) (a5 : W (Proc.devRef (τ := τ) .tc main_arg5) = x5) (a6 : W (Proc.devRef (τ := τ) .tc main_arg6) = x6) (a7 : W (Proc.devRef (τ := τ) .tc main_arg7) = x7)
    (h0 : W (Proc.devRef (τ := τ) .tc main_v1) = (val_main_v1 (F := F) x1))
    (h1 : W (Proc.devRef (τ := τ) .tc main_v3) = (val_main_v3 (F := F) x1))
    (h2 : W (Proc.devRef (τ := τ) .tc main_v25) = (val_main_v25 (F := F) x1))
    (h3 : W (Proc.devRef (τ := τ) .tc main_v27) = (val_main_v27 (F := F) x1))
    (h4 : W (Proc.devRef (τ := τ) .tc main_v155) = (val_main_v155 (F := F) x0 x1 x2 x3 x4 x5 x6 x7))
    (h5 : W (Proc.devRef (τ := τ) .tc main_v156) = (val_main_v156 (F := F) x0 x1 x2 x3 x4 x5 x6 x7)) :
    after c3 W (Proc.devRef (τ := τ) .tc main_v219) = (val_main_v219 (F := F) x0 x1 x2 x3 x4 x5 x6 x7)
    ∧ after c3 W (Proc.devRef (τ := τ) .tc main_v220) = (val_main_v220 (F := F) x0 x1 x2 x3 x4 x5 x6 x7)
    ∧ after c3 W (Proc.devRef (τ := τ) .tc main_v1) = W (Proc.devRef (τ := τ) .tc main_v1)
    ∧ after c3 W (Proc.devRef (τ := τ) .tc main_v3) = W (Proc.devRef (τ := τ) .tc main_v3)
    ∧ after c3 W (Proc.devRef (τ := τ) .tc main_v25) = W (Proc.devRef (τ := τ) .tc main_v25)
    ∧ after c3 W (Proc.devRef (τ := τ) .tc main_v27) = W (Proc.devRef (τ := τ) .tc main_v27)
    ∧ after c3 W (Proc.devRef (τ := τ) .tc main_arg0) = W (Proc.devRef (τ := τ) .tc main_arg0)
    ∧ after c3 W (Proc.devRef (τ := τ) .tc main_arg1) = W (Proc.devRef (τ := τ) .tc main_arg1)
    ∧ after c3 W (Proc.devRef (τ := τ) .tc main_arg2) = W (Proc.devRef (τ := τ) .tc main_arg2)
    ∧ after c3 W (Proc.devRef (τ := τ) .tc main_arg3) = W (Proc.devRef (τ := τ) .tc main_arg3)
    ∧ after c3 W (Proc.devRef (τ := τ) .tc main_arg4) = W (Proc.devRef (τ := τ) .tc main_arg4)
    ∧ after c3 W (Proc.devRef (τ := τ) .tc main_arg5) = W (Proc.devRef (τ := τ) .tc main_arg5)
    ∧ after c3 W (Proc.devRef (τ := τ) .tc main_arg6) = W (Proc.devRef (τ := τ) .tc main_arg6)
    ∧ after c3 W (Proc.devRef (τ := τ) .tc main_arg7) = W (Proc.devRef (τ := τ) .tc main_arg7)
    ∧ after c3 W (Proc.devRef (τ := τ) .tc main_arg8) = W (Proc.devRef (τ := τ) .tc main_arg8)
    ∧ after c3 W (Proc.devRef (τ := τ) .tc main_arg9) = W (Proc.devRef (τ := τ) .tc main_arg9) := by
  refine ⟨?_, ?_, ?_, ?_, ?_, ?_, ?_, ?_, ?_, ?_, ?_, ?_, ?_, ?_, ?_, ?_⟩
  · after_results_simp
    simp only [h0, h1, h2, h3, h4, h5, a0, a2, a3, a4, a5, a6, a7]
    rfl
  · after_results_simp
    simp only [h0, h1, h2, h3, h4, h5, a0, a2, a3, a4, a5, a6, a7]
    rfl
  all_goals (after_results_simp <;> rfl)

set_option maxRecDepth 8192 in
/-- The projection: from contents that hold the last running sum, the result is its stage of the arguments. -/
theorem chunk4 (W : Valuation τ sig (Elt F)) (x0 : (⟨S50000x128, .f32⟩ : BufTy).Contents (Elt F)) (x1 : (⟨S2x600000, .i32⟩ : BufTy).Contents (Elt F)) (x2 : (⟨S3x128x128, .f32⟩ : BufTy).Contents (Elt F)) (x3 : (⟨S3x128, .f32⟩ : BufTy).Contents (Elt F)) (x4 : (⟨S3x128x128, .f32⟩ : BufTy).Contents (Elt F)) (x5 : (⟨S3x128, .f32⟩ : BufTy).Contents (Elt F)) (x6 : (⟨S3x128, .f32⟩ : BufTy).Contents (Elt F)) (x7 : (⟨S3x128, .f32⟩ : BufTy).Contents (Elt F)) (x8 : (⟨S128x64, .f32⟩ : BufTy).Contents (Elt F)) (x9 : (⟨S64, .f32⟩ : BufTy).Contents (Elt F))
    (a8 : W (Proc.devRef (τ := τ) .tc main_arg8) = x8) (a9 : W (Proc.devRef (τ := τ) .tc main_arg9) = x9)
    (h0 : W (Proc.devRef (τ := τ) .tc main_v220) = (val_main_v220 (F := F) x0 x1 x2 x3 x4 x5 x6 x7)) :
    after c4 W (Proc.devRef (τ := τ) .tc main_v224) = (val_main_v224 (F := F) x0 x1 x2 x3 x4 x5 x6 x7 x8 x9)
    ∧ after c4 W (Proc.devRef (τ := τ) .tc main_arg0) = W (Proc.devRef (τ := τ) .tc main_arg0)
    ∧ after c4 W (Proc.devRef (τ := τ) .tc main_arg1) = W (Proc.devRef (τ := τ) .tc main_arg1)
    ∧ after c4 W (Proc.devRef (τ := τ) .tc main_arg2) = W (Proc.devRef (τ := τ) .tc main_arg2)
    ∧ after c4 W (Proc.devRef (τ := τ) .tc main_arg3) = W (Proc.devRef (τ := τ) .tc main_arg3)
    ∧ after c4 W (Proc.devRef (τ := τ) .tc main_arg4) = W (Proc.devRef (τ := τ) .tc main_arg4)
    ∧ after c4 W (Proc.devRef (τ := τ) .tc main_arg5) = W (Proc.devRef (τ := τ) .tc main_arg5)
    ∧ after c4 W (Proc.devRef (τ := τ) .tc main_arg6) = W (Proc.devRef (τ := τ) .tc main_arg6)
    ∧ after c4 W (Proc.devRef (τ := τ) .tc main_arg7) = W (Proc.devRef (τ := τ) .tc main_arg7)
    ∧ after c4 W (Proc.devRef (τ := τ) .tc main_arg8) = W (Proc.devRef (τ := τ) .tc main_arg8)
    ∧ after c4 W (Proc.devRef (τ := τ) .tc main_arg9) = W (Proc.devRef (τ := τ) .tc main_arg9) := by
  refine ⟨?_, ?_, ?_, ?_, ?_, ?_, ?_, ?_, ?_, ?_, ?_⟩
  · after_results_simp
    simp only [h0, a8, a9]
    rfl
  all_goals (after_results_simp <;> rfl)

/-! ## The whole run -/

/-- From any contents `V`: the fold of all 263 operations leaves the result buffer at the last stage of the ten argument
    arrays as `V` holds them, and leaves the argument arrays as they were. -/
theorem fold_result (V : Valuation τ sig (Elt F)) :
    after ops V (Proc.devRef (τ := τ) .tc main_v224)
        = val_main_v224 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9))
    ∧ after ops V (Proc.devRef (τ := τ) .tc main_arg0) = V (Proc.devRef (τ := τ) .tc main_arg0)
    ∧ after ops V (Proc.devRef (τ := τ) .tc main_arg1) = V (Proc.devRef (τ := τ) .tc main_arg1)
    ∧ after ops V (Proc.devRef (τ := τ) .tc main_arg2) = V (Proc.devRef (τ := τ) .tc main_arg2)
    ∧ after ops V (Proc.devRef (τ := τ) .tc main_arg3) = V (Proc.devRef (τ := τ) .tc main_arg3)
    ∧ after ops V (Proc.devRef (τ := τ) .tc main_arg4) = V (Proc.devRef (τ := τ) .tc main_arg4)
    ∧ after ops V (Proc.devRef (τ := τ) .tc main_arg5) = V (Proc.devRef (τ := τ) .tc main_arg5)
    ∧ after ops V (Proc.devRef (τ := τ) .tc main_arg6) = V (Proc.devRef (τ := τ) .tc main_arg6)
    ∧ after ops V (Proc.devRef (τ := τ) .tc main_arg7) = V (Proc.devRef (τ := τ) .tc main_arg7)
    ∧ after ops V (Proc.devRef (τ := τ) .tc main_arg8) = V (Proc.devRef (τ := τ) .tc main_arg8)
    ∧ after ops V (Proc.devRef (τ := τ) .tc main_arg9) = V (Proc.devRef (τ := τ) .tc main_arg9) := by
  rw [ops_split, after_append, after_append, after_append, after_append]
  obtain ⟨g1, g3, g25, g27, g28, b0, b1, b2, b3, b4, b5, b6, b7, b8, b9⟩ := chunk0 (F := F) V
  obtain ⟨p91, p92, q1, q3, q25, q27, d0, d1, d2, d3, d4, d5, d6, d7, d8, d9⟩ :=
    chunk1 (F := F) (after c0 V) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7))
      b0 b2 b3 b4 b5 b6 b7 g1 g3 g25 g27 g28
  obtain ⟨p155, p156, r1, r3, r25, r27, e0, e1, e2, e3, e4, e5, e6, e7, e8, e9⟩ :=
    chunk2 (F := F) (after c1 (after c0 V)) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7))
      (d0.trans b0) (d2.trans b2) (d3.trans b3) (d4.trans b4) (d5.trans b5) (d6.trans b6) (d7.trans b7)
      (q1.trans g1) (q3.trans g3) (q25.trans g25) (q27.trans g27) p91 p92
  obtain ⟨p219, p220, s1, s3, s25, s27, f0, f1, f2, f3, f4, f5, f6, f7, f8, f9⟩ :=
    chunk3 (F := F) (after c2 (after c1 (after c0 V))) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7))
      (e0.trans (d0.trans b0)) (e2.trans (d2.trans b2)) (e3.trans (d3.trans b3)) (e4.trans (d4.trans b4))
      (e5.trans (d5.trans b5)) (e6.trans (d6.trans b6)) (e7.trans (d7.trans b7))
      (r1.trans (q1.trans g1)) (r3.trans (q3.trans g3)) (r25.trans (q25.trans g25)) (r27.trans (q27.trans g27)) p155 p156
  obtain ⟨p224, t0, t1, t2, t3, t4, t5, t6, t7, t8, t9⟩ :=
    chunk4 (F := F) (after c3 (after c2 (after c1 (after c0 V)))) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9))
      (f8.trans (e8.trans (d8.trans b8))) (f9.trans (e9.trans (d9.trans b9))) p220
  exact ⟨p224, t0.trans (f0.trans (e0.trans (d0.trans b0))),
    t1.trans (f1.trans (e1.trans (d1.trans b1))),
    t2.trans (f2.trans (e2.trans (d2.trans b2))),
    t3.trans (f3.trans (e3.trans (d3.trans b3))),
    t4.trans (f4.trans (e4.trans (d4.trans b4))),
    t5.trans (f5.trans (e5.trans (d5.trans b5))),
    t6.trans (f6.trans (e6.trans (d6.trans b6))),
    t7.trans (f7.trans (e7.trans (d7.trans b7))),
    t8.trans (f8.trans (e8.trans (d8.trans b8))),
    t9.trans (f9.trans (e9.trans (d9.trans b9)))⟩

end Cert.ReferenceIdeal.RefFold

end
-- ==== Proof.RefValue.lean ====
/-
  The reference program's result, stage by stage, is the array program's form of the network's specification: over
  argument VARIABLES, the last stage at index `i` is `outR` of the arguments at `(i 0, i 1)`.

  The graph part is read once: the two rows of the edge list, the wrapped and raw index columns, `dinv` (the degree
  count through the raw target column), the edge weights (two gathers of `dinv`).  Each layer then meets the hypotheses
  of the layer bridge: weight slices, two matrix products, the gather of source rows, the weighting, the scatter-add
  through the raw target column, biases, the mean (a sum with initial value zero, divided by the count), the mean
  squared deviation, the normalisation, scale, shift and the maximum with zero.  The running sum and the projection
  close the chain.
-/
import proofs.«134443_j73787538145745_2_alg».proof.Proof.RefRead
import proofs.«134443_j73787538145745_2_alg».proof.Proof.NetSpec
import proofs.«134443_j73787538145745_2_alg».proof.Proof.HostGraph
import proofs.«134443_j73787538145745_2_alg».proof.Proof.HostWeights
import proofs.«134443_j73787538145745_2_alg».proof.Proof.LayerBridge

noncomputable section

namespace Cert.ReferenceIdeal.RefValue

open Cert.ReferenceIdeal Cert.ReferenceIdeal.Gen Cert.ReferenceIdeal.ReadP Idealize.ShloMosaic Idealize.ShloMosaic.ValueIdx
open Cert.LayerSpec Cert.NetSpec Cert.LibEdgeIdx Cert.LibFlatScatter Cert.HostGraph Cert.HostWeights Cert.LayerBridge

variable (x0 : (⟨S50000x128, .f32⟩ : BufTy).Contents (Elt Ideal)) (x1 : (⟨S2x600000, .i32⟩ : BufTy).Contents (Elt Ideal))
  (x2 : (⟨S3x128x128, .f32⟩ : BufTy).Contents (Elt Ideal)) (x3 : (⟨S3x128, .f32⟩ : BufTy).Contents (Elt Ideal))
  (x4 : (⟨S3x128x128, .f32⟩ : BufTy).Contents (Elt Ideal)) (x5 x6 x7 : (⟨S3x128, .f32⟩ : BufTy).Contents (Elt Ideal))
  (x8 : (⟨S128x64, .f32⟩ : BufTy).Contents (Elt Ideal)) (x9 : (⟨S64, .f32⟩ : BufTy).Contents (Elt Ideal))

/-- The network's arguments from the program's ten argument arrays. -/
def argsOf : Args where
  x := x0
  ei := x1
  Wg := x2
  bg := x3
  Wl := x4
  bl := x5
  gamma := x6
  beta := x7
  Wp := x8
  bp := x9

/-! ## Layout lemmas of general extents -/

/-- Row `l` of a `[R, n]` array, sliced out and cast to a vector, at `d` is the array at `(l, d)`. -/
theorem slice_row_apply {α : Type} {R n : Nat} (b : (⟨2, ![R, n]⟩ : Shape).Idx → α) (o : Nat) (l : Fin R) (hl : l.val = o)
    (hs : (⟨2, ![R, n]⟩ : Shape).Slices ![o, 0] ⟨2, ![1, n]⟩)
    (hc : (⟨2, ![1, n]⟩ : Shape).ShapeCasts ⟨1, ![n]⟩) (d : Fin n) :
    shapeCast ⟨1, ![n]⟩ (extractStridedSlice ⟨2, ![1, n]⟩ ![o, 0] b hs) hc (ix1 d) = b (ix2 l d) := by
  rw [shapeCast_apply _ hc (ix1 d) (ix2 (0 : Fin 1) d)
    (by rewrite [Shape.rowMajor_val_two, Shape.rowMajor_val_one]
        show 0 * n + d.val = d.val; omega)]
  exact extractStridedSlice_apply _ b hs (ix2 0 d) (ix2 l d) (fun a => match a with
    | ⟨0, _⟩ => by show l.val = o + 0; omega
    | ⟨1, _⟩ => by show d.val = 0 + d.val; omega)

/-- A vector broadcast to a row and the row broadcast down a matrix: at `(a, d)` the vector at `d`. -/
theorem bcast_vec_rows_apply {α : Type} {m n : Nat} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (a : Fin m) (d : Fin n) :
    broadcastInDim ⟨2, ![m, n]⟩ ![0, 1] h2 (broadcastInDim ⟨2, ![1, n]⟩ ![1] h1 v) (ix2 a d) = v (ix1 d) :=
  (bcast_rows_apply _ h2 a d).trans (bcast_row_apply v h1 d)

/-- A vector broadcast to a column and the column broadcast along a matrix: at `(a, d)` the vector at `a`. -/
theorem bcast_vec_cols_apply {α : Type} {m n : Nat} (v : (⟨1, ![m]⟩ : Shape).Idx → α)
    (h1 : (⟨1, ![m]⟩ : Shape).BroadcastsInDim ⟨2, ![m, 1]⟩ ![0])
    (h2 : (⟨2, ![m, 1]⟩ : Shape).BroadcastsInDim ⟨2, ![m, n]⟩ ![0, 1]) (a : Fin m) (d : Fin n) :
    broadcastInDim ⟨2, ![m, n]⟩ ![0, 1] h2 (broadcastInDim ⟨2, ![m, 1]⟩ ![0] h1 v) (ix2 a d) = v (ix1 a) :=
  (bcast_cols_apply _ h2 a d).trans (bcast_col_apply v h1 a)

/-- A broadcast integer scalar is that word everywhere. -/
theorem bcastI_at (b : BitVec 32) (h : (⟨0, ![]⟩ : Shape).BroadcastsInDim S600000 ![]) (i : S600000.Idx) :
    broadcastInDim S600000 ![] h (constantI S_ 32 b) i = b :=
  (bcast_scalar_apply _ h i).trans rfl

/-- A broadcast float scalar is the value its word denotes, everywhere. -/
theorem bcastF_at {t : Shape} (w : BitVec 32) (h : (⟨0, ![]⟩ : Shape).BroadcastsInDim t ![]) (i : t.Idx) :
    broadcastInDim t ![] h (constant (F := Ideal) S_ .f32 w) i = Ideal.ofBits .f32 w :=
  (bcast_scalar_apply _ h i).trans (constant_apply (s := S_) (φ := FTy.f32) w ix0)

include x0 x1 x2 x3 x4 x5 x6 x7 x8 x9

/-! ## The graph part -/

/-- The source row of the edge list. -/
theorem v1_at (e : Fin 600000) : (val_main_v1 (F := Ideal) x1) (ix1 e) = srcRaw (argsOf x0 x1 x2 x3 x4 x5 x6 x7 x8 x9) e := by
  unfold val_main_v1 val_main_v0
  exact slice_row_apply x1 0 (0 : Fin 2) rfl _ _ e

/-- The target row of the edge list. -/
theorem v3_at (e : Fin 600000) : (val_main_v3 (F := Ideal) x1) (ix1 e) = dstRaw (argsOf x0 x1 x2 x3 x4 x5 x6 x7 x8 x9) e := by
  unfold val_main_v3 val_main_v2
  exact slice_row_apply x1 1 (1 : Fin 2) rfl _ _ e

/-- A wrapped word of the source row. -/
theorem wrap_src_at (c11 c13 : (⟨S600000, .i32⟩ : BufTy).Contents (Elt Ideal))
    (h11 : ∀ i, c11 i = 0#32) (h13 : ∀ i, c13 i = 50000#32) (e : Fin 600000) :
    Scalar.select (IntOp.cmpi .slt ((val_main_v1 (F := Ideal) x1) (ix1 e)) (c11 (ix1 e))) (IntOp.addi ((val_main_v1 (F := Ideal) x1) (ix1 e)) (c13 (ix1 e)))
      ((val_main_v1 (F := Ideal) x1) (ix1 e)) = wrapIdx (srcRaw (argsOf x0 x1 x2 x3 x4 x5 x6 x7 x8 x9) e) := by
  rw [h11, h13, v1_at]
  exact wrap_select _

/-- A wrapped word of the target row. -/
theorem wrap_dst_at (c11 c13 : (⟨S600000, .i32⟩ : BufTy).Contents (Elt Ideal))
    (h11 : ∀ i, c11 i = 0#32) (h13 : ∀ i, c13 i = 50000#32) (e : Fin 600000) :
    Scalar.select (IntOp.cmpi .slt ((val_main_v3 (F := Ideal) x1) (ix1 e)) (c11 (ix1 e))) (IntOp.addi ((val_main_v3 (F := Ideal) x1) (ix1 e)) (c13 (ix1 e)))
      ((val_main_v3 (F := Ideal) x1) (ix1 e)) = wrapIdx (dstRaw (argsOf x0 x1 x2 x3 x4 x5 x6 x7 x8 x9) e) := by
  rw [h11, h13, v3_at]
  exact wrap_select _

/-- The raw target column the degree count reads. -/
theorem v6_col (e : Fin 600000) : (val_main_v6 (F := Ideal) x1) (edgeAt e) = dstRaw (argsOf x0 x1 x2 x3 x4 x5 x6 x7 x8 x9) e := by
  unfold val_main_v6
  exact (bcast_col_apply _ _ e).trans (v3_at x0 x1 x2 x3 x4 x5 x6 x7 x8 x9 e)

/-- The wrapped source column the first gather of `dinv` reads. -/
theorem v16_col (e : Fin 600000) : (val_main_v16 (F := Ideal) x1) (edgeAt e) = wrapIdx (srcRaw (argsOf x0 x1 x2 x3 x4 x5 x6 x7 x8 x9) e) := by
  unfold val_main_v16
  refine (bcast_col_apply _ _ e).trans ?_
  rw [val_main_v15_apply, val_main_v12_apply, val_main_v14_apply]
  exact wrap_src_at x0 x1 x2 x3 x4 x5 x6 x7 x8 x9 _ _
    (fun i => by unfold val_main_v11 val_main_c; exact bcastI_at _ _ i)
    (fun i => by unfold val_main_v13 val_main_c_2; exact bcastI_at _ _ i) e

/-- The wrapped target column the second gather of `dinv` reads. -/
theorem v23_col (e : Fin 600000) : (val_main_v23 (F := Ideal) x1) (edgeAt e) = wrapIdx (dstRaw (argsOf x0 x1 x2 x3 x4 x5 x6 x7 x8 x9) e) := by
  unfold val_main_v23
  refine (bcast_col_apply _ _ e).trans ?_
  rw [val_main_v22_apply, val_main_v19_apply, val_main_v21_apply]
  exact wrap_dst_at x0 x1 x2 x3 x4 x5 x6 x7 x8 x9 _ _
    (fun i => by unfold val_main_v18 val_main_c_3; exact bcastI_at _ _ i)
    (fun i => by unfold val_main_v20 val_main_c_4; exact bcastI_at _ _ i) e

/-- `dinv`: ones scattered through the raw target column into zeros, one more, reciprocal square root. -/
theorem v10_at (n : Fin 50000) : (val_main_v10 (F := Ideal) x1) (ix1 n) = (Gr (argsOf x0 x1 x2 x3 x4 x5 x6 x7 x8 x9)).dinv n := by
  rw [val_main_v10_apply, val_main_v9_apply, Ideal.hostUnary_rsqrt_def, Ideal.addf_def]
  have h8 : (val_main_v8 (F := Ideal)) (ix1 n) = 1 := by
    unfold val_main_v8 val_main_cst_1
    exact (bcastF_at _ _ _).trans one_val
  rw [h8]
  unfold val_main_v7
  exact dinv_apply (argsOf x0 x1 x2 x3 x4 x5 x6 x7 x8 x9) _ (val_main_v5 (F := Ideal)) (val_main_v6 (F := Ideal) x1) (val_main_v4 (F := Ideal))
    (fun i => by unfold val_main_v5 val_main_cst_0; exact (bcastF_at _ _ i).trans zero_val)
    (fun j => by unfold val_main_v4 val_main_cst; exact (bcastF_at _ _ j).trans one_val)
    (v6_col x0 x1 x2 x3 x4 x5 x6 x7 x8 x9) n

/-- The weight of edge `e`: `dinv` gathered at its clamped source times `dinv` gathered at its clamped target. -/
theorem v25_at (e : Fin 600000) :
    (val_main_v25 (F := Ideal) x1) (ix1 e) = (val_main_v10 (F := Ideal) x1) (ix1 ((Gr (argsOf x0 x1 x2 x3 x4 x5 x6 x7 x8 x9)).srcc e)) * (val_main_v10 (F := Ideal) x1) (ix1 ((Gr (argsOf x0 x1 x2 x3 x4 x5 x6 x7 x8 x9)).dstc e)) := by
  rw [val_main_v25_apply, Ideal.mulf_def]
  unfold val_main_v17 val_main_v24
  rw [show Host.gather gather_S50000_S600000x1_S600000_n_0_n_n_0_1_1 (val_main_v10 (F := Ideal) x1) (val_main_v16 (F := Ideal) x1) (ix1 e)
        = (val_main_v10 (F := Ideal) x1) (ix1 ((Gr (argsOf x0 x1 x2 x3 x4 x5 x6 x7 x8 x9)).srcc e)) from
      gather_flat_src (argsOf x0 x1 x2 x3 x4 x5 x6 x7 x8 x9) _ (val_main_v10 (F := Ideal) x1) (val_main_v16 (F := Ideal) x1) (v16_col x0 x1 x2 x3 x4 x5 x6 x7 x8 x9) e,
    show Host.gather gather_S50000_S600000x1_S600000_n_0_n_n_0_1_1 (val_main_v10 (F := Ideal) x1) (val_main_v23 (F := Ideal) x1) (ix1 e)
        = (val_main_v10 (F := Ideal) x1) (ix1 ((Gr (argsOf x0 x1 x2 x3 x4 x5 x6 x7 x8 x9)).dstc e)) from
      gather_flat_dst (argsOf x0 x1 x2 x3 x4 x5 x6 x7 x8 x9) _ (val_main_v10 (F := Ideal) x1) (val_main_v23 (F := Ideal) x1) (v23_col x0 x1 x2 x3 x4 x5 x6 x7 x8 x9) e]

/-- The self-loop weight broadcast over the features: `dinv n · dinv n`. -/
theorem v45_like_at (h : S50000x1.BroadcastsInDim S50000x128 ![0, 1]) (n : Fin 50000) (d : Fin 128) :
    broadcastInDim S50000x128 ![0, 1] h (val_main_v27 (F := Ideal) x1) (ix2 n d) = (val_main_v10 (F := Ideal) x1) (ix1 n) * (val_main_v10 (F := Ideal) x1) (ix1 n) := by
  unfold val_main_v27
  refine (bcast_vec_cols_apply _ _ h n d).trans ?_
  rw [val_main_v26_apply, Ideal.mulf_def]

/-- The edge weight broadcast over the features. -/
theorem v40_like_at (h1 : S600000.BroadcastsInDim S600000x1 ![0]) (h2 : S600000x1.BroadcastsInDim S600000x128 ![0, 1])
    (e : Fin 600000) (k : Fin 128) :
    broadcastInDim S600000x128 ![0, 1] h2 (broadcastInDim S600000x1 ![0] h1 (val_main_v25 (F := Ideal) x1)) (ix2 e k) = (val_main_v25 (F := Ideal) x1) (ix1 e) :=
  bcast_vec_cols_apply _ h1 h2 e k

/-! ## Layer 1 -/

theorem Wg_L1 (k d : Fin 128) : (val_main_v30 (F := Ideal) x2) (ix2 k d) = (argsOf x0 x1 x2 x3 x4 x5 x6 x7 x8 x9).Wg (ix3 (0 : Fin 3) k d) := by
  unfold val_main_v30 val_main_v29
  exact slice3_apply x2 0 (0 : Fin 3) rfl _ _ k d

theorem Wl_L1 (k d : Fin 128) : (val_main_v54 (F := Ideal) x4) (ix2 k d) = (argsOf x0 x1 x2 x3 x4 x5 x6 x7 x8 x9).Wl (ix3 (0 : Fin 3) k d) := by
  unfold val_main_v54 val_main_v53
  exact slice3_apply x4 0 (0 : Fin 3) rfl _ _ k d

theorem mg_L1 (n : Fin 50000) (d : Fin 128) :
    (val_main_v31 (F := Ideal) x0 x2) (ix2 n d) = ∑ k : Fin 128, x0 (ix2 n k) * (val_main_v30 (F := Ideal) x2) (ix2 k d) := by
  refine (val_main_v31_apply x0 x2 (ix2 n d)).trans (Finset.sum_congr rfl fun k _ => ?_)
  rw [show lidx_main_v31 (ix2 n d) k = ix2 n k from (funext fun a => Fin.ext (by match a with | ⟨0, _⟩ => rfl | ⟨1, _⟩ => rfl)),
    show ridx_main_v31 (ix2 n d) k = ix2 k d from (funext fun a => Fin.ext (by match a with | ⟨0, _⟩ => rfl | ⟨1, _⟩ => rfl))]

theorem ml_L1 (n : Fin 50000) (d : Fin 128) :
    (val_main_v55 (F := Ideal) x0 x4) (ix2 n d) = ∑ k : Fin 128, x0 (ix2 n k) * (val_main_v54 (F := Ideal) x4) (ix2 k d) := by
  refine (val_main_v55_apply x0 x4 (ix2 n d)).trans (Finset.sum_congr rfl fun k _ => ?_)
  rw [show lidx_main_v55 (ix2 n d) k = ix2 n k from (funext fun a => Fin.ext (by match a with | ⟨0, _⟩ => rfl | ⟨1, _⟩ => rfl)),
    show ridx_main_v55 (ix2 n d) k = ix2 k d from (funext fun a => Fin.ext (by match a with | ⟨0, _⟩ => rfl | ⟨1, _⟩ => rfl))]

theorem srccol_L1 (e : Fin 600000) : (val_main_v37 (F := Ideal) x1) (edgeAt e) = wrapIdx (srcRaw (argsOf x0 x1 x2 x3 x4 x5 x6 x7 x8 x9) e) := by
  unfold val_main_v37
  refine (bcast_col_apply _ _ e).trans ?_
  rw [val_main_v36_apply, val_main_v33_apply, val_main_v35_apply]
  exact wrap_src_at x0 x1 x2 x3 x4 x5 x6 x7 x8 x9 _ _
    (fun i => by unfold val_main_v32 val_main_c_6; exact bcastI_at _ _ i)
    (fun i => by unfold val_main_v34 val_main_c_7; exact bcastI_at _ _ i) e

theorem rawcol_L1 (e : Fin 600000) : (val_main_v43 (F := Ideal) x1) (edgeAt e) = dstRaw (argsOf x0 x1 x2 x3 x4 x5 x6 x7 x8 x9) e := by
  unfold val_main_v43
  exact (bcast_col_apply _ _ e).trans (v3_at x0 x1 x2 x3 x4 x5 x6 x7 x8 x9 e)

theorem gath_L1 (e : Fin 600000) (k : Fin 128) :
    (val_main_v38 (F := Ideal) x0 x1 x2) (ix2 e k) = (val_main_v31 (F := Ideal) x0 x2) (ix2 ((Gr (argsOf x0 x1 x2 x3 x4 x5 x6 x7 x8 x9)).srcc e) k) := by
  unfold val_main_v38
  exact gather_rows_src (argsOf x0 x1 x2 x3 x4 x5 x6 x7 x8 x9) _ (val_main_v31 (F := Ideal) x0 x2) (val_main_v37 (F := Ideal) x1) (srccol_L1 x0 x1 x2 x3 x4 x5 x6 x7 x8 x9) e k

theorem msg_L1 (e : Fin 600000) (k : Fin 128) :
    (val_main_v41 (F := Ideal) x0 x1 x2) (ix2 e k) = (val_main_v38 (F := Ideal) x0 x1 x2) (ix2 e k) * (val_main_v25 (F := Ideal) x1) (ix1 e) := by
  rw [val_main_v41_apply, Ideal.mulf_def]
  refine congrArg (fun t => (val_main_v38 (F := Ideal) x0 x1 x2) (ix2 e k) * t) ?_
  unfold val_main_v40 val_main_v39
  exact v40_like_at x0 x1 x2 x3 x4 x5 x6 x7 x8 x9 _ _ e k

theorem agg_L1 (n : Fin 50000) (k : Fin 128) :
    (val_main_v44 (F := Ideal) x0 x1 x2) (ix2 n k)
      = 0 + ∑ e ∈ Finset.univ.filter (fun e => (Gr (argsOf x0 x1 x2 x3 x4 x5 x6 x7 x8 x9)).lands e n), (val_main_v41 (F := Ideal) x0 x1 x2) (ix2 e k) := by
  unfold val_main_v44
  exact scatter_rows_raw (argsOf x0 x1 x2 x3 x4 x5 x6 x7 x8 x9) _ (val_main_v42 (F := Ideal)) (val_main_v43 (F := Ideal) x1) (val_main_v41 (F := Ideal) x0 x1 x2)
    (fun i => by unfold val_main_v42 val_main_cst_8; exact (bcastF_at _ _ i).trans zero_val)
    (rawcol_L1 x0 x1 x2 x3 x4 x5 x6 x7 x8 x9) n k

theorem pre_L1 (n : Fin 50000) (d : Fin 128) :
    (val_main_v61 (F := Ideal) x0 x1 x2 x3 x4 x5) (ix2 n d) = ((((val_main_v44 (F := Ideal) x0 x1 x2) (ix2 n d) + (val_main_v31 (F := Ideal) x0 x2) (ix2 n d) * ((val_main_v10 (F := Ideal) x1) (ix1 n) * (val_main_v10 (F := Ideal) x1) (ix1 n)))
      + (argsOf x0 x1 x2 x3 x4 x5 x6 x7 x8 x9).bg (ix2 (0 : Fin 3) d)) + (val_main_v55 (F := Ideal) x0 x4) (ix2 n d)) + (argsOf x0 x1 x2 x3 x4 x5 x6 x7 x8 x9).bl (ix2 (0 : Fin 3) d) := by
  rw [val_main_v61_apply, val_main_v56_apply, val_main_v52_apply, val_main_v47_apply, val_main_v46_apply]
  simp only [Ideal.addf_def, Ideal.mulf_def]
  have h45 : (val_main_v45 (F := Ideal) x1) (ix2 n d) = (val_main_v10 (F := Ideal) x1) (ix1 n) * (val_main_v10 (F := Ideal) x1) (ix1 n) := by
    unfold val_main_v45
    exact v45_like_at x0 x1 x2 x3 x4 x5 x6 x7 x8 x9 _ n d
  have h51 : (val_main_v51 (F := Ideal) x3) (ix2 n d) = (argsOf x0 x1 x2 x3 x4 x5 x6 x7 x8 x9).bg (ix2 (0 : Fin 3) d) := by
    unfold val_main_v51 val_main_v50 val_main_v49 val_main_v48
    exact (bcast_vec_rows_apply _ _ _ n d).trans (slice2_apply x3 0 (0 : Fin 3) rfl _ _ d)
  have h60 : (val_main_v60 (F := Ideal) x5) (ix2 n d) = (argsOf x0 x1 x2 x3 x4 x5 x6 x7 x8 x9).bl (ix2 (0 : Fin 3) d) := by
    unfold val_main_v60 val_main_v59 val_main_v58 val_main_v57
    exact (bcast_vec_rows_apply _ _ _ n d).trans (slice2_apply x5 0 (0 : Fin 3) rfl _ _ d)
  rw [h45, h51, h60]

theorem mean_L1 (d : Fin 128) :
    (val_main_v64 (F := Ideal) x0 x1 x2 x3 x4 x5) (ix1 d) = Ideal.div (0 + ∑ n : Fin 50000, (val_main_v61 (F := Ideal) x0 x1 x2 x3 x4 x5) (ix2 n d)) (Ideal.ofBits .f32 0x47435000#32) := by
  rw [val_main_v64_apply, Ideal.hostDivf_def, val_main_v62_apply]
  have hc : (val_main_v63 (F := Ideal)) (ix1 d) = Ideal.ofBits .f32 0x47435000#32 := by
    unfold val_main_v63 val_main_cst_10
    exact bcastF_at _ _ _
  have h0 : (val_main_cst_9 (F := Ideal)) (Shape.Idx.first h_S_) = 0 := (val_main_cst_9_apply _).trans zero_val
  rw [hc, h0]
  refine congrArg (fun t => Ideal.div ((0 : EReal) + t) (Ideal.ofBits .f32 0x47435000#32))
    (Finset.sum_congr rfl fun k _ => ?_)
  exact congrArg _ (funext fun a => Fin.ext (by match a with | ⟨0, _⟩ => rfl | ⟨1, _⟩ => rfl))

theorem var_L1 (d : Fin 128) :
    (val_main_v71 (F := Ideal) x0 x1 x2 x3 x4 x5) (ix1 d) = Ideal.div (0 + ∑ n : Fin 50000, ((val_main_v61 (F := Ideal) x0 x1 x2 x3 x4 x5) (ix2 n d) - (val_main_v64 (F := Ideal) x0 x1 x2 x3 x4 x5) (ix1 d))
      * ((val_main_v61 (F := Ideal) x0 x1 x2 x3 x4 x5) (ix2 n d) - (val_main_v64 (F := Ideal) x0 x1 x2 x3 x4 x5) (ix1 d))) (Ideal.ofBits .f32 0x47435000#32) := by
  rw [val_main_v71_apply, Ideal.hostDivf_def, val_main_v69_apply]
  have hc : (val_main_v70 (F := Ideal)) (ix1 d) = Ideal.ofBits .f32 0x47435000#32 := by
    unfold val_main_v70 val_main_cst_12
    exact bcastF_at _ _ _
  have h0 : (val_main_cst_11 (F := Ideal)) (Shape.Idx.first h_S_) = 0 := (val_main_cst_11_apply _).trans zero_val
  rw [hc, h0]
  refine congrArg (fun t => Ideal.div ((0 : EReal) + t) (Ideal.ofBits .f32 0x47435000#32))
    (Finset.sum_congr rfl fun k _ => ?_)
  rw [show idx_main_v69 (ix1 d) k = ix2 k d from (funext fun a => Fin.ext (by match a with | ⟨0, _⟩ => rfl | ⟨1, _⟩ => rfl)), val_main_v68_apply, val_main_v67_apply]
  simp only [Ideal.mulf_def, Ideal.subf_def]
  have h66 : (val_main_v66 (F := Ideal) x0 x1 x2 x3 x4 x5) (ix2 k d) = (val_main_v64 (F := Ideal) x0 x1 x2 x3 x4 x5) (ix1 d) := by
    unfold val_main_v66 val_main_v65
    exact bcast_vec_rows_apply _ _ _ k d
  rw [h66]

theorem newE_L1 (n : Fin 50000) (d : Fin 128) :
    (val_main_v91 (F := Ideal) x0 x1 x2 x3 x4 x5 x6 x7) (ix2 n d) = max (((((val_main_v61 (F := Ideal) x0 x1 x2 x3 x4 x5) (ix2 n d) - (val_main_v64 (F := Ideal) x0 x1 x2 x3 x4 x5) (ix1 d))
      * Ideal.rsqrt ((val_main_v71 (F := Ideal) x0 x1 x2 x3 x4 x5) (ix1 d) + Ideal.ofBits .f32 0x3727C5AC#32)) * (argsOf x0 x1 x2 x3 x4 x5 x6 x7 x8 x9).gamma (ix2 (0 : Fin 3) d))
      + (argsOf x0 x1 x2 x3 x4 x5 x6 x7 x8 x9).beta (ix2 (0 : Fin 3) d)) 0 := by
  rw [val_main_v91_apply, val_main_v90_apply, val_main_v85_apply, val_main_v80_apply, val_main_v74_apply]
  simp only [Ideal.maximumf_def, Ideal.addf_def, Ideal.mulf_def, Ideal.subf_def]
  have h73 : (val_main_v73 (F := Ideal) x0 x1 x2 x3 x4 x5) (ix2 n d) = (val_main_v64 (F := Ideal) x0 x1 x2 x3 x4 x5) (ix1 d) := by
    unfold val_main_v73 val_main_v72
    exact bcast_vec_rows_apply _ _ _ n d
  have h79 : (val_main_v79 (F := Ideal) x0 x1 x2 x3 x4 x5) (ix2 n d) = Ideal.rsqrt ((val_main_v71 (F := Ideal) x0 x1 x2 x3 x4 x5) (ix1 d) + Ideal.ofBits .f32 0x3727C5AC#32) := by
    unfold val_main_v79 val_main_v78
    refine (bcast_vec_rows_apply _ _ _ n d).trans ?_
    rw [val_main_v77_apply, Ideal.hostUnary_rsqrt_def, val_main_v76_apply, Ideal.addf_def]
    have h75 : (val_main_v75 (F := Ideal)) (ix1 d) = Ideal.ofBits .f32 0x3727C5AC#32 := by
      unfold val_main_v75 val_main_cst_13
      exact bcastF_at _ _ _
    rw [h75]
  have h84 : (val_main_v84 (F := Ideal) x6) (ix2 n d) = (argsOf x0 x1 x2 x3 x4 x5 x6 x7 x8 x9).gamma (ix2 (0 : Fin 3) d) := by
    unfold val_main_v84 val_main_v83 val_main_v82 val_main_v81
    exact (bcast_vec_rows_apply _ _ _ n d).trans (slice2_apply x6 0 (0 : Fin 3) rfl _ _ d)
  have h89 : (val_main_v89 (F := Ideal) x7) (ix2 n d) = (argsOf x0 x1 x2 x3 x4 x5 x6 x7 x8 x9).beta (ix2 (0 : Fin 3) d) := by
    unfold val_main_v89 val_main_v88 val_main_v87 val_main_v86
    exact (bcast_vec_rows_apply _ _ _ n d).trans (slice2_apply x7 0 (0 : Fin 3) rfl _ _ d)
  have hz : (val_main_call0_v0 (F := Ideal)) (ix2 n d) = 0 := by
    unfold val_main_call0_v0 val_main_call0_cst
    exact (bcastF_at _ _ _).trans zero_val
  rw [h73, h79, h84, h89, hz]

/-- Layer 1's output is the specification's. -/
theorem hnew_L1 (n : Fin 50000) (d : Fin 128) : (val_main_v91 (F := Ideal) x0 x1 x2 x3 x4 x5 x6 x7) (ix2 n d) = hR1 (argsOf x0 x1 x2 x3 x4 x5 x6 x7 x8 x9) n d :=
  layerR (argsOf x0 x1 x2 x3 x4 x5 x6 x7 x8 x9) (0 : Fin 3) (h0 (argsOf x0 x1 x2 x3 x4 x5 x6 x7 x8 x9)) x0 (val_main_v31 (F := Ideal) x0 x2) (val_main_v55 (F := Ideal) x0 x4) (val_main_v44 (F := Ideal) x0 x1 x2) (val_main_v61 (F := Ideal) x0 x1 x2 x3 x4 x5) (val_main_v91 (F := Ideal) x0 x1 x2 x3 x4 x5 x6 x7) (val_main_v38 (F := Ideal) x0 x1 x2) (val_main_v41 (F := Ideal) x0 x1 x2) (val_main_v30 (F := Ideal) x2) (val_main_v54 (F := Ideal) x4)
    (val_main_v10 (F := Ideal) x1) (val_main_v25 (F := Ideal) x1) (val_main_v64 (F := Ideal) x0 x1 x2 x3 x4 x5) (val_main_v71 (F := Ideal) x0 x1 x2 x3 x4 x5)
    (fun _ _ => rfl) (Wg_L1 x0 x1 x2 x3 x4 x5 x6 x7 x8 x9) (Wl_L1 x0 x1 x2 x3 x4 x5 x6 x7 x8 x9) (v10_at x0 x1 x2 x3 x4 x5 x6 x7 x8 x9) (mg_L1 x0 x1 x2 x3 x4 x5 x6 x7 x8 x9) (ml_L1 x0 x1 x2 x3 x4 x5 x6 x7 x8 x9)
    (v25_at x0 x1 x2 x3 x4 x5 x6 x7 x8 x9) (gath_L1 x0 x1 x2 x3 x4 x5 x6 x7 x8 x9) (msg_L1 x0 x1 x2 x3 x4 x5 x6 x7 x8 x9) (agg_L1 x0 x1 x2 x3 x4 x5 x6 x7 x8 x9) (pre_L1 x0 x1 x2 x3 x4 x5 x6 x7 x8 x9) (mean_L1 x0 x1 x2 x3 x4 x5 x6 x7 x8 x9) (var_L1 x0 x1 x2 x3 x4 x5 x6 x7 x8 x9)
    (newE_L1 x0 x1 x2 x3 x4 x5 x6 x7 x8 x9) n d

/-- The running sum after layer 1. -/
theorem xsum_L1 (n : Fin 50000) (d : Fin 128) : (val_main_v92 (F := Ideal) x0 x1 x2 x3 x4 x5 x6 x7) (ix2 n d) = xR1 (argsOf x0 x1 x2 x3 x4 x5 x6 x7 x8 x9) n d :=
  xR1_of (argsOf x0 x1 x2 x3 x4 x5 x6 x7 x8 x9) (val_main_v28 (F := Ideal)) (val_main_v91 (F := Ideal) x0 x1 x2 x3 x4 x5 x6 x7) (val_main_v92 (F := Ideal) x0 x1 x2 x3 x4 x5 x6 x7)
    (fun i => by unfold val_main_v28 val_main_cst_5; exact (bcastF_at _ _ i).trans zero_val)
    (hnew_L1 x0 x1 x2 x3 x4 x5 x6 x7 x8 x9) (fun i => by rw [val_main_v92_apply, Ideal.addf_def]) n d

/-! ## Layer 2 -/

theorem Wg_L2 (k d : Fin 128) : (val_main_v94 (F := Ideal) x2) (ix2 k d) = (argsOf x0 x1 x2 x3 x4 x5 x6 x7 x8 x9).Wg (ix3 (1 : Fin 3) k d) := by
  unfold val_main_v94 val_main_v93
  exact slice3_apply x2 1 (1 : Fin 3) rfl _ _ k d

theorem Wl_L2 (k d : Fin 128) : (val_main_v118 (F := Ideal) x4) (ix2 k d) = (argsOf x0 x1 x2 x3 x4 x5 x6 x7 x8 x9).Wl (ix3 (1 : Fin 3) k d) := by
  unfold val_main_v118 val_main_v117
  exact slice3_apply x4 1 (1 : Fin 3) rfl _ _ k d

theorem mg_L2 (n : Fin 50000) (d : Fin 128) :
    (val_main_v95 (F := Ideal) x0 x1 x2 x3 x4 x5 x6 x7) (ix2 n d) = ∑ k : Fin 128, (val_main_v91 (F := Ideal) x0 x1 x2 x3 x4 x5 x6 x7) (ix2 n k) * (val_main_v94 (F := Ideal) x2) (ix2 k d) := by
  refine (val_main_v95_apply x0 x1 x2 x3 x4 x5 x6 x7 (ix2 n d)).trans (Finset.sum_congr rfl fun k _ => ?_)
  rw [show lidx_main_v95 (ix2 n d) k = ix2 n k from (funext fun a => Fin.ext (by match a with | ⟨0, _⟩ => rfl | ⟨1, _⟩ => rfl)),
    show ridx_main_v95 (ix2 n d) k = ix2 k d from (funext fun a => Fin.ext (by match a with | ⟨0, _⟩ => rfl | ⟨1, _⟩ => rfl))]

theorem ml_L2 (n : Fin 50000) (d : Fin 128) :
    (val_main_v119 (F := Ideal) x0 x1 x2 x3 x4 x5 x6 x7) (ix2 n d) = ∑ k : Fin 128, (val_main_v91 (F := Ideal) x0 x1 x2 x3 x4 x5 x6 x7) (ix2 n k) * (val_main_v118 (F := Ideal) x4) (ix2 k d) := by
  refine (val_main_v119_apply x0 x1 x2 x3 x4 x5 x6 x7 (ix2 n d)).trans (Finset.sum_congr rfl fun k _ => ?_)
  rw [show lidx_main_v119 (ix2 n d) k = ix2 n k from (funext fun a => Fin.ext (by match a with | ⟨0, _⟩ => rfl | ⟨1, _⟩ => rfl)),
    show ridx_main_v119 (ix2 n d) k = ix2 k d from (funext fun a => Fin.ext (by match a with | ⟨0, _⟩ => rfl | ⟨1, _⟩ => rfl))]

theorem srccol_L2 (e : Fin 600000) : (val_main_v101 (F := Ideal) x1) (edgeAt e) = wrapIdx (srcRaw (argsOf x0 x1 x2 x3 x4 x5 x6 x7 x8 x9) e) := by
  unfold val_main_v101
  refine (bcast_col_apply _ _ e).trans ?_
  rw [val_main_v100_apply, val_main_v97_apply, val_main_v99_apply]
  exact wrap_src_at x0 x1 x2 x3 x4 x5 x6 x7 x8 x9 _ _
    (fun i => by unfold val_main_v96 val_main_c_14; exact bcastI_at _ _ i)
    (fun i => by unfold val_main_v98 val_main_c_15; exact bcastI_at _ _ i) e

theorem rawcol_L2 (e : Fin 600000) : (val_main_v107 (F := Ideal) x1) (edgeAt e) = dstRaw (argsOf x0 x1 x2 x3 x4 x5 x6 x7 x8 x9) e := by
  unfold val_main_v107
  exact (bcast_col_apply _ _ e).trans (v3_at x0 x1 x2 x3 x4 x5 x6 x7 x8 x9 e)

theorem gath_L2 (e : Fin 600000) (k : Fin 128) :
    (val_main_v102 (F := Ideal) x0 x1 x2 x3 x4 x5 x6 x7) (ix2 e k) = (val_main_v95 (F := Ideal) x0 x1 x2 x3 x4 x5 x6 x7) (ix2 ((Gr (argsOf x0 x1 x2 x3 x4 x5 x6 x7 x8 x9)).srcc e) k) := by
  unfold val_main_v102
  exact gather_rows_src (argsOf x0 x1 x2 x3 x4 x5 x6 x7 x8 x9) _ (val_main_v95 (F := Ideal) x0 x1 x2 x3 x4 x5 x6 x7) (val_main_v101 (F := Ideal) x1) (srccol_L2 x0 x1 x2 x3 x4 x5 x6 x7 x8 x9) e k

theorem msg_L2 (e : Fin 600000) (k : Fin 128) :
    (val_main_v105 (F := Ideal) x0 x1 x2 x3 x4 x5 x6 x7) (ix2 e k) = (val_main_v102 (F := Ideal) x0 x1 x2 x3 x4 x5 x6 x7) (ix2 e k) * (val_main_v25 (F := Ideal) x1) (ix1 e) := by
  rw [val_main_v105_apply, Ideal.mulf_def]
  refine congrArg (fun t => (val_main_v102 (F := Ideal) x0 x1 x2 x3 x4 x5 x6 x7) (ix2 e k) * t) ?_
  unfold val_main_v104 val_main_v103
  exact v40_like_at x0 x1 x2 x3 x4 x5 x6 x7 x8 x9 _ _ e k

theorem agg_L2 (n : Fin 50000) (k : Fin 128) :
    (val_main_v108 (F := Ideal) x0 x1 x2 x3 x4 x5 x6 x7) (ix2 n k)
      = 0 + ∑ e ∈ Finset.univ.filter (fun e => (Gr (argsOf x0 x1 x2 x3 x4 x5 x6 x7 x8 x9)).lands e n), (val_main_v105 (F := Ideal) x0 x1 x2 x3 x4 x5 x6 x7) (ix2 e k) := by
  unfold val_main_v108
  exact scatter_rows_raw (argsOf x0 x1 x2 x3 x4 x5 x6 x7 x8 x9) _ (val_main_v106 (F := Ideal)) (val_main_v107 (F := Ideal) x1) (val_main_v105 (F := Ideal) x0 x1 x2 x3 x4 x5 x6 x7)
    (fun i => by unfold val_main_v106 val_main_cst_16; exact (bcastF_at _ _ i).trans zero_val)
    (rawcol_L2 x0 x1 x2 x3 x4 x5 x6 x7 x8 x9) n k

theorem pre_L2 (n : Fin 50000) (d : Fin 128) :
    (val_main_v125 (F := Ideal) x0 x1 x2 x3 x4 x5 x6 x7) (ix2 n d) = ((((val_main_v108 (F := Ideal) x0 x1 x2 x3 x4 x5 x6 x7) (ix2 n d) + (val_main_v95 (F := Ideal) x0 x1 x2 x3 x4 x5 x6 x7) (ix2 n d) * ((val_main_v10 (F := Ideal) x1) (ix1 n) * (val_main_v10 (F := Ideal) x1) (ix1 n)))
      + (argsOf x0 x1 x2 x3 x4 x5 x6 x7 x8 x9).bg (ix2 (1 : Fin 3) d)) + (val_main_v119 (F := Ideal) x0 x1 x2 x3 x4 x5 x6 x7) (ix2 n d)) + (argsOf x0 x1 x2 x3 x4 x5 x6 x7 x8 x9).bl (ix2 (1 : Fin 3) d) := by
  rw [val_main_v125_apply, val_main_v120_apply, val_main_v116_apply, val_main_v111_apply, val_main_v110_apply]
  simp only [Ideal.addf_def, Ideal.mulf_def]
  have h45 : (val_main_v109 (F := Ideal) x1) (ix2 n d) = (val_main_v10 (F := Ideal) x1) (ix1 n) * (val_main_v10 (F := Ideal) x1) (ix1 n) := by
    unfold val_main_v109
    exact v45_like_at x0 x1 x2 x3 x4 x5 x6 x7 x8 x9 _ n d
  have h51 : (val_main_v115 (F := Ideal) x3) (ix2 n d) = (argsOf x0 x1 x2 x3 x4 x5 x6 x7 x8 x9).bg (ix2 (1 : Fin 3) d) := by
    unfold val_main_v115 val_main_v114 val_main_v113 val_main_v112
    exact (bcast_vec_rows_apply _ _ _ n d).trans (slice2_apply x3 1 (1 : Fin 3) rfl _ _ d)
  have h60 : (val_main_v124 (F := Ideal) x5) (ix2 n d) = (argsOf x0 x1 x2 x3 x4 x5 x6 x7 x8 x9).bl (ix2 (1 : Fin 3) d) := by
    unfold val_main_v124 val_main_v123 val_main_v122 val_main_v121
    exact (bcast_vec_rows_apply _ _ _ n d).trans (slice2_apply x5 1 (1 : Fin 3) rfl _ _ d)
  rw [h45, h51, h60]

theorem mean_L2 (d : Fin 128) :
    (val_main_v128 (F := Ideal) x0 x1 x2 x3 x4 x5 x6 x7) (ix1 d) = Ideal.div (0 + ∑ n : Fin 50000, (val_main_v125 (F := Ideal) x0 x1 x2 x3 x4 x5 x6 x7) (ix2 n d)) (Ideal.ofBits .f32 0x47435000#32) := by
  rw [val_main_v128_apply, Ideal.hostDivf_def, val_main_v126_apply]
  have hc : (val_main_v127 (F := Ideal)) (ix1 d) = Ideal.ofBits .f32 0x47435000#32 := by
    unfold val_main_v127 val_main_cst_18
    exact bcastF_at _ _ _
  have h0 : (val_main_cst_17 (F := Ideal)) (Shape.Idx.first h_S_) = 0 := (val_main_cst_17_apply _).trans zero_val
  rw [hc, h0]
  refine congrArg (fun t => Ideal.div ((0 : EReal) + t) (Ideal.ofBits .f32 0x47435000#32))
    (Finset.sum_congr rfl fun k _ => ?_)
  exact congrArg _ (funext fun a => Fin.ext (by match a with | ⟨0, _⟩ => rfl | ⟨1, _⟩ => rfl))

theorem var_L2 (d : Fin 128) :
    (val_main_v135 (F := Ideal) x0 x1 x2 x3 x4 x5 x6 x7) (ix1 d) = Ideal.div (0 + ∑ n : Fin 50000, ((val_main_v125 (F := Ideal) x0 x1 x2 x3 x4 x5 x6 x7) (ix2 n d) - (val_main_v128 (F := Ideal) x0 x1 x2 x3 x4 x5 x6 x7) (ix1 d))
      * ((val_main_v125 (F := Ideal) x0 x1 x2 x3 x4 x5 x6 x7) (ix2 n d) - (val_main_v128 (F := Ideal) x0 x1 x2 x3 x4 x5 x6 x7) (ix1 d))) (Ideal.ofBits .f32 0x47435000#32) := by
  rw [val_main_v135_apply, Ideal.hostDivf_def, val_main_v133_apply]
  have hc : (val_main_v134 (F := Ideal)) (ix1 d) = Ideal.ofBits .f32 0x47435000#32 := by
    unfold val_main_v134 val_main_cst_20
    exact bcastF_at _ _ _
  have h0 : (val_main_cst_19 (F := Ideal)) (Shape.Idx.first h_S_) = 0 := (val_main_cst_19_apply _).trans zero_val
  rw [hc, h0]
  refine congrArg (fun t => Ideal.div ((0 : EReal) + t) (Ideal.ofBits .f32 0x47435000#32))
    (Finset.sum_congr rfl fun k _ => ?_)
  rw [show idx_main_v133 (ix1 d) k = ix2 k d from (funext fun a => Fin.ext (by match a with | ⟨0, _⟩ => rfl | ⟨1, _⟩ => rfl)), val_main_v132_apply, val_main_v131_apply]
  simp only [Ideal.mulf_def, Ideal.subf_def]
  have h66 : (val_main_v130 (F := Ideal) x0 x1 x2 x3 x4 x5 x6 x7) (ix2 k d) = (val_main_v128 (F := Ideal) x0 x1 x2 x3 x4 x5 x6 x7) (ix1 d) := by
    unfold val_main_v130 val_main_v129
    exact bcast_vec_rows_apply _ _ _ k d
  rw [h66]

theorem newE_L2 (n : Fin 50000) (d : Fin 128) :
    (val_main_v155 (F := Ideal) x0 x1 x2 x3 x4 x5 x6 x7) (ix2 n d) = max (((((val_main_v125 (F := Ideal) x0 x1 x2 x3 x4 x5 x6 x7) (ix2 n d) - (val_main_v128 (F := Ideal) x0 x1 x2 x3 x4 x5 x6 x7) (ix1 d))
      * Ideal.rsqrt ((val_main_v135 (F := Ideal) x0 x1 x2 x3 x4 x5 x6 x7) (ix1 d) + Ideal.ofBits .f32 0x3727C5AC#32)) * (argsOf x0 x1 x2 x3 x4 x5 x6 x7 x8 x9).gamma (ix2 (1 : Fin 3) d))
      + (argsOf x0 x1 x2 x3 x4 x5 x6 x7 x8 x9).beta (ix2 (1 : Fin 3) d)) 0 := by
  rw [val_main_v155_apply, val_main_v154_apply, val_main_v149_apply, val_main_v144_apply, val_main_v138_apply]
  simp only [Ideal.maximumf_def, Ideal.addf_def, Ideal.mulf_def, Ideal.subf_def]
  have h73 : (val_main_v137 (F := Ideal) x0 x1 x2 x3 x4 x5 x6 x7) (ix2 n d) = (val_main_v128 (F := Ideal) x0 x1 x2 x3 x4 x5 x6 x7) (ix1 d) := by
    unfold val_main_v137 val_main_v136
    exact bcast_vec_rows_apply _ _ _ n d
  have h79 : (val_main_v143 (F := Ideal) x0 x1 x2 x3 x4 x5 x6 x7) (ix2 n d) = Ideal.rsqrt ((val_main_v135 (F := Ideal) x0 x1 x2 x3 x4 x5 x6 x7) (ix1 d) + Ideal.ofBits .f32 0x3727C5AC#32) := by
    unfold val_main_v143 val_main_v142
    refine (bcast_vec_rows_apply _ _ _ n d).trans ?_
    rw [val_main_v141_apply, Ideal.hostUnary_rsqrt_def, val_main_v140_apply, Ideal.addf_def]
    have h75 : (val_main_v139 (F := Ideal)) (ix1 d) = Ideal.ofBits .f32 0x3727C5AC#32 := by
      unfold val_main_v139 val_main_cst_21
      exact bcastF_at _ _ _
    rw [h75]
  have h84 : (val_main_v148 (F := Ideal) x6) (ix2 n d) = (argsOf x0 x1 x2 x3 x4 x5 x6 x7 x8 x9).gamma (ix2 (1 : Fin 3) d) := by
    unfold val_main_v148 val_main_v147 val_main_v146 val_main_v145
    exact (bcast_vec_rows_apply _ _ _ n d).trans (slice2_apply x6 1 (1 : Fin 3) rfl _ _ d)
  have h89 : (val_main_v153 (F := Ideal) x7) (ix2 n d) = (argsOf x0 x1 x2 x3 x4 x5 x6 x7 x8 x9).beta (ix2 (1 : Fin 3) d) := by
    unfold val_main_v153 val_main_v152 val_main_v151 val_main_v150
    exact (bcast_vec_rows_apply _ _ _ n d).trans (slice2_apply x7 1 (1 : Fin 3) rfl _ _ d)
  have hz : (val_main_call1_v0 (F := Ideal)) (ix2 n d) = 0 := by
    unfold val_main_call1_v0 val_main_call1_cst
    exact (bcastF_at _ _ _).trans zero_val
  rw [h73, h79, h84, h89, hz]

/-- Layer 2's output is the specification's. -/
theorem hnew_L2 (n : Fin 50000) (d : Fin 128) : (val_main_v155 (F := Ideal) x0 x1 x2 x3 x4 x5 x6 x7) (ix2 n d) = hR2 (argsOf x0 x1 x2 x3 x4 x5 x6 x7 x8 x9) n d :=
  layerR (argsOf x0 x1 x2 x3 x4 x5 x6 x7 x8 x9) (1 : Fin 3) (hR1 (argsOf x0 x1 x2 x3 x4 x5 x6 x7 x8 x9)) (val_main_v91 (F := Ideal) x0 x1 x2 x3 x4 x5 x6 x7) (val_main_v95 (F := Ideal) x0 x1 x2 x3 x4 x5 x6 x7) (val_main_v119 (F := Ideal) x0 x1 x2 x3 x4 x5 x6 x7) (val_main_v108 (F := Ideal) x0 x1 x2 x3 x4 x5 x6 x7) (val_main_v125 (F := Ideal) x0 x1 x2 x3 x4 x5 x6 x7) (val_main_v155 (F := Ideal) x0 x1 x2 x3 x4 x5 x6 x7) (val_main_v102 (F := Ideal) x0 x1 x2 x3 x4 x5 x6 x7) (val_main_v105 (F := Ideal) x0 x1 x2 x3 x4 x5 x6 x7) (val_main_v94 (F := Ideal) x2) (val_main_v118 (F := Ideal) x4)
    (val_main_v10 (F := Ideal) x1) (val_main_v25 (F := Ideal) x1) (val_main_v128 (F := Ideal) x0 x1 x2 x3 x4 x5 x6 x7) (val_main_v135 (F := Ideal) x0 x1 x2 x3 x4 x5 x6 x7)
    (hnew_L1 x0 x1 x2 x3 x4 x5 x6 x7 x8 x9) (Wg_L2 x0 x1 x2 x3 x4 x5 x6 x7 x8 x9) (Wl_L2 x0 x1 x2 x3 x4 x5 x6 x7 x8 x9) (v10_at x0 x1 x2 x3 x4 x5 x6 x7 x8 x9) (mg_L2 x0 x1 x2 x3 x4 x5 x6 x7 x8 x9) (ml_L2 x0 x1 x2 x3 x4 x5 x6 x7 x8 x9)
    (v25_at x0 x1 x2 x3 x4 x5 x6 x7 x8 x9) (gath_L2 x0 x1 x2 x3 x4 x5 x6 x7 x8 x9) (msg_L2 x0 x1 x2 x3 x4 x5 x6 x7 x8 x9) (agg_L2 x0 x1 x2 x3 x4 x5 x6 x7 x8 x9) (pre_L2 x0 x1 x2 x3 x4 x5 x6 x7 x8 x9) (mean_L2 x0 x1 x2 x3 x4 x5 x6 x7 x8 x9) (var_L2 x0 x1 x2 x3 x4 x5 x6 x7 x8 x9)
    (newE_L2 x0 x1 x2 x3 x4 x5 x6 x7 x8 x9) n d

/-- The running sum after layer 2. -/
theorem xsum_L2 (n : Fin 50000) (d : Fin 128) : (val_main_v156 (F := Ideal) x0 x1 x2 x3 x4 x5 x6 x7) (ix2 n d) = xR2 (argsOf x0 x1 x2 x3 x4 x5 x6 x7 x8 x9) n d :=
  xR2_of (argsOf x0 x1 x2 x3 x4 x5 x6 x7 x8 x9) (val_main_v92 (F := Ideal) x0 x1 x2 x3 x4 x5 x6 x7) (val_main_v155 (F := Ideal) x0 x1 x2 x3 x4 x5 x6 x7) (val_main_v156 (F := Ideal) x0 x1 x2 x3 x4 x5 x6 x7)
    (xsum_L1 x0 x1 x2 x3 x4 x5 x6 x7 x8 x9)
    (hnew_L2 x0 x1 x2 x3 x4 x5 x6 x7 x8 x9) (fun i => by rw [val_main_v156_apply, Ideal.addf_def]) n d

/-! ## Layer 3 -/

theorem Wg_L3 (k d : Fin 128) : (val_main_v158 (F := Ideal) x2) (ix2 k d) = (argsOf x0 x1 x2 x3 x4 x5 x6 x7 x8 x9).Wg (ix3 (2 : Fin 3) k d) := by
  unfold val_main_v158 val_main_v157
  exact slice3_apply x2 2 (2 : Fin 3) rfl _ _ k d

theorem Wl_L3 (k d : Fin 128) : (val_main_v182 (F := Ideal) x4) (ix2 k d) = (argsOf x0 x1 x2 x3 x4 x5 x6 x7 x8 x9).Wl (ix3 (2 : Fin 3) k d) := by
  unfold val_main_v182 val_main_v181
  exact slice3_apply x4 2 (2 : Fin 3) rfl _ _ k d

theorem mg_L3 (n : Fin 50000) (d : Fin 128) :
    (val_main_v159 (F := Ideal) x0 x1 x2 x3 x4 x5 x6 x7) (ix2 n d) = ∑ k : Fin 128, (val_main_v155 (F := Ideal) x0 x1 x2 x3 x4 x5 x6 x7) (ix2 n k) * (val_main_v158 (F := Ideal) x2) (ix2 k d) := by
  refine (val_main_v159_apply x0 x1 x2 x3 x4 x5 x6 x7 (ix2 n d)).trans (Finset.sum_congr rfl fun k _ => ?_)
  rw [show lidx_main_v159 (ix2 n d) k = ix2 n k from (funext fun a => Fin.ext (by match a with | ⟨0, _⟩ => rfl | ⟨1, _⟩ => rfl)),
    show ridx_main_v159 (ix2 n d) k = ix2 k d from (funext fun a => Fin.ext (by match a with | ⟨0, _⟩ => rfl | ⟨1, _⟩ => rfl))]

theorem ml_L3 (n : Fin 50000) (d : Fin 128) :
    (val_main_v183 (F := Ideal) x0 x1 x2 x3 x4 x5 x6 x7) (ix2 n d) = ∑ k : Fin 128, (val_main_v155 (F := Ideal) x0 x1 x2 x3 x4 x5 x6 x7) (ix2 n k) * (val_main_v182 (F := Ideal) x4) (ix2 k d) := by
  refine (val_main_v183_apply x0 x1 x2 x3 x4 x5 x6 x7 (ix2 n d)).trans (Finset.sum_congr rfl fun k _ => ?_)
  rw [show lidx_main_v183 (ix2 n d) k = ix2 n k from (funext fun a => Fin.ext (by match a with | ⟨0, _⟩ => rfl | ⟨1, _⟩ => rfl)),
    show ridx_main_v183 (ix2 n d) k = ix2 k d from (funext fun a => Fin.ext (by match a with | ⟨0, _⟩ => rfl | ⟨1, _⟩ => rfl))]

theorem srccol_L3 (e : Fin 600000) : (val_main_v165 (F := Ideal) x1) (edgeAt e) = wrapIdx (srcRaw (argsOf x0 x1 x2 x3 x4 x5 x6 x7 x8 x9) e) := by
  unfold val_main_v165
  refine (bcast_col_apply _ _ e).trans ?_
  rw [val_main_v164_apply, val_main_v161_apply, val_main_v163_apply]
  exact wrap_src_at x0 x1 x2 x3 x4 x5 x6 x7 x8 x9 _ _
    (fun i => by unfold val_main_v160 val_main_c_22; exact bcastI_at _ _ i)
    (fun i => by unfold val_main_v162 val_main_c_23; exact bcastI_at _ _ i) e

theorem rawcol_L3 (e : Fin 600000) : (val_main_v171 (F := Ideal) x1) (edgeAt e) = dstRaw (argsOf x0 x1 x2 x3 x4 x5 x6 x7 x8 x9) e := by
  unfold val_main_v171
  exact (bcast_col_apply _ _ e).trans (v3_at x0 x1 x2 x3 x4 x5 x6 x7 x8 x9 e)

theorem gath_L3 (e : Fin 600000) (k : Fin 128) :
    (val_main_v166 (F := Ideal) x0 x1 x2 x3 x4 x5 x6 x7) (ix2 e k) = (val_main_v159 (F := Ideal) x0 x1 x2 x3 x4 x5 x6 x7) (ix2 ((Gr (argsOf x0 x1 x2 x3 x4 x5 x6 x7 x8 x9)).srcc e) k) := by
  unfold val_main_v166
  exact gather_rows_src (argsOf x0 x1 x2 x3 x4 x5 x6 x7 x8 x9) _ (val_main_v159 (F := Ideal) x0 x1 x2 x3 x4 x5 x6 x7) (val_main_v165 (F := Ideal) x1) (srccol_L3 x0 x1 x2 x3 x4 x5 x6 x7 x8 x9) e k

theorem msg_L3 (e : Fin 600000) (k : Fin 128) :
    (val_main_v169 (F := Ideal) x0 x1 x2 x3 x4 x5 x6 x7) (ix2 e k) = (val_main_v166 (F := Ideal) x0 x1 x2 x3 x4 x5 x6 x7) (ix2 e k) * (val_main_v25 (F := Ideal) x1) (ix1 e) := by
  rw [val_main_v169_apply, Ideal.mulf_def]
  refine congrArg (fun t => (val_main_v166 (F := Ideal) x0 x1 x2 x3 x4 x5 x6 x7) (ix2 e k) * t) ?_
  unfold val_main_v168 val_main_v167
  exact v40_like_at x0 x1 x2 x3 x4 x5 x6 x7 x8 x9 _ _ e k

theorem agg_L3 (n : Fin 50000) (k : Fin 128) :
    (val_main_v172 (F := Ideal) x0 x1 x2 x3 x4 x5 x6 x7) (ix2 n k)
      = 0 + ∑ e ∈ Finset.univ.filter (fun e => (Gr (argsOf x0 x1 x2 x3 x4 x5 x6 x7 x8 x9)).lands e n), (val_main_v169 (F := Ideal) x0 x1 x2 x3 x4 x5 x6 x7) (ix2 e k) := by
  unfold val_main_v172
  exact scatter_rows_raw (argsOf x0 x1 x2 x3 x4 x5 x6 x7 x8 x9) _ (val_main_v170 (F := Ideal)) (val_main_v171 (F := Ideal) x1) (val_main_v169 (F := Ideal) x0 x1 x2 x3 x4 x5 x6 x7)
    (fun i => by unfold val_main_v170 val_main_cst_24; exact (bcastF_at _ _ i).trans zero_val)
    (rawcol_L3 x0 x1 x2 x3 x4 x5 x6 x7 x8 x9) n k

theorem pre_L3 (n : Fin 50000) (d : Fin 128) :
    (val_main_v189 (F := Ideal) x0 x1 x2 x3 x4 x5 x6 x7) (ix2 n d) = ((((val_main_v172 (F := Ideal) x0 x1 x2 x3 x4 x5 x6 x7) (ix2 n d) + (val_main_v159 (F := Ideal) x0 x1 x2 x3 x4 x5 x6 x7) (ix2 n d) * ((val_main_v10 (F := Ideal) x1) (ix1 n) * (val_main_v10 (F := Ideal) x1) (ix1 n)))
      + (argsOf x0 x1 x2 x3 x4 x5 x6 x7 x8 x9).bg (ix2 (2 : Fin 3) d)) + (val_main_v183 (F := Ideal) x0 x1 x2 x3 x4 x5 x6 x7) (ix2 n d)) + (argsOf x0 x1 x2 x3 x4 x5 x6 x7 x8 x9).bl (ix2 (2 : Fin 3) d) := by
  rw [val_main_v189_apply, val_main_v184_apply, val_main_v180_apply, val_main_v175_apply, val_main_v174_apply]
  simp only [Ideal.addf_def, Ideal.mulf_def]
  have h45 : (val_main_v173 (F := Ideal) x1) (ix2 n d) = (val_main_v10 (F := Ideal) x1) (ix1 n) * (val_main_v10 (F := Ideal) x1) (ix1 n) := by
    unfold val_main_v173
    exact v45_like_at x0 x1 x2 x3 x4 x5 x6 x7 x8 x9 _ n d
  have h51 : (val_main_v179 (F := Ideal) x3) (ix2 n d) = (argsOf x0 x1 x2 x3 x4 x5 x6 x7 x8 x9).bg (ix2 (2 : Fin 3) d) := by
    unfold val_main_v179 val_main_v178 val_main_v177 val_main_v176
    exact (bcast_vec_rows_apply _ _ _ n d).trans (slice2_apply x3 2 (2 : Fin 3) rfl _ _ d)
  have h60 : (val_main_v188 (F := Ideal) x5) (ix2 n d) = (argsOf x0 x1 x2 x3 x4 x5 x6 x7 x8 x9).bl (ix2 (2 : Fin 3) d) := by
    unfold val_main_v188 val_main_v187 val_main_v186 val_main_v185
    exact (bcast_vec_rows_apply _ _ _ n d).trans (slice2_apply x5 2 (2 : Fin 3) rfl _ _ d)
  rw [h45, h51, h60]

theorem mean_L3 (d : Fin 128) :
    (val_main_v192 (F := Ideal) x0 x1 x2 x3 x4 x5 x6 x7) (ix1 d) = Ideal.div (0 + ∑ n : Fin 50000, (val_main_v189 (F := Ideal) x0 x1 x2 x3 x4 x5 x6 x7) (ix2 n d)) (Ideal.ofBits .f32 0x47435000#32) := by
  rw [val_main_v192_apply, Ideal.hostDivf_def, val_main_v190_apply]
  have hc : (val_main_v191 (F := Ideal)) (ix1 d) = Ideal.ofBits .f32 0x47435000#32 := by
    unfold val_main_v191 val_main_cst_26
    exact bcastF_at _ _ _
  have h0 : (val_main_cst_25 (F := Ideal)) (Shape.Idx.first h_S_) = 0 := (val_main_cst_25_apply _).trans zero_val
  rw [hc, h0]
  refine congrArg (fun t => Ideal.div ((0 : EReal) + t) (Ideal.ofBits .f32 0x47435000#32))
    (Finset.sum_congr rfl fun k _ => ?_)
  exact congrArg _ (funext fun a => Fin.ext (by match a with | ⟨0, _⟩ => rfl | ⟨1, _⟩ => rfl))

theorem var_L3 (d : Fin 128) :
    (val_main_v199 (F := Ideal) x0 x1 x2 x3 x4 x5 x6 x7) (ix1 d) = Ideal.div (0 + ∑ n : Fin 50000, ((val_main_v189 (F := Ideal) x0 x1 x2 x3 x4 x5 x6 x7) (ix2 n d) - (val_main_v192 (F := Ideal) x0 x1 x2 x3 x4 x5 x6 x7) (ix1 d))
      * ((val_main_v189 (F := Ideal) x0 x1 x2 x3 x4 x5 x6 x7) (ix2 n d) - (val_main_v192 (F := Ideal) x0 x1 x2 x3 x4 x5 x6 x7) (ix1 d))) (Ideal.ofBits .f32 0x47435000#32) := by
  rw [val_main_v199_apply, Ideal.hostDivf_def, val_main_v197_apply]
  have hc : (val_main_v198 (F := Ideal)) (ix1 d) = Ideal.ofBits .f32 0x47435000#32 := by
    unfold val_main_v198 val_main_cst_28
    exact bcastF_at _ _ _
  have h0 : (val_main_cst_27 (F := Ideal)) (Shape.Idx.first h_S_) = 0 := (val_main_cst_27_apply _).trans zero_val
  rw [hc, h0]
  refine congrArg (fun t => Ideal.div ((0 : EReal) + t) (Ideal.ofBits .f32 0x47435000#32))
    (Finset.sum_congr rfl fun k _ => ?_)
  rw [show idx_main_v197 (ix1 d) k = ix2 k d from (funext fun a => Fin.ext (by match a with | ⟨0, _⟩ => rfl | ⟨1, _⟩ => rfl)), val_main_v196_apply, val_main_v195_apply]
  simp only [Ideal.mulf_def, Ideal.subf_def]
  have h66 : (val_main_v194 (F := Ideal) x0 x1 x2 x3 x4 x5 x6 x7) (ix2 k d) = (val_main_v192 (F := Ideal) x0 x1 x2 x3 x4 x5 x6 x7) (ix1 d) := by
    unfold val_main_v194 val_main_v193
    exact bcast_vec_rows_apply _ _ _ k d
  rw [h66]

theorem newE_L3 (n : Fin 50000) (d : Fin 128) :
    (val_main_v219 (F := Ideal) x0 x1 x2 x3 x4 x5 x6 x7) (ix2 n d) = max (((((val_main_v189 (F := Ideal) x0 x1 x2 x3 x4 x5 x6 x7) (ix2 n d) - (val_main_v192 (F := Ideal) x0 x1 x2 x3 x4 x5 x6 x7) (ix1 d))
      * Ideal.rsqrt ((val_main_v199 (F := Ideal) x0 x1 x2 x3 x4 x5 x6 x7) (ix1 d) + Ideal.ofBits .f32 0x3727C5AC#32)) * (argsOf x0 x1 x2 x3 x4 x5 x6 x7 x8 x9).gamma (ix2 (2 : Fin 3) d))
      + (argsOf x0 x1 x2 x3 x4 x5 x6 x7 x8 x9).beta (ix2 (2 : Fin 3) d)) 0 := by
  rw [val_main_v219_apply, val_main_v218_apply, val_main_v213_apply, val_main_v208_apply, val_main_v202_apply]
  simp only [Ideal.maximumf_def, Ideal.addf_def, Ideal.mulf_def, Ideal.subf_def]
  have h73 : (val_main_v201 (F := Ideal) x0 x1 x2 x3 x4 x5 x6 x7) (ix2 n d) = (val_main_v192 (F := Ideal) x0 x1 x2 x3 x4 x5 x6 x7) (ix1 d) := by
    unfold val_main_v201 val_main_v200
    exact bcast_vec_rows_apply _ _ _ n d
  have h79 : (val_main_v207 (F := Ideal) x0 x1 x2 x3 x4 x5 x6 x7) (ix2 n d) = Ideal.rsqrt ((val_main_v199 (F := Ideal) x0 x1 x2 x3 x4 x5 x6 x7) (ix1 d) + Ideal.ofBits .f32 0x3727C5AC#32) := by
    unfold val_main_v207 val_main_v206
    refine (bcast_vec_rows_apply _ _ _ n d).trans ?_
    rw [val_main_v205_apply, Ideal.hostUnary_rsqrt_def, val_main_v204_apply, Ideal.addf_def]
    have h75 : (val_main_v203 (F := Ideal)) (ix1 d) = Ideal.ofBits .f32 0x3727C5AC#32 := by
      unfold val_main_v203 val_main_cst_29
      exact bcastF_at _ _ _
    rw [h75]
  have h84 : (val_main_v212 (F := Ideal) x6) (ix2 n d) = (argsOf x0 x1 x2 x3 x4 x5 x6 x7 x8 x9).gamma (ix2 (2 : Fin 3) d) := by
    unfold val_main_v212 val_main_v211 val_main_v210 val_main_v209
    exact (bcast_vec_rows_apply _ _ _ n d).trans (slice2_apply x6 2 (2 : Fin 3) rfl _ _ d)
  have h89 : (val_main_v217 (F := Ideal) x7) (ix2 n d) = (argsOf x0 x1 x2 x3 x4 x5 x6 x7 x8 x9).beta (ix2 (2 : Fin 3) d) := by
    unfold val_main_v217 val_main_v216 val_main_v215 val_main_v214
    exact (bcast_vec_rows_apply _ _ _ n d).trans (slice2_apply x7 2 (2 : Fin 3) rfl _ _ d)
  have hz : (val_main_call2_v0 (F := Ideal)) (ix2 n d) = 0 := by
    unfold val_main_call2_v0 val_main_call2_cst
    exact (bcastF_at _ _ _).trans zero_val
  rw [h73, h79, h84, h89, hz]

/-- Layer 3's output is the specification's. -/
theorem hnew_L3 (n : Fin 50000) (d : Fin 128) : (val_main_v219 (F := Ideal) x0 x1 x2 x3 x4 x5 x6 x7) (ix2 n d) = hR3 (argsOf x0 x1 x2 x3 x4 x5 x6 x7 x8 x9) n d :=
  layerR (argsOf x0 x1 x2 x3 x4 x5 x6 x7 x8 x9) (2 : Fin 3) (hR2 (argsOf x0 x1 x2 x3 x4 x5 x6 x7 x8 x9)) (val_main_v155 (F := Ideal) x0 x1 x2 x3 x4 x5 x6 x7) (val_main_v159 (F := Ideal) x0 x1 x2 x3 x4 x5 x6 x7) (val_main_v183 (F := Ideal) x0 x1 x2 x3 x4 x5 x6 x7) (val_main_v172 (F := Ideal) x0 x1 x2 x3 x4 x5 x6 x7) (val_main_v189 (F := Ideal) x0 x1 x2 x3 x4 x5 x6 x7) (val_main_v219 (F := Ideal) x0 x1 x2 x3 x4 x5 x6 x7) (val_main_v166 (F := Ideal) x0 x1 x2 x3 x4 x5 x6 x7) (val_main_v169 (F := Ideal) x0 x1 x2 x3 x4 x5 x6 x7) (val_main_v158 (F := Ideal) x2) (val_main_v182 (F := Ideal) x4)
    (val_main_v10 (F := Ideal) x1) (val_main_v25 (F := Ideal) x1) (val_main_v192 (F := Ideal) x0 x1 x2 x3 x4 x5 x6 x7) (val_main_v199 (F := Ideal) x0 x1 x2 x3 x4 x5 x6 x7)
    (hnew_L2 x0 x1 x2 x3 x4 x5 x6 x7 x8 x9) (Wg_L3 x0 x1 x2 x3 x4 x5 x6 x7 x8 x9) (Wl_L3 x0 x1 x2 x3 x4 x5 x6 x7 x8 x9) (v10_at x0 x1 x2 x3 x4 x5 x6 x7 x8 x9) (mg_L3 x0 x1 x2 x3 x4 x5 x6 x7 x8 x9) (ml_L3 x0 x1 x2 x3 x4 x5 x6 x7 x8 x9)
    (v25_at x0 x1 x2 x3 x4 x5 x6 x7 x8 x9) (gath_L3 x0 x1 x2 x3 x4 x5 x6 x7 x8 x9) (msg_L3 x0 x1 x2 x3 x4 x5 x6 x7 x8 x9) (agg_L3 x0 x1 x2 x3 x4 x5 x6 x7 x8 x9) (pre_L3 x0 x1 x2 x3 x4 x5 x6 x7 x8 x9) (mean_L3 x0 x1 x2 x3 x4 x5 x6 x7 x8 x9) (var_L3 x0 x1 x2 x3 x4 x5 x6 x7 x8 x9)
    (newE_L3 x0 x1 x2 x3 x4 x5 x6 x7 x8 x9) n d

/-- The running sum after layer 3. -/
theorem xsum_L3 (n : Fin 50000) (d : Fin 128) : (val_main_v220 (F := Ideal) x0 x1 x2 x3 x4 x5 x6 x7) (ix2 n d) = xR3 (argsOf x0 x1 x2 x3 x4 x5 x6 x7 x8 x9) n d :=
  xR3_of (argsOf x0 x1 x2 x3 x4 x5 x6 x7 x8 x9) (val_main_v156 (F := Ideal) x0 x1 x2 x3 x4 x5 x6 x7) (val_main_v219 (F := Ideal) x0 x1 x2 x3 x4 x5 x6 x7) (val_main_v220 (F := Ideal) x0 x1 x2 x3 x4 x5 x6 x7)
    (xsum_L2 x0 x1 x2 x3 x4 x5 x6 x7 x8 x9)
    (hnew_L3 x0 x1 x2 x3 x4 x5 x6 x7 x8 x9) (fun i => by rw [val_main_v220_apply, Ideal.addf_def]) n d

/-! ## The projection -/

/-- The last stage is the specification's output. -/
theorem out_at (n : Fin 50000) (o : Fin 64) : (val_main_v224 (F := Ideal) x0 x1 x2 x3 x4 x5 x6 x7 x8 x9) (ix2 n o) = outR (argsOf x0 x1 x2 x3 x4 x5 x6 x7 x8 x9) n o :=
  outR_of (argsOf x0 x1 x2 x3 x4 x5 x6 x7 x8 x9) (val_main_v220 (F := Ideal) x0 x1 x2 x3 x4 x5 x6 x7) x8 (val_main_v224 (F := Ideal) x0 x1 x2 x3 x4 x5 x6 x7 x8 x9) (xsum_L3 x0 x1 x2 x3 x4 x5 x6 x7 x8 x9) (fun _ _ => rfl) (fun n o => by
    rw [val_main_v224_apply, Ideal.addf_def]
    have h223 : (val_main_v223 (F := Ideal) x9) (ix2 n o) = x9 (ix1 o) := by
      unfold val_main_v223 val_main_v222
      exact bcast_vec_rows_apply _ _ _ n o
    rw [h223]
    refine congrArg (fun t => t + x9 (ix1 o)) ?_
    refine (val_main_v221_apply x0 x1 x2 x3 x4 x5 x6 x7 x8 (ix2 n o)).trans (Finset.sum_congr rfl fun k _ => ?_)
    rw [show lidx_main_v221 (ix2 n o) k = ix2 n k from (funext fun a => Fin.ext (by match a with | ⟨0, _⟩ => rfl | ⟨1, _⟩ => rfl)),
      show ridx_main_v221 (ix2 n o) k = ix2 k o from (funext fun a => Fin.ext (by match a with | ⟨0, _⟩ => rfl | ⟨1, _⟩ => rfl))]) n o

/-- The reference program's result, as a function of its ten argument arrays, is the array program's form of the
    network at those arguments. -/
theorem val_v224 (i : S50000x64.Idx) : (val_main_v224 (F := Ideal) x0 x1 x2 x3 x4 x5 x6 x7 x8 x9) i = outR (argsOf x0 x1 x2 x3 x4 x5 x6 x7 x8 x9) (i 0) (i 1) :=
  (congrArg (val_main_v224 (F := Ideal) x0 x1 x2 x3 x4 x5 x6 x7 x8 x9) (eq_ix2 i)).trans (out_at x0 x1 x2 x3 x4 x5 x6 x7 x8 x9 (i 0) (i 1))

end Cert.ReferenceIdeal.RefValue

end
-- ==== Proof.RefRun.lean ====
/-
  The reference program's run, stated against the network's specification: every weakly fair execution terminates
  with the result buffer holding, at every index `i`, the array program's form of the network at the launch arguments,
  `outR (argsOf …) (i 0) (i 1)`, and with the ten argument arrays unchanged.  It is the library's statement of the run
  (the fold of the operations over the launch contents), the fold read piece by piece, and the last stage read as the
  specification.
-/
import proofs.«134443_j73787538145745_2_alg».proof.Proof.RefFold
import proofs.«134443_j73787538145745_2_alg».proof.Proof.RefValue

noncomputable section

namespace Cert.ReferenceIdeal.RefRun

open Cert.ReferenceIdeal Cert.ReferenceIdeal.Gen Cert.ReferenceIdeal.ValueP Cert.ReferenceIdeal.ReadP
open Cert.ReferenceIdeal.RefFold Cert.ReferenceIdeal.RefValue
open Idealize.ShloMosaic Idealize.ShloMosaic.TcCoe Idealize.SL.Sem Idealize.ShloMosaic.StableHlo Cert.NetSpec

/-- The reference program runs to the specification's output at its launch arguments, arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v224) = (fun i => outR (argsOf (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9))) (i 0) (i 1))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)) :=
  (θ_run (defs (F := Ideal)) _ _).mono (fun _ h c => by
      obtain ⟨h224, k0, k1, k2, k3, k4, k5, k6, k7, k8, k9⟩ := fold_result (F := Ideal) (launchContents m' c)
      exact ⟨(h c main_v224).trans (h224.trans (funext fun i => val_v224 _ _ _ _ _ _ _ _ _ _ i)),
        (h c main_arg0).trans k0,
        (h c main_arg1).trans k1,
        (h c main_arg2).trans k2,
        (h c main_arg3).trans k3,
        (h c main_arg4).trans k4,
        (h c main_arg5).trans k5,
        (h c main_arg6).trans k6,
        (h c main_arg7).trans k7,
        (h c main_arg8).trans k8,
        (h c main_arg9).trans k9⟩)
    (run_fold (F := Ideal) m' ρ')

end Cert.ReferenceIdeal.RefRun

end
-- ==== Proof.lean ====
/-
  The certificate: a tiled kernel program for a 3-layer graph network (per layer: features times `Wg`, messages gathered
  along the edges and summed at their targets with symmetric degree normalisation and a self-loop term, a residual linear
  map, batch normalisation over the nodes, a clip at zero, and a running sum of the layers' outputs; then an output
  projection) against a plain array program for the same network, on the extended reals.

  The two programs differ in two rearrangements per layer.  The kernels scale every row by its own node's `dinv` before
  it is carried along an edge and scale the summed messages by the target's `dinv` afterwards, where the array program
  weights each edge by the product of the two; and the kernels take the batch variance from the one-pass sum and sum of
  squares, clipped below at zero, where the array program takes the mean of squared deviations.  Both are equalities of
  real numbers that need every entry to be finite, which the precondition gives for the inputs and which every layer
  preserves (a degree is at least one, a variance plus the guard is positive).

  How the proof is cut: the specification of one layer in both forms and the law between them; the network in both
  forms; each tiled region's output array as one function of the arrays it was entered with; each stretch of array
  operations read at an index; the kernel program's result as the network in the kernels' form; the array program's
  result as the network in its own form; finiteness of the arguments from the precondition.
-/
import proofs.«134443_j73787538145745_2_alg».proof.Defs
import proofs.«134443_j73787538145745_2_alg».proof.Proof.Gen.Kernel
import proofs.«134443_j73787538145745_2_alg».proof.Proof.Gen.Kernel.Skeleton
import proofs.«134443_j73787538145745_2_alg».proof.Proof.Gen.Kernel.Launch
import proofs.«134443_j73787538145745_2_alg».proof.Proof.Gen.Kernel.Points
import proofs.«134443_j73787538145745_2_alg».proof.Proof.Gen.Kernel.Frame
import proofs.«134443_j73787538145745_2_alg».proof.Proof.Gen.KernelIdeal
import proofs.«134443_j73787538145745_2_alg».proof.Proof.Gen.KernelIdeal.Skeleton
import proofs.«134443_j73787538145745_2_alg».proof.Proof.Gen.KernelIdeal.Launch
import proofs.«134443_j73787538145745_2_alg».proof.Proof.Gen.KernelIdeal.Points
import proofs.«134443_j73787538145745_2_alg».proof.Proof.Gen.KernelIdeal.Frame
import proofs.«134443_j73787538145745_2_alg».proof.Proof.Gen.ReferenceIdeal
import proofs.«134443_j73787538145745_2_alg».proof.Proof.Gen.Pre_finite_inputs
import proofs.«134443_j73787538145745_2_alg».proof.Proof.KernelFinalRun
import proofs.«134443_j73787538145745_2_alg».proof.Proof.KernelValue
import proofs.«134443_j73787538145745_2_alg».proof.Proof.FiniteArgs
import proofs.«134443_j73787538145745_2_alg».proof.Proof.RefRun
import Idealize.ShloMosaic.Adequacy
import Idealize.ShloMosaic.Init

set_option maxRecDepth 16384

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The array program runs and leaves its arguments as launched: its run with the result dropped. -/
theorem frame_ri : Cert.frame_ReferenceIdeal := fun m ρ _ =>
  (θ_run Cert.ReferenceIdeal.defs _ _).mono (fun _ h c => (h c).2) (Cert.ReferenceIdeal.RefRun.ref_run m ρ)

/-- The idealization rewrote no operation. -/
theorem preserves : Cert.preserves_Kernel_KernelIdeal := trivial

/-- From memories that agree on the arguments both programs end with the same result: the kernel program's is the
    network in the kernels' form, the array program's the network in its own form, of the same finite arguments. -/
theorem algebraic : Cert.algebraic_KernelIdeal_ReferenceIdeal := by
  intro m ρ m' ρ' hpre hagree
  refine ⟨fun c => (fun i => Cert.NetSpec.outK (Cert.KernelIdeal.Net.KArgs m c) (i 0) (i 1)), ?_, ?_⟩
  · exact (θ_run Cert.KernelIdeal.defs _ _).mono
      (fun r h c => ⟨(h c).1.trans (Cert.KernelIdeal.Net.kernel_value m ρ c), (h c).2⟩)
      (Cert.KernelIdeal.FinalRun.run_final m ρ)
  · refine (θ_run Cert.ReferenceIdeal.defs _ _).mono (fun r h c => ⟨(h c).1.trans ?_, (h c).2⟩)
      (Cert.ReferenceIdeal.RefRun.ref_run m' ρ')
    have hA : Cert.ReferenceIdeal.RefValue.argsOf
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        = Cert.KernelIdeal.Net.KArgs m c := by
      obtain ⟨h0, h1, h2, h3, h4, h5, h6, h7, h8, h9⟩ := hagree c
      unfold Cert.ReferenceIdeal.RefValue.argsOf Cert.KernelIdeal.Net.KArgs
      rw [h0, h1, h2, h3, h4, h5, h6, h7, h8, h9]
    rw [hA]
    have ho := Cert.NetSpec.out_eq _ (Cert.FiniteArgs.args_real m hpre c)
    exact funext fun i => (congrFun (congrFun ho (i 0)) (i 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
